-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v68)) (v1 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_v69) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_v120) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S30000x64 : Shape := ⟨2, ![30000, 64]⟩
abbrev S60000x64 : Shape := ⟨2, ![60000, 64]⟩
abbrev S2000000 : Shape := ⟨1, ![2000000]⟩
abbrev S3x64x64 : Shape := ⟨3, ![3, 64, 64]⟩
abbrev S3x1x64 : Shape := ⟨3, ![3, 1, 64]⟩
abbrev S_ : Shape := ⟨0, ![]⟩

class Facts : Prop where
  bcast_S_S30000x64 : S_.BroadcastsInDim S30000x64 (![] : Fin 0 → Fin S30000x64.rank)
  reducesTo_S30000x64_S_d0_1 : S30000x64.ReducesTo [0, 1] S_
  h_S_ : 0 < S_.numel
  bcast_S_S60000x64 : S_.BroadcastsInDim S60000x64 (![] : Fin 0 → Fin S60000x64.rank)
  reducesTo_S60000x64_S_d0_1 : S60000x64.ReducesTo [0, 1] S_
  bcast_S_S2000000 : S_.BroadcastsInDim S2000000 (![] : Fin 0 → Fin S2000000.rank)
  reducesTo_S2000000_S_d0 : S2000000.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S3x1x64 : S_.BroadcastsInDim S3x1x64 (![] : Fin 0 → Fin S3x1x64.rank)
  reducesTo_S3x1x64_S_d0_1_2 : S3x1x64.ReducesTo [0, 1, 2] S_

variable [Facts]

def fn_part1 {F : FTy → Type} [FloatOps F] (main_arg6 : FVec F S3x1x64 .f32) (main_arg7 : FVec F S3x64x64 .f32) (main_arg8 : FVec F S3x1x64 .f32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S3x1x64 .f32 := Host.absf main_arg6
  let main_cst_6 : FVec F S_ .f32 := constant S_ .f32 0x7F800000#32
  let main_v20 : FVec F S3x1x64 .f32 := broadcastInDim S3x1x64 ![] bcast_S_S3x1x64 main_cst_6
  let main_v21 : IVec S3x1x64 1 := cmpf .olt main_v19 main_v20
  let main_c_7 : IVec S_ 1 := constantI S_ 1 1#1
  let main_v22 : IVec S_ 1 := (fun x v => Host.reduce IntOp.andi x v reducesTo_S3x1x64_S_d0_1_2 h_S_) main_v21 main_c_7
  let main_v23 : IVec S_ 1 := andi main_v18 main_v22
  let main_v24 : FVec F S3x64x64 .f32 := Host.absf main_arg7
  let main_cst_8 : FVec F S_ .f32 := constant S_ .f32 0x7F800000#32
  let main_v25 : FVec F S3x64x64 .f32 := broadcastInDim S3x64x64 ![] bcast_S_S3x64x64 main_cst_8
  let main_v26 : IVec S3x64x64 1 := cmpf .olt main_v24 main_v25
  let main_c_9 : IVec S_ 1 := constantI S_ 1 1#1
  let main_v27 : IVec S_ 1 := (fun x v => Host.reduce IntOp.andi x v reducesTo_S3x64x64_S_d0_1_2 h_S_) main_v26 main_c_9
  let main_v28 : IVec S_ 1 := andi main_v23 main_v27
  let main_v29 : FVec F S3x1x64 .f32 := Host.absf main_arg8
  let main_cst_10 : FVec F S_ .f32 := constant S_ .f32 0x7F800000#32
  let main_v30 : FVec F S3x1x64 .f32 := broadcastInDim S3x1x64 ![] bcast_S_S3x1x64 main_cst_10
  let main_v31 : IVec S3x1x64 1 := cmpf .olt main_v29 main_v30
  let main_c_11 : IVec S_ 1 := constantI S_ 1 1#1
  let main_v32 : IVec S_ 1 := (fun x v => Host.reduce IntOp.andi x v reducesTo_S3x1x64_S_d0_1_2 h_S_) main_v31 main_c_11
  let main_v33 : IVec S_ 1 := andi main_v28 main_v32
  main_v33

def fn {F : FTy → Type} [FloatOps F] (main_arg0 : FVec F S30000x64 .f32) (main_arg1 : FVec F S60000x64 .f32) (main_arg2 : IVec S2000000 32) (main_arg3 : IVec S2000000 32) (main_arg4 : FVec F S2000000 .f32) (main_arg5 : FVec F S3x64x64 .f32) (main_arg6 : FVec F S3x1x64 .f32) (main_arg7 : FVec F S3x64x64 .f32) (main_arg8 : FVec F S3x1x64 .f32) : IVec S_ 1 :=
  let main_v0 : FVec F S30000x64 .f32 := Host.absf main_arg0
  let main_cst : FVec F S_ .f32 := constant S_ .f32 0x7F800000#32
  let main_v1 : FVec F S30000x64 .f32 := broadcastInDim S30000x64 ![] bcast_S_S30000x64 main_cst
  let main_v2 : IVec S30000x64 1 := cmpf .olt main_v0 main_v1
  let main_c : IVec S_ 1 := constantI S_ 1 1#1
  let main_v3 : IVec S_ 1 := (fun x v => Host.reduce IntOp.andi x v reducesTo_S30000x64_S_d0_1 h_S_) main_v2 main_c
  let main_v4 : FVec F S60000x64 .f32 := Host.absf main_arg1
  let main_cst_0 : FVec F S_ .f32 := constant S_ .f32 0x7F800000#32
  let main_v5 : FVec F S60000x64 .f32 := broadcastInDim S60000x64 ![] bcast_S_S60000x64 main_cst_0
  let main_v6 : IVec S60000x64 1 := cmpf .olt main_v4 main_v5
  let main_c_1 : IVec S_ 1 := constantI S_ 1 1#1
  let main_v7 : IVec S_ 1 := (fun x v => Host.reduce IntOp.andi x v reducesTo_S60000x64_S_d0_1 h_S_) main_v6 main_c_1
  let main_v8 : IVec S_ 1 := andi main_v3 main_v7
  let main_v9 : FVec F S2000000 .f32 := Host.absf main_arg4
  let main_cst_2 : FVec F S_ .f32 := constant S_ .f32 0x7F800000#32
  let main_v10 : FVec F S2000000 .f32 := broadcastInDim S2000000 ![] bcast_S_S2000000 main_cst_2
  let main_v11 : IVec S2000000 1 := cmpf .olt main_v9 main_v10
  let main_c_3 : IVec S_ 1 := constantI S_ 1 1#1
  let main_v12 : IVec S_ 1 := (fun x v => Host.reduce IntOp.andi x v reducesTo_S2000000_S_d0 h_S_) main_v11 main_c_3
  let main_v13 : IVec S_ 1 := andi main_v8 main_v12
  let main_v14 : FVec F S3x64x64 .f32 := Host.absf main_arg5
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg6 main_arg7 main_arg8 main_v13 main_v16
-- ==== Kernel.lean ====
abbrev S30000x64 : Shape := ⟨2, ![30000, 64]⟩
abbrev S60000x64 : Shape := ⟨2, ![60000, 64]⟩
abbrev S2000000 : Shape := ⟨1, ![2000000]⟩
abbrev S3x64x64 : Shape := ⟨3, ![3, 64, 64]⟩
abbrev S3x1x64 : Shape := ⟨3, ![3, 1, 64]⟩
abbrev S90000x64 : Shape := ⟨2, ![90000, 64]⟩
abbrev S_ : Shape := ⟨0, ![]⟩
abbrev S2000000x1 : Shape := ⟨2, ![2000000, 1]⟩
abbrev S2000000x64 : Shape := ⟨2, ![2000000, 64]⟩
abbrev S1x64x64 : Shape := ⟨3, ![1, 64, 64]⟩
abbrev S64x64 : Shape := ⟨2, ![64, 64]⟩
abbrev S1x1x64 : Shape := ⟨3, ![1, 1, 64]⟩
abbrev S1x64 : Shape := ⟨2, ![1, 64]⟩
abbrev S3000x64 : Shape := ⟨2, ![3000, 64]⟩
abbrev S3000 : Shape := ⟨1, ![3000]⟩
abbrev S3000x1 : Shape := ⟨2, ![3000, 1]⟩
abbrev S90000x256 : Shape := ⟨2, ![90000, 256]⟩
abbrev S30000x256 : Shape := ⟨2, ![30000, 256]⟩
abbrev S60000x256 : Shape := ⟨2, ![60000, 256]⟩

abbrev nBuf : Space → Nat
  | .hbm => 91
  | .vmem => 36
  | .smem => 0
  | _ => 0

abbrev bufTy : (tb : Table) → Fin (tcTables nBuf tb) → BufTy
  | .hbm, ⟨0, _⟩ => ⟨S30000x64, .f32⟩
  | .hbm, ⟨1, _⟩ => ⟨S60000x64, .f32⟩
  | .hbm, ⟨2, _⟩ => ⟨S2000000, .i32⟩
  | .hbm, ⟨3, _⟩ => ⟨S2000000, .i32⟩
  | .hbm, ⟨4, _⟩ => ⟨S2000000, .f32⟩
  | .hbm, ⟨5, _⟩ => ⟨S3x64x64, .f32⟩
  | .hbm, ⟨6, _⟩ => ⟨S3x1x64, .f32⟩
  | .hbm, ⟨7, _⟩ => ⟨S3x64x64, .f32⟩
  | .hbm, ⟨8, _⟩ => ⟨S3x1x64, .f32⟩
  | .hbm, ⟨9, _⟩ => ⟨S90000x64, .f32⟩
  | .hbm, ⟨10, _⟩ => ⟨S_, .i32⟩
  | .hbm, ⟨11, _⟩ => ⟨S2000000, .i32⟩
  | .hbm, ⟨12, _⟩ => ⟨S2000000, .i1⟩
  | .hbm, ⟨13, _⟩ => ⟨S_, .i32⟩
  | .hbm, ⟨14, _⟩ => ⟨S2000000, .i32⟩
  | .hbm, ⟨15, _⟩ => ⟨S2000000, .i32⟩
  | .hbm, ⟨16, _⟩ => ⟨S2000000, .i32⟩
  | .hbm, ⟨17, _⟩ => ⟨S2000000x1, .i32⟩
  | .hbm, ⟨18, _⟩ => ⟨S2000000x64, .f32⟩
  | .hbm, ⟨19, _⟩ => ⟨S2000000x1, .f32⟩
  | .hbm, ⟨20, _⟩ => ⟨S2000000x64, .f32⟩
  | .hbm, ⟨21, _⟩ => ⟨S2000000x64, .f32⟩
  | .hbm, ⟨22, _⟩ => ⟨S_, .f32⟩
  | .hbm, ⟨23, _⟩ => ⟨S90000x64, .f32⟩
  | .hbm, ⟨24, _⟩ => ⟨S2000000x1, .i32⟩
  | .hbm, ⟨25, _⟩ => ⟨S90000x64, .f32⟩
  | .hbm, ⟨26, _⟩ => ⟨S1x64x64, .f32⟩
  | .hbm, ⟨27, _⟩ => ⟨S64x64, .f32⟩
  | .hbm, ⟨28, _⟩ => ⟨S1x1x64, .f32⟩
  | .hbm, ⟨29, _⟩ => ⟨S1x64, .f32⟩
  | .hbm, ⟨30, _⟩ => ⟨S1x64x64, .f32⟩
  | .hbm, ⟨31, _⟩ => ⟨S64x64, .f32⟩
  | .hbm, ⟨32, _⟩ => ⟨S1x1x64, .f32⟩
  | .hbm, ⟨33, _⟩ => ⟨S1x64, .f32⟩
  | .hbm, ⟨34, _⟩ => ⟨S90000x64, .f32⟩
  | .hbm, ⟨35, _⟩ => ⟨S90000x64, .f32⟩
  | .hbm, ⟨36, _⟩ => ⟨S_, .i32⟩
  | .hbm, ⟨37, _⟩ => ⟨S2000000, .i32⟩
  | .hbm, ⟨38, _⟩ => ⟨S2000000, .i1⟩
  | .hbm, ⟨39, _⟩ => ⟨S_, .i32⟩
  | .hbm, ⟨40, _⟩ => ⟨S2000000, .i32⟩
  | .hbm, ⟨41, _⟩ => ⟨S2000000, .i32⟩
  | .hbm, ⟨42, _⟩ => ⟨S2000000, .i32⟩
  | .hbm, ⟨43, _⟩ => ⟨S2000000x1, .i32⟩
  | .hbm, ⟨44, _⟩ => ⟨S2000000x64, .f32⟩
  | .hbm, ⟨45, _⟩ => ⟨S2000000x1, .f32⟩
  | .hbm, ⟨46, _⟩ => ⟨S2000000x64, .f32⟩
  | .hbm, ⟨47, _⟩ => ⟨S2000000x64, .f32⟩
  | .hbm, ⟨48, _⟩ => ⟨S_, .f32⟩
  | .hbm, ⟨49, _⟩ => ⟨S90000x64, .f32⟩
  | .hbm, ⟨50, _⟩ => ⟨S2000000x1, .i32⟩
  | .hbm, ⟨51, _⟩ => ⟨S90000x64, .f32⟩
  | .hbm, ⟨52, _⟩ => ⟨S1x64x64, .f32⟩
  | .hbm, ⟨53, _⟩ => ⟨S64x64, .f32⟩
  | .hbm, ⟨54, _⟩ => ⟨S1x1x64, .f32⟩
  | .hbm, ⟨55, _⟩ => ⟨S1x64, .f32⟩
  | .hbm, ⟨56, _⟩ => ⟨S1x64x64, .f32⟩
  | .hbm, ⟨57, _⟩ => ⟨S64x64, .f32⟩
  | .hbm, ⟨58, _⟩ => ⟨S1x1x64, .f32⟩
  | .hbm, ⟨59, _⟩ => ⟨S1x64, .f32⟩
  | .hbm, ⟨60, _⟩ => ⟨S90000x64, .f32⟩
  | .hbm, ⟨61, _⟩ => ⟨S90000x64, .f32⟩
  | .hbm, ⟨62, _⟩ => ⟨S_, .i32⟩
  | .hbm, ⟨63, _⟩ => ⟨S2000000, .i32⟩
  | .hbm, ⟨64, _⟩ => ⟨S2000000, .i1⟩
  | .hbm, ⟨65, _⟩ => ⟨S_, .i32⟩
  | .hbm, ⟨66, _⟩ => ⟨S2000000, .i32⟩
  | .hbm, ⟨67, _⟩ => ⟨S2000000, .i32⟩
  | .hbm, ⟨68, _⟩ => ⟨S2000000, .i32⟩
  | .hbm, ⟨69, _⟩ => ⟨S2000000x1, .i32⟩
  | .hbm, ⟨70, _⟩ => ⟨S2000000x64, .f32⟩
  | .hbm, ⟨71, _⟩ => ⟨S2000000x1, .f32⟩
  | .hbm, ⟨72, _⟩ => ⟨S2000000x64, .f32⟩
  | .hbm, ⟨73, _⟩ => ⟨S2000000x64, .f32⟩
  | .hbm, ⟨74, _⟩ => ⟨S_, .f32⟩
  | .hbm, ⟨75, _⟩ => ⟨S90000x64, .f32⟩
  | .hbm, ⟨76, _⟩ => ⟨S2000000x1, .i32⟩
  | .hbm, ⟨77, _⟩ => ⟨S90000x64, .f32⟩
  | .hbm, ⟨78, _⟩ => ⟨S1x64x64, .f32⟩
  | .hbm, ⟨79, _⟩ => ⟨S64x64, .f32⟩
  | .hbm, ⟨80, _⟩ => ⟨S1x1x64, .f32⟩
  | .hbm, ⟨81, _⟩ => ⟨S1x64, .f32⟩
  | .hbm, ⟨82, _⟩ => ⟨S1x64x64, .f32⟩
  | .hbm, ⟨83, _⟩ => ⟨S64x64, .f32⟩
  | .hbm, ⟨84, _⟩ => ⟨S1x1x64, .f32⟩
  | .hbm, ⟨85, _⟩ => ⟨S1x64, .f32⟩
  | .hbm, ⟨86, _⟩ => ⟨S90000x64, .f32⟩
  | .hbm, ⟨87, _⟩ => ⟨S90000x64, .f32⟩
  | .hbm, ⟨88, _⟩ => ⟨S90000x256, .f32⟩
  | .hbm, ⟨89, _⟩ => ⟨S30000x256, .f32⟩
  | .hbm, ⟨90, _⟩ => ⟨S60000x256, .f32⟩
  | .local _ .vmem, ⟨0, _⟩ => ⟨S3000x64, .f32⟩
  | .local _ .vmem, ⟨1, _⟩ => ⟨S3000x64, .f32⟩
  | .local _ .vmem, ⟨2, _⟩ => ⟨S3000x64, .f32⟩
  | .local _ .vmem, ⟨3, _⟩ => ⟨S3000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S3000x64, .f32⟩
  | .local _ .vmem, ⟨9, _⟩ => ⟨S3000x64, .f32⟩
  | .local _ .vmem, ⟨10, _⟩ => ⟨S3000x64, .f32⟩
  | .local _ .vmem, ⟨11, _⟩ => ⟨S3000x64, .f32⟩
  | .local _ .vmem, ⟨12, _⟩ => ⟨S3000x64, .f32⟩
  | .local _ .vmem, ⟨13, _⟩ => ⟨S3000x64, .f32⟩
  | .local _ .vmem, ⟨14, _⟩ => ⟨S3000x64, .f32⟩
  | .local _ .vmem, ⟨15, _⟩ => ⟨S3000x64, .f32⟩
  | .local _ .vmem, ⟨16, _⟩ => ⟨S64x64, .f32⟩
  | .local _ .vmem, ⟨17, _⟩ => ⟨S1x64, .f32⟩
  | .local _ .vmem, ⟨18, _⟩ => ⟨S64x64, .f32⟩
  | .local _ .vmem, ⟨19, _⟩ => ⟨S1x64, .f32⟩
  | .local _ .vmem, ⟨20, _⟩ => ⟨S3000x64, .f32⟩
  | .local _ .vmem, ⟨21, _⟩ => ⟨S3000x64, .f32⟩
  | .local _ .vmem, ⟨22, _⟩ => ⟨S3000x64, .f32⟩
  | .local _ .vmem, ⟨23, _⟩ => ⟨S3000x64, .f32⟩
  | .local _ .vmem, ⟨24, _⟩ => ⟨S3000x64, .f32⟩
  | .local _ .vmem, ⟨25, _⟩ => ⟨S3000x64, .f32⟩
  | .local _ .vmem, ⟨26, _⟩ => ⟨S3000x64, .f32⟩
  | .local _ .vmem, ⟨27, _⟩ => ⟨S3000x64, .f32⟩
  | .local _ .vmem, ⟨28, _⟩ => ⟨S64x64, .f32⟩
  | .local _ .vmem, ⟨29, _⟩ => ⟨S1x64, .f32⟩
  | .local _ .vmem, ⟨30, _⟩ => ⟨S64x64, .f32⟩
  | .local _ .vmem, ⟨31, _⟩ => ⟨S1x64, .f32⟩
  | .local _ .vmem, ⟨32, _⟩ => ⟨S3000x64, .f32⟩
  | .local _ .vmem, ⟨33, _⟩ => ⟨S3000x64, .f32⟩
  | .local _ .vmem, ⟨34, _⟩ => ⟨S3000x64, .f32⟩
  | .local _ .vmem, ⟨35, _⟩ => ⟨S3000x64, .f32⟩
  | _, _ => ⟨S30000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22_0 : Ref sig .tc := ⟨.hbm, 34, rfl⟩
abbrev main_v22_1 : Ref sig .tc := ⟨.hbm, 35, rfl⟩
abbrev main_c_1 : Ref sig .tc := ⟨.hbm, 36, rfl⟩
abbrev main_v23 : Ref sig .tc := ⟨.hbm, 37, rfl⟩
abbrev main_v24 : Ref sig .tc := ⟨.hbm, 38, rfl⟩
abbrev main_c_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_3 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44_0 : Ref sig .tc := ⟨.hbm, 60, rfl⟩
abbrev main_v44_1 : Ref sig .tc := ⟨.hbm, 61, rfl⟩
abbrev main_c_4 : Ref sig .tc := ⟨.hbm, 62, rfl⟩
abbrev main_v45 : Ref sig .tc := ⟨.hbm, 63, rfl⟩
abbrev main_v46 : Ref sig .tc := ⟨.hbm, 64, rfl⟩
abbrev main_c_5 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_6 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66_0 : Ref sig .tc := ⟨.hbm, 86, rfl⟩
abbrev main_v66_1 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg6_1 : Ref sig .tc := ⟨.vmem, 33, rfl⟩
abbrev cc2_stg7_0 : Ref sig .tc := ⟨.vmem, 34, rfl⟩
abbrev cc2_stg7_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem6_1 : DmaSem sig := 33
abbrev cc2_sem7_0 : DmaSem sig := 34
abbrev cc2_sem7_1 : DmaSem sig := 35

abbrev nD : Nat := 1
abbrev τ : Topo := Topo.v7x

variable {F : FTy → Type} [FloatOps F]

abbrev grid0 : Pipeline.Grid := ⟨1, ![30], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S3000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S3000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![30], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S3000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S3000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![30], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S3000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S3000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S3000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S3000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  concatenates_S30000x64_S60000x64_S90000x64_d0 : Shape.Concatenates [S30000x64, S60000x64] S90000x64 0
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S2000000x1_S2000000x64_0_1 : S2000000x1.BroadcastsInDim S2000000x64 (![0, 1] : Fin 2 → Fin S2000000x64.rank)
  bcast_S_S90000x64 : S_.BroadcastsInDim S90000x64 (![] : Fin 0 → Fin S90000x64.rank)
  slices_S3x64x64_S1x64x64_0_0_0 : S3x64x64.Slices ![0, 0, 0] S1x64x64
  shapeCasts_S1x64x64_S64x64 : S1x64x64.ShapeCasts S64x64
  slices_S3x1x64_S1x1x64_0_0_0 : S3x1x64.Slices ![0, 0, 0] S1x1x64
  shapeCasts_S1x1x64_S1x64 : S1x1x64.ShapeCasts S1x64
  inb_S3000x64_S3000x64_0_0 : ∀ a, (![0, 0] : Fin 2 → Nat) a + S3000x64.size a ≤ S3000x64.size a
  h_S3000x64 : 0 < S3000x64.numel
  shapeCasts_S3000x64_S3000x64 : S3000x64.ShapeCasts S3000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S3000x64 : S1x64.Broadcasts S3000x64
  reduces_S3000x64_S3000 : S3000x64.Reduces [1] S3000
  shapeCasts_S3000_S3000x1 : S3000.ShapeCasts S3000x1
  broadcasts_S3000x1_S3000x64 : S3000x1.Broadcasts S3000x64
  slices_S3x64x64_S1x64x64_1_0_0 : S3x64x64.Slices ![1, 0, 0] S1x64x64
  slices_S3x1x64_S1x1x64_1_0_0 : S3x1x64.Slices ![1, 0, 0] S1x1x64
  slices_S3x64x64_S1x64x64_2_0_0 : S3x64x64.Slices ![2, 0, 0] S1x64x64
  slices_S3x1x64_S1x1x64_2_0_0 : S3x1x64.Slices ![2, 0, 0] S1x1x64
  concatenates_S90000x64_S90000x64_S90000x64_S90000x64_S90000x256_d1 : Shape.Concatenates [S90000x64, S90000x64, S90000x64, S90000x64] S90000x256 1
  slices_S90000x256_S30000x256_0_0 : S90000x256.Slices ![0, 0] S30000x256
  slices_S90000x256_S60000x256_30000_0 : S90000x256.Slices ![30000, 0] S60000x256
  gather_S90000x64_S2000000x1_S2000000x64_1_0_n_n_0_1_164_wf : GatherDims.WF S90000x64 S2000000x1 S2000000x64 [1] [0] [] [0] [] 1 ![1, 64]
  scatter_S90000x64_S2000000x1_S2000000x64_1_0_0_1_wf : ScatterDims.WF S90000x64 S2000000x1 S2000000x64 [1] [0] [0] 1
  dot_S3000x64_S64x64_S3000x64_1_0_0_1_n_n_wf : DotDims.WF S3000x64 S64x64 S3000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3000x64.size a ≤ S90000x64.size a
  hwx0_0 : ∀ i : grid0.Coords, EltTy.bits .f32 = 32 ∨ (Rect.block (s := S90000x64) S3000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3000x64.size a ≤ S90000x64.size a
  hwx0_1 : ∀ i : grid0.Coords, EltTy.bits .f32 = 32 ∨ (Rect.block (s := S90000x64) S3000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S3000x64.size a ≤ S90000x64.size a
  hwx0_6 : ∀ i : grid0.Coords, EltTy.bits .f32 = 32 ∨ (Rect.block (s := S90000x64) S3000x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S3000x64.size a ≤ S90000x64.size a
  hwx0_7 : ∀ i : grid0.Coords, EltTy.bits .f32 = 32 ∨ (Rect.block (s := S90000x64) S3000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3000x64.size a ≤ S90000x64.size a
  hwx1_0 : ∀ i : grid1.Coords, EltTy.bits .f32 = 32 ∨ (Rect.block (s := S90000x64) S3000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3000x64.size a ≤ S90000x64.size a
  hwx1_1 : ∀ i : grid1.Coords, EltTy.bits .f32 = 32 ∨ (Rect.block (s := S90000x64) S3000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S3000x64.size a ≤ S90000x64.size a
  hwx1_6 : ∀ i : grid1.Coords, EltTy.bits .f32 = 32 ∨ (Rect.block (s := S90000x64) S3000x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S3000x64.size a ≤ S90000x64.size a
  hwx1_7 : ∀ i : grid1.Coords, EltTy.bits .f32 = 32 ∨ (Rect.block (s := S90000x64) S3000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S3000x64.size a ≤ S90000x64.size a
  hwx2_0 : ∀ i : grid2.Coords, EltTy.bits .f32 = 32 ∨ (Rect.block (s := S90000x64) S3000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S3000x64.size a ≤ S90000x64.size a
  hwx2_1 : ∀ i : grid2.Coords, EltTy.bits .f32 = 32 ∨ (Rect.block (s := S90000x64) S3000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S3000x64.size a ≤ S90000x64.size a
  hwx2_6 : ∀ i : grid2.Coords, EltTy.bits .f32 = 32 ∨ (Rect.block (s := S90000x64) S3000x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S3000x64.size a ≤ S90000x64.size a
  hwx2_7 : ∀ i : grid2.Coords, EltTy.bits .f32 = 32 ∨ (Rect.block (s := S90000x64) S3000x64.size (cc2_transform_7 i) (hinb2_7 i)).WholeWords (EltTy.packing .f32)

variable [Facts₀]

def gather_S90000x64_S2000000x1_S2000000x64_1_0_n_n_0_1_164 : GatherDims S90000x64 S2000000x1 S2000000x64 where
  offsetDims := [1]
  collapsedSliceDims := [0]
  operandBatchingDims := []
  startIndicesBatchingDims := []
  startIndexMap := [0]
  indexVectorDim := 1
  sliceSizes := ![1, 64]
  wf := gather_S90000x64_S2000000x1_S2000000x64_1_0_n_n_0_1_164_wf
def scatter_S90000x64_S2000000x1_S2000000x64_1_0_0_1 : ScatterDims S90000x64 S2000000x1 S2000000x64 where
  updateWindowDims := [1]
  insertedWindowDims := [0]
  scatterDimsToOperandDims := [0]
  indexVectorDim := 1
  wf := scatter_S90000x64_S2000000x1_S2000000x64_1_0_0_1_wf
def dot_S3000x64_S64x64_S3000x64_1_0_0_1_n_n : DotDims S3000x64 S64x64 S3000x64 where
  lhsContracting := [1]
  rhsContracting := [0]
  lhsNonContracting := [0]
  rhsNonContracting := [1]
  lhsBatch := []
  rhsBatch := []
  wf := dot_S3000x64_S64x64_S3000x64_1_0_0_1_n_n_wf

abbrev win0_0 : Pipeline.Window sig grid0 :=
  Pipeline.Window.ofSpec (Memref.whole main_v0) S3000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S3000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22_0) S3000x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v22_1) S3000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v22_0) S3000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S3000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v37) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v44_0) S3000x64.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v44_1) S3000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v44_0) S3000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v57) S3000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v59) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v63) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v65) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v66_0) S3000x64.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v66_1) S3000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S30000x64 : Shape := ⟨2, ![30000, 64]⟩
abbrev S60000x64 : Shape := ⟨2, ![60000, 64]⟩
abbrev S2000000 : Shape := ⟨1, ![2000000]⟩
abbrev S3x64x64 : Shape := ⟨3, ![3, 64, 64]⟩
abbrev S3x1x64 : Shape := ⟨3, ![3, 1, 64]⟩
abbrev S90000x64 : Shape := ⟨2, ![90000, 64]⟩
abbrev S_ : Shape := ⟨0, ![]⟩
abbrev S2000000x1 : Shape := ⟨2, ![2000000, 1]⟩
abbrev S2000000x64 : Shape := ⟨2, ![2000000, 64]⟩
abbrev S1x64x64 : Shape := ⟨3, ![1, 64, 64]⟩
abbrev S64x64 : Shape := ⟨2, ![64, 64]⟩
abbrev S1x1x64 : Shape := ⟨3, ![1, 1, 64]⟩
abbrev S1x64 : Shape := ⟨2, ![1, 64]⟩
abbrev S90000 : Shape := ⟨1, ![90000]⟩
abbrev S90000x1 : Shape := ⟨2, ![90000, 1]⟩
abbrev S90000x256 : Shape := ⟨2, ![90000, 256]⟩
abbrev S30000x256 : Shape := ⟨2, ![30000, 256]⟩
abbrev S60000x256 : Shape := ⟨2, ![60000, 256]⟩

abbrev nBuf : Space → Nat
  | .hbm => 187
  | .vmem => 0
  | .smem => 0
  | _ => 0

abbrev hbmTy0_0 (i : Nat) : BufTy := match i % 128 with
  | 0 => ⟨S30000x64, .f32⟩
  | 1 => ⟨S60000x64, .f32⟩
  | 2 => ⟨S2000000, .i32⟩
  | 3 => ⟨S2000000, .i32⟩
  | 4 => ⟨S2000000, .f32⟩
  | 5 => ⟨S3x64x64, .f32⟩
  | 6 => ⟨S3x1x64, .f32⟩
  | 7 => ⟨S3x64x64, .f32⟩
  | 8 => ⟨S3x1x64, .f32⟩
  | 9 => ⟨S90000x64, .f32⟩
  | 10 => ⟨S_, .i32⟩
  | 11 => ⟨S2000000, .i32⟩
  | 12 => ⟨S2000000, .i1⟩
  | 13 => ⟨S_, .i32⟩
  | 14 => ⟨S2000000, .i32⟩
  | 15 => ⟨S2000000, .i32⟩
  | 16 => ⟨S2000000, .i32⟩
  | 17 => ⟨S2000000x1, .i32⟩
  | 18 => ⟨S2000000x64, .f32⟩
  | 19 => ⟨S2000000x1, .f32⟩
  | 20 => ⟨S2000000x64, .f32⟩
  | 21 => ⟨S2000000x64, .f32⟩
  | 22 => ⟨S_, .f32⟩
  | 23 => ⟨S90000x64, .f32⟩
  | 24 => ⟨S2000000x1, .i32⟩
  | 25 => ⟨S90000x64, .f32⟩
  | 26 => ⟨S1x64x64, .f32⟩
  | 27 => ⟨S64x64, .f32⟩
  | 28 => ⟨S90000x64, .f32⟩
  | 29 => ⟨S1x1x64, .f32⟩
  | 30 => ⟨S1x64, .f32⟩
  | 31 => ⟨S90000x64, .f32⟩
  | 32 => ⟨S90000x64, .f32⟩
  | 33 => ⟨S_, .f32⟩
  | 34 => ⟨S_, .f32⟩
  | 35 => ⟨S90000x64, .f32⟩
  | 36 => ⟨S90000x64, .i1⟩
  | 37 => ⟨S_, .f32⟩
  | 38 => ⟨S90000x64, .f32⟩
  | 39 => ⟨S90000x64, .f32⟩
  | 40 => ⟨S90000x64, .f32⟩
  | 41 => ⟨S90000x64, .f32⟩
  | 42 => ⟨S1x64x64, .f32⟩
  | 43 => ⟨S64x64, .f32⟩
  | 44 => ⟨S90000x64, .f32⟩
  | 45 => ⟨S1x1x64, .f32⟩
  | 46 => ⟨S1x64, .f32⟩
  | 47 => ⟨S90000x64, .f32⟩
  | 48 => ⟨S90000x64, .f32⟩
  | 49 => ⟨S_, .f32⟩
  | 50 => ⟨S_, .f32⟩
  | 51 => ⟨S90000x64, .f32⟩
  | 52 => ⟨S90000x64, .i1⟩
  | 53 => ⟨S_, .f32⟩
  | 54 => ⟨S90000x64, .f32⟩
  | 55 => ⟨S90000x64, .f32⟩
  | 56 => ⟨S90000x64, .f32⟩
  | 57 => ⟨S90000x64, .f32⟩
  | 58 => ⟨S90000x64, .f32⟩
  | 59 => ⟨S_, .f32⟩
  | 60 => ⟨S90000, .f32⟩
  | 61 => ⟨S90000x1, .f32⟩
  | 62 => ⟨S90000x1, .f32⟩
  | 63 => ⟨S_, .f32⟩
  | 64 => ⟨S90000x1, .f32⟩
  | 65 => ⟨S90000x1, .f32⟩
  | 66 => ⟨S90000x64, .f32⟩
  | 67 => ⟨S90000x64, .f32⟩
  | 68 => ⟨S_, .i32⟩
  | 69 => ⟨S2000000, .i32⟩
  | 70 => ⟨S2000000, .i1⟩
  | 71 => ⟨S_, .i32⟩
  | 72 => ⟨S2000000, .i32⟩
  | 73 => ⟨S2000000, .i32⟩
  | 74 => ⟨S2000000, .i32⟩
  | 75 => ⟨S2000000x1, .i32⟩
  | 76 => ⟨S2000000x64, .f32⟩
  | 77 => ⟨S2000000x1, .f32⟩
  | 78 => ⟨S2000000x64, .f32⟩
  | 79 => ⟨S2000000x64, .f32⟩
  | 80 => ⟨S_, .f32⟩
  | 81 => ⟨S90000x64, .f32⟩
  | 82 => ⟨S2000000x1, .i32⟩
  | 83 => ⟨S90000x64, .f32⟩
  | 84 => ⟨S1x64x64, .f32⟩
  | 85 => ⟨S64x64, .f32⟩
  | 86 => ⟨S90000x64, .f32⟩
  | 87 => ⟨S1x1x64, .f32⟩
  | 88 => ⟨S1x64, .f32⟩
  | 89 => ⟨S90000x64, .f32⟩
  | 90 => ⟨S90000x64, .f32⟩
  | 91 => ⟨S_, .f32⟩
  | 92 => ⟨S_, .f32⟩
  | 93 => ⟨S90000x64, .f32⟩
  | 94 => ⟨S90000x64, .i1⟩
  | 95 => ⟨S_, .f32⟩
  | 96 => ⟨S90000x64, .f32⟩
  | 97 => ⟨S90000x64, .f32⟩
  | 98 => ⟨S90000x64, .f32⟩
  | 99 => ⟨S90000x64, .f32⟩
  | 100 => ⟨S1x64x64, .f32⟩
  | 101 => ⟨S64x64, .f32⟩
  | 102 => ⟨S90000x64, .f32⟩
  | 103 => ⟨S1x1x64, .f32⟩
  | 104 => ⟨S1x64, .f32⟩
  | 105 => ⟨S90000x64, .f32⟩
  | 106 => ⟨S90000x64, .f32⟩
  | 107 => ⟨S_, .f32⟩
  | 108 => ⟨S_, .f32⟩
  | 109 => ⟨S90000x64, .f32⟩
  | 110 => ⟨S90000x64, .i1⟩
  | 111 => ⟨S_, .f32⟩
  | 112 => ⟨S90000x64, .f32⟩
  | 113 => ⟨S90000x64, .f32⟩
  | 114 => ⟨S90000x64, .f32⟩
  | 115 => ⟨S90000x64, .f32⟩
  | 116 => ⟨S90000x64, .f32⟩
  | 117 => ⟨S_, .f32⟩
  | 118 => ⟨S90000, .f32⟩
  | 119 => ⟨S90000x1, .f32⟩
  | 120 => ⟨S90000x1, .f32⟩
  | 121 => ⟨S_, .f32⟩
  | 122 => ⟨S90000x1, .f32⟩
  | 123 => ⟨S90000x1, .f32⟩
  | 124 => ⟨S90000x64, .f32⟩
  | 125 => ⟨S90000x64, .f32⟩
  | 126 => ⟨S_, .i32⟩
  | 127 => ⟨S2000000, .i32⟩
  | _ => ⟨S30000x64, .f32⟩

abbrev hbmTy0_1 (i : Nat) : BufTy := match i % 128 with
  | 0 => ⟨S2000000, .i1⟩
  | 1 => ⟨S_, .i32⟩
  | 2 => ⟨S2000000, .i32⟩
  | 3 => ⟨S2000000, .i32⟩
  | 4 => ⟨S2000000, .i32⟩
  | 5 => ⟨S2000000x1, .i32⟩
  | 6 => ⟨S2000000x64, .f32⟩
  | 7 => ⟨S2000000x1, .f32⟩
  | 8 => ⟨S2000000x64, .f32⟩
  | 9 => ⟨S2000000x64, .f32⟩
  | 10 => ⟨S_, .f32⟩
  | 11 => ⟨S90000x64, .f32⟩
  | 12 => ⟨S2000000x1, .i32⟩
  | 13 => ⟨S90000x64, .f32⟩
  | 14 => ⟨S1x64x64, .f32⟩
  | 15 => ⟨S64x64, .f32⟩
  | 16 => ⟨S90000x64, .f32⟩
  | 17 => ⟨S1x1x64, .f32⟩
  | 18 => ⟨S1x64, .f32⟩
  | 19 => ⟨S90000x64, .f32⟩
  | 20 => ⟨S90000x64, .f32⟩
  | 21 => ⟨S_, .f32⟩
  | 22 => ⟨S_, .f32⟩
  | 23 => ⟨S90000x64, .f32⟩
  | 24 => ⟨S90000x64, .i1⟩
  | 25 => ⟨S_, .f32⟩
  | 26 => ⟨S90000x64, .f32⟩
  | 27 => ⟨S90000x64, .f32⟩
  | 28 => ⟨S90000x64, .f32⟩
  | 29 => ⟨S90000x64, .f32⟩
  | 30 => ⟨S1x64x64, .f32⟩
  | 31 => ⟨S64x64, .f32⟩
  | 32 => ⟨S90000x64, .f32⟩
  | 33 => ⟨S1x1x64, .f32⟩
  | 34 => ⟨S1x64, .f32⟩
  | 35 => ⟨S90000x64, .f32⟩
  | 36 => ⟨S90000x64, .f32⟩
  | 37 => ⟨S_, .f32⟩
  | 38 => ⟨S_, .f32⟩
  | 39 => ⟨S90000x64, .f32⟩
  | 40 => ⟨S90000x64, .i1⟩
  | 41 => ⟨S_, .f32⟩
  | 42 => ⟨S90000x64, .f32⟩
  | 43 => ⟨S90000x64, .f32⟩
  | 44 => ⟨S90000x64, .f32⟩
  | 45 => ⟨S90000x64, .f32⟩
  | 46 => ⟨S90000x64, .f32⟩
  | 47 => ⟨S_, .f32⟩
  | 48 => ⟨S90000, .f32⟩
  | 49 => ⟨S90000x1, .f32⟩
  | 50 => ⟨S90000x1, .f32⟩
  | 51 => ⟨S_, .f32⟩
  | 52 => ⟨S90000x1, .f32⟩
  | 53 => ⟨S90000x1, .f32⟩
  | 54 => ⟨S90000x64, .f32⟩
  | 55 => ⟨S90000x64, .f32⟩
  | 56 => ⟨S90000x256, .f32⟩
  | 57 => ⟨S30000x256, .f32⟩
  | 58 => ⟨S60000x256, .f32⟩
  | _ => ⟨S30000x64, .f32⟩

abbrev hbmTy (i : Nat) : BufTy := match i / 128 with
  | 0 => hbmTy0_0 i
  | 1 => hbmTy0_1 i
  | _ => ⟨S30000x64, .f32⟩

abbrev bufTy : (tb : Table) → Fin (tcTables nBuf tb) → BufTy
  | .hbm, ⟨i, _⟩ => hbmTy i
  | _, _ => ⟨S30000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_call0_cst : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_2 : Ref sig .tc := ⟨.hbm, 49, rfl⟩
abbrev main_call1_cst : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_3 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_4 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_c_5 : Ref sig .tc := ⟨.hbm, 68, rfl⟩
abbrev main_v40 : Ref sig .tc := ⟨.hbm, 69, rfl⟩
abbrev main_v41 : Ref sig .tc := ⟨.hbm, 70, rfl⟩
abbrev main_c_6 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_7 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_8 : Ref sig .tc := ⟨.hbm, 91, rfl⟩
abbrev main_call2_cst : Ref sig .tc := ⟨.hbm, 92, rfl⟩
abbrev main_call2_v0 : Ref sig .tc := ⟨.hbm, 93, rfl⟩
abbrev main_call2_v1 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_cst_9 : Ref sig .tc := ⟨.hbm, 107, rfl⟩
abbrev main_call3_cst : Ref sig .tc := ⟨.hbm, 108, rfl⟩
abbrev main_call3_v0 : Ref sig .tc := ⟨.hbm, 109, rfl⟩
abbrev main_call3_v1 : Ref sig .tc := ⟨.hbm, 110, rfl⟩
abbrev main_call3_v2 : Ref sig .tc := ⟨.hbm, 111, rfl⟩
abbrev main_call3_v3 : Ref sig .tc := ⟨.hbm, 112, rfl⟩
abbrev main_call3_v4 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_cst_10 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_cst_11 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_c_12 : Ref sig .tc := ⟨.hbm, 126, rfl⟩
abbrev main_v79 : Ref sig .tc := ⟨.hbm, 127, rfl⟩
abbrev main_v80 : Ref sig .tc := ⟨.hbm, 128, rfl⟩
abbrev main_c_13 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_cst_14 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_cst_15 : Ref sig .tc := ⟨.hbm, 149, rfl⟩
abbrev main_call4_cst : Ref sig .tc := ⟨.hbm, 150, rfl⟩
abbrev main_call4_v0 : Ref sig .tc := ⟨.hbm, 151, rfl⟩
abbrev main_call4_v1 : Ref sig .tc := ⟨.hbm, 152, rfl⟩
abbrev main_call4_v2 : Ref sig .tc := ⟨.hbm, 153, rfl⟩
abbrev main_call4_v3 : Ref sig .tc := ⟨.hbm, 154, rfl⟩
abbrev main_call4_v4 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_cst_16 : Ref sig .tc := ⟨.hbm, 165, rfl⟩
abbrev main_call5_cst : Ref sig .tc := ⟨.hbm, 166, rfl⟩
abbrev main_call5_v0 : Ref sig .tc := ⟨.hbm, 167, rfl⟩
abbrev main_call5_v1 : Ref sig .tc := ⟨.hbm, 168, rfl⟩
abbrev main_call5_v2 : Ref sig .tc := ⟨.hbm, 169, rfl⟩
abbrev main_call5_v3 : Ref sig .tc := ⟨.hbm, 170, rfl⟩
abbrev main_call5_v4 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_cst_17 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_cst_18 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩

abbrev nD : Nat := 1
abbrev τ : Topo := Topo.v7x

variable {F : FTy → Type} [FloatOps F]

class Facts₀ : Prop where
  concatenates_S30000x64_S60000x64_S90000x64_d0 : Shape.Concatenates [S30000x64, S60000x64] S90000x64 0
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S2000000x1_S2000000x64_0_1 : S2000000x1.BroadcastsInDim S2000000x64 (![0, 1] : Fin 2 → Fin S2000000x64.rank)
  bcast_S_S90000x64 : S_.BroadcastsInDim S90000x64 (![] : Fin 0 → Fin S90000x64.rank)
  slices_S3x64x64_S1x64x64_0_0_0 : S3x64x64.Slices ![0, 0, 0] S1x64x64
  shapeCasts_S1x64x64_S64x64 : S1x64x64.ShapeCasts S64x64
  slices_S3x1x64_S1x1x64_0_0_0 : S3x1x64.Slices ![0, 0, 0] S1x1x64
  shapeCasts_S1x1x64_S1x64 : S1x1x64.ShapeCasts S1x64
  bcast_S1x64_S90000x64_0_1 : S1x64.BroadcastsInDim S90000x64 (![0, 1] : Fin 2 → Fin S90000x64.rank)
  reducesTo_S90000x64_S90000_d1 : S90000x64.ReducesTo [1] S90000
  h_S_ : 0 < S_.numel
  bcast_S90000_S90000x1_0 : S90000.BroadcastsInDim S90000x1 (![0] : Fin 1 → Fin S90000x1.rank)
  bcast_S_S90000x1 : S_.BroadcastsInDim S90000x1 (![] : Fin 0 → Fin S90000x1.rank)
  bcast_S90000x1_S90000x64_0_1 : S90000x1.BroadcastsInDim S90000x64 (![0, 1] : Fin 2 → Fin S90000x64.rank)
  slices_S3x64x64_S1x64x64_1_0_0 : S3x64x64.Slices ![1, 0, 0] S1x64x64
  slices_S3x1x64_S1x1x64_1_0_0 : S3x1x64.Slices ![1, 0, 0] S1x1x64
  slices_S3x64x64_S1x64x64_2_0_0 : S3x64x64.Slices ![2, 0, 0] S1x64x64
  slices_S3x1x64_S1x1x64_2_0_0 : S3x1x64.Slices ![2, 0, 0] S1x1x64
  concatenates_S90000x64_S90000x64_S90000x64_S90000x64_S90000x256_d1 : Shape.Concatenates [S90000x64, S90000x64, S90000x64, S90000x64] S90000x256 1
  slices_S90000x256_S30000x256_0_0 : S90000x256.Slices ![0, 0] S30000x256
  slices_S90000x256_S60000x256_30000_0 : S90000x256.Slices ![30000, 0] S60000x256
  gather_S90000x64_S2000000x1_S2000000x64_1_0_n_n_0_1_164_wf : GatherDims.WF S90000x64 S2000000x1 S2000000x64 [1] [0] [] [0] [] 1 ![1, 64]
  scatter_S90000x64_S2000000x1_S2000000x64_1_0_0_1_wf : ScatterDims.WF S90000x64 S2000000x1 S2000000x64 [1] [0] [0] 1
  dot_S90000x64_S64x64_S90000x64_1_0_0_1_n_n_wf : DotDims.WF S90000x64 S64x64 S90000x64 [1] [0] [0] [1] [] []

variable [Facts₀]

def gather_S90000x64_S2000000x1_S2000000x64_1_0_n_n_0_1_164 : GatherDims S90000x64 S2000000x1 S2000000x64 where
  offsetDims := [1]
  collapsedSliceDims := [0]
  operandBatchingDims := []
  startIndicesBatchingDims := []
  startIndexMap := [0]
  indexVectorDim := 1
  sliceSizes := ![1, 64]
  wf := gather_S90000x64_S2000000x1_S2000000x64_1_0_n_n_0_1_164_wf
def scatter_S90000x64_S2000000x1_S2000000x64_1_0_0_1 : ScatterDims S90000x64 S2000000x1 S2000000x64 where
  updateWindowDims := [1]
  insertedWindowDims := [0]
  scatterDimsToOperandDims := [0]
  indexVectorDim := 1
  wf := scatter_S90000x64_S2000000x1_S2000000x64_1_0_0_1_wf
def dot_S90000x64_S64x64_S90000x64_1_0_0_1_n_n : DotDims S90000x64 S64x64 S90000x64 where
  lhsContracting := [1]
  rhsContracting := [0]
  lhsNonContracting := [0]
  rhsNonContracting := [1]
  lhsBatch := []
  rhsBatch := []
  wf := dot_S90000x64_S64x64_S90000x64_1_0_0_1_n_n_wf

class Facts : Prop extends Facts₀ where

variable [Facts]
-- ==== Proof.BitsLayers.lean ====
/-
  The three graph-convolution layers of the kernel program as one run. Each layer is a pipeline over thirty blocks of 3000
  node rows: at a grid point the body reads the block of the current embeddings and of the neighbourhood sums together with
  the layer's two weight matrices and two bias rows, and stores the block's new embeddings (leaky rectifier of the affine
  image of the sums, plus leaky rectifier of the affine image of the entrywise product) and those rows divided by their
  Euclidean norms. Below: per layer, what the body leaves in each window's buffer as a function of the input blocks, the
  body's triple, and the pipeline's proof data at arbitrary entry contents; then the contents of every unscoped buffer at
  each boundary between @main's seven items as a fold from the launch memory (a host stretch applies its operations, a layer
  replaces its two output arrays by the folded write-backs), and the run: every weakly fair execution terminates with every
  unscoped buffer at the last fold. Stated for any float instance.
-/
import proofs.«171972_j54984171323492_1_alg».proof.Proof.Gen.Kernel.Launch
import proofs.«171972_j54984171323492_1_alg».proof.Proof.Gen.Kernel.Skeleton
import proofs.«171972_j54984171323492_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three rectangles the body reads and writes through: each is its buffer whole. -/
abbrev rowsRect : Rect S3000x64 := Rect.unit (s := S3000x64) ![0, 0] S3000x64.size inb_S3000x64_S3000x64_0_0
abbrev weightRect : Rect S64x64 := Rect.unit (s := S64x64) ![0, 0] S64x64.size inb_S64x64_S64x64_0_0
abbrev biasRect : Rect S1x64 := Rect.unit (s := S1x64) ![0, 0] S1x64.size inb_S1x64_S1x64_0_0

/-! # Layer 1: the pipeline of pallas_call 0, at the buffer contents `V` its region is entered with -/

section Layer0
variable (V : (c : Dev nD) → (b : Ref sig .tc) → Buf (Elt F) ((c : Thread nD τ).loc b))

/-- Window `w`'s block at grid point `t`: the rows `3000 t … 3000 t + 2999` of a node array, or a weight or bias whole. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether or not it was fetched there (a weight or
    bias is fetched once: its block index never moves). -/
theorem held0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- Input window 1's staging buffer holds its block at every point, whether or not it was fetched there (a weight or
    bias is fetched once: its block index never moves). -/
theorem held0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- Input window 2's staging buffer holds its block at every point, whether or not it was fetched there (a weight or
    bias is fetched once: its block index never moves). -/
theorem held0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-- Input window 3's staging buffer holds its block at every point, whether or not it was fetched there (a weight or
    bias is fetched once: its block index never moves). -/
theorem held0_3_of {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)

/-- Input window 4's staging buffer holds its block at every point, whether or not it was fetched there (a weight or
    bias is fetched once: its block index never moves). -/
theorem held0_4_of {c : Dev nD} (dat : Dat τ (Elt F) Unit ℕ (UR sig nD τ) ℕ cfg0 c) (hA : dat.A 4 = V c (Pipeline.arrRef spec0 4))
    (hafter : ∀ t, dat.after 4 t = blk0 V c 4 t) (t : Fin cfg0.N) (d) : dat.before 4 t d = blk0 V c 4 t :=
  (dat.before_in_eq_fetched 4 rfl (fun _ => rfl) (fun _ _ _ => rfl) (fun t => by rw [hafter]; unfold Dat.blockOf blk0; rw [hA]; try rfl) t d).trans
    (by unfold Dat.fetched Dat.blockOf blk0; rw [hA]; try rfl)

/-- Input window 5's staging buffer holds its block at every point, whether or not it was fetched there (a weight or
    bias is fetched once: its block index never moves). -/
theorem held0_5_of {c : Dev nD} (dat : Dat τ (Elt F) Unit ℕ (UR sig nD τ) ℕ cfg0 c) (hA : dat.A 5 = V c (Pipeline.arrRef spec0 5))
    (hafter : ∀ t, dat.after 5 t = blk0 V c 5 t) (t : Fin cfg0.N) (d) : dat.before 5 t d = blk0 V c 5 t :=
  (dat.before_in_eq_fetched 5 rfl (fun _ => rfl) (fun _ _ _ => rfl) (fun t => by rw [hafter]; unfold Dat.blockOf blk0; rw [hA]; try rfl) t d).trans
    (by unfold Dat.fetched Dat.blockOf blk0; rw [hA]; try rfl)

/-- What the body leaves in output window 6's buffer: the new embeddings of the block's 3000 nodes, one store of the whole block. -/
def newEgo0 (x0 : Vec F S3000x64 .f32) (x1 : Vec F S3000x64 .f32) (x2 : Vec F S64x64 .f32) (x3 : Vec F S1x64 .f32) (x4 : Vec F S64x64 .f32) (x5 : Vec F S1x64 .f32) : Vec F S3000x64 .f32 :=
  View.canon [⟨rowsRect, k0_pay2 (View.ld x0 rowsRect) (View.ld x1 rowsRect) (View.ld x2 weightRect) (View.ld x3 biasRect) (View.ld x4 weightRect) (View.ld x5 biasRect)⟩]

/-- What it leaves in output window 7's buffer: those rows divided by their Euclidean norms (floored at the epsilon). -/
def newNorm0 (x0 : Vec F S3000x64 .f32) (x1 : Vec F S3000x64 .f32) (x2 : Vec F S64x64 .f32) (x3 : Vec F S1x64 .f32) (x4 : Vec F S64x64 .f32) (x5 : Vec F S1x64 .f32) : Vec F S3000x64 .f32 :=
  View.canon [⟨rowsRect, k0_pay1 (k0_pay2 (View.ld x0 rowsRect) (View.ld x1 rowsRect) (View.ld x2 weightRect) (View.ld x3 biasRect) (View.ld x4 weightRect) (View.ld x5 biasRect)) (k0_pay3 (View.ld x0 rowsRect) (View.ld x1 rowsRect) (View.ld x2 weightRect) (View.ld x3 biasRect) (View.ld x4 weightRect) (View.ld x5 biasRect))⟩]

/-- One store through the whole-buffer rectangle covers the buffer. -/
theorem covers0 (p0 : Vec F S3000x64 .f32) (y : S3000x64.Idx) :
    ∃ pc ∈ ([⟨rowsRect, p0⟩] : List (View.Piece (Elt F) S3000x64 .f32)), y ∈ pc.1.set :=
  View.cover_of_tiled [⟨rowsRect, p0⟩] S3000x64.size (by rfl) y

set_option maxHeartbeats 4000000 in
/-- The body on whole staging buffers: the six inputs at read contents `x0 … x5`, the two outputs at anything. It runs to
    the end with the inputs as they were, output 6 at `newEgo0` and output 7 at `newNorm0` of the inputs. -/
theorem body_triple0 (c : Dev nD) (E : Set ℕ) (i : grid0.Coords) (a0 : Memref sig .tc .vmem S3000x64 .f32) (h0 : a0.IsWhole) (a1 : Memref sig .tc .vmem S3000x64 .f32) (h1 : a1.IsWhole) (a2 : Memref sig .tc .vmem S64x64 .f32) (h2 : a2.IsWhole) (a3 : Memref sig .tc .vmem S1x64 .f32) (h3 : a3.IsWhole) (a4 : Memref sig .tc .vmem S64x64 .f32) (h4 : a4.IsWhole) (a5 : Memref sig .tc .vmem S1x64 .f32) (h5 : a5.IsWhole) (a6 : Memref sig .tc .vmem S3000x64 .f32) (h6 : a6.IsWhole) (a7 : Memref sig .tc .vmem S3000x64 .f32) (h7 : a7.IsWhole)
    (x0 : Vec F S3000x64 .f32) (x1 : Vec F S3000x64 .f32) (x2 : Vec F S64x64 .f32) (x3 : Vec F S1x64 .f32) (x4 : Vec F S64x64 .f32) (x5 : Vec F S1x64 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ owns (c : Thread nD τ) a5 fullShare x5
        ∗ (∃ d, owns (c : Thread nD τ) a6 fullShare d) ∗ (∃ d, owns (c : Thread nD τ) a7 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4 ∗ owns (c : Thread nD τ) a5 fullShare x5
            ∗ owns (c : Thread nD τ) a6 fullShare (newEgo0 x0 x1 x2 x3 x4 x5) ∗ owns (c : Thread nD τ) a7 fullShare (newNorm0 x0 x1 x2 x3 x4 x5)) -∗ K ⟨⟩))
      ⊢ wp frame (wpE (defs₀ (F := F)) Variants.none c none) E (cc0__ngcf_layer_kernel i a0 h0 a1 h1 a2 h2 a3 h3 a4 h4 a5 h5 a6 h6 a7 h7) K := by
  simp only [cc0__ngcf_layer_kernel_eq_skeleton]; unfold cc0__ngcf_layer_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (covers0 _)
  iexists _; isplitr
  swap; · iexact H7
  ipureintro
  exact View.read_writes_eq_canon _ _ _ (covers0 _)

/-- The proof data of layer 1's pipeline on core `c`: the arrays as the region finds them; after the body at point `t` each
    input's buffer still at its block, output 6's at the block's new embeddings, output 7's at their normalised rows; the
    invariant is the scoped rest and the generator register, untouched; nothing owed; full shares. -/
def layerDat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => newEgo0 (blk0 V c 0 t) (blk0 V c 1 t) (blk0 V c 2 t) (blk0 V c 3 t) (blk0 V c 4 t) (blk0 V c 5 t)
    | ⟨7, _⟩ => newNorm0 (blk0 V c 0 t) (blk0 V c 1 t) (blk0 V c 2 t) (blk0 V c 3 t) (blk0 V c 4 t) (blk0 V c 5 t)
  Φ _ := Pipeline.ΦA spec0 c
  q _ := fullShare
  owed _ := 0

theorem arrays0 (c : Dev nD) (w : Fin cfg0.W) : (layerDat0 V c).A w = V c (Pipeline.arrRef spec0 w) := by
  dsimp only [layerDat0]

theorem left0_0 (c : Dev nD) (t : Fin cfg0.N) : (layerDat0 V c).after 0 t = blk0 V c 0 t := by dsimp only [layerDat0]
theorem left0_1 (c : Dev nD) (t : Fin cfg0.N) : (layerDat0 V c).after 1 t = blk0 V c 1 t := by dsimp only [layerDat0]
theorem left0_2 (c : Dev nD) (t : Fin cfg0.N) : (layerDat0 V c).after 2 t = blk0 V c 2 t := by dsimp only [layerDat0]
theorem left0_3 (c : Dev nD) (t : Fin cfg0.N) : (layerDat0 V c).after 3 t = blk0 V c 3 t := by dsimp only [layerDat0]
theorem left0_4 (c : Dev nD) (t : Fin cfg0.N) : (layerDat0 V c).after 4 t = blk0 V c 4 t := by dsimp only [layerDat0]
theorem left0_5 (c : Dev nD) (t : Fin cfg0.N) : (layerDat0 V c).after 5 t = blk0 V c 5 t := by dsimp only [layerDat0]
theorem left0_6 (c : Dev nD) (t : Fin cfg0.N) : (layerDat0 V c).after 6 t = newEgo0 (blk0 V c 0 t) (blk0 V c 1 t) (blk0 V c 2 t) (blk0 V c 3 t) (blk0 V c 4 t) (blk0 V c 5 t) := by dsimp only [layerDat0]
theorem left0_7 (c : Dev nD) (t : Fin cfg0.N) : (layerDat0 V c).after 7 t = newNorm0 (blk0 V c 0 t) (blk0 V c 1 t) (blk0 V c 2 t) (blk0 V c 3 t) (blk0 V c 4 t) (blk0 V c 5 t) := by dsimp only [layerDat0]

theorem held0_0 (c : Dev nD) (t : Fin cfg0.N) (d) : (layerDat0 V c).before 0 t d = blk0 V c 0 t :=
  held0_0_of V (layerDat0 V c) (arrays0 V c 0) (left0_0 V c) t d
theorem held0_1 (c : Dev nD) (t : Fin cfg0.N) (d) : (layerDat0 V c).before 1 t d = blk0 V c 1 t :=
  held0_1_of V (layerDat0 V c) (arrays0 V c 1) (left0_1 V c) t d
theorem held0_2 (c : Dev nD) (t : Fin cfg0.N) (d) : (layerDat0 V c).before 2 t d = blk0 V c 2 t :=
  held0_2_of V (layerDat0 V c) (arrays0 V c 2) (left0_2 V c) t d
theorem held0_3 (c : Dev nD) (t : Fin cfg0.N) (d) : (layerDat0 V c).before 3 t d = blk0 V c 3 t :=
  held0_3_of V (layerDat0 V c) (arrays0 V c 3) (left0_3 V c) t d
theorem held0_4 (c : Dev nD) (t : Fin cfg0.N) (d) : (layerDat0 V c).before 4 t d = blk0 V c 4 t :=
  held0_4_of V (layerDat0 V c) (arrays0 V c 4) (left0_4 V c) t d
theorem held0_5 (c : Dev nD) (t : Fin cfg0.N) (d) : (layerDat0 V c).before 5 t d = blk0 V c 5 t :=
  held0_5_of V (layerDat0 V c) (arrays0 V c 5) (left0_5 V c) t d

/-- What the body is called with at point `t`, window by window, -/
def pointPre0 (c : Dev nD) (t : Fin cfg0.N) : sProp 𝕄 :=
  iprop((layerDat0 V c).Φ t.castSucc ∗ (layerDat0 V c).owesAt () t.castSucc
    ∗ (∃ d, owns (c : Thread nD τ) (st0_0 t) fullShare ((layerDat0 V c).before 0 t d))
    ∗ (∃ d, owns (c : Thread nD τ) (st0_1 t) fullShare ((layerDat0 V c).before 1 t d))
    ∗ (∃ d, owns (c : Thread nD τ) (st0_2 t) fullShare ((layerDat0 V c).before 2 t d))
    ∗ (∃ d, owns (c : Thread nD τ) (st0_3 t) fullShare ((layerDat0 V c).before 3 t d))
    ∗ (∃ d, owns (c : Thread nD τ) (st0_4 t) fullShare ((layerDat0 V c).before 4 t d))
    ∗ (∃ d, owns (c : Thread nD τ) (st0_5 t) fullShare ((layerDat0 V c).before 5 t d))
    ∗ (∃ d, owns (c : Thread nD τ) (st0_6 t) fullShare ((layerDat0 V c).before 6 t d))
    ∗ (∃ d, owns (c : Thread nD τ) (st0_7 t) fullShare ((layerDat0 V c).before 7 t d)))

/-- and what it returns. -/
def pointPost0 (c : Dev nD) (t : Fin cfg0.N) : sProp 𝕄 :=
  iprop((layerDat0 V c).Φ t.succ ∗ (layerDat0 V c).owesAt () t.succ
    ∗ owns (c : Thread nD τ) (st0_0 t) fullShare ((layerDat0 V c).after 0 t)
    ∗ owns (c : Thread nD τ) (st0_1 t) fullShare ((layerDat0 V c).after 1 t)
    ∗ owns (c : Thread nD τ) (st0_2 t) fullShare ((layerDat0 V c).after 2 t)
    ∗ owns (c : Thread nD τ) (st0_3 t) fullShare ((layerDat0 V c).after 3 t)
    ∗ owns (c : Thread nD τ) (st0_4 t) fullShare ((layerDat0 V c).after 4 t)
    ∗ owns (c : Thread nD τ) (st0_5 t) fullShare ((layerDat0 V c).after 5 t)
    ∗ owns (c : Thread nD τ) (st0_6 t) fullShare ((layerDat0 V c).after 6 t)
    ∗ owns (c : Thread nD τ) (st0_7 t) fullShare ((layerDat0 V c).after 7 t))

/-- The body at any point: the input buffers hold their blocks, so the body's triple applies; the invariant and the core's
    dues pass through unread. -/
theorem point_run0 (c : Dev nD) (t : Fin cfg0.N) :
    pointPre0 V c t ⊢ wp frame (wpE (defs₀ (F := F)) Variants.none c none) Set.univ (bodyAt0 t) (fun _ => pointPost0 V c t) := by
  unfold pointPre0 pointPost0 bodyAt0
  simp only [held0_0, held0_1, held0_2, held0_3, held0_4, held0_5]
  rw [show (layerDat0 V c).Φ t.succ = (layerDat0 V c).Φ t.castSucc from rfl,
    show (layerDat0 V c).owesAt () t.succ = (layerDat0 V c).owesAt () t.castSucc from rfl,
    left0_0, left0_1, left0_2, left0_3, left0_4, left0_5, left0_6, left0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_triple0 c Set.univ _ _ _ _ _ _ _ _ _ _ _ _ _ _ _ _ _ (blk0 V c 0 t) (blk0 V c 1 t) (blk0 V c 2 t) (blk0 V c 3 t) (blk0 V c 4 t) (blk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem every_point0 (c : Dev nD) : BodyObligation (layerDat0 (F := F) V c) (defs₀ (F := F)) Variants.none () Set.univ := fun t => by
  rw [bigSep_W0, bigSep_W0]
  exact point_run0 V c t

end Layer0

/-! # Layer 2: the pipeline of pallas_call 1, at the buffer contents `V` its region is entered with -/

section Layer1
variable (V : (c : Dev nD) → (b : Ref sig .tc) → Buf (Elt F) ((c : Thread nD τ).loc b))

/-- Window `w`'s block at grid point `t`: the rows `3000 t … 3000 t + 2999` of a node array, or a weight or bias whole. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether or not it was fetched there (a weight or
    bias is fetched once: its block index never moves). -/
theorem held1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- Input window 1's staging buffer holds its block at every point, whether or not it was fetched there (a weight or
    bias is fetched once: its block index never moves). -/
theorem held1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- Input window 2's staging buffer holds its block at every point, whether or not it was fetched there (a weight or
    bias is fetched once: its block index never moves). -/
theorem held1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-- Input window 3's staging buffer holds its block at every point, whether or not it was fetched there (a weight or
    bias is fetched once: its block index never moves). -/
theorem held1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

/-- Input window 4's staging buffer holds its block at every point, whether or not it was fetched there (a weight or
    bias is fetched once: its block index never moves). -/
theorem held1_4_of {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)

/-- Input window 5's staging buffer holds its block at every point, whether or not it was fetched there (a weight or
    bias is fetched once: its block index never moves). -/
theorem held1_5_of {c : Dev nD} (dat : Dat τ (Elt F) Unit ℕ (UR sig nD τ) ℕ cfg1 c) (hA : dat.A 5 = V c (Pipeline.arrRef spec1 5))
    (hafter : ∀ t, dat.after 5 t = blk1 V c 5 t) (t : Fin cfg1.N) (d) : dat.before 5 t d = blk1 V c 5 t :=
  (dat.before_in_eq_fetched 5 rfl (fun _ => rfl) (fun _ _ _ => rfl) (fun t => by rw [hafter]; unfold Dat.blockOf blk1; rw [hA]; try rfl) t d).trans
    (by unfold Dat.fetched Dat.blockOf blk1; rw [hA]; try rfl)

/-- What the body leaves in output window 6's buffer: the new embeddings of the block's 3000 nodes, one store of the whole block. -/
def newEgo1 (x0 : Vec F S3000x64 .f32) (x1 : Vec F S3000x64 .f32) (x2 : Vec F S64x64 .f32) (x3 : Vec F S1x64 .f32) (x4 : Vec F S64x64 .f32) (x5 : Vec F S1x64 .f32) : Vec F S3000x64 .f32 :=
  View.canon [⟨rowsRect, k1_pay2 (View.ld x0 rowsRect) (View.ld x1 rowsRect) (View.ld x2 weightRect) (View.ld x3 biasRect) (View.ld x4 weightRect) (View.ld x5 biasRect)⟩]

/-- What it leaves in output window 7's buffer: those rows divided by their Euclidean norms (floored at the epsilon). -/
def newNorm1 (x0 : Vec F S3000x64 .f32) (x1 : Vec F S3000x64 .f32) (x2 : Vec F S64x64 .f32) (x3 : Vec F S1x64 .f32) (x4 : Vec F S64x64 .f32) (x5 : Vec F S1x64 .f32) : Vec F S3000x64 .f32 :=
  View.canon [⟨rowsRect, k1_pay1 (k1_pay2 (View.ld x0 rowsRect) (View.ld x1 rowsRect) (View.ld x2 weightRect) (View.ld x3 biasRect) (View.ld x4 weightRect) (View.ld x5 biasRect)) (k1_pay3 (View.ld x0 rowsRect) (View.ld x1 rowsRect) (View.ld x2 weightRect) (View.ld x3 biasRect) (View.ld x4 weightRect) (View.ld x5 biasRect))⟩]

/-- One store through the whole-buffer rectangle covers the buffer. -/
theorem covers1 (p0 : Vec F S3000x64 .f32) (y : S3000x64.Idx) :
    ∃ pc ∈ ([⟨rowsRect, p0⟩] : List (View.Piece (Elt F) S3000x64 .f32)), y ∈ pc.1.set :=
  View.cover_of_tiled [⟨rowsRect, p0⟩] S3000x64.size (by rfl) y

set_option maxHeartbeats 4000000 in
/-- The body on whole staging buffers: the six inputs at read contents `x0 … x5`, the two outputs at anything. It runs to
    the end with the inputs as they were, output 6 at `newEgo1` and output 7 at `newNorm1` of the inputs. -/
theorem body_triple1 (c : Dev nD) (E : Set ℕ) (i : grid1.Coords) (a0 : Memref sig .tc .vmem S3000x64 .f32) (h0 : a0.IsWhole) (a1 : Memref sig .tc .vmem S3000x64 .f32) (h1 : a1.IsWhole) (a2 : Memref sig .tc .vmem S64x64 .f32) (h2 : a2.IsWhole) (a3 : Memref sig .tc .vmem S1x64 .f32) (h3 : a3.IsWhole) (a4 : Memref sig .tc .vmem S64x64 .f32) (h4 : a4.IsWhole) (a5 : Memref sig .tc .vmem S1x64 .f32) (h5 : a5.IsWhole) (a6 : Memref sig .tc .vmem S3000x64 .f32) (h6 : a6.IsWhole) (a7 : Memref sig .tc .vmem S3000x64 .f32) (h7 : a7.IsWhole)
    (x0 : Vec F S3000x64 .f32) (x1 : Vec F S3000x64 .f32) (x2 : Vec F S64x64 .f32) (x3 : Vec F S1x64 .f32) (x4 : Vec F S64x64 .f32) (x5 : Vec F S1x64 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ owns (c : Thread nD τ) a5 fullShare x5
        ∗ (∃ d, owns (c : Thread nD τ) a6 fullShare d) ∗ (∃ d, owns (c : Thread nD τ) a7 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4 ∗ owns (c : Thread nD τ) a5 fullShare x5
            ∗ owns (c : Thread nD τ) a6 fullShare (newEgo1 x0 x1 x2 x3 x4 x5) ∗ owns (c : Thread nD τ) a7 fullShare (newNorm1 x0 x1 x2 x3 x4 x5)) -∗ K ⟨⟩))
      ⊢ wp frame (wpE (defs₀ (F := F)) Variants.none c none) E (cc1__ngcf_layer_kernel i a0 h0 a1 h1 a2 h2 a3 h3 a4 h4 a5 h5 a6 h6 a7 h7) K := by
  simp only [cc1__ngcf_layer_kernel_eq_skeleton]; unfold cc1__ngcf_layer_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (covers1 _)
  iexists _; isplitr
  swap; · iexact H7
  ipureintro
  exact View.read_writes_eq_canon _ _ _ (covers1 _)

/-- The proof data of layer 2's pipeline on core `c`: the arrays as the region finds them; after the body at point `t` each
    input's buffer still at its block, output 6's at the block's new embeddings, output 7's at their normalised rows; the
    invariant is the scoped rest and the generator register, untouched; nothing owed; full shares. -/
def layerDat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => newEgo1 (blk1 V c 0 t) (blk1 V c 1 t) (blk1 V c 2 t) (blk1 V c 3 t) (blk1 V c 4 t) (blk1 V c 5 t)
    | ⟨7, _⟩ => newNorm1 (blk1 V c 0 t) (blk1 V c 1 t) (blk1 V c 2 t) (blk1 V c 3 t) (blk1 V c 4 t) (blk1 V c 5 t)
  Φ _ := Pipeline.ΦA spec1 c
  q _ := fullShare
  owed _ := 0

theorem arrays1 (c : Dev nD) (w : Fin cfg1.W) : (layerDat1 V c).A w = V c (Pipeline.arrRef spec1 w) := by
  dsimp only [layerDat1]

theorem left1_0 (c : Dev nD) (t : Fin cfg1.N) : (layerDat1 V c).after 0 t = blk1 V c 0 t := by dsimp only [layerDat1]
theorem left1_1 (c : Dev nD) (t : Fin cfg1.N) : (layerDat1 V c).after 1 t = blk1 V c 1 t := by dsimp only [layerDat1]
theorem left1_2 (c : Dev nD) (t : Fin cfg1.N) : (layerDat1 V c).after 2 t = blk1 V c 2 t := by dsimp only [layerDat1]
theorem left1_3 (c : Dev nD) (t : Fin cfg1.N) : (layerDat1 V c).after 3 t = blk1 V c 3 t := by dsimp only [layerDat1]
theorem left1_4 (c : Dev nD) (t : Fin cfg1.N) : (layerDat1 V c).after 4 t = blk1 V c 4 t := by dsimp only [layerDat1]
theorem left1_5 (c : Dev nD) (t : Fin cfg1.N) : (layerDat1 V c).after 5 t = blk1 V c 5 t := by dsimp only [layerDat1]
theorem left1_6 (c : Dev nD) (t : Fin cfg1.N) : (layerDat1 V c).after 6 t = newEgo1 (blk1 V c 0 t) (blk1 V c 1 t) (blk1 V c 2 t) (blk1 V c 3 t) (blk1 V c 4 t) (blk1 V c 5 t) := by dsimp only [layerDat1]
theorem left1_7 (c : Dev nD) (t : Fin cfg1.N) : (layerDat1 V c).after 7 t = newNorm1 (blk1 V c 0 t) (blk1 V c 1 t) (blk1 V c 2 t) (blk1 V c 3 t) (blk1 V c 4 t) (blk1 V c 5 t) := by dsimp only [layerDat1]

theorem held1_0 (c : Dev nD) (t : Fin cfg1.N) (d) : (layerDat1 V c).before 0 t d = blk1 V c 0 t :=
  held1_0_of V (layerDat1 V c) (arrays1 V c 0) (left1_0 V c) t d
theorem held1_1 (c : Dev nD) (t : Fin cfg1.N) (d) : (layerDat1 V c).before 1 t d = blk1 V c 1 t :=
  held1_1_of V (layerDat1 V c) (arrays1 V c 1) (left1_1 V c) t d
theorem held1_2 (c : Dev nD) (t : Fin cfg1.N) (d) : (layerDat1 V c).before 2 t d = blk1 V c 2 t :=
  held1_2_of V (layerDat1 V c) (arrays1 V c 2) (left1_2 V c) t d
theorem held1_3 (c : Dev nD) (t : Fin cfg1.N) (d) : (layerDat1 V c).before 3 t d = blk1 V c 3 t :=
  held1_3_of V (layerDat1 V c) (arrays1 V c 3) (left1_3 V c) t d
theorem held1_4 (c : Dev nD) (t : Fin cfg1.N) (d) : (layerDat1 V c).before 4 t d = blk1 V c 4 t :=
  held1_4_of V (layerDat1 V c) (arrays1 V c 4) (left1_4 V c) t d
theorem held1_5 (c : Dev nD) (t : Fin cfg1.N) (d) : (layerDat1 V c).before 5 t d = blk1 V c 5 t :=
  held1_5_of V (layerDat1 V c) (arrays1 V c 5) (left1_5 V c) t d

/-- What the body is called with at point `t`, window by window, -/
def pointPre1 (c : Dev nD) (t : Fin cfg1.N) : sProp 𝕄 :=
  iprop((layerDat1 V c).Φ t.castSucc ∗ (layerDat1 V c).owesAt () t.castSucc
    ∗ (∃ d, owns (c : Thread nD τ) (st1_0 t) fullShare ((layerDat1 V c).before 0 t d))
    ∗ (∃ d, owns (c : Thread nD τ) (st1_1 t) fullShare ((layerDat1 V c).before 1 t d))
    ∗ (∃ d, owns (c : Thread nD τ) (st1_2 t) fullShare ((layerDat1 V c).before 2 t d))
    ∗ (∃ d, owns (c : Thread nD τ) (st1_3 t) fullShare ((layerDat1 V c).before 3 t d))
    ∗ (∃ d, owns (c : Thread nD τ) (st1_4 t) fullShare ((layerDat1 V c).before 4 t d))
    ∗ (∃ d, owns (c : Thread nD τ) (st1_5 t) fullShare ((layerDat1 V c).before 5 t d))
    ∗ (∃ d, owns (c : Thread nD τ) (st1_6 t) fullShare ((layerDat1 V c).before 6 t d))
    ∗ (∃ d, owns (c : Thread nD τ) (st1_7 t) fullShare ((layerDat1 V c).before 7 t d)))

/-- and what it returns. -/
def pointPost1 (c : Dev nD) (t : Fin cfg1.N) : sProp 𝕄 :=
  iprop((layerDat1 V c).Φ t.succ ∗ (layerDat1 V c).owesAt () t.succ
    ∗ owns (c : Thread nD τ) (st1_0 t) fullShare ((layerDat1 V c).after 0 t)
    ∗ owns (c : Thread nD τ) (st1_1 t) fullShare ((layerDat1 V c).after 1 t)
    ∗ owns (c : Thread nD τ) (st1_2 t) fullShare ((layerDat1 V c).after 2 t)
    ∗ owns (c : Thread nD τ) (st1_3 t) fullShare ((layerDat1 V c).after 3 t)
    ∗ owns (c : Thread nD τ) (st1_4 t) fullShare ((layerDat1 V c).after 4 t)
    ∗ owns (c : Thread nD τ) (st1_5 t) fullShare ((layerDat1 V c).after 5 t)
    ∗ owns (c : Thread nD τ) (st1_6 t) fullShare ((layerDat1 V c).after 6 t)
    ∗ owns (c : Thread nD τ) (st1_7 t) fullShare ((layerDat1 V c).after 7 t))

/-- The body at any point: the input buffers hold their blocks, so the body's triple applies; the invariant and the core's
    dues pass through unread. -/
theorem point_run1 (c : Dev nD) (t : Fin cfg1.N) :
    pointPre1 V c t ⊢ wp frame (wpE (defs₀ (F := F)) Variants.none c none) Set.univ (bodyAt1 t) (fun _ => pointPost1 V c t) := by
  unfold pointPre1 pointPost1 bodyAt1
  simp only [held1_0, held1_1, held1_2, held1_3, held1_4, held1_5]
  rw [show (layerDat1 V c).Φ t.succ = (layerDat1 V c).Φ t.castSucc from rfl,
    show (layerDat1 V c).owesAt () t.succ = (layerDat1 V c).owesAt () t.castSucc from rfl,
    left1_0, left1_1, left1_2, left1_3, left1_4, left1_5, left1_6, left1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_triple1 c Set.univ _ _ _ _ _ _ _ _ _ _ _ _ _ _ _ _ _ (blk1 V c 0 t) (blk1 V c 1 t) (blk1 V c 2 t) (blk1 V c 3 t) (blk1 V c 4 t) (blk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem every_point1 (c : Dev nD) : BodyObligation (layerDat1 (F := F) V c) (defs₀ (F := F)) Variants.none () Set.univ := fun t => by
  rw [bigSep_W1, bigSep_W1]
  exact point_run1 V c t

end Layer1

/-! # Layer 3: the pipeline of pallas_call 2, at the buffer contents `V` its region is entered with -/

section Layer2
variable (V : (c : Dev nD) → (b : Ref sig .tc) → Buf (Elt F) ((c : Thread nD τ).loc b))

/-- Window `w`'s block at grid point `t`: the rows `3000 t … 3000 t + 2999` of a node array, or a weight or bias whole. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, whether or not it was fetched there (a weight or
    bias is fetched once: its block index never moves). -/
theorem held2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-- Input window 1's staging buffer holds its block at every point, whether or not it was fetched there (a weight or
    bias is fetched once: its block index never moves). -/
theorem held2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-- Input window 2's staging buffer holds its block at every point, whether or not it was fetched there (a weight or
    bias is fetched once: its block index never moves). -/
theorem held2_2_of {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)

/-- Input window 3's staging buffer holds its block at every point, whether or not it was fetched there (a weight or
    bias is fetched once: its block index never moves). -/
theorem held2_3_of {c : Dev nD} (dat : Dat τ (Elt F) Unit ℕ (UR sig nD τ) ℕ cfg2 c) (hA : dat.A 3 = V c (Pipeline.arrRef spec2 3))
    (hafter : ∀ t, dat.after 3 t = blk2 V c 3 t) (t : Fin cfg2.N) (d) : dat.before 3 t d = blk2 V c 3 t :=
  (dat.before_in_eq_fetched 3 rfl (fun _ => rfl) (fun _ _ _ => rfl) (fun t => by rw [hafter]; unfold Dat.blockOf blk2; rw [hA]; try rfl) t d).trans
    (by unfold Dat.fetched Dat.blockOf blk2; rw [hA]; try rfl)

/-- Input window 4's staging buffer holds its block at every point, whether or not it was fetched there (a weight or
    bias is fetched once: its block index never moves). -/
theorem held2_4_of {c : Dev nD} (dat : Dat τ (Elt F) Unit ℕ (UR sig nD τ) ℕ cfg2 c) (hA : dat.A 4 = V c (Pipeline.arrRef spec2 4))
    (hafter : ∀ t, dat.after 4 t = blk2 V c 4 t) (t : Fin cfg2.N) (d) : dat.before 4 t d = blk2 V c 4 t :=
  (dat.before_in_eq_fetched 4 rfl (fun _ => rfl) (fun _ _ _ => rfl) (fun t => by rw [hafter]; unfold Dat.blockOf blk2; rw [hA]; try rfl) t d).trans
    (by unfold Dat.fetched Dat.blockOf blk2; rw [hA]; try rfl)

/-- Input window 5's staging buffer holds its block at every point, whether or not it was fetched there (a weight or
    bias is fetched once: its block index never moves). -/
theorem held2_5_of {c : Dev nD} (dat : Dat τ (Elt F) Unit ℕ (UR sig nD τ) ℕ cfg2 c) (hA : dat.A 5 = V c (Pipeline.arrRef spec2 5))
    (hafter : ∀ t, dat.after 5 t = blk2 V c 5 t) (t : Fin cfg2.N) (d) : dat.before 5 t d = blk2 V c 5 t :=
  (dat.before_in_eq_fetched 5 rfl (fun _ => rfl) (fun _ _ _ => rfl) (fun t => by rw [hafter]; unfold Dat.blockOf blk2; rw [hA]; try rfl) t d).trans
    (by unfold Dat.fetched Dat.blockOf blk2; rw [hA]; try rfl)

/-- What the body leaves in output window 6's buffer: the new embeddings of the block's 3000 nodes, one store of the whole block. -/
def newEgo2 (x0 : Vec F S3000x64 .f32) (x1 : Vec F S3000x64 .f32) (x2 : Vec F S64x64 .f32) (x3 : Vec F S1x64 .f32) (x4 : Vec F S64x64 .f32) (x5 : Vec F S1x64 .f32) : Vec F S3000x64 .f32 :=
  View.canon [⟨rowsRect, k2_pay2 (View.ld x0 rowsRect) (View.ld x1 rowsRect) (View.ld x2 weightRect) (View.ld x3 biasRect) (View.ld x4 weightRect) (View.ld x5 biasRect)⟩]

/-- What it leaves in output window 7's buffer: those rows divided by their Euclidean norms (floored at the epsilon). -/
def newNorm2 (x0 : Vec F S3000x64 .f32) (x1 : Vec F S3000x64 .f32) (x2 : Vec F S64x64 .f32) (x3 : Vec F S1x64 .f32) (x4 : Vec F S64x64 .f32) (x5 : Vec F S1x64 .f32) : Vec F S3000x64 .f32 :=
  View.canon [⟨rowsRect, k2_pay1 (k2_pay2 (View.ld x0 rowsRect) (View.ld x1 rowsRect) (View.ld x2 weightRect) (View.ld x3 biasRect) (View.ld x4 weightRect) (View.ld x5 biasRect)) (k2_pay3 (View.ld x0 rowsRect) (View.ld x1 rowsRect) (View.ld x2 weightRect) (View.ld x3 biasRect) (View.ld x4 weightRect) (View.ld x5 biasRect))⟩]

/-- One store through the whole-buffer rectangle covers the buffer. -/
theorem covers2 (p0 : Vec F S3000x64 .f32) (y : S3000x64.Idx) :
    ∃ pc ∈ ([⟨rowsRect, p0⟩] : List (View.Piece (Elt F) S3000x64 .f32)), y ∈ pc.1.set :=
  View.cover_of_tiled [⟨rowsRect, p0⟩] S3000x64.size (by rfl) y

set_option maxHeartbeats 4000000 in
/-- The body on whole staging buffers: the six inputs at read contents `x0 … x5`, the two outputs at anything. It runs to
    the end with the inputs as they were, output 6 at `newEgo2` and output 7 at `newNorm2` of the inputs. -/
theorem body_triple2 (c : Dev nD) (E : Set ℕ) (i : grid2.Coords) (a0 : Memref sig .tc .vmem S3000x64 .f32) (h0 : a0.IsWhole) (a1 : Memref sig .tc .vmem S3000x64 .f32) (h1 : a1.IsWhole) (a2 : Memref sig .tc .vmem S64x64 .f32) (h2 : a2.IsWhole) (a3 : Memref sig .tc .vmem S1x64 .f32) (h3 : a3.IsWhole) (a4 : Memref sig .tc .vmem S64x64 .f32) (h4 : a4.IsWhole) (a5 : Memref sig .tc .vmem S1x64 .f32) (h5 : a5.IsWhole) (a6 : Memref sig .tc .vmem S3000x64 .f32) (h6 : a6.IsWhole) (a7 : Memref sig .tc .vmem S3000x64 .f32) (h7 : a7.IsWhole)
    (x0 : Vec F S3000x64 .f32) (x1 : Vec F S3000x64 .f32) (x2 : Vec F S64x64 .f32) (x3 : Vec F S1x64 .f32) (x4 : Vec F S64x64 .f32) (x5 : Vec F S1x64 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ owns (c : Thread nD τ) a5 fullShare x5
        ∗ (∃ d, owns (c : Thread nD τ) a6 fullShare d) ∗ (∃ d, owns (c : Thread nD τ) a7 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4 ∗ owns (c : Thread nD τ) a5 fullShare x5
            ∗ owns (c : Thread nD τ) a6 fullShare (newEgo2 x0 x1 x2 x3 x4 x5) ∗ owns (c : Thread nD τ) a7 fullShare (newNorm2 x0 x1 x2 x3 x4 x5)) -∗ K ⟨⟩))
      ⊢ wp frame (wpE (defs₀ (F := F)) Variants.none c none) E (cc2__ngcf_layer_kernel i a0 h0 a1 h1 a2 h2 a3 h3 a4 h4 a5 h5 a6 h6 a7 h7) K := by
  simp only [cc2__ngcf_layer_kernel_eq_skeleton]; unfold cc2__ngcf_layer_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (covers2 _)
  iexists _; isplitr
  swap; · iexact H7
  ipureintro
  exact View.read_writes_eq_canon _ _ _ (covers2 _)

/-- The proof data of layer 3's pipeline on core `c`: the arrays as the region finds them; after the body at point `t` each
    input's buffer still at its block, output 6's at the block's new embeddings, output 7's at their normalised rows; the
    invariant is the scoped rest and the generator register, untouched; nothing owed; full shares. -/
def layerDat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => blk2 V c 5 t
    | ⟨6, _⟩ => newEgo2 (blk2 V c 0 t) (blk2 V c 1 t) (blk2 V c 2 t) (blk2 V c 3 t) (blk2 V c 4 t) (blk2 V c 5 t)
    | ⟨7, _⟩ => newNorm2 (blk2 V c 0 t) (blk2 V c 1 t) (blk2 V c 2 t) (blk2 V c 3 t) (blk2 V c 4 t) (blk2 V c 5 t)
  Φ _ := Pipeline.ΦA spec2 c
  q _ := fullShare
  owed _ := 0

theorem arrays2 (c : Dev nD) (w : Fin cfg2.W) : (layerDat2 V c).A w = V c (Pipeline.arrRef spec2 w) := by
  dsimp only [layerDat2]

theorem left2_0 (c : Dev nD) (t : Fin cfg2.N) : (layerDat2 V c).after 0 t = blk2 V c 0 t := by dsimp only [layerDat2]
theorem left2_1 (c : Dev nD) (t : Fin cfg2.N) : (layerDat2 V c).after 1 t = blk2 V c 1 t := by dsimp only [layerDat2]
theorem left2_2 (c : Dev nD) (t : Fin cfg2.N) : (layerDat2 V c).after 2 t = blk2 V c 2 t := by dsimp only [layerDat2]
theorem left2_3 (c : Dev nD) (t : Fin cfg2.N) : (layerDat2 V c).after 3 t = blk2 V c 3 t := by dsimp only [layerDat2]
theorem left2_4 (c : Dev nD) (t : Fin cfg2.N) : (layerDat2 V c).after 4 t = blk2 V c 4 t := by dsimp only [layerDat2]
theorem left2_5 (c : Dev nD) (t : Fin cfg2.N) : (layerDat2 V c).after 5 t = blk2 V c 5 t := by dsimp only [layerDat2]
theorem left2_6 (c : Dev nD) (t : Fin cfg2.N) : (layerDat2 V c).after 6 t = newEgo2 (blk2 V c 0 t) (blk2 V c 1 t) (blk2 V c 2 t) (blk2 V c 3 t) (blk2 V c 4 t) (blk2 V c 5 t) := by dsimp only [layerDat2]
theorem left2_7 (c : Dev nD) (t : Fin cfg2.N) : (layerDat2 V c).after 7 t = newNorm2 (blk2 V c 0 t) (blk2 V c 1 t) (blk2 V c 2 t) (blk2 V c 3 t) (blk2 V c 4 t) (blk2 V c 5 t) := by dsimp only [layerDat2]

theorem held2_0 (c : Dev nD) (t : Fin cfg2.N) (d) : (layerDat2 V c).before 0 t d = blk2 V c 0 t :=
  held2_0_of V (layerDat2 V c) (arrays2 V c 0) (left2_0 V c) t d
theorem held2_1 (c : Dev nD) (t : Fin cfg2.N) (d) : (layerDat2 V c).before 1 t d = blk2 V c 1 t :=
  held2_1_of V (layerDat2 V c) (arrays2 V c 1) (left2_1 V c) t d
theorem held2_2 (c : Dev nD) (t : Fin cfg2.N) (d) : (layerDat2 V c).before 2 t d = blk2 V c 2 t :=
  held2_2_of V (layerDat2 V c) (arrays2 V c 2) (left2_2 V c) t d
theorem held2_3 (c : Dev nD) (t : Fin cfg2.N) (d) : (layerDat2 V c).before 3 t d = blk2 V c 3 t :=
  held2_3_of V (layerDat2 V c) (arrays2 V c 3) (left2_3 V c) t d
theorem held2_4 (c : Dev nD) (t : Fin cfg2.N) (d) : (layerDat2 V c).before 4 t d = blk2 V c 4 t :=
  held2_4_of V (layerDat2 V c) (arrays2 V c 4) (left2_4 V c) t d
theorem held2_5 (c : Dev nD) (t : Fin cfg2.N) (d) : (layerDat2 V c).before 5 t d = blk2 V c 5 t :=
  held2_5_of V (layerDat2 V c) (arrays2 V c 5) (left2_5 V c) t d

/-- What the body is called with at point `t`, window by window, -/
def pointPre2 (c : Dev nD) (t : Fin cfg2.N) : sProp 𝕄 :=
  iprop((layerDat2 V c).Φ t.castSucc ∗ (layerDat2 V c).owesAt () t.castSucc
    ∗ (∃ d, owns (c : Thread nD τ) (st2_0 t) fullShare ((layerDat2 V c).before 0 t d))
    ∗ (∃ d, owns (c : Thread nD τ) (st2_1 t) fullShare ((layerDat2 V c).before 1 t d))
    ∗ (∃ d, owns (c : Thread nD τ) (st2_2 t) fullShare ((layerDat2 V c).before 2 t d))
    ∗ (∃ d, owns (c : Thread nD τ) (st2_3 t) fullShare ((layerDat2 V c).before 3 t d))
    ∗ (∃ d, owns (c : Thread nD τ) (st2_4 t) fullShare ((layerDat2 V c).before 4 t d))
    ∗ (∃ d, owns (c : Thread nD τ) (st2_5 t) fullShare ((layerDat2 V c).before 5 t d))
    ∗ (∃ d, owns (c : Thread nD τ) (st2_6 t) fullShare ((layerDat2 V c).before 6 t d))
    ∗ (∃ d, owns (c : Thread nD τ) (st2_7 t) fullShare ((layerDat2 V c).before 7 t d)))

/-- and what it returns. -/
def pointPost2 (c : Dev nD) (t : Fin cfg2.N) : sProp 𝕄 :=
  iprop((layerDat2 V c).Φ t.succ ∗ (layerDat2 V c).owesAt () t.succ
    ∗ owns (c : Thread nD τ) (st2_0 t) fullShare ((layerDat2 V c).after 0 t)
    ∗ owns (c : Thread nD τ) (st2_1 t) fullShare ((layerDat2 V c).after 1 t)
    ∗ owns (c : Thread nD τ) (st2_2 t) fullShare ((layerDat2 V c).after 2 t)
    ∗ owns (c : Thread nD τ) (st2_3 t) fullShare ((layerDat2 V c).after 3 t)
    ∗ owns (c : Thread nD τ) (st2_4 t) fullShare ((layerDat2 V c).after 4 t)
    ∗ owns (c : Thread nD τ) (st2_5 t) fullShare ((layerDat2 V c).after 5 t)
    ∗ owns (c : Thread nD τ) (st2_6 t) fullShare ((layerDat2 V c).after 6 t)
    ∗ owns (c : Thread nD τ) (st2_7 t) fullShare ((layerDat2 V c).after 7 t))

/-- The body at any point: the input buffers hold their blocks, so the body's triple applies; the invariant and the core's
    dues pass through unread. -/
theorem point_run2 (c : Dev nD) (t : Fin cfg2.N) :
    pointPre2 V c t ⊢ wp frame (wpE (defs₀ (F := F)) Variants.none c none) Set.univ (bodyAt2 t) (fun _ => pointPost2 V c t) := by
  unfold pointPre2 pointPost2 bodyAt2
  simp only [held2_0, held2_1, held2_2, held2_3, held2_4, held2_5]
  rw [show (layerDat2 V c).Φ t.succ = (layerDat2 V c).Φ t.castSucc from rfl,
    show (layerDat2 V c).owesAt () t.succ = (layerDat2 V c).owesAt () t.castSucc from rfl,
    left2_0, left2_1, left2_2, left2_3, left2_4, left2_5, left2_6, left2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_triple2 c Set.univ _ _ _ _ _ _ _ _ _ _ _ _ _ _ _ _ _ (blk2 V c 0 t) (blk2 V c 1 t) (blk2 V c 2 t) (blk2 V c 3 t) (blk2 V c 4 t) (blk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem every_point2 (c : Dev nD) : BodyObligation (layerDat2 (F := F) V c) (defs₀ (F := F)) Variants.none () Set.univ := fun t => by
  rw [bigSep_W2, bigSep_W2]
  exact point_run2 V c t

end Layer2

/-! ## No host operation allocates a buffer -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor

/-! # The run: @main's seven items from the launch to the return -/

variable (m : (ℓ : Loc nD τ sig) → Buf (Elt F) ℓ)

/-- Core `c`'s buffers at launch. -/
abbrev atLaunch : Dev nD → Valuation τ sig (Elt F) := fun c b => m (c, b)
/-- After the first host stretch (the stacked embeddings, the first neighbourhood sums, the first layer's weights). -/
abbrev atIn0 : Dev nD → Valuation τ sig (Elt F) := fun c => StableHlo.after hostOps0 (atLaunch m c)
abbrev vIn0 : (c : Dev nD) → (b : Ref sig .tc) → Buf (Elt F) ((c : Thread nD τ).loc b) := fun c b => atIn0 m c b

/-- At layer 1's exit: its arrays at what the pipeline leaves (the inputs as entered, each output's write-backs folded over the
    thirty points), every other buffer as entered. -/
def atOut0 (c : Dev nD) : Valuation τ sig (Elt F) :=
  Pipeline.withArrays spec0 c (atIn0 m c) fun w => (layerDat0 (vIn0 m) c).arrAt w cfg0.N
theorem atOut0_arr (c : Dev nD) (w : Fin cfg0.W) :
    atOut0 m c (Proc.devRef .tc (Pipeline.arrRef spec0 w)) = (layerDat0 (vIn0 m) c).arrAt w cfg0.N := by
  unfold atOut0; exact Pipeline.withArrays_arr spec0 launch0.win.arr_inj c _ _ w
theorem atOut0_rest (c : Dev nD) (b : Ref sig .tc) (hb : ∀ w, Pipeline.arrRef spec0 w ≠ b) :
    atOut0 m c (Proc.devRef .tc b) = atIn0 m c (Proc.devRef .tc b) := by
  unfold atOut0; exact Pipeline.withArrays_of_ne spec0 c _ _ b hb
/-- The same contents read at the TensorCore's references. -/
abbrev vOut0 : (c : Dev nD) → (b : Ref sig .tc) → Buf (Elt F) ((c : Thread nD τ).loc b) := fun c b => atOut0 m c b
theorem written0 (c : Dev nD) (w : Fin cfg0.W) : (layerDat0 (vIn0 m) c).arrAt w cfg0.N = vOut0 m c (Pipeline.arrRef spec0 w) :=
  (atOut0_arr m c w).symm
theorem kept0 (c : Dev nD) : ∀ b, b ∉ Finset.univ.image (Pipeline.arrRef spec0) → vOut0 m c b = vIn0 m c b :=
  fun b hb => atOut0_rest m c b fun w e => hb (Finset.mem_image.mpr ⟨w, Finset.mem_univ _, e⟩)

/-- After the second host stretch. -/
abbrev atIn1 : Dev nD → Valuation τ sig (Elt F) := fun c => StableHlo.after hostOps1 (atOut0 m c)
abbrev vIn1 : (c : Dev nD) → (b : Ref sig .tc) → Buf (Elt F) ((c : Thread nD τ).loc b) := fun c b => atIn1 m c b

/-- At layer 2's exit: its arrays at what the pipeline leaves (the inputs as entered, each output's write-backs folded over the
    thirty points), every other buffer as entered. -/
def atOut1 (c : Dev nD) : Valuation τ sig (Elt F) :=
  Pipeline.withArrays spec1 c (atIn1 m c) fun w => (layerDat1 (vIn1 m) c).arrAt w cfg1.N
theorem atOut1_arr (c : Dev nD) (w : Fin cfg1.W) :
    atOut1 m c (Proc.devRef .tc (Pipeline.arrRef spec1 w)) = (layerDat1 (vIn1 m) c).arrAt w cfg1.N := by
  unfold atOut1; exact Pipeline.withArrays_arr spec1 launch1.win.arr_inj c _ _ w
theorem atOut1_rest (c : Dev nD) (b : Ref sig .tc) (hb : ∀ w, Pipeline.arrRef spec1 w ≠ b) :
    atOut1 m c (Proc.devRef .tc b) = atIn1 m c (Proc.devRef .tc b) := by
  unfold atOut1; exact Pipeline.withArrays_of_ne spec1 c _ _ b hb
/-- The same contents read at the TensorCore's references. -/
abbrev vOut1 : (c : Dev nD) → (b : Ref sig .tc) → Buf (Elt F) ((c : Thread nD τ).loc b) := fun c b => atOut1 m c b
theorem written1 (c : Dev nD) (w : Fin cfg1.W) : (layerDat1 (vIn1 m) c).arrAt w cfg1.N = vOut1 m c (Pipeline.arrRef spec1 w) :=
  (atOut1_arr m c w).symm
theorem kept1 (c : Dev nD) : ∀ b, b ∉ Finset.univ.image (Pipeline.arrRef spec1) → vOut1 m c b = vIn1 m c b :=
  fun b hb => atOut1_rest m c b fun w e => hb (Finset.mem_image.mpr ⟨w, Finset.mem_univ _, e⟩)

/-- After the third host stretch. -/
abbrev atIn2 : Dev nD → Valuation τ sig (Elt F) := fun c => StableHlo.after hostOps2 (atOut1 m c)
abbrev vIn2 : (c : Dev nD) → (b : Ref sig .tc) → Buf (Elt F) ((c : Thread nD τ).loc b) := fun c b => atIn2 m c b

/-- At layer 3's exit: its arrays at what the pipeline leaves (the inputs as entered, each output's write-backs folded over the
    thirty points), every other buffer as entered. -/
def atOut2 (c : Dev nD) : Valuation τ sig (Elt F) :=
  Pipeline.withArrays spec2 c (atIn2 m c) fun w => (layerDat2 (vIn2 m) c).arrAt w cfg2.N
theorem atOut2_arr (c : Dev nD) (w : Fin cfg2.W) :
    atOut2 m c (Proc.devRef .tc (Pipeline.arrRef spec2 w)) = (layerDat2 (vIn2 m) c).arrAt w cfg2.N := by
  unfold atOut2; exact Pipeline.withArrays_arr spec2 launch2.win.arr_inj c _ _ w
theorem atOut2_rest (c : Dev nD) (b : Ref sig .tc) (hb : ∀ w, Pipeline.arrRef spec2 w ≠ b) :
    atOut2 m c (Proc.devRef .tc b) = atIn2 m c (Proc.devRef .tc b) := by
  unfold atOut2; exact Pipeline.withArrays_of_ne spec2 c _ _ b hb
/-- The same contents read at the TensorCore's references. -/
abbrev vOut2 : (c : Dev nD) → (b : Ref sig .tc) → Buf (Elt F) ((c : Thread nD τ).loc b) := fun c b => atOut2 m c b
theorem written2 (c : Dev nD) (w : Fin cfg2.W) : (layerDat2 (vIn2 m) c).arrAt w cfg2.N = vOut2 m c (Pipeline.arrRef spec2 w) :=
  (atOut2_arr m c w).symm
theorem kept2 (c : Dev nD) : ∀ b, b ∉ Finset.univ.image (Pipeline.arrRef spec2) → vOut2 m c b = vIn2 m c b :=
  fun b hb => atOut2_rest m c b fun w e => hb (Finset.mem_image.mpr ⟨w, Finset.mem_univ _, e⟩)

/-- After the last host stretch (the four blocks of columns joined, the users' and the items' rows cut out). -/
abbrev atEnd : Dev nD → Valuation τ sig (Elt F) := fun c => StableHlo.after hostOps3 (atOut2 m c)

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => layerDat0 (vIn0 m) c
  | ⟨1, _⟩ => fun c => layerDat1 (vIn1 m) c
  | ⟨2, _⟩ => fun c => layerDat2 (vIn2 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev Rest (c : Dev nD) : sProp 𝕄 := iprop((∃ r, prngReg c r) ∗ ∃ W, owes (c : Thread nD τ) (0 : CellTallies nD τ sig Unit) W)
/-- A host stretch as an item: its operations over the unscoped buffers from the contents `W`. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the dues. -/
abbrev AtEnd (c : Dev nD) : sProp 𝕄 := iprop(StableHlo.held (c : Thread nD τ) (Pipeline.ucRefs τ sig) (atEnd m c) ∗ ∃ r, prngReg c r)

/-! ## The regions as items -/

set_option backward.isDefEq.respectTransparency.types false in
/-- Layer 1's region over the thread state: entered with every unscoped buffer at `atIn0`, left at `atOut0`. Its eight
    arrays are split out of the unscoped buffers and put back at what the write-backs leave; the generator register goes into
    the pipeline's invariant and comes back; nothing is owed; the kernel has no semaphore of its own. -/
def region0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (every_point0 (vIn0 m) c).loose
  hwaits := Pipeline.hwaits_of_owed_zero _ _ _ _ L lv 0 fun _ _ => rfl
  pre c := iprop(StableHlo.held (c : Thread nD τ) (Pipeline.ucRefs τ sig) (atIn0 m c) ∗ Rest c)
  post c := iprop(StableHlo.held (c : Thread nD τ) (Pipeline.ucRefs τ sig) (atOut0 m c) ∗ Rest c)
  X c := iprop(∃ r, prngReg c r)
  Y c := iprop(∃ r, prngReg c r)
  Z c := Pipeline.unscopedRest (Ix := Unit) (Name := ℕ) (U := UR sig nD τ) (Lvl := ℕ) spec0 c (vIn0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (vIn0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (vIn0 m c) (vOut0 m c) ((pdats m 0 c).arrAt · cfg0.N) (written0 m c) (kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 2's region over the thread state: entered with every unscoped buffer at `atIn1`, left at `atOut1`. Its eight
    arrays are split out of the unscoped buffers and put back at what the write-backs leave; the generator register goes into
    the pipeline's invariant and comes back; nothing is owed; the kernel has no semaphore of its own. -/
def region1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (every_point1 (vIn1 m) c).loose
  hwaits := Pipeline.hwaits_of_owed_zero _ _ _ _ L lv 1 fun _ _ => rfl
  pre c := iprop(StableHlo.held (c : Thread nD τ) (Pipeline.ucRefs τ sig) (atIn1 m c) ∗ Rest c)
  post c := iprop(StableHlo.held (c : Thread nD τ) (Pipeline.ucRefs τ sig) (atOut1 m c) ∗ Rest c)
  X c := iprop(∃ r, prngReg c r)
  Y c := iprop(∃ r, prngReg c r)
  Z c := Pipeline.unscopedRest (Ix := Unit) (Name := ℕ) (U := UR sig nD τ) (Lvl := ℕ) spec1 c (vIn1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (vIn1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (vIn1 m c) (vOut1 m c) ((pdats m 1 c).arrAt · cfg1.N) (written1 m c) (kept1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 3's region over the thread state: entered with every unscoped buffer at `atIn2`, left at `atOut2`. Its eight
    arrays are split out of the unscoped buffers and put back at what the write-backs leave; the generator register goes into
    the pipeline's invariant and comes back; nothing is owed; the kernel has no semaphore of its own. -/
def region2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (every_point2 (vIn2 m) c).loose
  hwaits := Pipeline.hwaits_of_owed_zero _ _ _ _ L lv 2 fun _ _ => rfl
  pre c := iprop(StableHlo.held (c : Thread nD τ) (Pipeline.ucRefs τ sig) (atIn2 m c) ∗ Rest c)
  post c := iprop(StableHlo.held (c : Thread nD τ) (Pipeline.ucRefs τ sig) (atOut2 m c) ∗ Rest c)
  X c := iprop(∃ r, prngReg c r)
  Y c := iprop(∃ r, prngReg c r)
  Z c := Pipeline.unscopedRest (Ix := Unit) (Name := ℕ) (U := UR sig nD τ) (Lvl := ℕ) spec2 c (vIn2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (vIn2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (vIn2 m c) (vOut2 m c) ((pdats m 2 c).arrAt · cfg2.N) (written2 m c) (kept2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its items, and the launch -/

abbrev items : List (Pipeline.Seg (pcfgs (F := F)) adm (pdats m) () defs₀ 𝒱₀ L lv) :=
  [ .host (stretch hostOps0 hostOps0_sub hostOps0_fresh (atLaunch m)),
    .region (region0 m),
    .host (stretch hostOps1 hostOps1_sub hostOps1_fresh (atOut0 m)),
    .region (region1 m),
    .host (stretch hostOps2 hostOps2_sub hostOps2_fresh (atOut1 m)),
    .region (region2 m),
    .host (stretch hostOps3 hostOps3_sub hostOps3_fresh (atOut2 m)) ]

theorem main_items (c : Dev nD) : main (F := F) c = Pipeline.Seg.run (items m) := (main_chain c).trans (by chain_rfl)

set_option backward.isDefEq.respectTransparency.types false in
/-- Every weakly fair execution of @main from memory `m` with zero counters terminates, nothing faulting, and in every final
    state each core's every unscoped buffer holds the last fold `atEnd m c`: the launch contents carried through the four
    host stretches and the three layers' write-backs. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = atEnd m c b) :=
  Pipeline.θ_run_regions_kit (pcfgs (F := F)) adm (pdats m) () cellOf_inj emb₁ defs₀ 𝒱₀ L lv m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (atLaunch m c) ∗ Rest c)) (Tₙ := AtEnd m)
    (hch := ⟨fun _ => .rfl, fun _ => .rfl, fun _ => .rfl, fun _ => .rfl, fun _ => .rfl, fun _ => .rfl, fun _ => .rfl,
      fun c => by
        show (iprop(StableHlo.held (c : Thread nD τ) (Pipeline.ucRefs τ sig) (atEnd m c) ∗ Rest c) : sProp 𝕄) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (atLaunch m c)
        from Pipeline.unscopedBufs_held c (atLaunch m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = atEnd m c b)
    (hfin := fun c s' => by
      iintro ⟨⟨Hh, -⟩, HSI⟩
      unfold StableHlo.held
      imodintro
      iapply (pointsTo_read_all (Pipeline.ucRefs τ sig) (fun b => (((c : Thread nD τ)).1, b)) (atEnd m c) s')
      isplitl [Hh] <;> iassumption)
    (hQ := fun s h c => h c)

end Cert.Kernel.Layers

end
-- ==== Proof.BitsFrame.lean ====
/-
  THE ARGUMENT ARRAYS END AS LAUNCHED.

  The program is four host stretches with three pipelined layers between them. Each host stretch writes only the references
  of a fixed list, and each layer changes only its own eight arrays; none of the nine argument arrays is in any of those
  lists or among any layer's arrays. So reading an argument's reference off the last fold of the contents — after the last
  stretch, out of the third layer, after the third stretch, … back to the launch — gives the launch contents
  (`arg_kept`), and since every execution terminates with every unscoped buffer at the last fold, every execution
  terminates with the nine arguments unchanged (`frame`).
-/
import proofs.«171972_j54984171323492_1_alg».proof.Proof.BitsLayers
import proofs.«171972_j54984171323492_1_alg».proof.Proof.Gen.Kernel.Regions

set_option maxRecDepth 16384

noncomputable section

namespace Cert.Kernel.Layers

open Cert.Kernel Cert.Kernel.Gen
open Idealize.ShloMosaic Idealize.ShloMosaic.TcCoe
open Idealize.SL Idealize.SL.Sem

variable {F : FTy → Type} [FloatOps F]
variable (m : (ℓ : Loc nD τ sig) → Buf (Elt F) ℓ)

/-- A reference that no host stretch writes and that is none of any layer's arrays holds, at the last fold, its launch
    contents. -/
theorem arg_kept (c : Dev nD) (r : Ref sig .tc) (h0 : r ∉ Gen.hostOps0_W) (h1 : r ∉ Gen.hostOps1_W) (h2 : r ∉ Gen.hostOps2_W)
    (h3 : r ∉ Gen.hostOps3_W) (g0 : ∀ w, Pipeline.arrRef spec0 w ≠ r) (g1 : ∀ w, Pipeline.arrRef spec1 w ≠ r)
    (g2 : ∀ w, Pipeline.arrRef spec2 w ≠ r) : atEnd m c r = m ((c : Thread nD τ).loc r) :=
  (StableHlo.after_of_writes_sub hostOps3 _ Gen.hostOps3_writes h3).trans <|
  (atOut2_rest m c r g2).trans <|
  (StableHlo.after_of_writes_sub hostOps2 _ Gen.hostOps2_writes h2).trans <|
  (atOut1_rest m c r g1).trans <|
  (StableHlo.after_of_writes_sub hostOps1 _ Gen.hostOps1_writes h1).trans <|
  (atOut0_rest m c r g0).trans <|
  StableHlo.after_of_writes_sub hostOps0 _ Gen.hostOps0_writes h0

/-- Every weakly fair execution from memory `m` with zero counters terminates, nothing faulting, and in every final state each
    core's nine argument arrays hold their launch contents. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨
    (h c _ (mem_uc main_arg0 (by decide))).trans (arg_kept m c main_arg0 (by decide) (by decide) (by decide) (by decide) (by decide) (by decide) (by decide)),
    (h c _ (mem_uc main_arg1 (by decide))).trans (arg_kept m c main_arg1 (by decide) (by decide) (by decide) (by decide) (by decide) (by decide) (by decide)),
    (h c _ (mem_uc main_arg2 (by decide))).trans (arg_kept m c main_arg2 (by decide) (by decide) (by decide) (by decide) (by decide) (by decide) (by decide)),
    (h c _ (mem_uc main_arg3 (by decide))).trans (arg_kept m c main_arg3 (by decide) (by decide) (by decide) (by decide) (by decide) (by decide) (by decide)),
    (h c _ (mem_uc main_arg4 (by decide))).trans (arg_kept m c main_arg4 (by decide) (by decide) (by decide) (by decide) (by decide) (by decide) (by decide)),
    (h c _ (mem_uc main_arg5 (by decide))).trans (arg_kept m c main_arg5 (by decide) (by decide) (by decide) (by decide) (by decide) (by decide) (by decide)),
    (h c _ (mem_uc main_arg6 (by decide))).trans (arg_kept m c main_arg6 (by decide) (by decide) (by decide) (by decide) (by decide) (by decide) (by decide)),
    (h c _ (mem_uc main_arg7 (by decide))).trans (arg_kept m c main_arg7 (by decide) (by decide) (by decide) (by decide) (by decide) (by decide) (by decide)),
    (h c _ (mem_uc main_arg8 (by decide))).trans (arg_kept m c main_arg8 (by decide) (by decide) (by decide) (by decide) (by decide) (by decide) (by decide))⟩) (run_all m ρ)

end Cert.Kernel.Layers

end
-- ==== Proof.IdealLayers.lean ====
/-
  The three graph-convolution layers of the kernel program as one run. Each layer is a pipeline over thirty blocks of 3000
  node rows: at a grid point the body reads the block of the current embeddings and of the neighbourhood sums together with
  the layer's two weight matrices and two bias rows, and stores the block's new embeddings (leaky rectifier of the affine
  image of the sums, plus leaky rectifier of the affine image of the entrywise product) and those rows divided by their
  Euclidean norms. Below: per layer, what the body leaves in each window's buffer as a function of the input blocks, the
  body's triple, and the pipeline's proof data at arbitrary entry contents; then the contents of every unscoped buffer at
  each boundary between @main's seven items as a fold from the launch memory (a host stretch applies its operations, a layer
  replaces its two output arrays by the folded write-backs), and the run: every weakly fair execution terminates with every
  unscoped buffer at the last fold. Stated for any float instance.
-/
import proofs.«171972_j54984171323492_1_alg».proof.Proof.Gen.KernelIdeal.Launch
import proofs.«171972_j54984171323492_1_alg».proof.Proof.Gen.KernelIdeal.Skeleton
import proofs.«171972_j54984171323492_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three rectangles the body reads and writes through: each is its buffer whole. -/
abbrev rowsRect : Rect S3000x64 := Rect.unit (s := S3000x64) ![0, 0] S3000x64.size inb_S3000x64_S3000x64_0_0
abbrev weightRect : Rect S64x64 := Rect.unit (s := S64x64) ![0, 0] S64x64.size inb_S64x64_S64x64_0_0
abbrev biasRect : Rect S1x64 := Rect.unit (s := S1x64) ![0, 0] S1x64.size inb_S1x64_S1x64_0_0

/-! # Layer 1: the pipeline of pallas_call 0, at the buffer contents `V` its region is entered with -/

section Layer0
variable (V : (c : Dev nD) → (b : Ref sig .tc) → Buf (Elt F) ((c : Thread nD τ).loc b))

/-- Window `w`'s block at grid point `t`: the rows `3000 t … 3000 t + 2999` of a node array, or a weight or bias whole. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether or not it was fetched there (a weight or
    bias is fetched once: its block index never moves). -/
theorem held0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- Input window 1's staging buffer holds its block at every point, whether or not it was fetched there (a weight or
    bias is fetched once: its block index never moves). -/
theorem held0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- Input window 2's staging buffer holds its block at every point, whether or not it was fetched there (a weight or
    bias is fetched once: its block index never moves). -/
theorem held0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-- Input window 3's staging buffer holds its block at every point, whether or not it was fetched there (a weight or
    bias is fetched once: its block index never moves). -/
theorem held0_3_of {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)

/-- Input window 4's staging buffer holds its block at every point, whether or not it was fetched there (a weight or
    bias is fetched once: its block index never moves). -/
theorem held0_4_of {c : Dev nD} (dat : Dat τ (Elt F) Unit ℕ (UR sig nD τ) ℕ cfg0 c) (hA : dat.A 4 = V c (Pipeline.arrRef spec0 4))
    (hafter : ∀ t, dat.after 4 t = blk0 V c 4 t) (t : Fin cfg0.N) (d) : dat.before 4 t d = blk0 V c 4 t :=
  (dat.before_in_eq_fetched 4 rfl (fun _ => rfl) (fun _ _ _ => rfl) (fun t => by rw [hafter]; unfold Dat.blockOf blk0; rw [hA]; try rfl) t d).trans
    (by unfold Dat.fetched Dat.blockOf blk0; rw [hA]; try rfl)

/-- Input window 5's staging buffer holds its block at every point, whether or not it was fetched there (a weight or
    bias is fetched once: its block index never moves). -/
theorem held0_5_of {c : Dev nD} (dat : Dat τ (Elt F) Unit ℕ (UR sig nD τ) ℕ cfg0 c) (hA : dat.A 5 = V c (Pipeline.arrRef spec0 5))
    (hafter : ∀ t, dat.after 5 t = blk0 V c 5 t) (t : Fin cfg0.N) (d) : dat.before 5 t d = blk0 V c 5 t :=
  (dat.before_in_eq_fetched 5 rfl (fun _ => rfl) (fun _ _ _ => rfl) (fun t => by rw [hafter]; unfold Dat.blockOf blk0; rw [hA]; try rfl) t d).trans
    (by unfold Dat.fetched Dat.blockOf blk0; rw [hA]; try rfl)

/-- What the body leaves in output window 6's buffer: the new embeddings of the block's 3000 nodes, one store of the whole block. -/
def newEgo0 (x0 : Vec F S3000x64 .f32) (x1 : Vec F S3000x64 .f32) (x2 : Vec F S64x64 .f32) (x3 : Vec F S1x64 .f32) (x4 : Vec F S64x64 .f32) (x5 : Vec F S1x64 .f32) : Vec F S3000x64 .f32 :=
  View.canon [⟨rowsRect, k0_pay2 (View.ld x0 rowsRect) (View.ld x1 rowsRect) (View.ld x2 weightRect) (View.ld x3 biasRect) (View.ld x4 weightRect) (View.ld x5 biasRect)⟩]

/-- What it leaves in output window 7's buffer: those rows divided by their Euclidean norms (floored at the epsilon). -/
def newNorm0 (x0 : Vec F S3000x64 .f32) (x1 : Vec F S3000x64 .f32) (x2 : Vec F S64x64 .f32) (x3 : Vec F S1x64 .f32) (x4 : Vec F S64x64 .f32) (x5 : Vec F S1x64 .f32) : Vec F S3000x64 .f32 :=
  View.canon [⟨rowsRect, k0_pay1 (k0_pay2 (View.ld x0 rowsRect) (View.ld x1 rowsRect) (View.ld x2 weightRect) (View.ld x3 biasRect) (View.ld x4 weightRect) (View.ld x5 biasRect)) (k0_pay3 (View.ld x0 rowsRect) (View.ld x1 rowsRect) (View.ld x2 weightRect) (View.ld x3 biasRect) (View.ld x4 weightRect) (View.ld x5 biasRect))⟩]

/-- One store through the whole-buffer rectangle covers the buffer. -/
theorem covers0 (p0 : Vec F S3000x64 .f32) (y : S3000x64.Idx) :
    ∃ pc ∈ ([⟨rowsRect, p0⟩] : List (View.Piece (Elt F) S3000x64 .f32)), y ∈ pc.1.set :=
  View.cover_of_tiled [⟨rowsRect, p0⟩] S3000x64.size (by rfl) y

set_option maxHeartbeats 4000000 in
/-- The body on whole staging buffers: the six inputs at read contents `x0 … x5`, the two outputs at anything. It runs to
    the end with the inputs as they were, output 6 at `newEgo0` and output 7 at `newNorm0` of the inputs. -/
theorem body_triple0 (c : Dev nD) (E : Set ℕ) (i : grid0.Coords) (a0 : Memref sig .tc .vmem S3000x64 .f32) (h0 : a0.IsWhole) (a1 : Memref sig .tc .vmem S3000x64 .f32) (h1 : a1.IsWhole) (a2 : Memref sig .tc .vmem S64x64 .f32) (h2 : a2.IsWhole) (a3 : Memref sig .tc .vmem S1x64 .f32) (h3 : a3.IsWhole) (a4 : Memref sig .tc .vmem S64x64 .f32) (h4 : a4.IsWhole) (a5 : Memref sig .tc .vmem S1x64 .f32) (h5 : a5.IsWhole) (a6 : Memref sig .tc .vmem S3000x64 .f32) (h6 : a6.IsWhole) (a7 : Memref sig .tc .vmem S3000x64 .f32) (h7 : a7.IsWhole)
    (x0 : Vec F S3000x64 .f32) (x1 : Vec F S3000x64 .f32) (x2 : Vec F S64x64 .f32) (x3 : Vec F S1x64 .f32) (x4 : Vec F S64x64 .f32) (x5 : Vec F S1x64 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ owns (c : Thread nD τ) a5 fullShare x5
        ∗ (∃ d, owns (c : Thread nD τ) a6 fullShare d) ∗ (∃ d, owns (c : Thread nD τ) a7 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4 ∗ owns (c : Thread nD τ) a5 fullShare x5
            ∗ owns (c : Thread nD τ) a6 fullShare (newEgo0 x0 x1 x2 x3 x4 x5) ∗ owns (c : Thread nD τ) a7 fullShare (newNorm0 x0 x1 x2 x3 x4 x5)) -∗ K ⟨⟩))
      ⊢ wp frame (wpE (defs₀ (F := F)) Variants.none c none) E (cc0__ngcf_layer_kernel i a0 h0 a1 h1 a2 h2 a3 h3 a4 h4 a5 h5 a6 h6 a7 h7) K := by
  simp only [cc0__ngcf_layer_kernel_eq_skeleton]; unfold cc0__ngcf_layer_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (covers0 _)
  iexists _; isplitr
  swap; · iexact H7
  ipureintro
  exact View.read_writes_eq_canon _ _ _ (covers0 _)

/-- The proof data of layer 1's pipeline on core `c`: the arrays as the region finds them; after the body at point `t` each
    input's buffer still at its block, output 6's at the block's new embeddings, output 7's at their normalised rows; the
    invariant is the scoped rest and the generator register, untouched; nothing owed; full shares. -/
def layerDat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => newEgo0 (blk0 V c 0 t) (blk0 V c 1 t) (blk0 V c 2 t) (blk0 V c 3 t) (blk0 V c 4 t) (blk0 V c 5 t)
    | ⟨7, _⟩ => newNorm0 (blk0 V c 0 t) (blk0 V c 1 t) (blk0 V c 2 t) (blk0 V c 3 t) (blk0 V c 4 t) (blk0 V c 5 t)
  Φ _ := Pipeline.ΦA spec0 c
  q _ := fullShare
  owed _ := 0

theorem arrays0 (c : Dev nD) (w : Fin cfg0.W) : (layerDat0 V c).A w = V c (Pipeline.arrRef spec0 w) := by
  dsimp only [layerDat0]

theorem left0_0 (c : Dev nD) (t : Fin cfg0.N) : (layerDat0 V c).after 0 t = blk0 V c 0 t := by dsimp only [layerDat0]
theorem left0_1 (c : Dev nD) (t : Fin cfg0.N) : (layerDat0 V c).after 1 t = blk0 V c 1 t := by dsimp only [layerDat0]
theorem left0_2 (c : Dev nD) (t : Fin cfg0.N) : (layerDat0 V c).after 2 t = blk0 V c 2 t := by dsimp only [layerDat0]
theorem left0_3 (c : Dev nD) (t : Fin cfg0.N) : (layerDat0 V c).after 3 t = blk0 V c 3 t := by dsimp only [layerDat0]
theorem left0_4 (c : Dev nD) (t : Fin cfg0.N) : (layerDat0 V c).after 4 t = blk0 V c 4 t := by dsimp only [layerDat0]
theorem left0_5 (c : Dev nD) (t : Fin cfg0.N) : (layerDat0 V c).after 5 t = blk0 V c 5 t := by dsimp only [layerDat0]
theorem left0_6 (c : Dev nD) (t : Fin cfg0.N) : (layerDat0 V c).after 6 t = newEgo0 (blk0 V c 0 t) (blk0 V c 1 t) (blk0 V c 2 t) (blk0 V c 3 t) (blk0 V c 4 t) (blk0 V c 5 t) := by dsimp only [layerDat0]
theorem left0_7 (c : Dev nD) (t : Fin cfg0.N) : (layerDat0 V c).after 7 t = newNorm0 (blk0 V c 0 t) (blk0 V c 1 t) (blk0 V c 2 t) (blk0 V c 3 t) (blk0 V c 4 t) (blk0 V c 5 t) := by dsimp only [layerDat0]

theorem held0_0 (c : Dev nD) (t : Fin cfg0.N) (d) : (layerDat0 V c).before 0 t d = blk0 V c 0 t :=
  held0_0_of V (layerDat0 V c) (arrays0 V c 0) (left0_0 V c) t d
theorem held0_1 (c : Dev nD) (t : Fin cfg0.N) (d) : (layerDat0 V c).before 1 t d = blk0 V c 1 t :=
  held0_1_of V (layerDat0 V c) (arrays0 V c 1) (left0_1 V c) t d
theorem held0_2 (c : Dev nD) (t : Fin cfg0.N) (d) : (layerDat0 V c).before 2 t d = blk0 V c 2 t :=
  held0_2_of V (layerDat0 V c) (arrays0 V c 2) (left0_2 V c) t d
theorem held0_3 (c : Dev nD) (t : Fin cfg0.N) (d) : (layerDat0 V c).before 3 t d = blk0 V c 3 t :=
  held0_3_of V (layerDat0 V c) (arrays0 V c 3) (left0_3 V c) t d
theorem held0_4 (c : Dev nD) (t : Fin cfg0.N) (d) : (layerDat0 V c).before 4 t d = blk0 V c 4 t :=
  held0_4_of V (layerDat0 V c) (arrays0 V c 4) (left0_4 V c) t d
theorem held0_5 (c : Dev nD) (t : Fin cfg0.N) (d) : (layerDat0 V c).before 5 t d = blk0 V c 5 t :=
  held0_5_of V (layerDat0 V c) (arrays0 V c 5) (left0_5 V c) t d

/-- What the body is called with at point `t`, window by window, -/
def pointPre0 (c : Dev nD) (t : Fin cfg0.N) : sProp 𝕄 :=
  iprop((layerDat0 V c).Φ t.castSucc ∗ (layerDat0 V c).owesAt () t.castSucc
    ∗ (∃ d, owns (c : Thread nD τ) (st0_0 t) fullShare ((layerDat0 V c).before 0 t d))
    ∗ (∃ d, owns (c : Thread nD τ) (st0_1 t) fullShare ((layerDat0 V c).before 1 t d))
    ∗ (∃ d, owns (c : Thread nD τ) (st0_2 t) fullShare ((layerDat0 V c).before 2 t d))
    ∗ (∃ d, owns (c : Thread nD τ) (st0_3 t) fullShare ((layerDat0 V c).before 3 t d))
    ∗ (∃ d, owns (c : Thread nD τ) (st0_4 t) fullShare ((layerDat0 V c).before 4 t d))
    ∗ (∃ d, owns (c : Thread nD τ) (st0_5 t) fullShare ((layerDat0 V c).before 5 t d))
    ∗ (∃ d, owns (c : Thread nD τ) (st0_6 t) fullShare ((layerDat0 V c).before 6 t d))
    ∗ (∃ d, owns (c : Thread nD τ) (st0_7 t) fullShare ((layerDat0 V c).before 7 t d)))

/-- and what it returns. -/
def pointPost0 (c : Dev nD) (t : Fin cfg0.N) : sProp 𝕄 :=
  iprop((layerDat0 V c).Φ t.succ ∗ (layerDat0 V c).owesAt () t.succ
    ∗ owns (c : Thread nD τ) (st0_0 t) fullShare ((layerDat0 V c).after 0 t)
    ∗ owns (c : Thread nD τ) (st0_1 t) fullShare ((layerDat0 V c).after 1 t)
    ∗ owns (c : Thread nD τ) (st0_2 t) fullShare ((layerDat0 V c).after 2 t)
    ∗ owns (c : Thread nD τ) (st0_3 t) fullShare ((layerDat0 V c).after 3 t)
    ∗ owns (c : Thread nD τ) (st0_4 t) fullShare ((layerDat0 V c).after 4 t)
    ∗ owns (c : Thread nD τ) (st0_5 t) fullShare ((layerDat0 V c).after 5 t)
    ∗ owns (c : Thread nD τ) (st0_6 t) fullShare ((layerDat0 V c).after 6 t)
    ∗ owns (c : Thread nD τ) (st0_7 t) fullShare ((layerDat0 V c).after 7 t))

/-- The body at any point: the input buffers hold their blocks, so the body's triple applies; the invariant and the core's
    dues pass through unread. -/
theorem point_run0 (c : Dev nD) (t : Fin cfg0.N) :
    pointPre0 V c t ⊢ wp frame (wpE (defs₀ (F := F)) Variants.none c none) Set.univ (bodyAt0 t) (fun _ => pointPost0 V c t) := by
  unfold pointPre0 pointPost0 bodyAt0
  simp only [held0_0, held0_1, held0_2, held0_3, held0_4, held0_5]
  rw [show (layerDat0 V c).Φ t.succ = (layerDat0 V c).Φ t.castSucc from rfl,
    show (layerDat0 V c).owesAt () t.succ = (layerDat0 V c).owesAt () t.castSucc from rfl,
    left0_0, left0_1, left0_2, left0_3, left0_4, left0_5, left0_6, left0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_triple0 c Set.univ _ _ _ _ _ _ _ _ _ _ _ _ _ _ _ _ _ (blk0 V c 0 t) (blk0 V c 1 t) (blk0 V c 2 t) (blk0 V c 3 t) (blk0 V c 4 t) (blk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem every_point0 (c : Dev nD) : BodyObligation (layerDat0 (F := F) V c) (defs₀ (F := F)) Variants.none () Set.univ := fun t => by
  rw [bigSep_W0, bigSep_W0]
  exact point_run0 V c t

end Layer0

/-! # Layer 2: the pipeline of pallas_call 1, at the buffer contents `V` its region is entered with -/

section Layer1
variable (V : (c : Dev nD) → (b : Ref sig .tc) → Buf (Elt F) ((c : Thread nD τ).loc b))

/-- Window `w`'s block at grid point `t`: the rows `3000 t … 3000 t + 2999` of a node array, or a weight or bias whole. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether or not it was fetched there (a weight or
    bias is fetched once: its block index never moves). -/
theorem held1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- Input window 1's staging buffer holds its block at every point, whether or not it was fetched there (a weight or
    bias is fetched once: its block index never moves). -/
theorem held1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- Input window 2's staging buffer holds its block at every point, whether or not it was fetched there (a weight or
    bias is fetched once: its block index never moves). -/
theorem held1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-- Input window 3's staging buffer holds its block at every point, whether or not it was fetched there (a weight or
    bias is fetched once: its block index never moves). -/
theorem held1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

/-- Input window 4's staging buffer holds its block at every point, whether or not it was fetched there (a weight or
    bias is fetched once: its block index never moves). -/
theorem held1_4_of {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)

/-- Input window 5's staging buffer holds its block at every point, whether or not it was fetched there (a weight or
    bias is fetched once: its block index never moves). -/
theorem held1_5_of {c : Dev nD} (dat : Dat τ (Elt F) Unit ℕ (UR sig nD τ) ℕ cfg1 c) (hA : dat.A 5 = V c (Pipeline.arrRef spec1 5))
    (hafter : ∀ t, dat.after 5 t = blk1 V c 5 t) (t : Fin cfg1.N) (d) : dat.before 5 t d = blk1 V c 5 t :=
  (dat.before_in_eq_fetched 5 rfl (fun _ => rfl) (fun _ _ _ => rfl) (fun t => by rw [hafter]; unfold Dat.blockOf blk1; rw [hA]; try rfl) t d).trans
    (by unfold Dat.fetched Dat.blockOf blk1; rw [hA]; try rfl)

/-- What the body leaves in output window 6's buffer: the new embeddings of the block's 3000 nodes, one store of the whole block. -/
def newEgo1 (x0 : Vec F S3000x64 .f32) (x1 : Vec F S3000x64 .f32) (x2 : Vec F S64x64 .f32) (x3 : Vec F S1x64 .f32) (x4 : Vec F S64x64 .f32) (x5 : Vec F S1x64 .f32) : Vec F S3000x64 .f32 :=
  View.canon [⟨rowsRect, k1_pay2 (View.ld x0 rowsRect) (View.ld x1 rowsRect) (View.ld x2 weightRect) (View.ld x3 biasRect) (View.ld x4 weightRect) (View.ld x5 biasRect)⟩]

/-- What it leaves in output window 7's buffer: those rows divided by their Euclidean norms (floored at the epsilon). -/
def newNorm1 (x0 : Vec F S3000x64 .f32) (x1 : Vec F S3000x64 .f32) (x2 : Vec F S64x64 .f32) (x3 : Vec F S1x64 .f32) (x4 : Vec F S64x64 .f32) (x5 : Vec F S1x64 .f32) : Vec F S3000x64 .f32 :=
  View.canon [⟨rowsRect, k1_pay1 (k1_pay2 (View.ld x0 rowsRect) (View.ld x1 rowsRect) (View.ld x2 weightRect) (View.ld x3 biasRect) (View.ld x4 weightRect) (View.ld x5 biasRect)) (k1_pay3 (View.ld x0 rowsRect) (View.ld x1 rowsRect) (View.ld x2 weightRect) (View.ld x3 biasRect) (View.ld x4 weightRect) (View.ld x5 biasRect))⟩]

/-- One store through the whole-buffer rectangle covers the buffer. -/
theorem covers1 (p0 : Vec F S3000x64 .f32) (y : S3000x64.Idx) :
    ∃ pc ∈ ([⟨rowsRect, p0⟩] : List (View.Piece (Elt F) S3000x64 .f32)), y ∈ pc.1.set :=
  View.cover_of_tiled [⟨rowsRect, p0⟩] S3000x64.size (by rfl) y

set_option maxHeartbeats 4000000 in
/-- The body on whole staging buffers: the six inputs at read contents `x0 … x5`, the two outputs at anything. It runs to
    the end with the inputs as they were, output 6 at `newEgo1` and output 7 at `newNorm1` of the inputs. -/
theorem body_triple1 (c : Dev nD) (E : Set ℕ) (i : grid1.Coords) (a0 : Memref sig .tc .vmem S3000x64 .f32) (h0 : a0.IsWhole) (a1 : Memref sig .tc .vmem S3000x64 .f32) (h1 : a1.IsWhole) (a2 : Memref sig .tc .vmem S64x64 .f32) (h2 : a2.IsWhole) (a3 : Memref sig .tc .vmem S1x64 .f32) (h3 : a3.IsWhole) (a4 : Memref sig .tc .vmem S64x64 .f32) (h4 : a4.IsWhole) (a5 : Memref sig .tc .vmem S1x64 .f32) (h5 : a5.IsWhole) (a6 : Memref sig .tc .vmem S3000x64 .f32) (h6 : a6.IsWhole) (a7 : Memref sig .tc .vmem S3000x64 .f32) (h7 : a7.IsWhole)
    (x0 : Vec F S3000x64 .f32) (x1 : Vec F S3000x64 .f32) (x2 : Vec F S64x64 .f32) (x3 : Vec F S1x64 .f32) (x4 : Vec F S64x64 .f32) (x5 : Vec F S1x64 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ owns (c : Thread nD τ) a5 fullShare x5
        ∗ (∃ d, owns (c : Thread nD τ) a6 fullShare d) ∗ (∃ d, owns (c : Thread nD τ) a7 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4 ∗ owns (c : Thread nD τ) a5 fullShare x5
            ∗ owns (c : Thread nD τ) a6 fullShare (newEgo1 x0 x1 x2 x3 x4 x5) ∗ owns (c : Thread nD τ) a7 fullShare (newNorm1 x0 x1 x2 x3 x4 x5)) -∗ K ⟨⟩))
      ⊢ wp frame (wpE (defs₀ (F := F)) Variants.none c none) E (cc1__ngcf_layer_kernel i a0 h0 a1 h1 a2 h2 a3 h3 a4 h4 a5 h5 a6 h6 a7 h7) K := by
  simp only [cc1__ngcf_layer_kernel_eq_skeleton]; unfold cc1__ngcf_layer_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (covers1 _)
  iexists _; isplitr
  swap; · iexact H7
  ipureintro
  exact View.read_writes_eq_canon _ _ _ (covers1 _)

/-- The proof data of layer 2's pipeline on core `c`: the arrays as the region finds them; after the body at point `t` each
    input's buffer still at its block, output 6's at the block's new embeddings, output 7's at their normalised rows; the
    invariant is the scoped rest and the generator register, untouched; nothing owed; full shares. -/
def layerDat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => newEgo1 (blk1 V c 0 t) (blk1 V c 1 t) (blk1 V c 2 t) (blk1 V c 3 t) (blk1 V c 4 t) (blk1 V c 5 t)
    | ⟨7, _⟩ => newNorm1 (blk1 V c 0 t) (blk1 V c 1 t) (blk1 V c 2 t) (blk1 V c 3 t) (blk1 V c 4 t) (blk1 V c 5 t)
  Φ _ := Pipeline.ΦA spec1 c
  q _ := fullShare
  owed _ := 0

theorem arrays1 (c : Dev nD) (w : Fin cfg1.W) : (layerDat1 V c).A w = V c (Pipeline.arrRef spec1 w) := by
  dsimp only [layerDat1]

theorem left1_0 (c : Dev nD) (t : Fin cfg1.N) : (layerDat1 V c).after 0 t = blk1 V c 0 t := by dsimp only [layerDat1]
theorem left1_1 (c : Dev nD) (t : Fin cfg1.N) : (layerDat1 V c).after 1 t = blk1 V c 1 t := by dsimp only [layerDat1]
theorem left1_2 (c : Dev nD) (t : Fin cfg1.N) : (layerDat1 V c).after 2 t = blk1 V c 2 t := by dsimp only [layerDat1]
theorem left1_3 (c : Dev nD) (t : Fin cfg1.N) : (layerDat1 V c).after 3 t = blk1 V c 3 t := by dsimp only [layerDat1]
theorem left1_4 (c : Dev nD) (t : Fin cfg1.N) : (layerDat1 V c).after 4 t = blk1 V c 4 t := by dsimp only [layerDat1]
theorem left1_5 (c : Dev nD) (t : Fin cfg1.N) : (layerDat1 V c).after 5 t = blk1 V c 5 t := by dsimp only [layerDat1]
theorem left1_6 (c : Dev nD) (t : Fin cfg1.N) : (layerDat1 V c).after 6 t = newEgo1 (blk1 V c 0 t) (blk1 V c 1 t) (blk1 V c 2 t) (blk1 V c 3 t) (blk1 V c 4 t) (blk1 V c 5 t) := by dsimp only [layerDat1]
theorem left1_7 (c : Dev nD) (t : Fin cfg1.N) : (layerDat1 V c).after 7 t = newNorm1 (blk1 V c 0 t) (blk1 V c 1 t) (blk1 V c 2 t) (blk1 V c 3 t) (blk1 V c 4 t) (blk1 V c 5 t) := by dsimp only [layerDat1]

theorem held1_0 (c : Dev nD) (t : Fin cfg1.N) (d) : (layerDat1 V c).before 0 t d = blk1 V c 0 t :=
  held1_0_of V (layerDat1 V c) (arrays1 V c 0) (left1_0 V c) t d
theorem held1_1 (c : Dev nD) (t : Fin cfg1.N) (d) : (layerDat1 V c).before 1 t d = blk1 V c 1 t :=
  held1_1_of V (layerDat1 V c) (arrays1 V c 1) (left1_1 V c) t d
theorem held1_2 (c : Dev nD) (t : Fin cfg1.N) (d) : (layerDat1 V c).before 2 t d = blk1 V c 2 t :=
  held1_2_of V (layerDat1 V c) (arrays1 V c 2) (left1_2 V c) t d
theorem held1_3 (c : Dev nD) (t : Fin cfg1.N) (d) : (layerDat1 V c).before 3 t d = blk1 V c 3 t :=
  held1_3_of V (layerDat1 V c) (arrays1 V c 3) (left1_3 V c) t d
theorem held1_4 (c : Dev nD) (t : Fin cfg1.N) (d) : (layerDat1 V c).before 4 t d = blk1 V c 4 t :=
  held1_4_of V (layerDat1 V c) (arrays1 V c 4) (left1_4 V c) t d
theorem held1_5 (c : Dev nD) (t : Fin cfg1.N) (d) : (layerDat1 V c).before 5 t d = blk1 V c 5 t :=
  held1_5_of V (layerDat1 V c) (arrays1 V c 5) (left1_5 V c) t d

/-- What the body is called with at point `t`, window by window, -/
def pointPre1 (c : Dev nD) (t : Fin cfg1.N) : sProp 𝕄 :=
  iprop((layerDat1 V c).Φ t.castSucc ∗ (layerDat1 V c).owesAt () t.castSucc
    ∗ (∃ d, owns (c : Thread nD τ) (st1_0 t) fullShare ((layerDat1 V c).before 0 t d))
    ∗ (∃ d, owns (c : Thread nD τ) (st1_1 t) fullShare ((layerDat1 V c).before 1 t d))
    ∗ (∃ d, owns (c : Thread nD τ) (st1_2 t) fullShare ((layerDat1 V c).before 2 t d))
    ∗ (∃ d, owns (c : Thread nD τ) (st1_3 t) fullShare ((layerDat1 V c).before 3 t d))
    ∗ (∃ d, owns (c : Thread nD τ) (st1_4 t) fullShare ((layerDat1 V c).before 4 t d))
    ∗ (∃ d, owns (c : Thread nD τ) (st1_5 t) fullShare ((layerDat1 V c).before 5 t d))
    ∗ (∃ d, owns (c : Thread nD τ) (st1_6 t) fullShare ((layerDat1 V c).before 6 t d))
    ∗ (∃ d, owns (c : Thread nD τ) (st1_7 t) fullShare ((layerDat1 V c).before 7 t d)))

/-- and what it returns. -/
def pointPost1 (c : Dev nD) (t : Fin cfg1.N) : sProp 𝕄 :=
  iprop((layerDat1 V c).Φ t.succ ∗ (layerDat1 V c).owesAt () t.succ
    ∗ owns (c : Thread nD τ) (st1_0 t) fullShare ((layerDat1 V c).after 0 t)
    ∗ owns (c : Thread nD τ) (st1_1 t) fullShare ((layerDat1 V c).after 1 t)
    ∗ owns (c : Thread nD τ) (st1_2 t) fullShare ((layerDat1 V c).after 2 t)
    ∗ owns (c : Thread nD τ) (st1_3 t) fullShare ((layerDat1 V c).after 3 t)
    ∗ owns (c : Thread nD τ) (st1_4 t) fullShare ((layerDat1 V c).after 4 t)
    ∗ owns (c : Thread nD τ) (st1_5 t) fullShare ((layerDat1 V c).after 5 t)
    ∗ owns (c : Thread nD τ) (st1_6 t) fullShare ((layerDat1 V c).after 6 t)
    ∗ owns (c : Thread nD τ) (st1_7 t) fullShare ((layerDat1 V c).after 7 t))

/-- The body at any point: the input buffers hold their blocks, so the body's triple applies; the invariant and the core's
    dues pass through unread. -/
theorem point_run1 (c : Dev nD) (t : Fin cfg1.N) :
    pointPre1 V c t ⊢ wp frame (wpE (defs₀ (F := F)) Variants.none c none) Set.univ (bodyAt1 t) (fun _ => pointPost1 V c t) := by
  unfold pointPre1 pointPost1 bodyAt1
  simp only [held1_0, held1_1, held1_2, held1_3, held1_4, held1_5]
  rw [show (layerDat1 V c).Φ t.succ = (layerDat1 V c).Φ t.castSucc from rfl,
    show (layerDat1 V c).owesAt () t.succ = (layerDat1 V c).owesAt () t.castSucc from rfl,
    left1_0, left1_1, left1_2, left1_3, left1_4, left1_5, left1_6, left1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_triple1 c Set.univ _ _ _ _ _ _ _ _ _ _ _ _ _ _ _ _ _ (blk1 V c 0 t) (blk1 V c 1 t) (blk1 V c 2 t) (blk1 V c 3 t) (blk1 V c 4 t) (blk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem every_point1 (c : Dev nD) : BodyObligation (layerDat1 (F := F) V c) (defs₀ (F := F)) Variants.none () Set.univ := fun t => by
  rw [bigSep_W1, bigSep_W1]
  exact point_run1 V c t

end Layer1

/-! # Layer 3: the pipeline of pallas_call 2, at the buffer contents `V` its region is entered with -/

section Layer2
variable (V : (c : Dev nD) → (b : Ref sig .tc) → Buf (Elt F) ((c : Thread nD τ).loc b))

/-- Window `w`'s block at grid point `t`: the rows `3000 t … 3000 t + 2999` of a node array, or a weight or bias whole. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, whether or not it was fetched there (a weight or
    bias is fetched once: its block index never moves). -/
theorem held2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-- Input window 1's staging buffer holds its block at every point, whether or not it was fetched there (a weight or
    bias is fetched once: its block index never moves). -/
theorem held2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-- Input window 2's staging buffer holds its block at every point, whether or not it was fetched there (a weight or
    bias is fetched once: its block index never moves). -/
theorem held2_2_of {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)

/-- Input window 3's staging buffer holds its block at every point, whether or not it was fetched there (a weight or
    bias is fetched once: its block index never moves). -/
theorem held2_3_of {c : Dev nD} (dat : Dat τ (Elt F) Unit ℕ (UR sig nD τ) ℕ cfg2 c) (hA : dat.A 3 = V c (Pipeline.arrRef spec2 3))
    (hafter : ∀ t, dat.after 3 t = blk2 V c 3 t) (t : Fin cfg2.N) (d) : dat.before 3 t d = blk2 V c 3 t :=
  (dat.before_in_eq_fetched 3 rfl (fun _ => rfl) (fun _ _ _ => rfl) (fun t => by rw [hafter]; unfold Dat.blockOf blk2; rw [hA]; try rfl) t d).trans
    (by unfold Dat.fetched Dat.blockOf blk2; rw [hA]; try rfl)

/-- Input window 4's staging buffer holds its block at every point, whether or not it was fetched there (a weight or
    bias is fetched once: its block index never moves). -/
theorem held2_4_of {c : Dev nD} (dat : Dat τ (Elt F) Unit ℕ (UR sig nD τ) ℕ cfg2 c) (hA : dat.A 4 = V c (Pipeline.arrRef spec2 4))
    (hafter : ∀ t, dat.after 4 t = blk2 V c 4 t) (t : Fin cfg2.N) (d) : dat.before 4 t d = blk2 V c 4 t :=
  (dat.before_in_eq_fetched 4 rfl (fun _ => rfl) (fun _ _ _ => rfl) (fun t => by rw [hafter]; unfold Dat.blockOf blk2; rw [hA]; try rfl) t d).trans
    (by unfold Dat.fetched Dat.blockOf blk2; rw [hA]; try rfl)

/-- Input window 5's staging buffer holds its block at every point, whether or not it was fetched there (a weight or
    bias is fetched once: its block index never moves). -/
theorem held2_5_of {c : Dev nD} (dat : Dat τ (Elt F) Unit ℕ (UR sig nD τ) ℕ cfg2 c) (hA : dat.A 5 = V c (Pipeline.arrRef spec2 5))
    (hafter : ∀ t, dat.after 5 t = blk2 V c 5 t) (t : Fin cfg2.N) (d) : dat.before 5 t d = blk2 V c 5 t :=
  (dat.before_in_eq_fetched 5 rfl (fun _ => rfl) (fun _ _ _ => rfl) (fun t => by rw [hafter]; unfold Dat.blockOf blk2; rw [hA]; try rfl) t d).trans
    (by unfold Dat.fetched Dat.blockOf blk2; rw [hA]; try rfl)

/-- What the body leaves in output window 6's buffer: the new embeddings of the block's 3000 nodes, one store of the whole block. -/
def newEgo2 (x0 : Vec F S3000x64 .f32) (x1 : Vec F S3000x64 .f32) (x2 : Vec F S64x64 .f32) (x3 : Vec F S1x64 .f32) (x4 : Vec F S64x64 .f32) (x5 : Vec F S1x64 .f32) : Vec F S3000x64 .f32 :=
  View.canon [⟨rowsRect, k2_pay2 (View.ld x0 rowsRect) (View.ld x1 rowsRect) (View.ld x2 weightRect) (View.ld x3 biasRect) (View.ld x4 weightRect) (View.ld x5 biasRect)⟩]

/-- What it leaves in output window 7's buffer: those rows divided by their Euclidean norms (floored at the epsilon). -/
def newNorm2 (x0 : Vec F S3000x64 .f32) (x1 : Vec F S3000x64 .f32) (x2 : Vec F S64x64 .f32) (x3 : Vec F S1x64 .f32) (x4 : Vec F S64x64 .f32) (x5 : Vec F S1x64 .f32) : Vec F S3000x64 .f32 :=
  View.canon [⟨rowsRect, k2_pay1 (k2_pay2 (View.ld x0 rowsRect) (View.ld x1 rowsRect) (View.ld x2 weightRect) (View.ld x3 biasRect) (View.ld x4 weightRect) (View.ld x5 biasRect)) (k2_pay3 (View.ld x0 rowsRect) (View.ld x1 rowsRect) (View.ld x2 weightRect) (View.ld x3 biasRect) (View.ld x4 weightRect) (View.ld x5 biasRect))⟩]

/-- One store through the whole-buffer rectangle covers the buffer. -/
theorem covers2 (p0 : Vec F S3000x64 .f32) (y : S3000x64.Idx) :
    ∃ pc ∈ ([⟨rowsRect, p0⟩] : List (View.Piece (Elt F) S3000x64 .f32)), y ∈ pc.1.set :=
  View.cover_of_tiled [⟨rowsRect, p0⟩] S3000x64.size (by rfl) y

set_option maxHeartbeats 4000000 in
/-- The body on whole staging buffers: the six inputs at read contents `x0 … x5`, the two outputs at anything. It runs to
    the end with the inputs as they were, output 6 at `newEgo2` and output 7 at `newNorm2` of the inputs. -/
theorem body_triple2 (c : Dev nD) (E : Set ℕ) (i : grid2.Coords) (a0 : Memref sig .tc .vmem S3000x64 .f32) (h0 : a0.IsWhole) (a1 : Memref sig .tc .vmem S3000x64 .f32) (h1 : a1.IsWhole) (a2 : Memref sig .tc .vmem S64x64 .f32) (h2 : a2.IsWhole) (a3 : Memref sig .tc .vmem S1x64 .f32) (h3 : a3.IsWhole) (a4 : Memref sig .tc .vmem S64x64 .f32) (h4 : a4.IsWhole) (a5 : Memref sig .tc .vmem S1x64 .f32) (h5 : a5.IsWhole) (a6 : Memref sig .tc .vmem S3000x64 .f32) (h6 : a6.IsWhole) (a7 : Memref sig .tc .vmem S3000x64 .f32) (h7 : a7.IsWhole)
    (x0 : Vec F S3000x64 .f32) (x1 : Vec F S3000x64 .f32) (x2 : Vec F S64x64 .f32) (x3 : Vec F S1x64 .f32) (x4 : Vec F S64x64 .f32) (x5 : Vec F S1x64 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ owns (c : Thread nD τ) a5 fullShare x5
        ∗ (∃ d, owns (c : Thread nD τ) a6 fullShare d) ∗ (∃ d, owns (c : Thread nD τ) a7 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4 ∗ owns (c : Thread nD τ) a5 fullShare x5
            ∗ owns (c : Thread nD τ) a6 fullShare (newEgo2 x0 x1 x2 x3 x4 x5) ∗ owns (c : Thread nD τ) a7 fullShare (newNorm2 x0 x1 x2 x3 x4 x5)) -∗ K ⟨⟩))
      ⊢ wp frame (wpE (defs₀ (F := F)) Variants.none c none) E (cc2__ngcf_layer_kernel i a0 h0 a1 h1 a2 h2 a3 h3 a4 h4 a5 h5 a6 h6 a7 h7) K := by
  simp only [cc2__ngcf_layer_kernel_eq_skeleton]; unfold cc2__ngcf_layer_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (covers2 _)
  iexists _; isplitr
  swap; · iexact H7
  ipureintro
  exact View.read_writes_eq_canon _ _ _ (covers2 _)

/-- The proof data of layer 3's pipeline on core `c`: the arrays as the region finds them; after the body at point `t` each
    input's buffer still at its block, output 6's at the block's new embeddings, output 7's at their normalised rows; the
    invariant is the scoped rest and the generator register, untouched; nothing owed; full shares. -/
def layerDat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => blk2 V c 5 t
    | ⟨6, _⟩ => newEgo2 (blk2 V c 0 t) (blk2 V c 1 t) (blk2 V c 2 t) (blk2 V c 3 t) (blk2 V c 4 t) (blk2 V c 5 t)
    | ⟨7, _⟩ => newNorm2 (blk2 V c 0 t) (blk2 V c 1 t) (blk2 V c 2 t) (blk2 V c 3 t) (blk2 V c 4 t) (blk2 V c 5 t)
  Φ _ := Pipeline.ΦA spec2 c
  q _ := fullShare
  owed _ := 0

theorem arrays2 (c : Dev nD) (w : Fin cfg2.W) : (layerDat2 V c).A w = V c (Pipeline.arrRef spec2 w) := by
  dsimp only [layerDat2]

theorem left2_0 (c : Dev nD) (t : Fin cfg2.N) : (layerDat2 V c).after 0 t = blk2 V c 0 t := by dsimp only [layerDat2]
theorem left2_1 (c : Dev nD) (t : Fin cfg2.N) : (layerDat2 V c).after 1 t = blk2 V c 1 t := by dsimp only [layerDat2]
theorem left2_2 (c : Dev nD) (t : Fin cfg2.N) : (layerDat2 V c).after 2 t = blk2 V c 2 t := by dsimp only [layerDat2]
theorem left2_3 (c : Dev nD) (t : Fin cfg2.N) : (layerDat2 V c).after 3 t = blk2 V c 3 t := by dsimp only [layerDat2]
theorem left2_4 (c : Dev nD) (t : Fin cfg2.N) : (layerDat2 V c).after 4 t = blk2 V c 4 t := by dsimp only [layerDat2]
theorem left2_5 (c : Dev nD) (t : Fin cfg2.N) : (layerDat2 V c).after 5 t = blk2 V c 5 t := by dsimp only [layerDat2]
theorem left2_6 (c : Dev nD) (t : Fin cfg2.N) : (layerDat2 V c).after 6 t = newEgo2 (blk2 V c 0 t) (blk2 V c 1 t) (blk2 V c 2 t) (blk2 V c 3 t) (blk2 V c 4 t) (blk2 V c 5 t) := by dsimp only [layerDat2]
theorem left2_7 (c : Dev nD) (t : Fin cfg2.N) : (layerDat2 V c).after 7 t = newNorm2 (blk2 V c 0 t) (blk2 V c 1 t) (blk2 V c 2 t) (blk2 V c 3 t) (blk2 V c 4 t) (blk2 V c 5 t) := by dsimp only [layerDat2]

theorem held2_0 (c : Dev nD) (t : Fin cfg2.N) (d) : (layerDat2 V c).before 0 t d = blk2 V c 0 t :=
  held2_0_of V (layerDat2 V c) (arrays2 V c 0) (left2_0 V c) t d
theorem held2_1 (c : Dev nD) (t : Fin cfg2.N) (d) : (layerDat2 V c).before 1 t d = blk2 V c 1 t :=
  held2_1_of V (layerDat2 V c) (arrays2 V c 1) (left2_1 V c) t d
theorem held2_2 (c : Dev nD) (t : Fin cfg2.N) (d) : (layerDat2 V c).before 2 t d = blk2 V c 2 t :=
  held2_2_of V (layerDat2 V c) (arrays2 V c 2) (left2_2 V c) t d
theorem held2_3 (c : Dev nD) (t : Fin cfg2.N) (d) : (layerDat2 V c).before 3 t d = blk2 V c 3 t :=
  held2_3_of V (layerDat2 V c) (arrays2 V c 3) (left2_3 V c) t d
theorem held2_4 (c : Dev nD) (t : Fin cfg2.N) (d) : (layerDat2 V c).before 4 t d = blk2 V c 4 t :=
  held2_4_of V (layerDat2 V c) (arrays2 V c 4) (left2_4 V c) t d
theorem held2_5 (c : Dev nD) (t : Fin cfg2.N) (d) : (layerDat2 V c).before 5 t d = blk2 V c 5 t :=
  held2_5_of V (layerDat2 V c) (arrays2 V c 5) (left2_5 V c) t d

/-- What the body is called with at point `t`, window by window, -/
def pointPre2 (c : Dev nD) (t : Fin cfg2.N) : sProp 𝕄 :=
  iprop((layerDat2 V c).Φ t.castSucc ∗ (layerDat2 V c).owesAt () t.castSucc
    ∗ (∃ d, owns (c : Thread nD τ) (st2_0 t) fullShare ((layerDat2 V c).before 0 t d))
    ∗ (∃ d, owns (c : Thread nD τ) (st2_1 t) fullShare ((layerDat2 V c).before 1 t d))
    ∗ (∃ d, owns (c : Thread nD τ) (st2_2 t) fullShare ((layerDat2 V c).before 2 t d))
    ∗ (∃ d, owns (c : Thread nD τ) (st2_3 t) fullShare ((layerDat2 V c).before 3 t d))
    ∗ (∃ d, owns (c : Thread nD τ) (st2_4 t) fullShare ((layerDat2 V c).before 4 t d))
    ∗ (∃ d, owns (c : Thread nD τ) (st2_5 t) fullShare ((layerDat2 V c).before 5 t d))
    ∗ (∃ d, owns (c : Thread nD τ) (st2_6 t) fullShare ((layerDat2 V c).before 6 t d))
    ∗ (∃ d, owns (c : Thread nD τ) (st2_7 t) fullShare ((layerDat2 V c).before 7 t d)))

/-- and what it returns. -/
def pointPost2 (c : Dev nD) (t : Fin cfg2.N) : sProp 𝕄 :=
  iprop((layerDat2 V c).Φ t.succ ∗ (layerDat2 V c).owesAt () t.succ
    ∗ owns (c : Thread nD τ) (st2_0 t) fullShare ((layerDat2 V c).after 0 t)
    ∗ owns (c : Thread nD τ) (st2_1 t) fullShare ((layerDat2 V c).after 1 t)
    ∗ owns (c : Thread nD τ) (st2_2 t) fullShare ((layerDat2 V c).after 2 t)
    ∗ owns (c : Thread nD τ) (st2_3 t) fullShare ((layerDat2 V c).after 3 t)
    ∗ owns (c : Thread nD τ) (st2_4 t) fullShare ((layerDat2 V c).after 4 t)
    ∗ owns (c : Thread nD τ) (st2_5 t) fullShare ((layerDat2 V c).after 5 t)
    ∗ owns (c : Thread nD τ) (st2_6 t) fullShare ((layerDat2 V c).after 6 t)
    ∗ owns (c : Thread nD τ) (st2_7 t) fullShare ((layerDat2 V c).after 7 t))

/-- The body at any point: the input buffers hold their blocks, so the body's triple applies; the invariant and the core's
    dues pass through unread. -/
theorem point_run2 (c : Dev nD) (t : Fin cfg2.N) :
    pointPre2 V c t ⊢ wp frame (wpE (defs₀ (F := F)) Variants.none c none) Set.univ (bodyAt2 t) (fun _ => pointPost2 V c t) := by
  unfold pointPre2 pointPost2 bodyAt2
  simp only [held2_0, held2_1, held2_2, held2_3, held2_4, held2_5]
  rw [show (layerDat2 V c).Φ t.succ = (layerDat2 V c).Φ t.castSucc from rfl,
    show (layerDat2 V c).owesAt () t.succ = (layerDat2 V c).owesAt () t.castSucc from rfl,
    left2_0, left2_1, left2_2, left2_3, left2_4, left2_5, left2_6, left2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_triple2 c Set.univ _ _ _ _ _ _ _ _ _ _ _ _ _ _ _ _ _ (blk2 V c 0 t) (blk2 V c 1 t) (blk2 V c 2 t) (blk2 V c 3 t) (blk2 V c 4 t) (blk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem every_point2 (c : Dev nD) : BodyObligation (layerDat2 (F := F) V c) (defs₀ (F := F)) Variants.none () Set.univ := fun t => by
  rw [bigSep_W2, bigSep_W2]
  exact point_run2 V c t

end Layer2

/-! ## No host operation allocates a buffer -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor

/-! # The run: @main's seven items from the launch to the return -/

variable (m : (ℓ : Loc nD τ sig) → Buf (Elt F) ℓ)

/-- Core `c`'s buffers at launch. -/
abbrev atLaunch : Dev nD → Valuation τ sig (Elt F) := fun c b => m (c, b)
/-- After the first host stretch (the stacked embeddings, the first neighbourhood sums, the first layer's weights). -/
abbrev atIn0 : Dev nD → Valuation τ sig (Elt F) := fun c => StableHlo.after hostOps0 (atLaunch m c)
abbrev vIn0 : (c : Dev nD) → (b : Ref sig .tc) → Buf (Elt F) ((c : Thread nD τ).loc b) := fun c b => atIn0 m c b

/-- At layer 1's exit: its arrays at what the pipeline leaves (the inputs as entered, each output's write-backs folded over the
    thirty points), every other buffer as entered. -/
def atOut0 (c : Dev nD) : Valuation τ sig (Elt F) :=
  Pipeline.withArrays spec0 c (atIn0 m c) fun w => (layerDat0 (vIn0 m) c).arrAt w cfg0.N
theorem atOut0_arr (c : Dev nD) (w : Fin cfg0.W) :
    atOut0 m c (Proc.devRef .tc (Pipeline.arrRef spec0 w)) = (layerDat0 (vIn0 m) c).arrAt w cfg0.N := by
  unfold atOut0; exact Pipeline.withArrays_arr spec0 launch0.win.arr_inj c _ _ w
theorem atOut0_rest (c : Dev nD) (b : Ref sig .tc) (hb : ∀ w, Pipeline.arrRef spec0 w ≠ b) :
    atOut0 m c (Proc.devRef .tc b) = atIn0 m c (Proc.devRef .tc b) := by
  unfold atOut0; exact Pipeline.withArrays_of_ne spec0 c _ _ b hb
/-- The same contents read at the TensorCore's references. -/
abbrev vOut0 : (c : Dev nD) → (b : Ref sig .tc) → Buf (Elt F) ((c : Thread nD τ).loc b) := fun c b => atOut0 m c b
theorem written0 (c : Dev nD) (w : Fin cfg0.W) : (layerDat0 (vIn0 m) c).arrAt w cfg0.N = vOut0 m c (Pipeline.arrRef spec0 w) :=
  (atOut0_arr m c w).symm
theorem kept0 (c : Dev nD) : ∀ b, b ∉ Finset.univ.image (Pipeline.arrRef spec0) → vOut0 m c b = vIn0 m c b :=
  fun b hb => atOut0_rest m c b fun w e => hb (Finset.mem_image.mpr ⟨w, Finset.mem_univ _, e⟩)

/-- After the second host stretch. -/
abbrev atIn1 : Dev nD → Valuation τ sig (Elt F) := fun c => StableHlo.after hostOps1 (atOut0 m c)
abbrev vIn1 : (c : Dev nD) → (b : Ref sig .tc) → Buf (Elt F) ((c : Thread nD τ).loc b) := fun c b => atIn1 m c b

/-- At layer 2's exit: its arrays at what the pipeline leaves (the inputs as entered, each output's write-backs folded over the
    thirty points), every other buffer as entered. -/
def atOut1 (c : Dev nD) : Valuation τ sig (Elt F) :=
  Pipeline.withArrays spec1 c (atIn1 m c) fun w => (layerDat1 (vIn1 m) c).arrAt w cfg1.N
theorem atOut1_arr (c : Dev nD) (w : Fin cfg1.W) :
    atOut1 m c (Proc.devRef .tc (Pipeline.arrRef spec1 w)) = (layerDat1 (vIn1 m) c).arrAt w cfg1.N := by
  unfold atOut1; exact Pipeline.withArrays_arr spec1 launch1.win.arr_inj c _ _ w
theorem atOut1_rest (c : Dev nD) (b : Ref sig .tc) (hb : ∀ w, Pipeline.arrRef spec1 w ≠ b) :
    atOut1 m c (Proc.devRef .tc b) = atIn1 m c (Proc.devRef .tc b) := by
  unfold atOut1; exact Pipeline.withArrays_of_ne spec1 c _ _ b hb
/-- The same contents read at the TensorCore's references. -/
abbrev vOut1 : (c : Dev nD) → (b : Ref sig .tc) → Buf (Elt F) ((c : Thread nD τ).loc b) := fun c b => atOut1 m c b
theorem written1 (c : Dev nD) (w : Fin cfg1.W) : (layerDat1 (vIn1 m) c).arrAt w cfg1.N = vOut1 m c (Pipeline.arrRef spec1 w) :=
  (atOut1_arr m c w).symm
theorem kept1 (c : Dev nD) : ∀ b, b ∉ Finset.univ.image (Pipeline.arrRef spec1) → vOut1 m c b = vIn1 m c b :=
  fun b hb => atOut1_rest m c b fun w e => hb (Finset.mem_image.mpr ⟨w, Finset.mem_univ _, e⟩)

/-- After the third host stretch. -/
abbrev atIn2 : Dev nD → Valuation τ sig (Elt F) := fun c => StableHlo.after hostOps2 (atOut1 m c)
abbrev vIn2 : (c : Dev nD) → (b : Ref sig .tc) → Buf (Elt F) ((c : Thread nD τ).loc b) := fun c b => atIn2 m c b

/-- At layer 3's exit: its arrays at what the pipeline leaves (the inputs as entered, each output's write-backs folded over the
    thirty points), every other buffer as entered. -/
def atOut2 (c : Dev nD) : Valuation τ sig (Elt F) :=
  Pipeline.withArrays spec2 c (atIn2 m c) fun w => (layerDat2 (vIn2 m) c).arrAt w cfg2.N
theorem atOut2_arr (c : Dev nD) (w : Fin cfg2.W) :
    atOut2 m c (Proc.devRef .tc (Pipeline.arrRef spec2 w)) = (layerDat2 (vIn2 m) c).arrAt w cfg2.N := by
  unfold atOut2; exact Pipeline.withArrays_arr spec2 launch2.win.arr_inj c _ _ w
theorem atOut2_rest (c : Dev nD) (b : Ref sig .tc) (hb : ∀ w, Pipeline.arrRef spec2 w ≠ b) :
    atOut2 m c (Proc.devRef .tc b) = atIn2 m c (Proc.devRef .tc b) := by
  unfold atOut2; exact Pipeline.withArrays_of_ne spec2 c _ _ b hb
/-- The same contents read at the TensorCore's references. -/
abbrev vOut2 : (c : Dev nD) → (b : Ref sig .tc) → Buf (Elt F) ((c : Thread nD τ).loc b) := fun c b => atOut2 m c b
theorem written2 (c : Dev nD) (w : Fin cfg2.W) : (layerDat2 (vIn2 m) c).arrAt w cfg2.N = vOut2 m c (Pipeline.arrRef spec2 w) :=
  (atOut2_arr m c w).symm
theorem kept2 (c : Dev nD) : ∀ b, b ∉ Finset.univ.image (Pipeline.arrRef spec2) → vOut2 m c b = vIn2 m c b :=
  fun b hb => atOut2_rest m c b fun w e => hb (Finset.mem_image.mpr ⟨w, Finset.mem_univ _, e⟩)

/-- After the last host stretch (the four blocks of columns joined, the users' and the items' rows cut out). -/
abbrev atEnd : Dev nD → Valuation τ sig (Elt F) := fun c => StableHlo.after hostOps3 (atOut2 m c)

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => layerDat0 (vIn0 m) c
  | ⟨1, _⟩ => fun c => layerDat1 (vIn1 m) c
  | ⟨2, _⟩ => fun c => layerDat2 (vIn2 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev Rest (c : Dev nD) : sProp 𝕄 := iprop((∃ r, prngReg c r) ∗ ∃ W, owes (c : Thread nD τ) (0 : CellTallies nD τ sig Unit) W)
/-- A host stretch as an item: its operations over the unscoped buffers from the contents `W`. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the dues. -/
abbrev AtEnd (c : Dev nD) : sProp 𝕄 := iprop(StableHlo.held (c : Thread nD τ) (Pipeline.ucRefs τ sig) (atEnd m c) ∗ ∃ r, prngReg c r)

/-! ## The regions as items -/

set_option backward.isDefEq.respectTransparency.types false in
/-- Layer 1's region over the thread state: entered with every unscoped buffer at `atIn0`, left at `atOut0`. Its eight
    arrays are split out of the unscoped buffers and put back at what the write-backs leave; the generator register goes into
    the pipeline's invariant and comes back; nothing is owed; the kernel has no semaphore of its own. -/
def region0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (every_point0 (vIn0 m) c).loose
  hwaits := Pipeline.hwaits_of_owed_zero _ _ _ _ L lv 0 fun _ _ => rfl
  pre c := iprop(StableHlo.held (c : Thread nD τ) (Pipeline.ucRefs τ sig) (atIn0 m c) ∗ Rest c)
  post c := iprop(StableHlo.held (c : Thread nD τ) (Pipeline.ucRefs τ sig) (atOut0 m c) ∗ Rest c)
  X c := iprop(∃ r, prngReg c r)
  Y c := iprop(∃ r, prngReg c r)
  Z c := Pipeline.unscopedRest (Ix := Unit) (Name := ℕ) (U := UR sig nD τ) (Lvl := ℕ) spec0 c (vIn0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (vIn0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (vIn0 m c) (vOut0 m c) ((pdats m 0 c).arrAt · cfg0.N) (written0 m c) (kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 2's region over the thread state: entered with every unscoped buffer at `atIn1`, left at `atOut1`. Its eight
    arrays are split out of the unscoped buffers and put back at what the write-backs leave; the generator register goes into
    the pipeline's invariant and comes back; nothing is owed; the kernel has no semaphore of its own. -/
def region1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (every_point1 (vIn1 m) c).loose
  hwaits := Pipeline.hwaits_of_owed_zero _ _ _ _ L lv 1 fun _ _ => rfl
  pre c := iprop(StableHlo.held (c : Thread nD τ) (Pipeline.ucRefs τ sig) (atIn1 m c) ∗ Rest c)
  post c := iprop(StableHlo.held (c : Thread nD τ) (Pipeline.ucRefs τ sig) (atOut1 m c) ∗ Rest c)
  X c := iprop(∃ r, prngReg c r)
  Y c := iprop(∃ r, prngReg c r)
  Z c := Pipeline.unscopedRest (Ix := Unit) (Name := ℕ) (U := UR sig nD τ) (Lvl := ℕ) spec1 c (vIn1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (vIn1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (vIn1 m c) (vOut1 m c) ((pdats m 1 c).arrAt · cfg1.N) (written1 m c) (kept1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 3's region over the thread state: entered with every unscoped buffer at `atIn2`, left at `atOut2`. Its eight
    arrays are split out of the unscoped buffers and put back at what the write-backs leave; the generator register goes into
    the pipeline's invariant and comes back; nothing is owed; the kernel has no semaphore of its own. -/
def region2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (every_point2 (vIn2 m) c).loose
  hwaits := Pipeline.hwaits_of_owed_zero _ _ _ _ L lv 2 fun _ _ => rfl
  pre c := iprop(StableHlo.held (c : Thread nD τ) (Pipeline.ucRefs τ sig) (atIn2 m c) ∗ Rest c)
  post c := iprop(StableHlo.held (c : Thread nD τ) (Pipeline.ucRefs τ sig) (atOut2 m c) ∗ Rest c)
  X c := iprop(∃ r, prngReg c r)
  Y c := iprop(∃ r, prngReg c r)
  Z c := Pipeline.unscopedRest (Ix := Unit) (Name := ℕ) (U := UR sig nD τ) (Lvl := ℕ) spec2 c (vIn2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (vIn2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (vIn2 m c) (vOut2 m c) ((pdats m 2 c).arrAt · cfg2.N) (written2 m c) (kept2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its items, and the launch -/

abbrev items : List (Pipeline.Seg (pcfgs (F := F)) adm (pdats m) () defs₀ 𝒱₀ L lv) :=
  [ .host (stretch hostOps0 hostOps0_sub hostOps0_fresh (atLaunch m)),
    .region (region0 m),
    .host (stretch hostOps1 hostOps1_sub hostOps1_fresh (atOut0 m)),
    .region (region1 m),
    .host (stretch hostOps2 hostOps2_sub hostOps2_fresh (atOut1 m)),
    .region (region2 m),
    .host (stretch hostOps3 hostOps3_sub hostOps3_fresh (atOut2 m)) ]

theorem main_items (c : Dev nD) : main (F := F) c = Pipeline.Seg.run (items m) := (main_chain c).trans (by chain_rfl)

set_option backward.isDefEq.respectTransparency.types false in
/-- Every weakly fair execution of @main from memory `m` with zero counters terminates, nothing faulting, and in every final
    state each core's every unscoped buffer holds the last fold `atEnd m c`: the launch contents carried through the four
    host stretches and the three layers' write-backs. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = atEnd m c b) :=
  Pipeline.θ_run_regions_kit (pcfgs (F := F)) adm (pdats m) () cellOf_inj emb₁ defs₀ 𝒱₀ L lv m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (atLaunch m c) ∗ Rest c)) (Tₙ := AtEnd m)
    (hch := ⟨fun _ => .rfl, fun _ => .rfl, fun _ => .rfl, fun _ => .rfl, fun _ => .rfl, fun _ => .rfl, fun _ => .rfl,
      fun c => by
        show (iprop(StableHlo.held (c : Thread nD τ) (Pipeline.ucRefs τ sig) (atEnd m c) ∗ Rest c) : sProp 𝕄) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (atLaunch m c)
        from Pipeline.unscopedBufs_held c (atLaunch m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = atEnd m c b)
    (hfin := fun c s' => by
      iintro ⟨⟨Hh, -⟩, HSI⟩
      unfold StableHlo.held
      imodintro
      iapply (pointsTo_read_all (Pipeline.ucRefs τ sig) (fun b => (((c : Thread nD τ)).1, b)) (atEnd m c) s')
      isplitl [Hh] <;> iassumption)
    (hQ := fun s h c => h c)

end Cert.KernelIdeal.Layers

end
-- ==== Proof.IdealFrame.lean ====
/-
  THE ARGUMENT ARRAYS END AS LAUNCHED.

  The program is four host stretches with three pipelined layers between them. Each host stretch writes only the references
  of a fixed list, and each layer changes only its own eight arrays; none of the nine argument arrays is in any of those
  lists or among any layer's arrays. So reading an argument's reference off the last fold of the contents — after the last
  stretch, out of the third layer, after the third stretch, … back to the launch — gives the launch contents
  (`arg_kept`), and since every execution terminates with every unscoped buffer at the last fold, every execution
  terminates with the nine arguments unchanged (`frame`).
-/
import proofs.«171972_j54984171323492_1_alg».proof.Proof.IdealLayers
import proofs.«171972_j54984171323492_1_alg».proof.Proof.Gen.KernelIdeal.Regions

set_option maxRecDepth 16384

noncomputable section

namespace Cert.KernelIdeal.Layers

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ)

/-- A reference that no host stretch writes and that is none of any layer's arrays holds, at the last fold, its launch
    contents. -/
theorem arg_kept (c : Dev nD) (r : Ref sig .tc) (h0 : r ∉ Gen.hostOps0_W) (h1 : r ∉ Gen.hostOps1_W) (h2 : r ∉ Gen.hostOps2_W)
    (h3 : r ∉ Gen.hostOps3_W) (g0 : ∀ w, Pipeline.arrRef spec0 w ≠ r) (g1 : ∀ w, Pipeline.arrRef spec1 w ≠ r)
    (g2 : ∀ w, Pipeline.arrRef spec2 w ≠ r) : atEnd m c r = m ((c : Thread nD τ).loc r) :=
  (StableHlo.after_of_writes_sub hostOps3 _ Gen.hostOps3_writes h3).trans <|
  (atOut2_rest m c r g2).trans <|
  (StableHlo.after_of_writes_sub hostOps2 _ Gen.hostOps2_writes h2).trans <|
  (atOut1_rest m c r g1).trans <|
  (StableHlo.after_of_writes_sub hostOps1 _ Gen.hostOps1_writes h1).trans <|
  (atOut0_rest m c r g0).trans <|
  StableHlo.after_of_writes_sub hostOps0 _ Gen.hostOps0_writes h0

/-- Every weakly fair execution from memory `m` with zero counters terminates, nothing faulting, and in every final state each
    core's nine argument arrays hold their launch contents. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨
    (h c _ (mem_uc main_arg0 (by decide))).trans (arg_kept m c main_arg0 (by decide) (by decide) (by decide) (by decide) (by decide) (by decide) (by decide)),
    (h c _ (mem_uc main_arg1 (by decide))).trans (arg_kept m c main_arg1 (by decide) (by decide) (by decide) (by decide) (by decide) (by decide) (by decide)),
    (h c _ (mem_uc main_arg2 (by decide))).trans (arg_kept m c main_arg2 (by decide) (by decide) (by decide) (by decide) (by decide) (by decide) (by decide)),
    (h c _ (mem_uc main_arg3 (by decide))).trans (arg_kept m c main_arg3 (by decide) (by decide) (by decide) (by decide) (by decide) (by decide) (by decide)),
    (h c _ (mem_uc main_arg4 (by decide))).trans (arg_kept m c main_arg4 (by decide) (by decide) (by decide) (by decide) (by decide) (by decide) (by decide)),
    (h c _ (mem_uc main_arg5 (by decide))).trans (arg_kept m c main_arg5 (by decide) (by decide) (by decide) (by decide) (by decide) (by decide) (by decide)),
    (h c _ (mem_uc main_arg6 (by decide))).trans (arg_kept m c main_arg6 (by decide) (by decide) (by decide) (by decide) (by decide) (by decide) (by decide)),
    (h c _ (mem_uc main_arg7 (by decide))).trans (arg_kept m c main_arg7 (by decide) (by decide) (by decide) (by decide) (by decide) (by decide) (by decide)),
    (h c _ (mem_uc main_arg8 (by decide))).trans (arg_kept m c main_arg8 (by decide) (by decide) (by decide) (by decide) (by decide) (by decide) (by decide))⟩) (run_all m ρ)

end Cert.KernelIdeal.Layers

end
-- ==== Proof.RowSpec.lean ====
/-
  THE LAYER ON ONE ROW, over the extended reals.

  One graph-convolution layer acts on each row of its two input arrays independently of every other row: from the row `s`
  of the aggregated neighbours and the row `e` of the current embedding (64 entries each), two 64 × 64 weight matrices and
  two bias rows, the new embedding's row is `lrelu (s·W + b) + lrelu ((e ⊙ s)·W' + b')` entry by entry (`rowEgo`), where
  `lrelu x` is `x` for `x ≥ 0` and `slope · x` otherwise, and the normalised row is that row divided, entry by entry, by
  the larger of its Euclidean length and a small positive constant (`rowNorm`). Here these are written as functions
  `Fin 64 → EReal` with exactly the scalar operations the ideal float instance gives (its comparison, its division, its
  square root, the extended reals' sum, product and maximum), the two float constants kept as the words that denote them;
  both a blockwise program's payload and a whole-array program's layer read, at an index, as these.
-/
import Idealize.ShloMosaic.PureOps.Ideal

noncomputable section

open scoped BigOperators

namespace Cert.RowSpec

open Idealize.ShloMosaic

/-- The leaky rectifier with the slope the word `0x3E4CCCCD` denotes: `x` where `x ≥ 0`, `slope · x` elsewhere. -/
def lrelu (x : EReal) : EReal :=
  Scalar.select (Ideal.cmp .oge x (Ideal.ofBits .f32 0x00000000#32)) x (Ideal.ofBits .f32 0x3E4CCCCD#32 * x)

/-- Entry `j` of `s · W + b`. -/
def rowPre (s : Fin 64 → EReal) (W : Fin 64 → Fin 64 → EReal) (b : Fin 64 → EReal) (j : Fin 64) : EReal :=
  (∑ k, s k * W k j) + b j

/-- Entry `j` of the new embedding's row: `lrelu (s·W + b) + lrelu ((e ⊙ s)·W' + b')`. -/
def rowEgo (e s : Fin 64 → EReal) (W : Fin 64 → Fin 64 → EReal) (b : Fin 64 → EReal) (W' : Fin 64 → Fin 64 → EReal)
    (b' : Fin 64 → EReal) (j : Fin 64) : EReal :=
  lrelu (rowPre s W b j) + lrelu (rowPre (fun k => e k * s k) W' b' j)

/-- Entry `j` of the row `v` divided by the larger of its Euclidean length and the constant the word `0x2B8CBCCC`
    denotes. -/
def rowNorm (v : Fin 64 → EReal) (j : Fin 64) : EReal :=
  Ideal.div (v j) (max (Ideal.sqrt (∑ j', v j' * v j')) (Ideal.ofBits .f32 0x2B8CBCCC#32))

end Cert.RowSpec

end
-- ==== Proof.LibMatProd.lean ====
/-
  GENERAL LEMMAS: a plain matrix product, written two ways, read at the ideal values.

  The product of an `R × K` matrix `X` with a `K × N` matrix `W` has entry `(r, q)` equal to
  `∑ k, X (r, k) · W (k, q)`, a sum of `K` products of extended reals (`matProd`).
  Both ways a program can write that product read, at `Ideal`, as this same sum:

  * a matrix unit's `matmul` accumulated into a zero splat (`matmul_zero_eq`), and
  * the host's `dot_general` (`dotGeneral_eq`),

  for ANY dimension record that contracts the left operand's axis 1 with the right operand's axis 0 and keeps
  the other two axes in order, whatever the operands' float formats, precision and schedule. That the record does
  so is stated as four equations of coordinate values (`Contracts`), which a literal record proves by unfolding
  (two by `DotDims.lhsIdx_val_of_single` / `rhsIdx_val_of_single`, two by `dif_neg` / `dif_pos` on its literal
  axis lists). Nothing here needs a finiteness hypothesis: the two sides are the same sum of the same products,
  term by term. Imports the library only.
-/
import Idealize.ShloMosaic.PureOps.Ideal.Laws
import Idealize.ShloMosaic.Lib.ValueIdx

noncomputable section

open scoped BigOperators

namespace Cert.Linear

open Idealize.ShloMosaic Idealize.ShloMosaic.ValueIdx

/-- The shape of a matrix of `a` rows and `b` columns. -/
abbrev Mat (a b : Nat) : Shape := ⟨2, ![a, b]⟩

/-- `X · W`, entry by entry: row `r` of `X` against column `q` of `W`. -/
def matProd {R K N : Nat} (X : (Mat R K).Idx → EReal) (W : (Mat K N).Idx → EReal) : (Mat R N).Idx → EReal :=
  fun i => ∑ k : Fin K, X (ix2 (n0 := R) (n1 := K) (i 0) k) * W (ix2 (n0 := K) (n1 := N) k (i 1))

/-- A dimension record for `[R,K] × [K,N] → [R,N]` that contracts the left operand's columns with the right
    operand's rows: one contracted axis of extent `K`, and at result index `i` and contraction index `q` the left
    operand is read at `(i 0, q)` and the right one at `(q, i 1)`. -/
structure Contracts {R K N : Nat} (d : DotDims (Mat R K) (Mat K N) (Mat R N)) : Prop where
  rank : d.contr.rank = 1
  size : d.contr.size ⟨0, by omega⟩ = K
  lhs0 : ∀ (i : (Mat R N).Idx) (q : d.contr.Idx), (d.lhsIdx i q 0).val = (i 0).val
  lhs1 : ∀ (i : (Mat R N).Idx) (q : d.contr.Idx), (d.lhsIdx i q 1).val = (q ⟨0, by omega⟩).val
  rhs0 : ∀ (i : (Mat R N).Idx) (q : d.contr.Idx), (d.rhsIdx i q 0).val = (q ⟨0, by omega⟩).val
  rhs1 : ∀ (i : (Mat R N).Idx) (q : d.contr.Idx), (d.rhsIdx i q 1).val = (i 1).val

/-- The sum over such a record's contraction index of the operands' products is the sum over `k < K` of
    `X (i 0, k) · W (k, i 1)`: the contraction index is its one coordinate. -/
theorem contraction_sum {R K N : Nat} {d : DotDims (Mat R K) (Mat K N) (Mat R N)} (h : Contracts d)
    (X : (Mat R K).Idx → EReal) (W : (Mat K N).Idx → EReal) (i : (Mat R N).Idx) :
    ∑ q : d.contr.Idx, X (d.lhsIdx i q) * W (d.rhsIdx i q) = matProd X W i := by
  unfold matProd
  rw [← Equiv.sum_comp (contrEquiv1 d K h.rank h.size).symm]
  refine Finset.sum_congr rfl fun k _ => ?_
  have hk := contrEquiv1_symm_val d K h.rank h.size k
  have el : d.lhsIdx i ((contrEquiv1 d K h.rank h.size).symm k) = ix2 (n0 := R) (n1 := K) (i 0) k :=
    funext fun a => Fin.ext (by
      match a with
      | ⟨0, _⟩ => exact h.lhs0 _ _
      | ⟨1, _⟩ => exact (h.lhs1 _ _).trans hk)
  have er : d.rhsIdx i ((contrEquiv1 d K h.rank h.size).symm k) = ix2 (n0 := K) (n1 := N) k (i 1) :=
    funext fun a => Fin.ext (by
      match a with
      | ⟨0, _⟩ => exact (h.rhs0 _ _).trans hk
      | ⟨1, _⟩ => exact h.rhs1 _ _)
  rw [el, er]

/-- A matrix unit's product accumulated into the zero splat is `X · W`, whatever the operands' float formats. -/
theorem matmul_zero_eq {R K N : Nat} {φ₁ φ₂ : FTy} {d : DotDims (Mat R K) (Mat K N) (Mat R N)} (h : Contracts d)
    (prec : Option ContractPrecision) (X : FVec Ideal (Mat R K) φ₁) (W : FVec Ideal (Mat K N) φ₂) :
    FloatOps.matmul d prec X W (constant (F := Ideal) (Mat R N) .f32 0x00000000#32) = matProd X W :=
  funext fun i => (Ideal.matmul_constant_zero_apply d prec X W i).trans (contraction_sum h X W i)

/-- The host's `dot_general` is `X · W`, whatever its precision and schedule. -/
theorem dotGeneral_eq {R K N : Nat} {φ₁ φ₂ : FTy} {d : DotDims (Mat R K) (Mat K N) (Mat R N)} (h : Contracts d)
    (prec : Option ContractPrecision) (sched : HostSchedule) (X : FVec Ideal (Mat R K) φ₁) (W : FVec Ideal (Mat K N) φ₂) :
    FloatOps.dotGeneral d prec sched X W = matProd X W :=
  funext fun i => (Ideal.dotGeneral_apply d prec sched X W i).trans (contraction_sum h X W i)

end Cert.Linear

end
-- ==== Proof.LibDotLists.lean ====
/-
  GENERAL LEMMA: a dimension record whose axis lists are those of a plain matrix product contracts the left operand's
  columns with the right operand's rows.

  A dimension record for `[R,K] × [K,N] → [R,N]` carries six lists of axes. When they are the plain product's — the left
  operand's axis 1 contracted with the right operand's axis 0, the left operand's axis 0 and the right operand's axis 1
  kept in this order, no batch axis — the record reads, at result index `i` and contraction index `q`, the left
  operand at `(i 0, q)` and the right operand at `(q, i 1)`: the four coordinate equations (`Contracts`) under which a
  matrix unit's product into a zero accumulator and the host's `dot_general` are both the plain sum of products
  `matProd`. A record written out with literal lists meets the six hypotheses by `rfl`.
-/
import proofs.«171972_j54984171323492_1_alg».proof.Proof.LibMatProd
import Idealize.ShloMosaic.Lib.Pipeline.Value
import Idealize.ShloMosaic.Lib.ValueIdx

noncomputable section

namespace Cert.Linear

open Idealize.ShloMosaic Idealize.ShloMosaic.ValueIdx

/-- A dimension record whose axis lists are those of a plain product — the left operand's columns contracted with the
    right operand's rows, the left operand's rows and the right operand's columns kept in this order, no batch axis —
    reads its operands at `(i 0, q)` and `(q, i 1)`. -/
theorem contracts_of_lists {R K N : Nat} (d : DotDims (Mat R K) (Mat K N) (Mat R N))
    (h1 : d.lhsContracting = [1]) (h2 : d.rhsContracting = [0]) (h3 : d.lhsNonContracting = [0])
    (h4 : d.rhsNonContracting = [1]) (h5 : d.lhsBatch = []) (h6 : d.rhsBatch = []) : Contracts d where
  rank := by rw [d.rank_contr, h1]; rfl
  size := by
    rw [d.size_contr 0 (by rw [h1]; exact Nat.one_pos), List.getElem_of_eq h1]
    rfl
  lhs0 := fun i q => by
    unfold DotDims.lhsIdx
    rw [dif_neg (by rw [h5]; exact List.not_mem_nil), dif_pos (by rw [h3]; exact List.mem_singleton.mpr rfl)]
    simp only [Fin.val_cast]
    have key : ∀ (p r : Nat) (hp : p < (Mat R N).rank) (hr : r < (Mat R N).rank), p = r → (i ⟨p, hp⟩).val = (i ⟨r, hr⟩).val :=
      fun p r hp hr h => by subst h; rfl
    exact key _ _ _ _ (by simp [h5, h3])
  lhs1 := fun i q => d.lhsIdx_val_of_single h1 i q
  rhs0 := fun i q => d.rhsIdx_val_of_single h2 i q
  rhs1 := fun i q => by
    unfold DotDims.rhsIdx
    rw [dif_neg (by rw [h6]; exact List.not_mem_nil), dif_pos (by rw [h4]; exact List.mem_singleton.mpr rfl)]
    simp only [Fin.val_cast]
    have key : ∀ (p r : Nat) (hp : p < (Mat R N).rank) (hr : r < (Mat R N).rank), p = r → (i ⟨p, hp⟩).val = (i ⟨r, hr⟩).val :=
      fun p r hp hr h => by subst h; rfl
    exact key _ _ _ _ (by simp [h5, h3, h4])

end Cert.Linear

end
-- ==== Proof.LibKeepdims.lean ====
/-
  Layout operations of a `keepdims` reduction, read at an index given by coordinates, and a rank-2 float sum along one
  axis read at the extended reals.

  A vector of `a` entries viewed as an `a × 1` column holds entry `i` at `(i, 0)`; an `a × 1` column broadcast to
  `a × b` holds, at `(p, c)`, the column's entry `(p, 0)`; the sum of an `a × b` array along its second axis is, at
  row `r`, the sum over the `b` columns of the entries of that row, and along its first axis, at column `c`, the sum
  over the `a` rows of the entries of that column.  Indices are written with the literal-size constructors
  `ix1`, `ix2`, so that each lemma applies to a printed operation by unification.
-/
import Idealize.ShloMosaic.Lib.Pipeline.Value
import Idealize.ShloMosaic.Lib.ValueIdx
import Idealize.ShloMosaic.PureOps.Ideal.Laws

open scoped BigOperators

namespace Cert.LibKeepdims

open Idealize.ShloMosaic Idealize.ShloMosaic.ValueIdx

variable {α : Type}

/-- A vector cast to a column, `[a] → [a, 1]`, reads entry `i` at `(i, 0)`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along its unit axis, `[a, 1] → [a, b]`, reads at `(p, c)` the column's entry `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

variable {φ : FTy}

/-- ROW SUMS. At the extended reals the float sum of an `a × b` array along its second axis is, at row `r`, the sum
    over the columns `c` of the entries `(r, c)`. -/
theorem multiReduction_add_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ c : Fin b, src (ix2 r c) := by
  refine (Ideal.multiReduction_add_single src acc h hφ hacc (ix1 r)).trans ?_
  refine Finset.sum_congr rfl fun c _ => congrArg src (funext fun ax => Fin.ext ?_)
  rw [h.lift_val]
  unfold Shape.Reduces.liftVal
  match ax with
  | ⟨0, _⟩ => rfl
  | ⟨1, _⟩ => rfl

/-- COLUMN SUMS. Along its first axis the sum is, at column `c`, the sum over the rows `r` of the entries `(r, c)`. -/
theorem multiReduction_add_cols {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (c : Fin b) :
    multiReduction .add [0] ⟨1, ![b]⟩ src acc h hφ hacc (ix1 c) = ∑ r : Fin a, src (ix2 r c) := by
  refine (Ideal.multiReduction_add_single src acc h hφ hacc (ix1 c)).trans ?_
  refine Finset.sum_congr rfl fun r _ => congrArg src (funext fun ax => Fin.ext ?_)
  rw [h.lift_val]
  unfold Shape.Reduces.liftVal
  match ax with
  | ⟨0, _⟩ => rfl
  | ⟨1, _⟩ => rfl

end Cert.LibKeepdims
-- ==== Proof.KernelRows.lean ====
/-
  ONE ROW OF THE BLOCK PROGRAM'S TWO STORED VALUES, at the extended reals.

  The body of each of the three block programs computes, from six loaded blocks (a 3000 × 64 block of the current
  embedding, the same block of the aggregated neighbours, two 64 × 64 weight matrices and two 1 × 64 bias rows), the new
  embedding's block and its row-normalised block. Read at the extended reals and at an index `(p, j)`, the first is
  `RowSpec.rowEgo` of row `p` of the two input blocks (`pay2_apply`): the two identity shape casts drop, the two format
  changes are the identity, each matrix product into the zero accumulator is the plain sum of 64 products, each bias row is
  read at `(0, j)`, and the two leaky rectifiers are pointwise. The row sums of squares are the sums over the 64 columns
  (`pay3_apply`), and the second stored value is `RowSpec.rowNorm` of row `p` of the first (`pay1_apply`): the column
  form of the row sums is read at `(p, 0)`, its broadcast along the columns at `(p, j)` reads `(p, 0)`, and the square
  root, the maximum and the division are pointwise. The three block programs have the same text, so the second and third
  programs' values are the first's (`pay2_k1` … `pay1_k2`).
-/
import proofs.«171972_j54984171323492_1_alg».proof.Proof.Gen.KernelIdeal.Skeleton
import proofs.«171972_j54984171323492_1_alg».proof.Proof.RowSpec
import proofs.«171972_j54984171323492_1_alg».proof.Proof.LibMatProd
import proofs.«171972_j54984171323492_1_alg».proof.Proof.LibDotLists
import proofs.«171972_j54984171323492_1_alg».proof.Proof.LibKeepdims
import Idealize.ShloMosaic.Lib.ValueLayout

noncomputable section

open scoped BigOperators

namespace Cert.KernelIdeal.Rows

open Cert.KernelIdeal Cert.KernelIdeal.Gen Idealize.ShloMosaic Idealize.ShloMosaic.ValueIdx

/-- The block program's dimension record is the plain product's: the left operand's columns against the right
    operand's rows. -/
theorem dot_contracts : Cert.Linear.Contracts dot_S3000x64_S64x64_S3000x64_1_0_0_1_n_n :=
  Cert.Linear.contracts_of_lists _ rfl rfl rfl rfl rfl rfl

/-- The printed leaky rectifier, read at an index, is `RowSpec.lrelu` of the element. -/
theorem lrelu_apply (v : FVec Ideal S3000x64 .f32) (i : S3000x64.Idx) :
    select (cmpf .oge v (broadcast S3000x64 (Scalar.ofBits .f32 0x00000000#32))) v
        (mulf (broadcast S3000x64 (Scalar.ofBits .f32 0x3E4CCCCD#32)) v) i = RowSpec.lrelu (v i) := rfl

/-- A product into the zero accumulator plus a broadcast bias row, read at `(p, j)`: `∑ k, X (p,k) · W (k,j) + b (0,j)`. -/
theorem pre_apply (X : FVec Ideal S3000x64 .bf16) (W : FVec Ideal S64x64 .bf16) (b : FVec Ideal S1x64 .f32)
    (p : Fin 3000) (j : Fin 64) :
    addf (matmul dot_S3000x64_S64x64_S3000x64_1_0_0_1_n_n none X W (constant (F := Ideal) S3000x64 .f32 0x00000000#32))
        (broadcastTo S3000x64 b broadcasts_S1x64_S3000x64) (ix2 p j)
      = RowSpec.rowPre (fun k => X (ix2 p k)) (fun k j => W (ix2 k j)) (fun j => b (ix2 0 j)) j := by
  refine congrArg₂ (· + ·) ?_ ?_
  · exact congrFun (Cert.Linear.matmul_zero_eq dot_contracts none X W) (ix2 p j)
  · exact broadcastTo_1b_ab_apply b _ p j

/-- THE NEW EMBEDDING'S BLOCK at `(p, j)` is `RowSpec.rowEgo` of row `p` of the two input blocks. -/
theorem pay2_apply (x0 x1 : Vec Ideal S3000x64 .f32) (w : Vec Ideal S64x64 .f32) (b : Vec Ideal S1x64 .f32)
    (w' : Vec Ideal S64x64 .f32) (b' : Vec Ideal S1x64 .f32) (p : Fin 3000) (j : Fin 64) :
    k0_pay2 (F := Ideal) x0 x1 w b w' b' (ix2 p j)
      = RowSpec.rowEgo (fun k => x0 (ix2 p k)) (fun k => x1 (ix2 p k)) (fun k j => w (ix2 k j)) (fun j => b (ix2 0 j))
          (fun k j => w' (ix2 k j)) (fun j => b' (ix2 0 j)) j := by
  unfold k0_pay2
  simp only [shapeCast_self]
  refine congrArg₂ (· + ·) ?_ ?_
  · refine (lrelu_apply _ _).trans ?_
    exact congrArg RowSpec.lrelu (pre_apply _ _ _ p j)
  · refine (lrelu_apply _ _).trans ?_
    exact congrArg RowSpec.lrelu (pre_apply _ _ _ p j)

/-- THE ROW SUMS OF SQUARES at `p`: the sum over the 64 columns of the squared entries of row `p`. -/
theorem pay3_apply (x0 x1 : Vec Ideal S3000x64 .f32) (w : Vec Ideal S64x64 .f32) (b : Vec Ideal S1x64 .f32)
    (w' : Vec Ideal S64x64 .f32) (b' : Vec Ideal S1x64 .f32) (p : Fin 3000) :
    k0_pay3 (F := Ideal) x0 x1 w b w' b' (ix1 p)
      = ∑ c : Fin 64, k0_pay2 (F := Ideal) x0 x1 w b w' b' (ix2 p c) * k0_pay2 (F := Ideal) x0 x1 w b w' b' (ix2 p c) := by
  unfold k0_pay3
  exact Cert.LibKeepdims.multiReduction_add_rows _ _ _ _ _ p

/-- THE NORMALISED BLOCK at `(p, j)` is `RowSpec.rowNorm` of row `p` of the new embedding's block. -/
theorem pay1_apply (x0 x1 : Vec Ideal S3000x64 .f32) (w : Vec Ideal S64x64 .f32) (b : Vec Ideal S1x64 .f32)
    (w' : Vec Ideal S64x64 .f32) (b' : Vec Ideal S1x64 .f32) (p : Fin 3000) (j : Fin 64) :
    k0_pay1 (F := Ideal) (k0_pay2 x0 x1 w b w' b') (k0_pay3 x0 x1 w b w' b') (ix2 p j)
      = RowSpec.rowNorm (fun j' => k0_pay2 (F := Ideal) x0 x1 w b w' b' (ix2 p j')) j := by
  unfold k0_pay1
  show Ideal.div _ _ = Ideal.div _ _
  refine congrArg (Ideal.div _) ?_
  refine (Cert.LibKeepdims.broadcastTo_a1_ab_apply _ _ p j).trans ?_
  show max (Ideal.sqrt _) _ = max (Ideal.sqrt _) _
  refine congrArg (fun t => max (Ideal.sqrt t) _) ?_
  refine (Cert.LibKeepdims.shapeCast_a_a1_apply _ _ p 0).trans ?_
  exact pay3_apply x0 x1 w b w' b' p

/-- The second and third block programs' values are the first's: the same text. -/
theorem pay2_k1 : @k1_pay2 = @k0_pay2 := rfl
theorem pay3_k1 : @k1_pay3 = @k0_pay3 := rfl
theorem pay1_k1 : @k1_pay1 = @k0_pay1 := rfl
theorem pay2_k2 : @k2_pay2 = @k0_pay2 := rfl
theorem pay3_k2 : @k2_pay3 = @k0_pay3 := rfl
theorem pay1_k2 : @k2_pay1 = @k0_pay1 := rfl

end Cert.KernelIdeal.Rows

end
-- ==== Proof.Rows.lean ====
/-
  The layer read on all node rows at once. `layerRows` takes the current embeddings `E`, the neighbourhood sums `S`, two
  64 × 64 weight matrices and two 1 × 64 bias rows, and gives the array whose row `r` is the row-wise layer of row `r` of
  `E` and `S`: a leaky rectifier of (row of S) · W + b, plus a leaky rectifier of (row of E ∘ row of S) · W' + b'. `normRows` divides
  every row of an array by its Euclidean norm floored at the epsilon. Both the blocked kernel and the whole-array reference
  compute these two functions; each side is proved against them.
-/
import proofs.«171972_j54984171323492_1_alg».proof.Proof.RowSpec
import Idealize.ShloMosaic.Lib.ValueIdx

noncomputable section

namespace Cert.Rows

open Idealize.ShloMosaic Idealize.ShloMosaic.ValueIdx

/-- An index of a node array: a node and one of its 64 features. -/
abbrev NodeIdx : Type := (⟨2, ![90000, 64]⟩ : Shape).Idx

/-- The node of an index. -/
abbrev node (i : NodeIdx) : Fin 90000 := ⟨(i 0).val, idx2_lt0 i⟩
/-- The feature of an index. -/
abbrev feat (i : NodeIdx) : Fin 64 := ⟨(i 1).val, idx2_lt1 i⟩

/-- The new embeddings of all nodes: row `r` depends on row `r` of `E` and of `S` only. -/
def layerRows (E S : NodeIdx → EReal) (w : (⟨2, ![64, 64]⟩ : Shape).Idx → EReal) (b : (⟨2, ![1, 64]⟩ : Shape).Idx → EReal)
    (w' : (⟨2, ![64, 64]⟩ : Shape).Idx → EReal) (b' : (⟨2, ![1, 64]⟩ : Shape).Idx → EReal) : NodeIdx → EReal :=
  fun i => RowSpec.rowEgo (fun k => E (ix2 (node i) k)) (fun k => S (ix2 (node i) k)) (fun k j => w (ix2 k j)) (fun j => b (ix2 (0 : Fin 1) j))
    (fun k j => w' (ix2 k j)) (fun j => b' (ix2 (0 : Fin 1) j)) (feat i)

/-- Every row divided by its Euclidean norm, floored at the epsilon. -/
def normRows (e : NodeIdx → EReal) : NodeIdx → EReal :=
  fun i => RowSpec.rowNorm (fun j' => e (ix2 (node i) j')) (feat i)

theorem layerRows_ix2 (E S : NodeIdx → EReal) (w : (⟨2, ![64, 64]⟩ : Shape).Idx → EReal) (b : (⟨2, ![1, 64]⟩ : Shape).Idx → EReal)
    (w' : (⟨2, ![64, 64]⟩ : Shape).Idx → EReal) (b' : (⟨2, ![1, 64]⟩ : Shape).Idx → EReal) (r : Fin 90000) (j : Fin 64) :
    layerRows E S w b w' b' (ix2 r j) = RowSpec.rowEgo (fun k => E (ix2 r k)) (fun k => S (ix2 r k)) (fun k j => w (ix2 k j)) (fun j => b (ix2 (0 : Fin 1) j))
      (fun k j => w' (ix2 k j)) (fun j => b' (ix2 (0 : Fin 1) j)) j := rfl

theorem normRows_ix2 (e : NodeIdx → EReal) (r : Fin 90000) (j : Fin 64) :
    normRows e (ix2 r j) = RowSpec.rowNorm (fun j' => e (ix2 r j')) j := rfl

end Cert.Rows

end
-- ==== Proof.IdealValues.lean ====
/-
  What each layer's pipeline leaves in its two output arrays, at the extended reals. A grid point `t` of a layer reads rows
  `3000 t … 3000 t + 2999` of the embeddings and of the neighbourhood sums and the weights and biases whole, and writes back the
  same rows of the two outputs. Row `p` of what it stores is the row-wise layer of row `p` of its input blocks, that is of
  row `3000 t + p` of the arrays; so each write-back is a block of ONE function of the arrays the region was entered with
  (`Rows.layerRows`, and `Rows.normRows` of it), and since the thirty blocks tile the 90000 rows, each output array ends
  holding that function.
-/
import proofs.«171972_j54984171323492_1_alg».proof.Proof.IdealLayers
import proofs.«171972_j54984171323492_1_alg».proof.Proof.KernelRows
import proofs.«171972_j54984171323492_1_alg».proof.Proof.Rows
import Idealize.ShloMosaic.Lib.Pipeline.Value
import Idealize.ShloMosaic.Lib.ValueIdx

set_option maxRecDepth 16384

noncomputable section

namespace Cert.KernelIdeal.LayerValues

open Cert.KernelIdeal Cert.KernelIdeal.Gen Cert.KernelIdeal.Layers
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-- The row a grid point's `p`-th row is. -/
abbrev rowOf (t : ℕ) (ht : t < 30) (p : Fin 3000) : Fin 90000 := ⟨3000 * t + p.val, by have := p.isLt; omega⟩

/-- Row `p` of a point's stored embeddings is the layer's row `3000 t + p`, as soon as the point's input blocks are those rows of
    the arrays and the weights and biases are the arrays'. -/
theorem ego_block (x0 x1 : Vec Ideal S3000x64 .f32) (w : Vec Ideal S64x64 .f32) (b : Vec Ideal S1x64 .f32) (w' : Vec Ideal S64x64 .f32) (b' : Vec Ideal S1x64 .f32)
    (E S : Rows.NodeIdx → EReal) (W : (⟨2, ![64, 64]⟩ : Shape).Idx → EReal) (B : (⟨2, ![1, 64]⟩ : Shape).Idx → EReal)
    (W' : (⟨2, ![64, 64]⟩ : Shape).Idx → EReal) (B' : (⟨2, ![1, 64]⟩ : Shape).Idx → EReal) (t : ℕ) (ht : t < 30)
    (h0 : ∀ (p : Fin 3000) (k : Fin 64), x0 (ix2 p k) = E (ix2 (rowOf t ht p) k))
    (h1 : ∀ (p : Fin 3000) (k : Fin 64), x1 (ix2 p k) = S (ix2 (rowOf t ht p) k))
    (hw : ∀ k j : Fin 64, w (ix2 k j) = W (ix2 k j)) (hb : ∀ j : Fin 64, b (ix2 (0 : Fin 1) j) = B (ix2 (0 : Fin 1) j))
    (hw' : ∀ k j : Fin 64, w' (ix2 k j) = W' (ix2 k j)) (hb' : ∀ j : Fin 64, b' (ix2 (0 : Fin 1) j) = B' (ix2 (0 : Fin 1) j))
    (p : Fin 3000) (j : Fin 64) :
    k0_pay2 (F := Ideal) x0 x1 w b w' b' (ix2 p j) = Rows.layerRows E S W B W' B' (ix2 (rowOf t ht p) j) := by
  rw [Cert.KernelIdeal.Rows.pay2_apply, Rows.layerRows_ix2]
  simp only [h0, h1, hw, hb, hw', hb']

/-- Row `p` of a point's stored normalised rows is the normalised row `3000 t + p` of the layer. -/
theorem norm_block (x0 x1 : Vec Ideal S3000x64 .f32) (w : Vec Ideal S64x64 .f32) (b : Vec Ideal S1x64 .f32) (w' : Vec Ideal S64x64 .f32) (b' : Vec Ideal S1x64 .f32)
    (E S : Rows.NodeIdx → EReal) (W : (⟨2, ![64, 64]⟩ : Shape).Idx → EReal) (B : (⟨2, ![1, 64]⟩ : Shape).Idx → EReal)
    (W' : (⟨2, ![64, 64]⟩ : Shape).Idx → EReal) (B' : (⟨2, ![1, 64]⟩ : Shape).Idx → EReal) (t : ℕ) (ht : t < 30)
    (h0 : ∀ (p : Fin 3000) (k : Fin 64), x0 (ix2 p k) = E (ix2 (rowOf t ht p) k))
    (h1 : ∀ (p : Fin 3000) (k : Fin 64), x1 (ix2 p k) = S (ix2 (rowOf t ht p) k))
    (hw : ∀ k j : Fin 64, w (ix2 k j) = W (ix2 k j)) (hb : ∀ j : Fin 64, b (ix2 (0 : Fin 1) j) = B (ix2 (0 : Fin 1) j))
    (hw' : ∀ k j : Fin 64, w' (ix2 k j) = W' (ix2 k j)) (hb' : ∀ j : Fin 64, b' (ix2 (0 : Fin 1) j) = B' (ix2 (0 : Fin 1) j))
    (p : Fin 3000) (j : Fin 64) :
    k0_pay1 (F := Ideal) (k0_pay2 x0 x1 w b w' b') (k0_pay3 x0 x1 w b w' b') (ix2 p j)
      = Rows.normRows (Rows.layerRows E S W B W' B') (ix2 (rowOf t ht p) j) := by
  rw [Cert.KernelIdeal.Rows.pay1_apply, Rows.normRows_ix2]
  congr 1
  funext j'
  exact ego_block x0 x1 w b w' b' E S W B W' B' t ht h0 h1 hw hb hw' hb' p j'

/-! # Layer 1 -/

/-- The printed index maps of layer 1's eight windows, decided over the thirty grid points: a node window's block index is
    `(t, 0)`, a weight's or a bias's `(0, 0)`. -/
structure Maps0 (t : Fin cfg0.N) : Prop where
  w0 : win0_0.index t (0 : Fin 2) = t.val ∧ win0_0.index t (1 : Fin 2) = 0
  w1 : win0_1.index t (0 : Fin 2) = t.val ∧ win0_1.index t (1 : Fin 2) = 0
  w2 : win0_2.index t (0 : Fin 2) = 0 ∧ win0_2.index t (1 : Fin 2) = 0
  w3 : win0_3.index t (0 : Fin 2) = 0 ∧ win0_3.index t (1 : Fin 2) = 0
  w4 : win0_4.index t (0 : Fin 2) = 0 ∧ win0_4.index t (1 : Fin 2) = 0
  w5 : win0_5.index t (0 : Fin 2) = 0 ∧ win0_5.index t (1 : Fin 2) = 0
  w6 : win0_6.index t (0 : Fin 2) = t.val ∧ win0_6.index t (1 : Fin 2) = 0
  w7 : win0_7.index t (0 : Fin 2) = t.val ∧ win0_7.index t (1 : Fin 2) = 0

theorem maps0_all : ∀ t : Fin cfg0.N,
    (win0_0.index t (0 : Fin 2) = t.val ∧ win0_0.index t (1 : Fin 2) = 0) ∧ (win0_1.index t (0 : Fin 2) = t.val ∧ win0_1.index t (1 : Fin 2) = 0)
    ∧ (win0_2.index t (0 : Fin 2) = 0 ∧ win0_2.index t (1 : Fin 2) = 0) ∧ (win0_3.index t (0 : Fin 2) = 0 ∧ win0_3.index t (1 : Fin 2) = 0)
    ∧ (win0_4.index t (0 : Fin 2) = 0 ∧ win0_4.index t (1 : Fin 2) = 0) ∧ (win0_5.index t (0 : Fin 2) = 0 ∧ win0_5.index t (1 : Fin 2) = 0)
    ∧ (win0_6.index t (0 : Fin 2) = t.val ∧ win0_6.index t (1 : Fin 2) = 0) ∧ (win0_7.index t (0 : Fin 2) = t.val ∧ win0_7.index t (1 : Fin 2) = 0) :=
  (by decide +kernel : ∀ t : Fin grid0.N, _)

theorem maps0 (t : Fin cfg0.N) : Maps0 t := by
  obtain ⟨h0, h1, h2, h3, h4, h5, h6, h7⟩ := maps0_all t
  exact ⟨h0, h1, h2, h3, h4, h5, h6, h7⟩

theorem lt30_0 (t : Fin cfg0.N) : t.val < 30 := lt_of_lt_of_eq t.isLt (N_0 : cfg0.N = 30)

section Reads0
variable {F : FTy → Type} [FloatOps F] (V : (c : Dev nD) → (b : Ref sig .tc) → Buf (Elt F) ((c : Thread nD τ).loc b))

/-- Window 0's block at point `t` is rows `3000 t …` of its array. -/
theorem rows0_0 (c : Dev nD) (t : Fin cfg0.N) (p : Fin 3000) (k : Fin 64) :
    (blk0 V c 0 t : Vec F S3000x64 .f32) (ix2 p k) = (V c main_v0 : S90000x64.Idx → Elt F .f32) (ix2 (rowOf t.val (lt30_0 t) p) k) := by
  have hi := maps0 t
  unfold blk0
  rw [View.read_apply]
  show V c main_v0 _ = V c main_v0 _
  congr 1
  funext a
  apply Fin.ext
  match a with
  | ⟨0, _⟩ => show win0_0.index t 0 * 3000 + 1 * p.val = 3000 * t.val + p.val; rw [hi.w0.1]; omega
  | ⟨1, _⟩ => show win0_0.index t 1 * 64 + 1 * k.val = k.val; rw [hi.w0.2]; omega

/-- Window 1's block at point `t` is rows `3000 t …` of its array. -/
theorem rows0_1 (c : Dev nD) (t : Fin cfg0.N) (p : Fin 3000) (k : Fin 64) :
    (blk0 V c 1 t : Vec F S3000x64 .f32) (ix2 p k) = (V c main_v13 : S90000x64.Idx → Elt F .f32) (ix2 (rowOf t.val (lt30_0 t) p) k) := by
  have hi := maps0 t
  unfold blk0
  rw [View.read_apply]
  show V c main_v13 _ = V c main_v13 _
  congr 1
  funext a
  apply Fin.ext
  match a with
  | ⟨0, _⟩ => show win0_1.index t 0 * 3000 + 1 * p.val = 3000 * t.val + p.val; rw [hi.w1.1]; omega
  | ⟨1, _⟩ => show win0_1.index t 1 * 64 + 1 * k.val = k.val; rw [hi.w1.2]; omega

/-- Window 2's block at any point is its array whole. -/
theorem whole0_2 (c : Dev nD) (t : Fin cfg0.N) (a0 : Fin 64) (a1 : Fin 64) :
    (blk0 V c 2 t : Vec F S64x64 .f32) (ix2 a0 a1) = (V c main_v15 : S64x64.Idx → Elt F .f32) (ix2 a0 a1) := by
  have hi := maps0 t
  unfold blk0
  rw [View.read_apply]
  show V c main_v15 _ = V c main_v15 _
  congr 1
  funext a
  apply Fin.ext
  match a with
  | ⟨0, _⟩ => show win0_2.index t 0 * 64 + 1 * a0.val = a0.val; rw [hi.w2.1]; omega
  | ⟨1, _⟩ => show win0_2.index t 1 * 64 + 1 * a1.val = a1.val; rw [hi.w2.2]; omega

/-- Window 3's block at any point is its array whole. -/
theorem whole0_3 (c : Dev nD) (t : Fin cfg0.N) (a0 : Fin 1) (a1 : Fin 64) :
    (blk0 V c 3 t : Vec F S1x64 .f32) (ix2 a0 a1) = (V c main_v17 : S1x64.Idx → Elt F .f32) (ix2 a0 a1) := by
  have hi := maps0 t
  unfold blk0
  rw [View.read_apply]
  show V c main_v17 _ = V c main_v17 _
  congr 1
  funext a
  apply Fin.ext
  match a with
  | ⟨0, _⟩ => show win0_3.index t 0 * 1 + 1 * a0.val = a0.val; rw [hi.w3.1]; omega
  | ⟨1, _⟩ => show win0_3.index t 1 * 64 + 1 * a1.val = a1.val; rw [hi.w3.2]; omega

/-- Window 4's block at any point is its array whole. -/
theorem whole0_4 (c : Dev nD) (t : Fin cfg0.N) (a0 : Fin 64) (a1 : Fin 64) :
    (blk0 V c 4 t : Vec F S64x64 .f32) (ix2 a0 a1) = (V c main_v19 : S64x64.Idx → Elt F .f32) (ix2 a0 a1) := by
  have hi := maps0 t
  unfold blk0
  rw [View.read_apply]
  show V c main_v19 _ = V c main_v19 _
  congr 1
  funext a
  apply Fin.ext
  match a with
  | ⟨0, _⟩ => show win0_4.index t 0 * 64 + 1 * a0.val = a0.val; rw [hi.w4.1]; omega
  | ⟨1, _⟩ => show win0_4.index t 1 * 64 + 1 * a1.val = a1.val; rw [hi.w4.2]; omega

/-- Window 5's block at any point is its array whole. -/
theorem whole0_5 (c : Dev nD) (t : Fin cfg0.N) (a0 : Fin 1) (a1 : Fin 64) :
    (blk0 V c 5 t : Vec F S1x64 .f32) (ix2 a0 a1) = (V c main_v21 : S1x64.Idx → Elt F .f32) (ix2 a0 a1) := by
  have hi := maps0 t
  unfold blk0
  rw [View.read_apply]
  show V c main_v21 _ = V c main_v21 _
  congr 1
  funext a
  apply Fin.ext
  match a with
  | ⟨0, _⟩ => show win0_5.index t 0 * 1 + 1 * a0.val = a0.val; rw [hi.w5.1]; omega
  | ⟨1, _⟩ => show win0_5.index t 1 * 64 + 1 * a1.val = a1.val; rw [hi.w5.2]; omega

end Reads0

/-- An entry `(p, j)` of output window 6's block at point `t` sits at row `3000 t + p` of its array. -/
theorem place0_6 (t : Fin cfg0.N) (p : Fin 3000) (j : Fin 64) :
    ((cfg0.win 6).blk t).view.emb (ix2 p j) = (ix2 (rowOf t.val (lt30_0 t) p) j : S90000x64.Idx) := by
  have hi := maps0 t
  funext a
  apply Fin.ext
  match a with
  | ⟨0, _⟩ => show win0_6.index t 0 * 3000 + 1 * p.val = 3000 * t.val + p.val; rw [hi.w6.1]; omega
  | ⟨1, _⟩ => show win0_6.index t 1 * 64 + 1 * j.val = j.val; rw [hi.w6.2]; omega

/-- An index of the array is in point `t`'s block of window 6 iff each coordinate is in the block's range. -/
theorem inBlock0_6 (t : Fin cfg0.N) (i : S90000x64.Idx) :
    i ∈ ((cfg0.win 6).blk t).view.set ↔ ∀ a : Fin 2, win0_6.index t a * S3000x64.size a ≤ (i a).val ∧ (i a).val < win0_6.index t a * S3000x64.size a + S3000x64.size a := by
  show i ∈ ((View.whole main_v22_0).slice (win0_6.rect t)).set ↔ _
  rw [View.set_slice_whole, Rect.mem_set_unit]
  exact Iff.rfl

/-- The thirty blocks of window 6 tile the array: row `r` is in block `r / 3000`. -/
theorem tiled0_6 (i : S90000x64.Idx) : ∃ t : Fin cfg0.N, (cfg0.win 6).flush t = true ∧ i ∈ ((cfg0.win 6).blk t).view.set := by
  have hi0 : (i 0).val < 90000 := (i 0).isLt
  have hi1 : (i 1).val < 64 := (i 1).isLt
  have hN : cfg0.N = 30 := N_0
  refine ⟨⟨(i 0).val / 3000, by rw [hN]; omega⟩, flush0_6 _, ?_⟩
  rw [inBlock0_6]
  have hm := maps0 ⟨(i 0).val / 3000, by rw [hN]; omega⟩
  intro a
  match a with
  | ⟨0, _⟩ => show win0_6.index _ 0 * 3000 ≤ (i 0).val ∧ (i 0).val < win0_6.index _ 0 * 3000 + 3000; rw [hm.w6.1]; show (i 0).val / 3000 * 3000 ≤ (i 0).val ∧ (i 0).val < (i 0).val / 3000 * 3000 + 3000; omega
  | ⟨1, _⟩ => show win0_6.index _ 1 * 64 ≤ (i 1).val ∧ (i 1).val < win0_6.index _ 1 * 64 + 64; rw [hm.w6.2]; omega

/-- An entry `(p, j)` of output window 7's block at point `t` sits at row `3000 t + p` of its array. -/
theorem place0_7 (t : Fin cfg0.N) (p : Fin 3000) (j : Fin 64) :
    ((cfg0.win 7).blk t).view.emb (ix2 p j) = (ix2 (rowOf t.val (lt30_0 t) p) j : S90000x64.Idx) := by
  have hi := maps0 t
  funext a
  apply Fin.ext
  match a with
  | ⟨0, _⟩ => show win0_7.index t 0 * 3000 + 1 * p.val = 3000 * t.val + p.val; rw [hi.w7.1]; omega
  | ⟨1, _⟩ => show win0_7.index t 1 * 64 + 1 * j.val = j.val; rw [hi.w7.2]; omega

/-- An index of the array is in point `t`'s block of window 7 iff each coordinate is in the block's range. -/
theorem inBlock0_7 (t : Fin cfg0.N) (i : S90000x64.Idx) :
    i ∈ ((cfg0.win 7).blk t).view.set ↔ ∀ a : Fin 2, win0_7.index t a * S3000x64.size a ≤ (i a).val ∧ (i a).val < win0_7.index t a * S3000x64.size a + S3000x64.size a := by
  show i ∈ ((View.whole main_v22_1).slice (win0_7.rect t)).set ↔ _
  rw [View.set_slice_whole, Rect.mem_set_unit]
  exact Iff.rfl

/-- The thirty blocks of window 7 tile the array: row `r` is in block `r / 3000`. -/
theorem tiled0_7 (i : S90000x64.Idx) : ∃ t : Fin cfg0.N, (cfg0.win 7).flush t = true ∧ i ∈ ((cfg0.win 7).blk t).view.set := by
  have hi0 : (i 0).val < 90000 := (i 0).isLt
  have hi1 : (i 1).val < 64 := (i 1).isLt
  have hN : cfg0.N = 30 := N_0
  refine ⟨⟨(i 0).val / 3000, by rw [hN]; omega⟩, flush0_7 _, ?_⟩
  rw [inBlock0_7]
  have hm := maps0 ⟨(i 0).val / 3000, by rw [hN]; omega⟩
  intro a
  match a with
  | ⟨0, _⟩ => show win0_7.index _ 0 * 3000 ≤ (i 0).val ∧ (i 0).val < win0_7.index _ 0 * 3000 + 3000; rw [hm.w7.1]; show (i 0).val / 3000 * 3000 ≤ (i 0).val ∧ (i 0).val < (i 0).val / 3000 * 3000 + 3000; omega
  | ⟨1, _⟩ => show win0_7.index _ 1 * 64 ≤ (i 1).val ∧ (i 1).val < win0_7.index _ 1 * 64 + 64; rw [hm.w7.2]; omega

section Written0
variable (V : (c : Dev nD) → (b : Ref sig .tc) → Buf (Elt Ideal) ((c : Thread nD τ).loc b))

/-- What point `t` writes back to the new embeddings' array is block `t` of the layer on all rows. -/
theorem back0_6 (c : Dev nD) (t : Fin cfg0.N) :
    (layerDat0 V c).flushed 6 t = ((cfg0.win 6).blk t).view.read (Elt Ideal) (Rows.layerRows (V c main_v0) (V c main_v13) (V c main_v15) (V c main_v17) (V c main_v19) (V c main_v21)) := by
  show (cfg0.win 6).cut (grid0.coords t) ((layerDat0 V c).after 6 t) = _
  rw [left0_6]
  unfold newEgo0
  rw [View.canon_unit_zero hz]
  simp only [View.ld_unit_zero (S := S3000x64) hz, View.ld_unit_zero (S := S64x64) hz, View.ld_unit_zero (S := S1x64) hz]
  refine funext fun (y : S3000x64.Idx) => ?_
  obtain ⟨p, j, rfl⟩ : ∃ (p : Fin 3000) (j : Fin 64), y = ix2 p j := ⟨y 0, y 1, eq_ix2 y⟩
  rw [View.read_apply, place0_6 t p j]
  exact ego_block _ _ _ _ _ _ _ _ _ _ _ _ t.val (lt30_0 t) (fun p k => rows0_0 V c t p k) (fun p k => rows0_1 V c t p k) (fun k j => whole0_2 V c t k j) (fun j => whole0_3 V c t 0 j) (fun k j => whole0_4 V c t k j) (fun j => whole0_5 V c t 0 j) p j

/-- What point `t` writes back to the normalised array is block `t` of the normalised layer on all rows. -/
theorem back0_7 (c : Dev nD) (t : Fin cfg0.N) :
    (layerDat0 V c).flushed 7 t = ((cfg0.win 7).blk t).view.read (Elt Ideal) (Rows.normRows (Rows.layerRows (V c main_v0) (V c main_v13) (V c main_v15) (V c main_v17) (V c main_v19) (V c main_v21))) := by
  show (cfg0.win 7).cut (grid0.coords t) ((layerDat0 V c).after 7 t) = _
  rw [left0_7]
  unfold newNorm0
  rw [View.canon_unit_zero hz]
  simp only [View.ld_unit_zero (S := S3000x64) hz, View.ld_unit_zero (S := S64x64) hz, View.ld_unit_zero (S := S1x64) hz]
  refine funext fun (y : S3000x64.Idx) => ?_
  obtain ⟨p, j, rfl⟩ : ∃ (p : Fin 3000) (j : Fin 64), y = ix2 p j := ⟨y 0, y 1, eq_ix2 y⟩
  rw [View.read_apply, place0_7 t p j]
  exact norm_block _ _ _ _ _ _ _ _ _ _ _ _ t.val (lt30_0 t) (fun p k => rows0_0 V c t p k) (fun p k => rows0_1 V c t p k) (fun k j => whole0_2 V c t k j) (fun j => whole0_3 V c t 0 j) (fun k j => whole0_4 V c t k j) (fun j => whole0_5 V c t 0 j) p j

/-- After the thirty points the new embeddings' array holds the layer on all rows of the arrays the region was entered with. -/
theorem ego_array0 (c : Dev nD) : (layerDat0 V c).arrAt 6 cfg0.N = (Rows.layerRows (V c main_v0) (V c main_v13) (V c main_v15) (V c main_v17) (V c main_v19) (V c main_v21)) :=
  (layerDat0 V c).arrAt_eq_of_cover 6 _ (fun t _ => back0_6 V c t) tiled0_6

/-- and the normalised array its rows divided by their norms. -/
theorem norm_array0 (c : Dev nD) : (layerDat0 V c).arrAt 7 cfg0.N = Rows.normRows (Rows.layerRows (V c main_v0) (V c main_v13) (V c main_v15) (V c main_v17) (V c main_v19) (V c main_v21)) :=
  (layerDat0 V c).arrAt_eq_of_cover 7 _ (fun t _ => back0_7 V c t) tiled0_7

end Written0

/-! # Layer 2 -/

/-- The printed index maps of layer 2's eight windows, decided over the thirty grid points: a node window's block index is
    `(t, 0)`, a weight's or a bias's `(0, 0)`. -/
structure Maps1 (t : Fin cfg1.N) : Prop where
  w0 : win1_0.index t (0 : Fin 2) = t.val ∧ win1_0.index t (1 : Fin 2) = 0
  w1 : win1_1.index t (0 : Fin 2) = t.val ∧ win1_1.index t (1 : Fin 2) = 0
  w2 : win1_2.index t (0 : Fin 2) = 0 ∧ win1_2.index t (1 : Fin 2) = 0
  w3 : win1_3.index t (0 : Fin 2) = 0 ∧ win1_3.index t (1 : Fin 2) = 0
  w4 : win1_4.index t (0 : Fin 2) = 0 ∧ win1_4.index t (1 : Fin 2) = 0
  w5 : win1_5.index t (0 : Fin 2) = 0 ∧ win1_5.index t (1 : Fin 2) = 0
  w6 : win1_6.index t (0 : Fin 2) = t.val ∧ win1_6.index t (1 : Fin 2) = 0
  w7 : win1_7.index t (0 : Fin 2) = t.val ∧ win1_7.index t (1 : Fin 2) = 0

theorem maps1_all : ∀ t : Fin cfg1.N,
    (win1_0.index t (0 : Fin 2) = t.val ∧ win1_0.index t (1 : Fin 2) = 0) ∧ (win1_1.index t (0 : Fin 2) = t.val ∧ win1_1.index t (1 : Fin 2) = 0)
    ∧ (win1_2.index t (0 : Fin 2) = 0 ∧ win1_2.index t (1 : Fin 2) = 0) ∧ (win1_3.index t (0 : Fin 2) = 0 ∧ win1_3.index t (1 : Fin 2) = 0)
    ∧ (win1_4.index t (0 : Fin 2) = 0 ∧ win1_4.index t (1 : Fin 2) = 0) ∧ (win1_5.index t (0 : Fin 2) = 0 ∧ win1_5.index t (1 : Fin 2) = 0)
    ∧ (win1_6.index t (0 : Fin 2) = t.val ∧ win1_6.index t (1 : Fin 2) = 0) ∧ (win1_7.index t (0 : Fin 2) = t.val ∧ win1_7.index t (1 : Fin 2) = 0) :=
  (by decide +kernel : ∀ t : Fin grid1.N, _)

theorem maps1 (t : Fin cfg1.N) : Maps1 t := by
  obtain ⟨h0, h1, h2, h3, h4, h5, h6, h7⟩ := maps1_all t
  exact ⟨h0, h1, h2, h3, h4, h5, h6, h7⟩

theorem lt30_1 (t : Fin cfg1.N) : t.val < 30 := lt_of_lt_of_eq t.isLt (N_1 : cfg1.N = 30)

section Reads1
variable {F : FTy → Type} [FloatOps F] (V : (c : Dev nD) → (b : Ref sig .tc) → Buf (Elt F) ((c : Thread nD τ).loc b))

/-- Window 0's block at point `t` is rows `3000 t …` of its array. -/
theorem rows1_0 (c : Dev nD) (t : Fin cfg1.N) (p : Fin 3000) (k : Fin 64) :
    (blk1 V c 0 t : Vec F S3000x64 .f32) (ix2 p k) = (V c main_v22_0 : S90000x64.Idx → Elt F .f32) (ix2 (rowOf t.val (lt30_1 t) p) k) := by
  have hi := maps1 t
  unfold blk1
  rw [View.read_apply]
  show V c main_v22_0 _ = V c main_v22_0 _
  congr 1
  funext a
  apply Fin.ext
  match a with
  | ⟨0, _⟩ => show win1_0.index t 0 * 3000 + 1 * p.val = 3000 * t.val + p.val; rw [hi.w0.1]; omega
  | ⟨1, _⟩ => show win1_0.index t 1 * 64 + 1 * k.val = k.val; rw [hi.w0.2]; omega

/-- Window 1's block at point `t` is rows `3000 t …` of its array. -/
theorem rows1_1 (c : Dev nD) (t : Fin cfg1.N) (p : Fin 3000) (k : Fin 64) :
    (blk1 V c 1 t : Vec F S3000x64 .f32) (ix2 p k) = (V c main_v35 : S90000x64.Idx → Elt F .f32) (ix2 (rowOf t.val (lt30_1 t) p) k) := by
  have hi := maps1 t
  unfold blk1
  rw [View.read_apply]
  show V c main_v35 _ = V c main_v35 _
  congr 1
  funext a
  apply Fin.ext
  match a with
  | ⟨0, _⟩ => show win1_1.index t 0 * 3000 + 1 * p.val = 3000 * t.val + p.val; rw [hi.w1.1]; omega
  | ⟨1, _⟩ => show win1_1.index t 1 * 64 + 1 * k.val = k.val; rw [hi.w1.2]; omega

/-- Window 2's block at any point is its array whole. -/
theorem whole1_2 (c : Dev nD) (t : Fin cfg1.N) (a0 : Fin 64) (a1 : Fin 64) :
    (blk1 V c 2 t : Vec F S64x64 .f32) (ix2 a0 a1) = (V c main_v37 : S64x64.Idx → Elt F .f32) (ix2 a0 a1) := by
  have hi := maps1 t
  unfold blk1
  rw [View.read_apply]
  show V c main_v37 _ = V c main_v37 _
  congr 1
  funext a
  apply Fin.ext
  match a with
  | ⟨0, _⟩ => show win1_2.index t 0 * 64 + 1 * a0.val = a0.val; rw [hi.w2.1]; omega
  | ⟨1, _⟩ => show win1_2.index t 1 * 64 + 1 * a1.val = a1.val; rw [hi.w2.2]; omega

/-- Window 3's block at any point is its array whole. -/
theorem whole1_3 (c : Dev nD) (t : Fin cfg1.N) (a0 : Fin 1) (a1 : Fin 64) :
    (blk1 V c 3 t : Vec F S1x64 .f32) (ix2 a0 a1) = (V c main_v39 : S1x64.Idx → Elt F .f32) (ix2 a0 a1) := by
  have hi := maps1 t
  unfold blk1
  rw [View.read_apply]
  show V c main_v39 _ = V c main_v39 _
  congr 1
  funext a
  apply Fin.ext
  match a with
  | ⟨0, _⟩ => show win1_3.index t 0 * 1 + 1 * a0.val = a0.val; rw [hi.w3.1]; omega
  | ⟨1, _⟩ => show win1_3.index t 1 * 64 + 1 * a1.val = a1.val; rw [hi.w3.2]; omega

/-- Window 4's block at any point is its array whole. -/
theorem whole1_4 (c : Dev nD) (t : Fin cfg1.N) (a0 : Fin 64) (a1 : Fin 64) :
    (blk1 V c 4 t : Vec F S64x64 .f32) (ix2 a0 a1) = (V c main_v41 : S64x64.Idx → Elt F .f32) (ix2 a0 a1) := by
  have hi := maps1 t
  unfold blk1
  rw [View.read_apply]
  show V c main_v41 _ = V c main_v41 _
  congr 1
  funext a
  apply Fin.ext
  match a with
  | ⟨0, _⟩ => show win1_4.index t 0 * 64 + 1 * a0.val = a0.val; rw [hi.w4.1]; omega
  | ⟨1, _⟩ => show win1_4.index t 1 * 64 + 1 * a1.val = a1.val; rw [hi.w4.2]; omega

/-- Window 5's block at any point is its array whole. -/
theorem whole1_5 (c : Dev nD) (t : Fin cfg1.N) (a0 : Fin 1) (a1 : Fin 64) :
    (blk1 V c 5 t : Vec F S1x64 .f32) (ix2 a0 a1) = (V c main_v43 : S1x64.Idx → Elt F .f32) (ix2 a0 a1) := by
  have hi := maps1 t
  unfold blk1
  rw [View.read_apply]
  show V c main_v43 _ = V c main_v43 _
  congr 1
  funext a
  apply Fin.ext
  match a with
  | ⟨0, _⟩ => show win1_5.index t 0 * 1 + 1 * a0.val = a0.val; rw [hi.w5.1]; omega
  | ⟨1, _⟩ => show win1_5.index t 1 * 64 + 1 * a1.val = a1.val; rw [hi.w5.2]; omega

end Reads1

/-- An entry `(p, j)` of output window 6's block at point `t` sits at row `3000 t + p` of its array. -/
theorem place1_6 (t : Fin cfg1.N) (p : Fin 3000) (j : Fin 64) :
    ((cfg1.win 6).blk t).view.emb (ix2 p j) = (ix2 (rowOf t.val (lt30_1 t) p) j : S90000x64.Idx) := by
  have hi := maps1 t
  funext a
  apply Fin.ext
  match a with
  | ⟨0, _⟩ => show win1_6.index t 0 * 3000 + 1 * p.val = 3000 * t.val + p.val; rw [hi.w6.1]; omega
  | ⟨1, _⟩ => show win1_6.index t 1 * 64 + 1 * j.val = j.val; rw [hi.w6.2]; omega

/-- An index of the array is in point `t`'s block of window 6 iff each coordinate is in the block's range. -/
theorem inBlock1_6 (t : Fin cfg1.N) (i : S90000x64.Idx) :
    i ∈ ((cfg1.win 6).blk t).view.set ↔ ∀ a : Fin 2, win1_6.index t a * S3000x64.size a ≤ (i a).val ∧ (i a).val < win1_6.index t a * S3000x64.size a + S3000x64.size a := by
  show i ∈ ((View.whole main_v44_0).slice (win1_6.rect t)).set ↔ _
  rw [View.set_slice_whole, Rect.mem_set_unit]
  exact Iff.rfl

/-- The thirty blocks of window 6 tile the array: row `r` is in block `r / 3000`. -/
theorem tiled1_6 (i : S90000x64.Idx) : ∃ t : Fin cfg1.N, (cfg1.win 6).flush t = true ∧ i ∈ ((cfg1.win 6).blk t).view.set := by
  have hi0 : (i 0).val < 90000 := (i 0).isLt
  have hi1 : (i 1).val < 64 := (i 1).isLt
  have hN : cfg1.N = 30 := N_1
  refine ⟨⟨(i 0).val / 3000, by rw [hN]; omega⟩, flush1_6 _, ?_⟩
  rw [inBlock1_6]
  have hm := maps1 ⟨(i 0).val / 3000, by rw [hN]; omega⟩
  intro a
  match a with
  | ⟨0, _⟩ => show win1_6.index _ 0 * 3000 ≤ (i 0).val ∧ (i 0).val < win1_6.index _ 0 * 3000 + 3000; rw [hm.w6.1]; show (i 0).val / 3000 * 3000 ≤ (i 0).val ∧ (i 0).val < (i 0).val / 3000 * 3000 + 3000; omega
  | ⟨1, _⟩ => show win1_6.index _ 1 * 64 ≤ (i 1).val ∧ (i 1).val < win1_6.index _ 1 * 64 + 64; rw [hm.w6.2]; omega

/-- An entry `(p, j)` of output window 7's block at point `t` sits at row `3000 t + p` of its array. -/
theorem place1_7 (t : Fin cfg1.N) (p : Fin 3000) (j : Fin 64) :
    ((cfg1.win 7).blk t).view.emb (ix2 p j) = (ix2 (rowOf t.val (lt30_1 t) p) j : S90000x64.Idx) := by
  have hi := maps1 t
  funext a
  apply Fin.ext
  match a with
  | ⟨0, _⟩ => show win1_7.index t 0 * 3000 + 1 * p.val = 3000 * t.val + p.val; rw [hi.w7.1]; omega
  | ⟨1, _⟩ => show win1_7.index t 1 * 64 + 1 * j.val = j.val; rw [hi.w7.2]; omega

/-- An index of the array is in point `t`'s block of window 7 iff each coordinate is in the block's range. -/
theorem inBlock1_7 (t : Fin cfg1.N) (i : S90000x64.Idx) :
    i ∈ ((cfg1.win 7).blk t).view.set ↔ ∀ a : Fin 2, win1_7.index t a * S3000x64.size a ≤ (i a).val ∧ (i a).val < win1_7.index t a * S3000x64.size a + S3000x64.size a := by
  show i ∈ ((View.whole main_v44_1).slice (win1_7.rect t)).set ↔ _
  rw [View.set_slice_whole, Rect.mem_set_unit]
  exact Iff.rfl

/-- The thirty blocks of window 7 tile the array: row `r` is in block `r / 3000`. -/
theorem tiled1_7 (i : S90000x64.Idx) : ∃ t : Fin cfg1.N, (cfg1.win 7).flush t = true ∧ i ∈ ((cfg1.win 7).blk t).view.set := by
  have hi0 : (i 0).val < 90000 := (i 0).isLt
  have hi1 : (i 1).val < 64 := (i 1).isLt
  have hN : cfg1.N = 30 := N_1
  refine ⟨⟨(i 0).val / 3000, by rw [hN]; omega⟩, flush1_7 _, ?_⟩
  rw [inBlock1_7]
  have hm := maps1 ⟨(i 0).val / 3000, by rw [hN]; omega⟩
  intro a
  match a with
  | ⟨0, _⟩ => show win1_7.index _ 0 * 3000 ≤ (i 0).val ∧ (i 0).val < win1_7.index _ 0 * 3000 + 3000; rw [hm.w7.1]; show (i 0).val / 3000 * 3000 ≤ (i 0).val ∧ (i 0).val < (i 0).val / 3000 * 3000 + 3000; omega
  | ⟨1, _⟩ => show win1_7.index _ 1 * 64 ≤ (i 1).val ∧ (i 1).val < win1_7.index _ 1 * 64 + 64; rw [hm.w7.2]; omega

section Written1
variable (V : (c : Dev nD) → (b : Ref sig .tc) → Buf (Elt Ideal) ((c : Thread nD τ).loc b))

/-- What point `t` writes back to the new embeddings' array is block `t` of the layer on all rows. -/
theorem back1_6 (c : Dev nD) (t : Fin cfg1.N) :
    (layerDat1 V c).flushed 6 t = ((cfg1.win 6).blk t).view.read (Elt Ideal) (Rows.layerRows (V c main_v22_0) (V c main_v35) (V c main_v37) (V c main_v39) (V c main_v41) (V c main_v43)) := by
  show (cfg1.win 6).cut (grid1.coords t) ((layerDat1 V c).after 6 t) = _
  rw [left1_6]
  unfold newEgo1
  rw [View.canon_unit_zero hz]
  simp only [View.ld_unit_zero (S := S3000x64) hz, View.ld_unit_zero (S := S64x64) hz, View.ld_unit_zero (S := S1x64) hz]
  rw [show @k1_pay2 = @k0_pay2 from Cert.KernelIdeal.Rows.pay2_k1]
  refine funext fun (y : S3000x64.Idx) => ?_
  obtain ⟨p, j, rfl⟩ : ∃ (p : Fin 3000) (j : Fin 64), y = ix2 p j := ⟨y 0, y 1, eq_ix2 y⟩
  rw [View.read_apply, place1_6 t p j]
  exact ego_block _ _ _ _ _ _ _ _ _ _ _ _ t.val (lt30_1 t) (fun p k => rows1_0 V c t p k) (fun p k => rows1_1 V c t p k) (fun k j => whole1_2 V c t k j) (fun j => whole1_3 V c t 0 j) (fun k j => whole1_4 V c t k j) (fun j => whole1_5 V c t 0 j) p j

/-- What point `t` writes back to the normalised array is block `t` of the normalised layer on all rows. -/
theorem back1_7 (c : Dev nD) (t : Fin cfg1.N) :
    (layerDat1 V c).flushed 7 t = ((cfg1.win 7).blk t).view.read (Elt Ideal) (Rows.normRows (Rows.layerRows (V c main_v22_0) (V c main_v35) (V c main_v37) (V c main_v39) (V c main_v41) (V c main_v43))) := by
  show (cfg1.win 7).cut (grid1.coords t) ((layerDat1 V c).after 7 t) = _
  rw [left1_7]
  unfold newNorm1
  rw [View.canon_unit_zero hz]
  simp only [View.ld_unit_zero (S := S3000x64) hz, View.ld_unit_zero (S := S64x64) hz, View.ld_unit_zero (S := S1x64) hz]
  rw [show @k1_pay1 = @k0_pay1 from Cert.KernelIdeal.Rows.pay1_k1, show @k1_pay2 = @k0_pay2 from Cert.KernelIdeal.Rows.pay2_k1, show @k1_pay3 = @k0_pay3 from Cert.KernelIdeal.Rows.pay3_k1]
  refine funext fun (y : S3000x64.Idx) => ?_
  obtain ⟨p, j, rfl⟩ : ∃ (p : Fin 3000) (j : Fin 64), y = ix2 p j := ⟨y 0, y 1, eq_ix2 y⟩
  rw [View.read_apply, place1_7 t p j]
  exact norm_block _ _ _ _ _ _ _ _ _ _ _ _ t.val (lt30_1 t) (fun p k => rows1_0 V c t p k) (fun p k => rows1_1 V c t p k) (fun k j => whole1_2 V c t k j) (fun j => whole1_3 V c t 0 j) (fun k j => whole1_4 V c t k j) (fun j => whole1_5 V c t 0 j) p j

/-- After the thirty points the new embeddings' array holds the layer on all rows of the arrays the region was entered with. -/
theorem ego_array1 (c : Dev nD) : (layerDat1 V c).arrAt 6 cfg1.N = (Rows.layerRows (V c main_v22_0) (V c main_v35) (V c main_v37) (V c main_v39) (V c main_v41) (V c main_v43)) :=
  (layerDat1 V c).arrAt_eq_of_cover 6 _ (fun t _ => back1_6 V c t) tiled1_6

/-- and the normalised array its rows divided by their norms. -/
theorem norm_array1 (c : Dev nD) : (layerDat1 V c).arrAt 7 cfg1.N = Rows.normRows (Rows.layerRows (V c main_v22_0) (V c main_v35) (V c main_v37) (V c main_v39) (V c main_v41) (V c main_v43)) :=
  (layerDat1 V c).arrAt_eq_of_cover 7 _ (fun t _ => back1_7 V c t) tiled1_7

end Written1

/-! # Layer 3 -/

/-- The printed index maps of layer 3's eight windows, decided over the thirty grid points: a node window's block index is
    `(t, 0)`, a weight's or a bias's `(0, 0)`. -/
structure Maps2 (t : Fin cfg2.N) : Prop where
  w0 : win2_0.index t (0 : Fin 2) = t.val ∧ win2_0.index t (1 : Fin 2) = 0
  w1 : win2_1.index t (0 : Fin 2) = t.val ∧ win2_1.index t (1 : Fin 2) = 0
  w2 : win2_2.index t (0 : Fin 2) = 0 ∧ win2_2.index t (1 : Fin 2) = 0
  w3 : win2_3.index t (0 : Fin 2) = 0 ∧ win2_3.index t (1 : Fin 2) = 0
  w4 : win2_4.index t (0 : Fin 2) = 0 ∧ win2_4.index t (1 : Fin 2) = 0
  w5 : win2_5.index t (0 : Fin 2) = 0 ∧ win2_5.index t (1 : Fin 2) = 0
  w6 : win2_6.index t (0 : Fin 2) = t.val ∧ win2_6.index t (1 : Fin 2) = 0
  w7 : win2_7.index t (0 : Fin 2) = t.val ∧ win2_7.index t (1 : Fin 2) = 0

theorem maps2_all : ∀ t : Fin cfg2.N,
    (win2_0.index t (0 : Fin 2) = t.val ∧ win2_0.index t (1 : Fin 2) = 0) ∧ (win2_1.index t (0 : Fin 2) = t.val ∧ win2_1.index t (1 : Fin 2) = 0)
    ∧ (win2_2.index t (0 : Fin 2) = 0 ∧ win2_2.index t (1 : Fin 2) = 0) ∧ (win2_3.index t (0 : Fin 2) = 0 ∧ win2_3.index t (1 : Fin 2) = 0)
    ∧ (win2_4.index t (0 : Fin 2) = 0 ∧ win2_4.index t (1 : Fin 2) = 0) ∧ (win2_5.index t (0 : Fin 2) = 0 ∧ win2_5.index t (1 : Fin 2) = 0)
    ∧ (win2_6.index t (0 : Fin 2) = t.val ∧ win2_6.index t (1 : Fin 2) = 0) ∧ (win2_7.index t (0 : Fin 2) = t.val ∧ win2_7.index t (1 : Fin 2) = 0) :=
  (by decide +kernel : ∀ t : Fin grid2.N, _)

theorem maps2 (t : Fin cfg2.N) : Maps2 t := by
  obtain ⟨h0, h1, h2, h3, h4, h5, h6, h7⟩ := maps2_all t
  exact ⟨h0, h1, h2, h3, h4, h5, h6, h7⟩

theorem lt30_2 (t : Fin cfg2.N) : t.val < 30 := lt_of_lt_of_eq t.isLt (N_2 : cfg2.N = 30)

section Reads2
variable {F : FTy → Type} [FloatOps F] (V : (c : Dev nD) → (b : Ref sig .tc) → Buf (Elt F) ((c : Thread nD τ).loc b))

/-- Window 0's block at point `t` is rows `3000 t …` of its array. -/
theorem rows2_0 (c : Dev nD) (t : Fin cfg2.N) (p : Fin 3000) (k : Fin 64) :
    (blk2 V c 0 t : Vec F S3000x64 .f32) (ix2 p k) = (V c main_v44_0 : S90000x64.Idx → Elt F .f32) (ix2 (rowOf t.val (lt30_2 t) p) k) := by
  have hi := maps2 t
  unfold blk2
  rw [View.read_apply]
  show V c main_v44_0 _ = V c main_v44_0 _
  congr 1
  funext a
  apply Fin.ext
  match a with
  | ⟨0, _⟩ => show win2_0.index t 0 * 3000 + 1 * p.val = 3000 * t.val + p.val; rw [hi.w0.1]; omega
  | ⟨1, _⟩ => show win2_0.index t 1 * 64 + 1 * k.val = k.val; rw [hi.w0.2]; omega

/-- Window 1's block at point `t` is rows `3000 t …` of its array. -/
theorem rows2_1 (c : Dev nD) (t : Fin cfg2.N) (p : Fin 3000) (k : Fin 64) :
    (blk2 V c 1 t : Vec F S3000x64 .f32) (ix2 p k) = (V c main_v57 : S90000x64.Idx → Elt F .f32) (ix2 (rowOf t.val (lt30_2 t) p) k) := by
  have hi := maps2 t
  unfold blk2
  rw [View.read_apply]
  show V c main_v57 _ = V c main_v57 _
  congr 1
  funext a
  apply Fin.ext
  match a with
  | ⟨0, _⟩ => show win2_1.index t 0 * 3000 + 1 * p.val = 3000 * t.val + p.val; rw [hi.w1.1]; omega
  | ⟨1, _⟩ => show win2_1.index t 1 * 64 + 1 * k.val = k.val; rw [hi.w1.2]; omega

/-- Window 2's block at any point is its array whole. -/
theorem whole2_2 (c : Dev nD) (t : Fin cfg2.N) (a0 : Fin 64) (a1 : Fin 64) :
    (blk2 V c 2 t : Vec F S64x64 .f32) (ix2 a0 a1) = (V c main_v59 : S64x64.Idx → Elt F .f32) (ix2 a0 a1) := by
  have hi := maps2 t
  unfold blk2
  rw [View.read_apply]
  show V c main_v59 _ = V c main_v59 _
  congr 1
  funext a
  apply Fin.ext
  match a with
  | ⟨0, _⟩ => show win2_2.index t 0 * 64 + 1 * a0.val = a0.val; rw [hi.w2.1]; omega
  | ⟨1, _⟩ => show win2_2.index t 1 * 64 + 1 * a1.val = a1.val; rw [hi.w2.2]; omega

/-- Window 3's block at any point is its array whole. -/
theorem whole2_3 (c : Dev nD) (t : Fin cfg2.N) (a0 : Fin 1) (a1 : Fin 64) :
    (blk2 V c 3 t : Vec F S1x64 .f32) (ix2 a0 a1) = (V c main_v61 : S1x64.Idx → Elt F .f32) (ix2 a0 a1) := by
  have hi := maps2 t
  unfold blk2
  rw [View.read_apply]
  show V c main_v61 _ = V c main_v61 _
  congr 1
  funext a
  apply Fin.ext
  match a with
  | ⟨0, _⟩ => show win2_3.index t 0 * 1 + 1 * a0.val = a0.val; rw [hi.w3.1]; omega
  | ⟨1, _⟩ => show win2_3.index t 1 * 64 + 1 * a1.val = a1.val; rw [hi.w3.2]; omega

/-- Window 4's block at any point is its array whole. -/
theorem whole2_4 (c : Dev nD) (t : Fin cfg2.N) (a0 : Fin 64) (a1 : Fin 64) :
    (blk2 V c 4 t : Vec F S64x64 .f32) (ix2 a0 a1) = (V c main_v63 : S64x64.Idx → Elt F .f32) (ix2 a0 a1) := by
  have hi := maps2 t
  unfold blk2
  rw [View.read_apply]
  show V c main_v63 _ = V c main_v63 _
  congr 1
  funext a
  apply Fin.ext
  match a with
  | ⟨0, _⟩ => show win2_4.index t 0 * 64 + 1 * a0.val = a0.val; rw [hi.w4.1]; omega
  | ⟨1, _⟩ => show win2_4.index t 1 * 64 + 1 * a1.val = a1.val; rw [hi.w4.2]; omega

/-- Window 5's block at any point is its array whole. -/
theorem whole2_5 (c : Dev nD) (t : Fin cfg2.N) (a0 : Fin 1) (a1 : Fin 64) :
    (blk2 V c 5 t : Vec F S1x64 .f32) (ix2 a0 a1) = (V c main_v65 : S1x64.Idx → Elt F .f32) (ix2 a0 a1) := by
  have hi := maps2 t
  unfold blk2
  rw [View.read_apply]
  show V c main_v65 _ = V c main_v65 _
  congr 1
  funext a
  apply Fin.ext
  match a with
  | ⟨0, _⟩ => show win2_5.index t 0 * 1 + 1 * a0.val = a0.val; rw [hi.w5.1]; omega
  | ⟨1, _⟩ => show win2_5.index t 1 * 64 + 1 * a1.val = a1.val; rw [hi.w5.2]; omega

end Reads2

/-- An entry `(p, j)` of output window 6's block at point `t` sits at row `3000 t + p` of its array. -/
theorem place2_6 (t : Fin cfg2.N) (p : Fin 3000) (j : Fin 64) :
    ((cfg2.win 6).blk t).view.emb (ix2 p j) = (ix2 (rowOf t.val (lt30_2 t) p) j : S90000x64.Idx) := by
  have hi := maps2 t
  funext a
  apply Fin.ext
  match a with
  | ⟨0, _⟩ => show win2_6.index t 0 * 3000 + 1 * p.val = 3000 * t.val + p.val; rw [hi.w6.1]; omega
  | ⟨1, _⟩ => show win2_6.index t 1 * 64 + 1 * j.val = j.val; rw [hi.w6.2]; omega

/-- An index of the array is in point `t`'s block of window 6 iff each coordinate is in the block's range. -/
theorem inBlock2_6 (t : Fin cfg2.N) (i : S90000x64.Idx) :
    i ∈ ((cfg2.win 6).blk t).view.set ↔ ∀ a : Fin 2, win2_6.index t a * S3000x64.size a ≤ (i a).val ∧ (i a).val < win2_6.index t a * S3000x64.size a + S3000x64.size a := by
  show i ∈ ((View.whole main_v66_0).slice (win2_6.rect t)).set ↔ _
  rw [View.set_slice_whole, Rect.mem_set_unit]
  exact Iff.rfl

/-- The thirty blocks of window 6 tile the array: row `r` is in block `r / 3000`. -/
theorem tiled2_6 (i : S90000x64.Idx) : ∃ t : Fin cfg2.N, (cfg2.win 6).flush t = true ∧ i ∈ ((cfg2.win 6).blk t).view.set := by
  have hi0 : (i 0).val < 90000 := (i 0).isLt
  have hi1 : (i 1).val < 64 := (i 1).isLt
  have hN : cfg2.N = 30 := N_2
  refine ⟨⟨(i 0).val / 3000, by rw [hN]; omega⟩, flush2_6 _, ?_⟩
  rw [inBlock2_6]
  have hm := maps2 ⟨(i 0).val / 3000, by rw [hN]; omega⟩
  intro a
  match a with
  | ⟨0, _⟩ => show win2_6.index _ 0 * 3000 ≤ (i 0).val ∧ (i 0).val < win2_6.index _ 0 * 3000 + 3000; rw [hm.w6.1]; show (i 0).val / 3000 * 3000 ≤ (i 0).val ∧ (i 0).val < (i 0).val / 3000 * 3000 + 3000; omega
  | ⟨1, _⟩ => show win2_6.index _ 1 * 64 ≤ (i 1).val ∧ (i 1).val < win2_6.index _ 1 * 64 + 64; rw [hm.w6.2]; omega

/-- An entry `(p, j)` of output window 7's block at point `t` sits at row `3000 t + p` of its array. -/
theorem place2_7 (t : Fin cfg2.N) (p : Fin 3000) (j : Fin 64) :
    ((cfg2.win 7).blk t).view.emb (ix2 p j) = (ix2 (rowOf t.val (lt30_2 t) p) j : S90000x64.Idx) := by
  have hi := maps2 t
  funext a
  apply Fin.ext
  match a with
  | ⟨0, _⟩ => show win2_7.index t 0 * 3000 + 1 * p.val = 3000 * t.val + p.val; rw [hi.w7.1]; omega
  | ⟨1, _⟩ => show win2_7.index t 1 * 64 + 1 * j.val = j.val; rw [hi.w7.2]; omega

/-- An index of the array is in point `t`'s block of window 7 iff each coordinate is in the block's range. -/
theorem inBlock2_7 (t : Fin cfg2.N) (i : S90000x64.Idx) :
    i ∈ ((cfg2.win 7).blk t).view.set ↔ ∀ a : Fin 2, win2_7.index t a * S3000x64.size a ≤ (i a).val ∧ (i a).val < win2_7.index t a * S3000x64.size a + S3000x64.size a := by
  show i ∈ ((View.whole main_v66_1).slice (win2_7.rect t)).set ↔ _
  rw [View.set_slice_whole, Rect.mem_set_unit]
  exact Iff.rfl

/-- The thirty blocks of window 7 tile the array: row `r` is in block `r / 3000`. -/
theorem tiled2_7 (i : S90000x64.Idx) : ∃ t : Fin cfg2.N, (cfg2.win 7).flush t = true ∧ i ∈ ((cfg2.win 7).blk t).view.set := by
  have hi0 : (i 0).val < 90000 := (i 0).isLt
  have hi1 : (i 1).val < 64 := (i 1).isLt
  have hN : cfg2.N = 30 := N_2
  refine ⟨⟨(i 0).val / 3000, by rw [hN]; omega⟩, flush2_7 _, ?_⟩
  rw [inBlock2_7]
  have hm := maps2 ⟨(i 0).val / 3000, by rw [hN]; omega⟩
  intro a
  match a with
  | ⟨0, _⟩ => show win2_7.index _ 0 * 3000 ≤ (i 0).val ∧ (i 0).val < win2_7.index _ 0 * 3000 + 3000; rw [hm.w7.1]; show (i 0).val / 3000 * 3000 ≤ (i 0).val ∧ (i 0).val < (i 0).val / 3000 * 3000 + 3000; omega
  | ⟨1, _⟩ => show win2_7.index _ 1 * 64 ≤ (i 1).val ∧ (i 1).val < win2_7.index _ 1 * 64 + 64; rw [hm.w7.2]; omega

section Written2
variable (V : (c : Dev nD) → (b : Ref sig .tc) → Buf (Elt Ideal) ((c : Thread nD τ).loc b))

/-- What point `t` writes back to the new embeddings' array is block `t` of the layer on all rows. -/
theorem back2_6 (c : Dev nD) (t : Fin cfg2.N) :
    (layerDat2 V c).flushed 6 t = ((cfg2.win 6).blk t).view.read (Elt Ideal) (Rows.layerRows (V c main_v44_0) (V c main_v57) (V c main_v59) (V c main_v61) (V c main_v63) (V c main_v65)) := by
  show (cfg2.win 6).cut (grid2.coords t) ((layerDat2 V c).after 6 t) = _
  rw [left2_6]
  unfold newEgo2
  rw [View.canon_unit_zero hz]
  simp only [View.ld_unit_zero (S := S3000x64) hz, View.ld_unit_zero (S := S64x64) hz, View.ld_unit_zero (S := S1x64) hz]
  rw [show @k2_pay2 = @k0_pay2 from Cert.KernelIdeal.Rows.pay2_k2]
  refine funext fun (y : S3000x64.Idx) => ?_
  obtain ⟨p, j, rfl⟩ : ∃ (p : Fin 3000) (j : Fin 64), y = ix2 p j := ⟨y 0, y 1, eq_ix2 y⟩
  rw [View.read_apply, place2_6 t p j]
  exact ego_block _ _ _ _ _ _ _ _ _ _ _ _ t.val (lt30_2 t) (fun p k => rows2_0 V c t p k) (fun p k => rows2_1 V c t p k) (fun k j => whole2_2 V c t k j) (fun j => whole2_3 V c t 0 j) (fun k j => whole2_4 V c t k j) (fun j => whole2_5 V c t 0 j) p j

/-- What point `t` writes back to the normalised array is block `t` of the normalised layer on all rows. -/
theorem back2_7 (c : Dev nD) (t : Fin cfg2.N) :
    (layerDat2 V c).flushed 7 t = ((cfg2.win 7).blk t).view.read (Elt Ideal) (Rows.normRows (Rows.layerRows (V c main_v44_0) (V c main_v57) (V c main_v59) (V c main_v61) (V c main_v63) (V c main_v65))) := by
  show (cfg2.win 7).cut (grid2.coords t) ((layerDat2 V c).after 7 t) = _
  rw [left2_7]
  unfold newNorm2
  rw [View.canon_unit_zero hz]
  simp only [View.ld_unit_zero (S := S3000x64) hz, View.ld_unit_zero (S := S64x64) hz, View.ld_unit_zero (S := S1x64) hz]
  rw [show @k2_pay1 = @k0_pay1 from Cert.KernelIdeal.Rows.pay1_k2, show @k2_pay2 = @k0_pay2 from Cert.KernelIdeal.Rows.pay2_k2, show @k2_pay3 = @k0_pay3 from Cert.KernelIdeal.Rows.pay3_k2]
  refine funext fun (y : S3000x64.Idx) => ?_
  obtain ⟨p, j, rfl⟩ : ∃ (p : Fin 3000) (j : Fin 64), y = ix2 p j := ⟨y 0, y 1, eq_ix2 y⟩
  rw [View.read_apply, place2_7 t p j]
  exact norm_block _ _ _ _ _ _ _ _ _ _ _ _ t.val (lt30_2 t) (fun p k => rows2_0 V c t p k) (fun p k => rows2_1 V c t p k) (fun k j => whole2_2 V c t k j) (fun j => whole2_3 V c t 0 j) (fun k j => whole2_4 V c t k j) (fun j => whole2_5 V c t 0 j) p j

/-- After the thirty points the new embeddings' array holds the layer on all rows of the arrays the region was entered with. -/
theorem ego_array2 (c : Dev nD) : (layerDat2 V c).arrAt 6 cfg2.N = (Rows.layerRows (V c main_v44_0) (V c main_v57) (V c main_v59) (V c main_v61) (V c main_v63) (V c main_v65)) :=
  (layerDat2 V c).arrAt_eq_of_cover 6 _ (fun t _ => back2_6 V c t) tiled2_6

/-- and the normalised array its rows divided by their norms. -/
theorem norm_array2 (c : Dev nD) : (layerDat2 V c).arrAt 7 cfg2.N = Rows.normRows (Rows.layerRows (V c main_v44_0) (V c main_v57) (V c main_v59) (V c main_v61) (V c main_v63) (V c main_v65)) :=
  (layerDat2 V c).arrAt_eq_of_cover 7 _ (fun t _ => back2_7 V c t) tiled2_7

end Written2

end Cert.KernelIdeal.LayerValues

end
-- ==== Proof.Spec.lean ====
import proofs.«171972_j54984171323492_1_alg».proof.ReferenceIdeal

/-!
# The reference as whole-array definitions

One graph-convolution layer of the reference, as functions of whole arrays, spelt with the very
operations the printed program uses.  With e₀ the row-concatenation of the two embedding tables,
a layer takes the current embedding e to
  e' = lrelu (side · W + b) + lrelu ((e ⊙ side) · W' + b'),
where side = scatter-add over the edge rows of (gather of e at the edge columns, scaled by the
edge values), lrelu x = if x ≥ 0 then x else slope · x, and the layer's normalised output is
e' / max (sqrt (rowsum (e' ⊙ e')), ε).  The program's result is the column-concatenation
[e₀, normed e₁, normed e₂, normed e₃], read as its first 30000 and its last 60000 rows.
-/

noncomputable section

namespace Cert.ReferenceIdeal.Spec

open Idealize.ShloMosaic Idealize.SL.Sem
open Cert.ReferenceIdeal

variable {F : FTy → Type} [FloatOps F] [Facts]
open Facts₀ Facts

/-- %0: the two embedding tables, one above the other. -/
def ego0 (a0 : ((⟨S30000x64, .f32⟩ : BufTy).Contents (Elt F))) (a1 : ((⟨S60000x64, .f32⟩ : BufTy).Contents (Elt F))) : ((⟨S90000x64, .f32⟩ : BufTy).Contents (Elt F)) :=
  ((fun a b => concatenate S90000x64 0 [⟨S30000x64, a⟩, ⟨S60000x64, b⟩] concatenates_S30000x64_S60000x64_S90000x64_d0) : (⟨S30000x64, .f32⟩ : BufTy).Contents (Elt F) → (⟨S60000x64, .f32⟩ : BufTy).Contents (Elt F) → (⟨S90000x64, .f32⟩ : BufTy).Contents (Elt F)) a0 a1

/-- The edge column indices, a negative one wrapped by the row count (%5 of %arg3). -/
def wrapCol (col : ((⟨S2000000, .i32⟩ : BufTy).Contents (Elt F))) : ((⟨S2000000, .i32⟩ : BufTy).Contents (Elt F)) :=
  (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F))
    ((cmpi .slt : (⟨S2000000, .i32⟩ : BufTy).Contents (Elt F) → (⟨S2000000, .i32⟩ : BufTy).Contents (Elt F) → (⟨S2000000, .i1⟩ : BufTy).Contents (Elt F)) col
      ((broadcastInDim S2000000 ![] bcast_S_S2000000 : (⟨S_, .i32⟩ : BufTy).Contents (Elt F) → (⟨S2000000, .i32⟩ : BufTy).Contents (Elt F)) (constantI S_ 32 0#32)))
    ((addi : (⟨S2000000, .i32⟩ : BufTy).Contents (Elt F) → (⟨S2000000, .i32⟩ : BufTy).Contents (Elt F) → (⟨S2000000, .i32⟩ : BufTy).Contents (Elt F)) col
      ((broadcastInDim S2000000 ![] bcast_S_S2000000 : (⟨S_, .i32⟩ : BufTy).Contents (Elt F) → (⟨S2000000, .i32⟩ : BufTy).Contents (Elt F)) (constantI S_ 32 90000#32)))
    col

/-- %10: per edge, the embedding row of the edge's column, scaled by the edge's value. -/
def msgs (ego : ((⟨S90000x64, .f32⟩ : BufTy).Contents (Elt F))) (col : ((⟨S2000000, .i32⟩ : BufTy).Contents (Elt F))) (val : ((⟨S2000000, .f32⟩ : BufTy).Contents (Elt F))) : ((⟨S2000000x64, .f32⟩ : BufTy).Contents (Elt F)) :=
  (mulf : (⟨S2000000x64, .f32⟩ : BufTy).Contents (Elt F) → (⟨S2000000x64, .f32⟩ : BufTy).Contents (Elt F) → (⟨S2000000x64, .f32⟩ : BufTy).Contents (Elt F))
    (((fun x i => Host.gather gather_S90000x64_S2000000x1_S2000000x64_1_0_n_n_0_1_164 x i) : (⟨S90000x64, .f32⟩ : BufTy).Contents (Elt F) → (⟨S2000000x1, .i32⟩ : BufTy).Contents (Elt F) → (⟨S2000000x64, .f32⟩ : BufTy).Contents (Elt F)) ego
      ((broadcastInDim S2000000x1 ![0] bcast_S2000000_S2000000x1_0 : (⟨S2000000, .i32⟩ : BufTy).Contents (Elt F) → (⟨S2000000x1, .i32⟩ : BufTy).Contents (Elt F)) (wrapCol (F := F) col)))
    ((broadcastInDim S2000000x64 ![0, 1] bcast_S2000000x1_S2000000x64_0_1 : (⟨S2000000x1, .f32⟩ : BufTy).Contents (Elt F) → (⟨S2000000x64, .f32⟩ : BufTy).Contents (Elt F))
      ((broadcastInDim S2000000x1 ![0] bcast_S2000000_S2000000x1_0 : (⟨S2000000, .f32⟩ : BufTy).Contents (Elt F) → (⟨S2000000x1, .f32⟩ : BufTy).Contents (Elt F)) val))

/-- %13: the messages summed into the rows the edges name, from zero. -/
def side (ego : ((⟨S90000x64, .f32⟩ : BufTy).Contents (Elt F))) (row col : ((⟨S2000000, .i32⟩ : BufTy).Contents (Elt F))) (val : ((⟨S2000000, .f32⟩ : BufTy).Contents (Elt F))) : ((⟨S90000x64, .f32⟩ : BufTy).Contents (Elt F)) :=
  ((fun x i u => Host.scatterAdd scatter_S90000x64_S2000000x1_S2000000x64_1_0_0_1 x i u) : (⟨S90000x64, .f32⟩ : BufTy).Contents (Elt F) → (⟨S2000000x1, .i32⟩ : BufTy).Contents (Elt F) → (⟨S2000000x64, .f32⟩ : BufTy).Contents (Elt F) → (⟨S90000x64, .f32⟩ : BufTy).Contents (Elt F))
    ((broadcastInDim S90000x64 ![] bcast_S_S90000x64 : (⟨S_, .f32⟩ : BufTy).Contents (Elt F) → (⟨S90000x64, .f32⟩ : BufTy).Contents (Elt F)) (constant S_ .f32 0x00000000#32))
    ((broadcastInDim S2000000x1 ![0] bcast_S2000000_S2000000x1_0 : (⟨S2000000, .i32⟩ : BufTy).Contents (Elt F) → (⟨S2000000x1, .i32⟩ : BufTy).Contents (Elt F)) row)
    (msgs ego col val)

/-- Layer k's 64×64 matrix out of a stack of three: the slice [k:k+1, 0:64, 0:64], reshaped. -/
def wAt0 (w : ((⟨S3x64x64, .f32⟩ : BufTy).Contents (Elt F))) : ((⟨S64x64, .f32⟩ : BufTy).Contents (Elt F)) :=
  fun i => shapeCast S64x64 (((extractStridedSlice S1x64x64 ![0, 0, 0] · slices_S3x64x64_S1x64x64_0_0_0) : (⟨S3x64x64, .f32⟩ : BufTy).Contents (Elt F) → (⟨S1x64x64, .f32⟩ : BufTy).Contents (Elt F)) w) shapeCasts_S1x64x64_S64x64 i
def wAt1 (w : ((⟨S3x64x64, .f32⟩ : BufTy).Contents (Elt F))) : ((⟨S64x64, .f32⟩ : BufTy).Contents (Elt F)) :=
  fun i => shapeCast S64x64 (((extractStridedSlice S1x64x64 ![1, 0, 0] · slices_S3x64x64_S1x64x64_1_0_0) : (⟨S3x64x64, .f32⟩ : BufTy).Contents (Elt F) → (⟨S1x64x64, .f32⟩ : BufTy).Contents (Elt F)) w) shapeCasts_S1x64x64_S64x64 i
def wAt2 (w : ((⟨S3x64x64, .f32⟩ : BufTy).Contents (Elt F))) : ((⟨S64x64, .f32⟩ : BufTy).Contents (Elt F)) :=
  fun i => shapeCast S64x64 (((extractStridedSlice S1x64x64 ![2, 0, 0] · slices_S3x64x64_S1x64x64_2_0_0) : (⟨S3x64x64, .f32⟩ : BufTy).Contents (Elt F) → (⟨S1x64x64, .f32⟩ : BufTy).Contents (Elt F)) w) shapeCasts_S1x64x64_S64x64 i

/-- Layer k's 1×64 bias row out of a stack of three: the slice [k:k+1, 0:1, 0:64], reshaped. -/
def bAt0 (b : ((⟨S3x1x64, .f32⟩ : BufTy).Contents (Elt F))) : ((⟨S1x64, .f32⟩ : BufTy).Contents (Elt F)) :=
  fun i => shapeCast S1x64 (((extractStridedSlice S1x1x64 ![0, 0, 0] · slices_S3x1x64_S1x1x64_0_0_0) : (⟨S3x1x64, .f32⟩ : BufTy).Contents (Elt F) → (⟨S1x1x64, .f32⟩ : BufTy).Contents (Elt F)) b) shapeCasts_S1x1x64_S1x64 i
def bAt1 (b : ((⟨S3x1x64, .f32⟩ : BufTy).Contents (Elt F))) : ((⟨S1x64, .f32⟩ : BufTy).Contents (Elt F)) :=
  fun i => shapeCast S1x64 (((extractStridedSlice S1x1x64 ![1, 0, 0] · slices_S3x1x64_S1x1x64_1_0_0) : (⟨S3x1x64, .f32⟩ : BufTy).Contents (Elt F) → (⟨S1x1x64, .f32⟩ : BufTy).Contents (Elt F)) b) shapeCasts_S1x1x64_S1x64 i
def bAt2 (b : ((⟨S3x1x64, .f32⟩ : BufTy).Contents (Elt F))) : ((⟨S1x64, .f32⟩ : BufTy).Contents (Elt F)) :=
  fun i => shapeCast S1x64 (((extractStridedSlice S1x1x64 ![2, 0, 0] · slices_S3x1x64_S1x1x64_2_0_0) : (⟨S3x1x64, .f32⟩ : BufTy).Contents (Elt F) → (⟨S1x1x64, .f32⟩ : BufTy).Contents (Elt F)) b) shapeCasts_S1x1x64_S1x64 i

/-- The leaky rectifier with the given slope: x where x ≥ 0, slope · x elsewhere. -/
def lrelu (slope : ((⟨S_, .f32⟩ : BufTy).Contents (Elt F))) (x : ((⟨S90000x64, .f32⟩ : BufTy).Contents (Elt F))) : ((⟨S90000x64, .f32⟩ : BufTy).Contents (Elt F)) :=
  (select : (⟨S90000x64, .i1⟩ : BufTy).Contents (Elt F) → (⟨S90000x64, .f32⟩ : BufTy).Contents (Elt F) → (⟨S90000x64, .f32⟩ : BufTy).Contents (Elt F) → (⟨S90000x64, .f32⟩ : BufTy).Contents (Elt F))
    ((cmpf .oge : (⟨S90000x64, .f32⟩ : BufTy).Contents (Elt F) → (⟨S90000x64, .f32⟩ : BufTy).Contents (Elt F) → (⟨S90000x64, .i1⟩ : BufTy).Contents (Elt F)) x
      ((broadcastInDim S90000x64 ![] bcast_S_S90000x64 : (⟨S_, .f32⟩ : BufTy).Contents (Elt F) → (⟨S90000x64, .f32⟩ : BufTy).Contents (Elt F)) (constant S_ .f32 0x00000000#32)))
    x
    ((mulf : (⟨S90000x64, .f32⟩ : BufTy).Contents (Elt F) → (⟨S90000x64, .f32⟩ : BufTy).Contents (Elt F) → (⟨S90000x64, .f32⟩ : BufTy).Contents (Elt F))
      ((broadcastInDim S90000x64 ![] bcast_S_S90000x64 : (⟨S_, .f32⟩ : BufTy).Contents (Elt F) → (⟨S90000x64, .f32⟩ : BufTy).Contents (Elt F)) ((id : (⟨S_, .f32⟩ : BufTy).Contents (Elt F) → (⟨S_, .f32⟩ : BufTy).Contents (Elt F)) slope))
      x)

/-- One affine map of a layer: x · w + b, the bias row repeated down the rows. -/
def affine (x : ((⟨S90000x64, .f32⟩ : BufTy).Contents (Elt F))) (w : ((⟨S64x64, .f32⟩ : BufTy).Contents (Elt F))) (b : ((⟨S1x64, .f32⟩ : BufTy).Contents (Elt F))) : ((⟨S90000x64, .f32⟩ : BufTy).Contents (Elt F)) :=
  (addf : (⟨S90000x64, .f32⟩ : BufTy).Contents (Elt F) → (⟨S90000x64, .f32⟩ : BufTy).Contents (Elt F) → (⟨S90000x64, .f32⟩ : BufTy).Contents (Elt F))
    (((fun l r => Host.dotGeneral dot_S90000x64_S64x64_S90000x64_1_0_0_1_n_n none l r) : (⟨S90000x64, .f32⟩ : BufTy).Contents (Elt F) → (⟨S64x64, .f32⟩ : BufTy).Contents (Elt F) → (⟨S90000x64, .f32⟩ : BufTy).Contents (Elt F)) x w)
    ((broadcastInDim S90000x64 ![0, 1] bcast_S1x64_S90000x64_0_1 : (⟨S1x64, .f32⟩ : BufTy).Contents (Elt F) → (⟨S90000x64, .f32⟩ : BufTy).Contents (Elt F)) b)

/-- %31: the next embedding from the current one and its side. -/
def egoNext (ego sd : ((⟨S90000x64, .f32⟩ : BufTy).Contents (Elt F))) (w : ((⟨S64x64, .f32⟩ : BufTy).Contents (Elt F))) (b : ((⟨S1x64, .f32⟩ : BufTy).Contents (Elt F))) (w' : ((⟨S64x64, .f32⟩ : BufTy).Contents (Elt F))) (b' : ((⟨S1x64, .f32⟩ : BufTy).Contents (Elt F))) : ((⟨S90000x64, .f32⟩ : BufTy).Contents (Elt F)) :=
  (addf : (⟨S90000x64, .f32⟩ : BufTy).Contents (Elt F) → (⟨S90000x64, .f32⟩ : BufTy).Contents (Elt F) → (⟨S90000x64, .f32⟩ : BufTy).Contents (Elt F))
    (lrelu (constant S_ .f32 0x3E4CCCCD#32) (affine sd w b))
    (lrelu (constant S_ .f32 0x3E4CCCCD#32)
      (affine ((mulf : (⟨S90000x64, .f32⟩ : BufTy).Contents (Elt F) → (⟨S90000x64, .f32⟩ : BufTy).Contents (Elt F) → (⟨S90000x64, .f32⟩ : BufTy).Contents (Elt F)) ego sd) w' b'))

/-- %39: each row divided by the larger of its Euclidean length and ε. -/
def normed (e : ((⟨S90000x64, .f32⟩ : BufTy).Contents (Elt F))) : ((⟨S90000x64, .f32⟩ : BufTy).Contents (Elt F)) :=
  (Host.divf : (⟨S90000x64, .f32⟩ : BufTy).Contents (Elt F) → (⟨S90000x64, .f32⟩ : BufTy).Contents (Elt F) → (⟨S90000x64, .f32⟩ : BufTy).Contents (Elt F)) e
    ((broadcastInDim S90000x64 ![0, 1] bcast_S90000x1_S90000x64_0_1 : (⟨S90000x1, .f32⟩ : BufTy).Contents (Elt F) → (⟨S90000x64, .f32⟩ : BufTy).Contents (Elt F))
      ((maximumf : (⟨S90000x1, .f32⟩ : BufTy).Contents (Elt F) → (⟨S90000x1, .f32⟩ : BufTy).Contents (Elt F) → (⟨S90000x1, .f32⟩ : BufTy).Contents (Elt F))
        ((Host.sqrt : (⟨S90000x1, .f32⟩ : BufTy).Contents (Elt F) → (⟨S90000x1, .f32⟩ : BufTy).Contents (Elt F))
          ((broadcastInDim S90000x1 ![0] bcast_S90000_S90000x1_0 : (⟨S90000, .f32⟩ : BufTy).Contents (Elt F) → (⟨S90000x1, .f32⟩ : BufTy).Contents (Elt F))
            (((fun x v => Host.reduceAdd x v reducesTo_S90000x64_S90000_d1 h_S_) : (⟨S90000x64, .f32⟩ : BufTy).Contents (Elt F) → (⟨S_, .f32⟩ : BufTy).Contents (Elt F) → (⟨S90000, .f32⟩ : BufTy).Contents (Elt F))
              ((mulf : (⟨S90000x64, .f32⟩ : BufTy).Contents (Elt F) → (⟨S90000x64, .f32⟩ : BufTy).Contents (Elt F) → (⟨S90000x64, .f32⟩ : BufTy).Contents (Elt F)) e e)
              (constant S_ .f32 0x00000000#32))))
        ((broadcastInDim S90000x1 ![] bcast_S_S90000x1 : (⟨S_, .f32⟩ : BufTy).Contents (Elt F) → (⟨S90000x1, .f32⟩ : BufTy).Contents (Elt F)) (constant S_ .f32 0x2B8CBCCC#32))))

/-- %118: the four 64-column blocks side by side. -/
def allEmb (e0 n1 n2 n3 : ((⟨S90000x64, .f32⟩ : BufTy).Contents (Elt F))) : ((⟨S90000x256, .f32⟩ : BufTy).Contents (Elt F)) :=
  concatenate S90000x256 1 [⟨S90000x64, e0⟩, ⟨S90000x64, n1⟩, ⟨S90000x64, n2⟩, ⟨S90000x64, n3⟩] concatenates_S90000x64_S90000x64_S90000x64_S90000x64_S90000x256_d1

/-- %119: rows 0 … 29999. -/
def users (x : ((⟨S90000x256, .f32⟩ : BufTy).Contents (Elt F))) : ((⟨S30000x256, .f32⟩ : BufTy).Contents (Elt F)) :=
  ((extractStridedSlice S30000x256 ![0, 0] · slices_S90000x256_S30000x256_0_0) : (⟨S90000x256, .f32⟩ : BufTy).Contents (Elt F) → (⟨S30000x256, .f32⟩ : BufTy).Contents (Elt F)) x

/-- %120: rows 30000 … 89999. -/
def items (x : ((⟨S90000x256, .f32⟩ : BufTy).Contents (Elt F))) : ((⟨S60000x256, .f32⟩ : BufTy).Contents (Elt F)) :=
  ((extractStridedSlice S60000x256 ![30000, 0] · slices_S90000x256_S60000x256_30000_0) : (⟨S90000x256, .f32⟩ : BufTy).Contents (Elt F) → (⟨S60000x256, .f32⟩ : BufTy).Contents (Elt F)) x

/-- The three embeddings after layers 1, 2, 3. -/
def e1 (a0 : ((⟨S30000x64, .f32⟩ : BufTy).Contents (Elt F))) (a1 : ((⟨S60000x64, .f32⟩ : BufTy).Contents (Elt F))) (a2 a3 : ((⟨S2000000, .i32⟩ : BufTy).Contents (Elt F))) (a4 : ((⟨S2000000, .f32⟩ : BufTy).Contents (Elt F)))
    (a5 : ((⟨S3x64x64, .f32⟩ : BufTy).Contents (Elt F))) (a6 : ((⟨S3x1x64, .f32⟩ : BufTy).Contents (Elt F))) (a7 : ((⟨S3x64x64, .f32⟩ : BufTy).Contents (Elt F))) (a8 : ((⟨S3x1x64, .f32⟩ : BufTy).Contents (Elt F))) : ((⟨S90000x64, .f32⟩ : BufTy).Contents (Elt F)) :=
  egoNext (ego0 a0 a1) (side (ego0 a0 a1) a2 a3 a4) (wAt0 a5) (bAt0 a6) (wAt0 a7) (bAt0 a8)
def e2 (a0 : ((⟨S30000x64, .f32⟩ : BufTy).Contents (Elt F))) (a1 : ((⟨S60000x64, .f32⟩ : BufTy).Contents (Elt F))) (a2 a3 : ((⟨S2000000, .i32⟩ : BufTy).Contents (Elt F))) (a4 : ((⟨S2000000, .f32⟩ : BufTy).Contents (Elt F)))
    (a5 : ((⟨S3x64x64, .f32⟩ : BufTy).Contents (Elt F))) (a6 : ((⟨S3x1x64, .f32⟩ : BufTy).Contents (Elt F))) (a7 : ((⟨S3x64x64, .f32⟩ : BufTy).Contents (Elt F))) (a8 : ((⟨S3x1x64, .f32⟩ : BufTy).Contents (Elt F))) : ((⟨S90000x64, .f32⟩ : BufTy).Contents (Elt F)) :=
  egoNext (e1 a0 a1 a2 a3 a4 a5 a6 a7 a8) (side (e1 a0 a1 a2 a3 a4 a5 a6 a7 a8) a2 a3 a4) (wAt1 a5) (bAt1 a6) (wAt1 a7) (bAt1 a8)
def e3 (a0 : ((⟨S30000x64, .f32⟩ : BufTy).Contents (Elt F))) (a1 : ((⟨S60000x64, .f32⟩ : BufTy).Contents (Elt F))) (a2 a3 : ((⟨S2000000, .i32⟩ : BufTy).Contents (Elt F))) (a4 : ((⟨S2000000, .f32⟩ : BufTy).Contents (Elt F)))
    (a5 : ((⟨S3x64x64, .f32⟩ : BufTy).Contents (Elt F))) (a6 : ((⟨S3x1x64, .f32⟩ : BufTy).Contents (Elt F))) (a7 : ((⟨S3x64x64, .f32⟩ : BufTy).Contents (Elt F))) (a8 : ((⟨S3x1x64, .f32⟩ : BufTy).Contents (Elt F))) : ((⟨S90000x64, .f32⟩ : BufTy).Contents (Elt F)) :=
  egoNext (e2 a0 a1 a2 a3 a4 a5 a6 a7 a8) (side (e2 a0 a1 a2 a3 a4 a5 a6 a7 a8) a2 a3 a4) (wAt2 a5) (bAt2 a6) (wAt2 a7) (bAt2 a8)

/-- The whole result before the row split. -/
def out (a0 : ((⟨S30000x64, .f32⟩ : BufTy).Contents (Elt F))) (a1 : ((⟨S60000x64, .f32⟩ : BufTy).Contents (Elt F))) (a2 a3 : ((⟨S2000000, .i32⟩ : BufTy).Contents (Elt F))) (a4 : ((⟨S2000000, .f32⟩ : BufTy).Contents (Elt F)))
    (a5 : ((⟨S3x64x64, .f32⟩ : BufTy).Contents (Elt F))) (a6 : ((⟨S3x1x64, .f32⟩ : BufTy).Contents (Elt F))) (a7 : ((⟨S3x64x64, .f32⟩ : BufTy).Contents (Elt F))) (a8 : ((⟨S3x1x64, .f32⟩ : BufTy).Contents (Elt F))) : ((⟨S90000x256, .f32⟩ : BufTy).Contents (Elt F)) :=
  allEmb (ego0 a0 a1) (normed (e1 a0 a1 a2 a3 a4 a5 a6 a7 a8)) (normed (e2 a0 a1 a2 a3 a4 a5 a6 a7 a8)) (normed (e3 a0 a1 a2 a3 a4 a5 a6 a7 a8))

end Cert.ReferenceIdeal.Spec

end
-- ==== Proof.IdealHost.lean ====
/-
  What the kernel program's four host stretches compute, in the vocabulary of the layer's whole-array operations. Before
  layer k the host stacks the embeddings (first stretch only), forms the neighbourhood sums of the current embeddings — the
  rows gathered at the edges' source nodes, scaled by the edges' values, added up at the edges' target nodes — and cuts the
  layer's two weight matrices and two bias rows out of the stacked parameters; after the last layer it joins the initial
  embeddings and the three normalised arrays column-wise and cuts out the users' and the items' rows. Each value is read off
  the stretch's operations applied to an arbitrary valuation of the buffers.
-/
import proofs.«171972_j54984171323492_1_alg».proof.Proof.Gen.KernelIdeal.Launch
import proofs.«171972_j54984171323492_1_alg».proof.Proof.Gen.ReferenceIdeal
import proofs.«171972_j54984171323492_1_alg».proof.Proof.Spec
import Idealize.ShloMosaic.Lib.StableHlo.Run

noncomputable section

namespace Cert.KernelIdeal.HostValues

open Cert.KernelIdeal Cert.KernelIdeal.Gen
open Idealize.ShloMosaic Idealize.ShloMosaic.TcCoe Idealize.SL.Sem Idealize.ShloMosaic.StableHlo

variable {F : FTy → Type} [FloatOps F] (V : Valuation τ sig (Elt F))

/-! ## Before layer 1 -/

theorem in0_ego : StableHlo.after hostOps0 V main_v0 = Cert.ReferenceIdeal.Spec.ego0 (V main_arg0) (V main_arg1) := by
  dsimp only [hostOps0]; after_results_simp; rfl
set_option maxHeartbeats 2000000 in
theorem in0_side : StableHlo.after hostOps0 V main_v13 = Cert.ReferenceIdeal.Spec.side (Cert.ReferenceIdeal.Spec.ego0 (V main_arg0) (V main_arg1)) (V main_arg2) (V main_arg3) (V main_arg4) := by
  dsimp only [hostOps0]; after_results_simp; rfl
theorem in0_w : StableHlo.after hostOps0 V main_v15 = Cert.ReferenceIdeal.Spec.wAt0 (V main_arg5) := by
  dsimp only [hostOps0]; after_results_simp; rfl
theorem in0_b : StableHlo.after hostOps0 V main_v17 = Cert.ReferenceIdeal.Spec.bAt0 (V main_arg6) := by
  dsimp only [hostOps0]; after_results_simp; rfl
theorem in0_w' : StableHlo.after hostOps0 V main_v19 = Cert.ReferenceIdeal.Spec.wAt0 (V main_arg7) := by
  dsimp only [hostOps0]; after_results_simp; rfl
theorem in0_b' : StableHlo.after hostOps0 V main_v21 = Cert.ReferenceIdeal.Spec.bAt0 (V main_arg8) := by
  dsimp only [hostOps0]; after_results_simp; rfl

/-! ## Before layer 2 -/

set_option maxHeartbeats 2000000 in
theorem in1_side : StableHlo.after hostOps1 V main_v35 = Cert.ReferenceIdeal.Spec.side (V main_v22_0) (V main_arg2) (V main_arg3) (V main_arg4) := by
  dsimp only [hostOps1]; after_results_simp; rfl
theorem in1_w : StableHlo.after hostOps1 V main_v37 = Cert.ReferenceIdeal.Spec.wAt1 (V main_arg5) := by
  dsimp only [hostOps1]; after_results_simp; rfl
theorem in1_b : StableHlo.after hostOps1 V main_v39 = Cert.ReferenceIdeal.Spec.bAt1 (V main_arg6) := by
  dsimp only [hostOps1]; after_results_simp; rfl
theorem in1_w' : StableHlo.after hostOps1 V main_v41 = Cert.ReferenceIdeal.Spec.wAt1 (V main_arg7) := by
  dsimp only [hostOps1]; after_results_simp; rfl
theorem in1_b' : StableHlo.after hostOps1 V main_v43 = Cert.ReferenceIdeal.Spec.bAt1 (V main_arg8) := by
  dsimp only [hostOps1]; after_results_simp; rfl

/-! ## Before layer 3 -/

set_option maxHeartbeats 2000000 in
theorem in2_side : StableHlo.after hostOps2 V main_v57 = Cert.ReferenceIdeal.Spec.side (V main_v44_0) (V main_arg2) (V main_arg3) (V main_arg4) := by
  dsimp only [hostOps2]; after_results_simp; rfl
theorem in2_w : StableHlo.after hostOps2 V main_v59 = Cert.ReferenceIdeal.Spec.wAt2 (V main_arg5) := by
  dsimp only [hostOps2]; after_results_simp; rfl
theorem in2_b : StableHlo.after hostOps2 V main_v61 = Cert.ReferenceIdeal.Spec.bAt2 (V main_arg6) := by
  dsimp only [hostOps2]; after_results_simp; rfl
theorem in2_w' : StableHlo.after hostOps2 V main_v63 = Cert.ReferenceIdeal.Spec.wAt2 (V main_arg7) := by
  dsimp only [hostOps2]; after_results_simp; rfl
theorem in2_b' : StableHlo.after hostOps2 V main_v65 = Cert.ReferenceIdeal.Spec.bAt2 (V main_arg8) := by
  dsimp only [hostOps2]; after_results_simp; rfl

/-! ## After layer 3 -/

theorem end_users : StableHlo.after hostOps3 V main_v68 = Cert.ReferenceIdeal.Spec.users (Cert.ReferenceIdeal.Spec.allEmb (V main_v0) (V main_v22_1) (V main_v44_1) (V main_v66_1)) := by
  dsimp only [hostOps3]; after_results_simp; rfl
theorem end_items : StableHlo.after hostOps3 V main_v69 = Cert.ReferenceIdeal.Spec.items (Cert.ReferenceIdeal.Spec.allEmb (V main_v0) (V main_v22_1) (V main_v44_1) (V main_v66_1)) := by
  dsimp only [hostOps3]; after_results_simp; rfl

end Cert.KernelIdeal.HostValues

end
-- ==== Proof.HostRows.lean ====
/-
  ONE ROW OF THE WHOLE-ARRAY LAYER, at the extended reals.

  The reference computes a layer on the whole 90000 × 64 arrays at once: the next embedding is
  `lrelu (side · W + b) + lrelu ((e ⊙ side) · W' + b')` and the layer's output is the next embedding with every row
  divided by the larger of its Euclidean length and a small constant. Read at the extended reals and at an index `(r, j)`
  these are `RowSpec.rowEgo` and `RowSpec.rowNorm` of row `r` of the operands (`egoNext_apply`, `normed_apply`), so as
  whole arrays they are the row-wise layer and the row-wise normalisation (`egoNext_eq`, `normed_eq`): the
  product of a 90000 × 64 array with a 64 × 64 matrix is at `(r, j)` the plain sum of 64 products, the bias row is read
  at `(0, j)`, the row sum of squares at `r` is the sum over the 64 columns (its initial value is zero), its column form
  and that form's broadcast along the columns are read at `(r, 0)`, and everything else is pointwise.
-/
import proofs.«171972_j54984171323492_1_alg».proof.Proof.Spec
import proofs.«171972_j54984171323492_1_alg».proof.Proof.RowSpec
import proofs.«171972_j54984171323492_1_alg».proof.Proof.Rows
import proofs.«171972_j54984171323492_1_alg».proof.Proof.LibMatProd
import proofs.«171972_j54984171323492_1_alg».proof.Proof.LibDotLists
import Idealize.ShloMosaic.Lib.ValueLayout
import Idealize.ShloMosaic.PureOps.Ideal.Laws

noncomputable section

open scoped BigOperators

namespace Cert.ReferenceIdeal.Rows

open Cert.ReferenceIdeal Idealize.ShloMosaic Idealize.ShloMosaic.ValueIdx
open Facts₀ Facts

variable [Facts]

/-- The whole-array program's dimension record is the plain product's: the left operand's columns against the right
    operand's rows. -/
theorem dot_contracts : Cert.Linear.Contracts dot_S90000x64_S64x64_S90000x64_1_0_0_1_n_n :=
  Cert.Linear.contracts_of_lists _ rfl rfl rfl rfl rfl rfl

/-- ROW SUMS on the whole array. At the extended reals the sum of an `a × b` array along its second axis from an initial
    value is, at row `r`, the initial value plus the sum over the columns `c` of the entries `(r, c)`. -/
theorem hostReduceAdd_rows {a b : ℕ} (x : (⟨2, ![a, b]⟩ : Shape).Idx → EReal) (init : EReal)
    (h' : (⟨2, ![a, b]⟩ : Shape).ReducesTo [1] ⟨1, ![a]⟩) (h : (⟨2, ![a, b]⟩ : Shape).Reduces [1] ⟨1, ![a]⟩) (r : Fin a) :
    Ideal.hostReduceAdd h' x init (ix1 r) = init + ∑ c : Fin b, x (ix2 r c) := by
  refine (Ideal.hostReduceAdd_single h' h x init (ix1 r)).trans (congrArg (init + ·) ?_)
  refine Finset.sum_congr rfl fun c _ => congrArg x (funext fun ax => Fin.ext ?_)
  rw [h.lift_val]
  unfold Shape.Reduces.liftVal
  match ax with
  | ⟨0, _⟩ => rfl
  | ⟨1, _⟩ => rfl

/-- The whole-array leaky rectifier, read at an index, is `RowSpec.lrelu` of the element. -/
theorem lrelu_apply (x : FVec Ideal S90000x64 .f32) (i : S90000x64.Idx) :
    Spec.lrelu (F := Ideal) (constant (F := Ideal) S_ .f32 0x3E4CCCCD#32) x i = RowSpec.lrelu (x i) := rfl

/-- A product plus a bias row repeated down the rows, read at `(r, j)`: `∑ k, x (r,k) · w (k,j) + b (0,j)`. -/
theorem affine_apply (x : FVec Ideal S90000x64 .f32) (w : FVec Ideal S64x64 .f32) (b : FVec Ideal S1x64 .f32)
    (r : Fin 90000) (j : Fin 64) :
    Spec.affine (F := Ideal) x w b (ix2 r j)
      = RowSpec.rowPre (fun k => x (ix2 r k)) (fun k j => w (ix2 k j)) (fun j => b (ix2 0 j)) j := by
  unfold Spec.affine
  refine congrArg₂ (· + ·) ?_ ?_
  · exact congrFun (Cert.Linear.dotGeneral_eq dot_contracts none .single x w) (ix2 r j)
  · refine broadcastInDim_apply _ _ b (ix2 r j) (ix2 0 j) fun ax => ?_
    match ax with
    | ⟨0, _⟩ => rfl
    | ⟨1, _⟩ => rfl

/-- THE NEXT EMBEDDING at `(r, j)` is `RowSpec.rowEgo` of row `r` of the current embedding and of the aggregated neighbours. -/
theorem egoNext_apply (E S : FVec Ideal S90000x64 .f32) (w : FVec Ideal S64x64 .f32) (b : FVec Ideal S1x64 .f32)
    (w' : FVec Ideal S64x64 .f32) (b' : FVec Ideal S1x64 .f32) (r : Fin 90000) (j : Fin 64) :
    Spec.egoNext (F := Ideal) E S w b w' b' (ix2 r j)
      = RowSpec.rowEgo (fun k => E (ix2 r k)) (fun k => S (ix2 r k)) (fun k j => w (ix2 k j)) (fun j => b (ix2 0 j))
          (fun k j => w' (ix2 k j)) (fun j => b' (ix2 0 j)) j := by
  unfold Spec.egoNext
  refine congrArg₂ (· + ·) ?_ ?_
  · refine (lrelu_apply _ _).trans ?_
    exact congrArg RowSpec.lrelu (affine_apply _ _ _ r j)
  · refine (lrelu_apply _ _).trans ?_
    exact congrArg RowSpec.lrelu (affine_apply _ _ _ r j)

/-- The whole-array quotient and square root are pointwise, and a broadcast scalar constant reads its value everywhere. -/
theorem hostDivf_apply {s : Shape} (a b : FVec Ideal s .f32) (i : s.Idx) : Host.divf a b i = Ideal.div (a i) (b i) := rfl
theorem hostSqrt_apply {s : Shape} (a : FVec Ideal s .f32) (i : s.Idx) : Host.sqrt a i = Ideal.sqrt (a i) := rfl
theorem bcast_scalar_apply {t : Shape} (c : BitVec 32) (h : S_.BroadcastsInDim t (![] : Fin 0 → Fin t.rank)) (i : t.Idx) :
    broadcastInDim t ![] h (constant (F := Ideal) S_ .f32 c) i = Ideal.ofBits .f32 c := rfl

/-- THE NORMALISED EMBEDDING at `(r, j)` is `RowSpec.rowNorm` of row `r`: the row sums of squares start from the zero
    word's value, which is `0`; their column form is read at `(r, 0)`, and so is its broadcast along the columns. -/
theorem normed_apply (e : FVec Ideal S90000x64 .f32) (r : Fin 90000) (j : Fin 64) :
    Spec.normed (F := Ideal) e (ix2 r j) = RowSpec.rowNorm (fun j' => e (ix2 r j')) j := by
  unfold Spec.normed RowSpec.rowNorm
  refine (hostDivf_apply _ _ _).trans (congrArg (Ideal.div _) ?_)
  refine (broadcastInDim_apply _ _ _ (ix2 r j) (ix2 r (0 : Fin 1)) fun ax => ?_).trans ?_
  · match ax with
    | ⟨0, _⟩ => rfl
    | ⟨1, _⟩ => rfl
  refine (maximumf_apply _ _ _).trans ?_
  refine congrArg₂ max ?_ (bcast_scalar_apply _ _ _)
  refine (hostSqrt_apply _ _).trans (congrArg Ideal.sqrt ?_)
  refine (broadcastInDim_apply _ _ _ (ix2 r (0 : Fin 1)) (ix1 r) fun ax => ?_).trans ?_
  · match ax with
    | ⟨0, _⟩ => rfl
  show Ideal.hostReduceAdd _ _ _ (ix1 r) = _
  refine (hostReduceAdd_rows _ _ _ (by decide) r).trans ?_
  show Ideal.ofBits .f32 0x00000000#32 + _ = _
  rw [Ideal.ofBits_zero_f32, zero_add]
  rfl

/-- THE NEXT EMBEDDING, as a whole array, is the row-wise layer of the current embedding and the aggregated neighbours. -/
theorem egoNext_eq (E S : FVec Ideal S90000x64 .f32) (w : FVec Ideal S64x64 .f32) (b : FVec Ideal S1x64 .f32)
    (w' : FVec Ideal S64x64 .f32) (b' : FVec Ideal S1x64 .f32) :
    Spec.egoNext (F := Ideal) E S w b w' b' = Cert.Rows.layerRows E S w b w' b' := by
  funext i
  obtain ⟨r, j, rfl⟩ : ∃ (r : Fin 90000) (j : Fin 64), i = ix2 r j := ⟨i 0, i 1, eq_ix2 i⟩
  exact (egoNext_apply E S w b w' b' r j).trans (Cert.Rows.layerRows_ix2 E S w b w' b' r j).symm

/-- THE NORMALISED EMBEDDING, as a whole array, is the row-wise normalisation. -/
theorem normed_eq (e : FVec Ideal S90000x64 .f32) : Spec.normed (F := Ideal) e = Cert.Rows.normRows e := by
  funext i
  obtain ⟨r, j, rfl⟩ : ∃ (r : Fin 90000) (j : Fin 64), i = ix2 r j := ⟨i 0, i 1, eq_ix2 i⟩
  exact (normed_apply e r j).trans (Cert.Rows.normRows_ix2 e r j).symm

end Cert.ReferenceIdeal.Rows

end
-- ==== Proof.IdealResult.lean ====
/-
  The kernel program's two results as one function of its nine arguments, at the extended reals. The values are carried
  through @main's seven items: a host stretch leaves every buffer it does not write as it was and computes the rest from
  the operations' terms; a layer leaves every buffer that is not one of its eight arrays as it was, leaves its input arrays
  as they were, and ends with its two output arrays at the layer on all rows (`Rows.layerRows`) of the embeddings and
  neighbourhood sums it was entered with and at that array's normalised rows (`Rows.normRows`). So the users' and the items'
  rows returned are those of the four column blocks: the stacked initial embeddings and the three layers' normalised
  embeddings, each layer applied to the one before and to its neighbourhood sums.
-/
import proofs.«171972_j54984171323492_1_alg».proof.Proof.IdealLayers
import proofs.«171972_j54984171323492_1_alg».proof.Proof.IdealValues
import proofs.«171972_j54984171323492_1_alg».proof.Proof.IdealHost
import proofs.«171972_j54984171323492_1_alg».proof.Proof.HostRows
import proofs.«171972_j54984171323492_1_alg».proof.Proof.Gen.KernelIdeal.Regions

set_option maxRecDepth 16384

noncomputable section

namespace Cert.Layered

open Idealize.ShloMosaic

/-! ## The three layers over the row-wise form -/

/-- The embeddings after layer 1, 2, 3: each the layer on all rows of the embeddings before it and their neighbourhood sums. -/
def lay1 (a0 : ((⟨Cert.ReferenceIdeal.S30000x64, .f32⟩ : BufTy).Contents (Elt Ideal))) (a1 : ((⟨Cert.ReferenceIdeal.S60000x64, .f32⟩ : BufTy).Contents (Elt Ideal))) (a2 a3 : ((⟨Cert.ReferenceIdeal.S2000000, .i32⟩ : BufTy).Contents (Elt Ideal))) (a4 : ((⟨Cert.ReferenceIdeal.S2000000, .f32⟩ : BufTy).Contents (Elt Ideal))) (a5 : ((⟨Cert.ReferenceIdeal.S3x64x64, .f32⟩ : BufTy).Contents (Elt Ideal))) (a6 : ((⟨Cert.ReferenceIdeal.S3x1x64, .f32⟩ : BufTy).Contents (Elt Ideal))) (a7 : ((⟨Cert.ReferenceIdeal.S3x64x64, .f32⟩ : BufTy).Contents (Elt Ideal))) (a8 : ((⟨Cert.ReferenceIdeal.S3x1x64, .f32⟩ : BufTy).Contents (Elt Ideal))) : ((⟨Cert.ReferenceIdeal.S90000x64, .f32⟩ : BufTy).Contents (Elt Ideal)) :=
  Cert.Rows.layerRows (Cert.ReferenceIdeal.Spec.ego0 a0 a1) (Cert.ReferenceIdeal.Spec.side (Cert.ReferenceIdeal.Spec.ego0 a0 a1) a2 a3 a4) (Cert.ReferenceIdeal.Spec.wAt0 a5) (Cert.ReferenceIdeal.Spec.bAt0 a6) (Cert.ReferenceIdeal.Spec.wAt0 a7) (Cert.ReferenceIdeal.Spec.bAt0 a8)
def lay2 (a0 : ((⟨Cert.ReferenceIdeal.S30000x64, .f32⟩ : BufTy).Contents (Elt Ideal))) (a1 : ((⟨Cert.ReferenceIdeal.S60000x64, .f32⟩ : BufTy).Contents (Elt Ideal))) (a2 a3 : ((⟨Cert.ReferenceIdeal.S2000000, .i32⟩ : BufTy).Contents (Elt Ideal))) (a4 : ((⟨Cert.ReferenceIdeal.S2000000, .f32⟩ : BufTy).Contents (Elt Ideal))) (a5 : ((⟨Cert.ReferenceIdeal.S3x64x64, .f32⟩ : BufTy).Contents (Elt Ideal))) (a6 : ((⟨Cert.ReferenceIdeal.S3x1x64, .f32⟩ : BufTy).Contents (Elt Ideal))) (a7 : ((⟨Cert.ReferenceIdeal.S3x64x64, .f32⟩ : BufTy).Contents (Elt Ideal))) (a8 : ((⟨Cert.ReferenceIdeal.S3x1x64, .f32⟩ : BufTy).Contents (Elt Ideal))) : ((⟨Cert.ReferenceIdeal.S90000x64, .f32⟩ : BufTy).Contents (Elt Ideal)) :=
  Cert.Rows.layerRows (lay1 a0 a1 a2 a3 a4 a5 a6 a7 a8) (Cert.ReferenceIdeal.Spec.side (lay1 a0 a1 a2 a3 a4 a5 a6 a7 a8) a2 a3 a4) (Cert.ReferenceIdeal.Spec.wAt1 a5) (Cert.ReferenceIdeal.Spec.bAt1 a6) (Cert.ReferenceIdeal.Spec.wAt1 a7) (Cert.ReferenceIdeal.Spec.bAt1 a8)
def lay3 (a0 : ((⟨Cert.ReferenceIdeal.S30000x64, .f32⟩ : BufTy).Contents (Elt Ideal))) (a1 : ((⟨Cert.ReferenceIdeal.S60000x64, .f32⟩ : BufTy).Contents (Elt Ideal))) (a2 a3 : ((⟨Cert.ReferenceIdeal.S2000000, .i32⟩ : BufTy).Contents (Elt Ideal))) (a4 : ((⟨Cert.ReferenceIdeal.S2000000, .f32⟩ : BufTy).Contents (Elt Ideal))) (a5 : ((⟨Cert.ReferenceIdeal.S3x64x64, .f32⟩ : BufTy).Contents (Elt Ideal))) (a6 : ((⟨Cert.ReferenceIdeal.S3x1x64, .f32⟩ : BufTy).Contents (Elt Ideal))) (a7 : ((⟨Cert.ReferenceIdeal.S3x64x64, .f32⟩ : BufTy).Contents (Elt Ideal))) (a8 : ((⟨Cert.ReferenceIdeal.S3x1x64, .f32⟩ : BufTy).Contents (Elt Ideal))) : ((⟨Cert.ReferenceIdeal.S90000x64, .f32⟩ : BufTy).Contents (Elt Ideal)) :=
  Cert.Rows.layerRows (lay2 a0 a1 a2 a3 a4 a5 a6 a7 a8) (Cert.ReferenceIdeal.Spec.side (lay2 a0 a1 a2 a3 a4 a5 a6 a7 a8) a2 a3 a4) (Cert.ReferenceIdeal.Spec.wAt2 a5) (Cert.ReferenceIdeal.Spec.bAt2 a6) (Cert.ReferenceIdeal.Spec.wAt2 a7) (Cert.ReferenceIdeal.Spec.bAt2 a8)
/-- All embeddings: the initial ones and the three layers' normalised ones, side by side. -/
def allRows (a0 : ((⟨Cert.ReferenceIdeal.S30000x64, .f32⟩ : BufTy).Contents (Elt Ideal))) (a1 : ((⟨Cert.ReferenceIdeal.S60000x64, .f32⟩ : BufTy).Contents (Elt Ideal))) (a2 a3 : ((⟨Cert.ReferenceIdeal.S2000000, .i32⟩ : BufTy).Contents (Elt Ideal))) (a4 : ((⟨Cert.ReferenceIdeal.S2000000, .f32⟩ : BufTy).Contents (Elt Ideal))) (a5 : ((⟨Cert.ReferenceIdeal.S3x64x64, .f32⟩ : BufTy).Contents (Elt Ideal))) (a6 : ((⟨Cert.ReferenceIdeal.S3x1x64, .f32⟩ : BufTy).Contents (Elt Ideal))) (a7 : ((⟨Cert.ReferenceIdeal.S3x64x64, .f32⟩ : BufTy).Contents (Elt Ideal))) (a8 : ((⟨Cert.ReferenceIdeal.S3x1x64, .f32⟩ : BufTy).Contents (Elt Ideal))) : ((⟨Cert.ReferenceIdeal.S90000x256, .f32⟩ : BufTy).Contents (Elt Ideal)) :=
  Cert.ReferenceIdeal.Spec.allEmb (Cert.ReferenceIdeal.Spec.ego0 a0 a1) (Cert.Rows.normRows (lay1 a0 a1 a2 a3 a4 a5 a6 a7 a8)) (Cert.Rows.normRows (lay2 a0 a1 a2 a3 a4 a5 a6 a7 a8)) (Cert.Rows.normRows (lay3 a0 a1 a2 a3 a4 a5 a6 a7 a8))

theorem e1_eq (a0 : ((⟨Cert.ReferenceIdeal.S30000x64, .f32⟩ : BufTy).Contents (Elt Ideal))) (a1 : ((⟨Cert.ReferenceIdeal.S60000x64, .f32⟩ : BufTy).Contents (Elt Ideal))) (a2 a3 : ((⟨Cert.ReferenceIdeal.S2000000, .i32⟩ : BufTy).Contents (Elt Ideal))) (a4 : ((⟨Cert.ReferenceIdeal.S2000000, .f32⟩ : BufTy).Contents (Elt Ideal))) (a5 : ((⟨Cert.ReferenceIdeal.S3x64x64, .f32⟩ : BufTy).Contents (Elt Ideal))) (a6 : ((⟨Cert.ReferenceIdeal.S3x1x64, .f32⟩ : BufTy).Contents (Elt Ideal))) (a7 : ((⟨Cert.ReferenceIdeal.S3x64x64, .f32⟩ : BufTy).Contents (Elt Ideal))) (a8 : ((⟨Cert.ReferenceIdeal.S3x1x64, .f32⟩ : BufTy).Contents (Elt Ideal))) : Cert.ReferenceIdeal.Spec.e1 (F := Ideal) a0 a1 a2 a3 a4 a5 a6 a7 a8 = lay1 a0 a1 a2 a3 a4 a5 a6 a7 a8 := by
  unfold Cert.ReferenceIdeal.Spec.e1 lay1; exact Cert.ReferenceIdeal.Rows.egoNext_eq _ _ _ _ _ _
theorem e2_eq (a0 : ((⟨Cert.ReferenceIdeal.S30000x64, .f32⟩ : BufTy).Contents (Elt Ideal))) (a1 : ((⟨Cert.ReferenceIdeal.S60000x64, .f32⟩ : BufTy).Contents (Elt Ideal))) (a2 a3 : ((⟨Cert.ReferenceIdeal.S2000000, .i32⟩ : BufTy).Contents (Elt Ideal))) (a4 : ((⟨Cert.ReferenceIdeal.S2000000, .f32⟩ : BufTy).Contents (Elt Ideal))) (a5 : ((⟨Cert.ReferenceIdeal.S3x64x64, .f32⟩ : BufTy).Contents (Elt Ideal))) (a6 : ((⟨Cert.ReferenceIdeal.S3x1x64, .f32⟩ : BufTy).Contents (Elt Ideal))) (a7 : ((⟨Cert.ReferenceIdeal.S3x64x64, .f32⟩ : BufTy).Contents (Elt Ideal))) (a8 : ((⟨Cert.ReferenceIdeal.S3x1x64, .f32⟩ : BufTy).Contents (Elt Ideal))) : Cert.ReferenceIdeal.Spec.e2 (F := Ideal) a0 a1 a2 a3 a4 a5 a6 a7 a8 = lay2 a0 a1 a2 a3 a4 a5 a6 a7 a8 := by
  unfold Cert.ReferenceIdeal.Spec.e2 lay2; rw [e1_eq]; exact Cert.ReferenceIdeal.Rows.egoNext_eq _ _ _ _ _ _
theorem e3_eq (a0 : ((⟨Cert.ReferenceIdeal.S30000x64, .f32⟩ : BufTy).Contents (Elt Ideal))) (a1 : ((⟨Cert.ReferenceIdeal.S60000x64, .f32⟩ : BufTy).Contents (Elt Ideal))) (a2 a3 : ((⟨Cert.ReferenceIdeal.S2000000, .i32⟩ : BufTy).Contents (Elt Ideal))) (a4 : ((⟨Cert.ReferenceIdeal.S2000000, .f32⟩ : BufTy).Contents (Elt Ideal))) (a5 : ((⟨Cert.ReferenceIdeal.S3x64x64, .f32⟩ : BufTy).Contents (Elt Ideal))) (a6 : ((⟨Cert.ReferenceIdeal.S3x1x64, .f32⟩ : BufTy).Contents (Elt Ideal))) (a7 : ((⟨Cert.ReferenceIdeal.S3x64x64, .f32⟩ : BufTy).Contents (Elt Ideal))) (a8 : ((⟨Cert.ReferenceIdeal.S3x1x64, .f32⟩ : BufTy).Contents (Elt Ideal))) : Cert.ReferenceIdeal.Spec.e3 (F := Ideal) a0 a1 a2 a3 a4 a5 a6 a7 a8 = lay3 a0 a1 a2 a3 a4 a5 a6 a7 a8 := by
  unfold Cert.ReferenceIdeal.Spec.e3 lay3; rw [e2_eq]; exact Cert.ReferenceIdeal.Rows.egoNext_eq _ _ _ _ _ _
/-- The reference's whole-array result is the row-wise one. -/
theorem out_eq (a0 : ((⟨Cert.ReferenceIdeal.S30000x64, .f32⟩ : BufTy).Contents (Elt Ideal))) (a1 : ((⟨Cert.ReferenceIdeal.S60000x64, .f32⟩ : BufTy).Contents (Elt Ideal))) (a2 a3 : ((⟨Cert.ReferenceIdeal.S2000000, .i32⟩ : BufTy).Contents (Elt Ideal))) (a4 : ((⟨Cert.ReferenceIdeal.S2000000, .f32⟩ : BufTy).Contents (Elt Ideal))) (a5 : ((⟨Cert.ReferenceIdeal.S3x64x64, .f32⟩ : BufTy).Contents (Elt Ideal))) (a6 : ((⟨Cert.ReferenceIdeal.S3x1x64, .f32⟩ : BufTy).Contents (Elt Ideal))) (a7 : ((⟨Cert.ReferenceIdeal.S3x64x64, .f32⟩ : BufTy).Contents (Elt Ideal))) (a8 : ((⟨Cert.ReferenceIdeal.S3x1x64, .f32⟩ : BufTy).Contents (Elt Ideal))) : Cert.ReferenceIdeal.Spec.out (F := Ideal) a0 a1 a2 a3 a4 a5 a6 a7 a8 = allRows a0 a1 a2 a3 a4 a5 a6 a7 a8 := by
  unfold Cert.ReferenceIdeal.Spec.out allRows
  rw [e1_eq, e2_eq, e3_eq, Cert.ReferenceIdeal.Rows.normed_eq, Cert.ReferenceIdeal.Rows.normed_eq, Cert.ReferenceIdeal.Rows.normed_eq]

end Cert.Layered

namespace Cert.KernelIdeal.Result

open Cert.KernelIdeal Cert.KernelIdeal.Gen Cert.KernelIdeal.Layers Cert.KernelIdeal.LayerValues Cert.KernelIdeal.HostValues Cert.Layered
open Idealize.ShloMosaic Idealize.ShloMosaic.TcCoe Idealize.SL.Sem
open Idealize.ShloMosaic.Pipeline (Dat)

variable (m : (ℓ : Loc nD τ sig) → Buf (Elt Ideal) ℓ) (c : Dev nD)

/-! ## What passes through an item unchanged -/

theorem past_stretch0 (r : Ref sig .tc) (h : r ∉ hostOps0_W) : atIn0 m c r = atLaunch m c r :=
  StableHlo.after_of_writes_sub hostOps0 _ hostOps0_writes h
theorem past_stretch1 (r : Ref sig .tc) (h : r ∉ hostOps1_W) : atIn1 m c r = atOut0 m c r :=
  StableHlo.after_of_writes_sub hostOps1 _ hostOps1_writes h
theorem past_stretch2 (r : Ref sig .tc) (h : r ∉ hostOps2_W) : atIn2 m c r = atOut1 m c r :=
  StableHlo.after_of_writes_sub hostOps2 _ hostOps2_writes h
theorem past_stretch3 (r : Ref sig .tc) (h : r ∉ hostOps3_W) : atEnd m c r = atOut2 m c r :=
  StableHlo.after_of_writes_sub hostOps3 _ hostOps3_writes h
theorem past_layer1 (r : Ref sig .tc) (h : r ∉ hostOps0_W) (g : ∀ w, Pipeline.arrRef spec0 w ≠ r) : atOut0 m c r = atLaunch m c r :=
  (atOut0_rest m c r g).trans (past_stretch0 m c r h)
theorem past_layer2 (r : Ref sig .tc) (h : r ∉ hostOps1_W) (g : ∀ w, Pipeline.arrRef spec1 w ≠ r) : atOut1 m c r = atOut0 m c r :=
  (atOut1_rest m c r g).trans (past_stretch1 m c r h)
theorem past_layer3 (r : Ref sig .tc) (h : r ∉ hostOps2_W) (g : ∀ w, Pipeline.arrRef spec2 w ≠ r) : atOut2 m c r = atOut1 m c r :=
  (atOut2_rest m c r g).trans (past_stretch2 m c r h)

/-! ## Layer 1 -/

theorem ego_at_in0 : atIn0 m c main_v0 = Cert.ReferenceIdeal.Spec.ego0 (m ((c : Thread nD τ).loc main_arg0)) (m ((c : Thread nD τ).loc main_arg1)) := in0_ego (atLaunch m c)

theorem side_at_in0 : atIn0 m c main_v13 = Cert.ReferenceIdeal.Spec.side (Cert.ReferenceIdeal.Spec.ego0 (m ((c : Thread nD τ).loc main_arg0)) (m ((c : Thread nD τ).loc main_arg1))) (m ((c : Thread nD τ).loc main_arg2)) (m ((c : Thread nD τ).loc main_arg3)) (m ((c : Thread nD τ).loc main_arg4)) := in0_side (atLaunch m c)
theorem w_at_in0 : atIn0 m c main_v15 = Cert.ReferenceIdeal.Spec.wAt0 (m ((c : Thread nD τ).loc main_arg5)) := in0_w (atLaunch m c)
theorem b_at_in0 : atIn0 m c main_v17 = Cert.ReferenceIdeal.Spec.bAt0 (m ((c : Thread nD τ).loc main_arg6)) := in0_b (atLaunch m c)
theorem w'_at_in0 : atIn0 m c main_v19 = Cert.ReferenceIdeal.Spec.wAt0 (m ((c : Thread nD τ).loc main_arg7)) := in0_w' (atLaunch m c)
theorem b'_at_in0 : atIn0 m c main_v21 = Cert.ReferenceIdeal.Spec.bAt0 (m ((c : Thread nD τ).loc main_arg8)) := in0_b' (atLaunch m c)

/-- Layer 1 leaves the new embeddings in its first output array -/
theorem lay1_at_out0 : atOut0 m c main_v22_0 = lay1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (atOut0_arr m c 6).trans ((ego_array0 (vIn0 m) c).trans ?_)
  show Cert.Rows.layerRows (atIn0 m c main_v0) (atIn0 m c main_v13) (atIn0 m c main_v15) (atIn0 m c main_v17) (atIn0 m c main_v19) (atIn0 m c main_v21) = _
  rw [ego_at_in0, side_at_in0, w_at_in0, b_at_in0, w'_at_in0, b'_at_in0]
  rfl
/-- and their normalised rows in its second. -/
theorem norm1_at_out0 : atOut0 m c main_v22_1 = Cert.Rows.normRows (lay1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  refine (atOut0_arr m c 7).trans ((norm_array0 (vIn0 m) c).trans ?_)
  show Cert.Rows.normRows (Cert.Rows.layerRows (atIn0 m c main_v0) (atIn0 m c main_v13) (atIn0 m c main_v15) (atIn0 m c main_v17) (atIn0 m c main_v19) (atIn0 m c main_v21)) = _
  rw [ego_at_in0, side_at_in0, w_at_in0, b_at_in0, w'_at_in0, b'_at_in0]
  rfl
/-- The stacked initial embeddings are an input of layer 1: it leaves them as it found them. -/
theorem ego_at_out0 : atOut0 m c main_v0 = Cert.ReferenceIdeal.Spec.ego0 (m ((c : Thread nD τ).loc main_arg0)) (m ((c : Thread nD τ).loc main_arg1)) :=
  (atOut0_arr m c 0).trans ((((layerDat0 (vIn0 m) c).arrAt_in 0 rfl _).trans (arrays0 (vIn0 m) c 0)).trans (ego_at_in0 m c))

/-! ## Layer 2 -/

theorem side_at_in1 : atIn1 m c main_v35 = Cert.ReferenceIdeal.Spec.side (lay1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg2)) (m ((c : Thread nD τ).loc main_arg3)) (m ((c : Thread nD τ).loc main_arg4)) := by
  refine (in1_side (atOut0 m c)).trans ?_
  rw [lay1_at_out0, past_layer1 m c main_arg2 (by decide) (by decide), past_layer1 m c main_arg3 (by decide) (by decide), past_layer1 m c main_arg4 (by decide) (by decide)]
theorem w_at_in1 : atIn1 m c main_v37 = Cert.ReferenceIdeal.Spec.wAt1 (m ((c : Thread nD τ).loc main_arg5)) := by
  refine (in1_w (atOut0 m c)).trans ?_; rw [past_layer1 m c main_arg5 (by decide) (by decide)]
theorem b_at_in1 : atIn1 m c main_v39 = Cert.ReferenceIdeal.Spec.bAt1 (m ((c : Thread nD τ).loc main_arg6)) := by
  refine (in1_b (atOut0 m c)).trans ?_; rw [past_layer1 m c main_arg6 (by decide) (by decide)]
theorem w'_at_in1 : atIn1 m c main_v41 = Cert.ReferenceIdeal.Spec.wAt1 (m ((c : Thread nD τ).loc main_arg7)) := by
  refine (in1_w' (atOut0 m c)).trans ?_; rw [past_layer1 m c main_arg7 (by decide) (by decide)]
theorem b'_at_in1 : atIn1 m c main_v43 = Cert.ReferenceIdeal.Spec.bAt1 (m ((c : Thread nD τ).loc main_arg8)) := by
  refine (in1_b' (atOut0 m c)).trans ?_; rw [past_layer1 m c main_arg8 (by decide) (by decide)]
theorem lay1_at_in1 : atIn1 m c main_v22_0 = lay1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := (past_stretch1 m c main_v22_0 (by decide)).trans (lay1_at_out0 m c)

theorem lay2_at_out1 : atOut1 m c main_v44_0 = lay2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (atOut1_arr m c 6).trans ((ego_array1 (vIn1 m) c).trans ?_)
  show Cert.Rows.layerRows (atIn1 m c main_v22_0) (atIn1 m c main_v35) (atIn1 m c main_v37) (atIn1 m c main_v39) (atIn1 m c main_v41) (atIn1 m c main_v43) = _
  rw [lay1_at_in1, side_at_in1, w_at_in1, b_at_in1, w'_at_in1, b'_at_in1]
  rfl
theorem norm2_at_out1 : atOut1 m c main_v44_1 = Cert.Rows.normRows (lay2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  refine (atOut1_arr m c 7).trans ((norm_array1 (vIn1 m) c).trans ?_)
  show Cert.Rows.normRows (Cert.Rows.layerRows (atIn1 m c main_v22_0) (atIn1 m c main_v35) (atIn1 m c main_v37) (atIn1 m c main_v39) (atIn1 m c main_v41) (atIn1 m c main_v43)) = _
  rw [lay1_at_in1, side_at_in1, w_at_in1, b_at_in1, w'_at_in1, b'_at_in1]
  rfl

/-! ## Layer 3 -/

theorem arg_at_out1 (r : Ref sig .tc) (h0 : r ∉ hostOps0_W) (g0 : ∀ w, Pipeline.arrRef spec0 w ≠ r) (h1 : r ∉ hostOps1_W) (g1 : ∀ w, Pipeline.arrRef spec1 w ≠ r) :
    atOut1 m c r = atLaunch m c r := (past_layer2 m c r h1 g1).trans (past_layer1 m c r h0 g0)

theorem side_at_in2 : atIn2 m c main_v57 = Cert.ReferenceIdeal.Spec.side (lay2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg2)) (m ((c : Thread nD τ).loc main_arg3)) (m ((c : Thread nD τ).loc main_arg4)) := by
  refine (in2_side (atOut1 m c)).trans ?_
  rw [lay2_at_out1, arg_at_out1 m c main_arg2 (by decide) (by decide) (by decide) (by decide), arg_at_out1 m c main_arg3 (by decide) (by decide) (by decide) (by decide), arg_at_out1 m c main_arg4 (by decide) (by decide) (by decide) (by decide)]
theorem w_at_in2 : atIn2 m c main_v59 = Cert.ReferenceIdeal.Spec.wAt2 (m ((c : Thread nD τ).loc main_arg5)) := by
  refine (in2_w (atOut1 m c)).trans ?_; rw [arg_at_out1 m c main_arg5 (by decide) (by decide) (by decide) (by decide)]
theorem b_at_in2 : atIn2 m c main_v61 = Cert.ReferenceIdeal.Spec.bAt2 (m ((c : Thread nD τ).loc main_arg6)) := by
  refine (in2_b (atOut1 m c)).trans ?_; rw [arg_at_out1 m c main_arg6 (by decide) (by decide) (by decide) (by decide)]
theorem w'_at_in2 : atIn2 m c main_v63 = Cert.ReferenceIdeal.Spec.wAt2 (m ((c : Thread nD τ).loc main_arg7)) := by
  refine (in2_w' (atOut1 m c)).trans ?_; rw [arg_at_out1 m c main_arg7 (by decide) (by decide) (by decide) (by decide)]
theorem b'_at_in2 : atIn2 m c main_v65 = Cert.ReferenceIdeal.Spec.bAt2 (m ((c : Thread nD τ).loc main_arg8)) := by
  refine (in2_b' (atOut1 m c)).trans ?_; rw [arg_at_out1 m c main_arg8 (by decide) (by decide) (by decide) (by decide)]
theorem lay2_at_in2 : atIn2 m c main_v44_0 = lay2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := (past_stretch2 m c main_v44_0 (by decide)).trans (lay2_at_out1 m c)

theorem norm3_at_out2 : atOut2 m c main_v66_1 = Cert.Rows.normRows (lay3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  refine (atOut2_arr m c 7).trans ((norm_array2 (vIn2 m) c).trans ?_)
  show Cert.Rows.normRows (Cert.Rows.layerRows (atIn2 m c main_v44_0) (atIn2 m c main_v57) (atIn2 m c main_v59) (atIn2 m c main_v61) (atIn2 m c main_v63) (atIn2 m c main_v65)) = _
  rw [lay2_at_in2, side_at_in2, w_at_in2, b_at_in2, w'_at_in2, b'_at_in2]
  rfl

/-! ## The results -/

/-- The four column blocks as the last stretch finds them. -/
theorem blocks_at_out2 : atOut2 m c main_v0 = Cert.ReferenceIdeal.Spec.ego0 (m ((c : Thread nD τ).loc main_arg0)) (m ((c : Thread nD τ).loc main_arg1)) ∧ atOut2 m c main_v22_1 = Cert.Rows.normRows (lay1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))
    ∧ atOut2 m c main_v44_1 = Cert.Rows.normRows (lay2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) ∧ atOut2 m c main_v66_1 = Cert.Rows.normRows (lay3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  ⟨(past_layer3 m c main_v0 (by decide) (by decide)).trans ((past_layer2 m c main_v0 (by decide) (by decide)).trans (ego_at_out0 m c)),
   (past_layer3 m c main_v22_1 (by decide) (by decide)).trans ((past_layer2 m c main_v22_1 (by decide) (by decide)).trans (norm1_at_out0 m c)),
   (past_layer3 m c main_v44_1 (by decide) (by decide)).trans (norm2_at_out1 m c),
   norm3_at_out2 m c⟩

theorem users_at_end : atEnd m c main_v68 = Cert.ReferenceIdeal.Spec.users (allRows (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  obtain ⟨h0, h1, h2, h3⟩ := blocks_at_out2 m c
  rw [show atEnd m c main_v68 = _ from end_users (atOut2 m c), h0, h1, h2, h3]
  rfl
theorem items_at_end : atEnd m c main_v69 = Cert.ReferenceIdeal.Spec.items (allRows (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  obtain ⟨h0, h1, h2, h3⟩ := blocks_at_out2 m c
  rw [show atEnd m c main_v69 = _ from end_items (atOut2 m c), h0, h1, h2, h3]
  rfl

end Cert.KernelIdeal.Result

end
-- ==== Proof.RefRun.lean ====
import proofs.«171972_j54984171323492_1_alg».proof.ReferenceIdeal
import Idealize.ShloMosaic.Lib.StableHlo.Run

/-!
# The reference program as a straight line, and its run

The reference @main is a straight line of array operations: the row-concatenation of the two
embedding tables, then three layers — each a gather / scale / scatter-add building the side
array, two affine maps each followed by the outlined leaky rectifier (its seven operations listed
at the call over the call's own buffers), their sum, and the row normalisation — and last the
column-concatenation and its two row slices.  The operations are listed in program order in
fourteen consecutive pieces; the program equals their sequencing, every operation touches only
device buffers and determines its result, and therefore every fair execution terminates with each
buffer holding the fold of the operations over the launch contents.
-/

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Facts]
open Facts₀ Facts

/-- %0: the two tables one above the other. -/
abbrev opsA : List (HloOp τ sig (Elt F)) :=
  [ StableHlo.binary main_arg0 main_arg1 main_v0 ((fun a b => concatenate S90000x64 0 [⟨S30000x64, a⟩, ⟨S60000x64, b⟩] concatenates_S30000x64_S60000x64_S90000x64_d0) : (⟨S30000x64, .f32⟩ : BufTy).Contents (Elt F) → (⟨S60000x64, .f32⟩ : BufTy).Contents (Elt F) → (⟨S90000x64, .f32⟩ : BufTy).Contents (Elt F)) ]

/-- Layer 1: the side array (wrapped columns, gather, scale, scatter-add from zero). -/
abbrev opsS1 : List (HloOp τ sig (Elt F)) :=
  [ StableHlo.nullary main_c (constantI S_ 32 0#32),
    StableHlo.unary main_c main_v1 (broadcastInDim S2000000 ![] bcast_S_S2000000 : (⟨S_, .i32⟩ : BufTy).Contents (Elt F) → (⟨S2000000, .i32⟩ : BufTy).Contents (Elt F)),
    StableHlo.binary main_arg3 main_v1 main_v2 (cmpi .slt : (⟨S2000000, .i32⟩ : BufTy).Contents (Elt F) → (⟨S2000000, .i32⟩ : BufTy).Contents (Elt F) → (⟨S2000000, .i1⟩ : BufTy).Contents (Elt F)),
    StableHlo.nullary main_c_0 (constantI S_ 32 90000#32),
    StableHlo.unary main_c_0 main_v3 (broadcastInDim S2000000 ![] bcast_S_S2000000 : (⟨S_, .i32⟩ : BufTy).Contents (Elt F) → (⟨S2000000, .i32⟩ : BufTy).Contents (Elt F)),
    StableHlo.binary main_arg3 main_v3 main_v4 (addi : (⟨S2000000, .i32⟩ : BufTy).Contents (Elt F) → (⟨S2000000, .i32⟩ : BufTy).Contents (Elt F) → (⟨S2000000, .i32⟩ : BufTy).Contents (Elt F)),
    StableHlo.ternary main_v2 main_v4 main_arg3 main_v5 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v5 main_v6 (broadcastInDim S2000000x1 ![0] bcast_S2000000_S2000000x1_0 : (⟨S2000000, .i32⟩ : BufTy).Contents (Elt F) → (⟨S2000000x1, .i32⟩ : BufTy).Contents (Elt F)),
    StableHlo.binary main_v0 main_v6 main_v7 ((fun x i => Host.gather gather_S90000x64_S2000000x1_S2000000x64_1_0_n_n_0_1_164 x i) : (⟨S90000x64, .f32⟩ : BufTy).Contents (Elt F) → (⟨S2000000x1, .i32⟩ : BufTy).Contents (Elt F) → (⟨S2000000x64, .f32⟩ : BufTy).Contents (Elt F)),
    StableHlo.unary main_arg4 main_v8 (broadcastInDim S2000000x1 ![0] bcast_S2000000_S2000000x1_0 : (⟨S2000000, .f32⟩ : BufTy).Contents (Elt F) → (⟨S2000000x1, .f32⟩ : BufTy).Contents (Elt F)),
    StableHlo.unary main_v8 main_v9 (broadcastInDim S2000000x64 ![0, 1] bcast_S2000000x1_S2000000x64_0_1 : (⟨S2000000x1, .f32⟩ : BufTy).Contents (Elt F) → (⟨S2000000x64, .f32⟩ : BufTy).Contents (Elt F)),
    StableHlo.binary main_v7 main_v9 main_v10 (mulf : (⟨S2000000x64, .f32⟩ : BufTy).Contents (Elt F) → (⟨S2000000x64, .f32⟩ : BufTy).Contents (Elt F) → (⟨S2000000x64, .f32⟩ : BufTy).Contents (Elt F)),
    StableHlo.nullary main_cst (constant S_ .f32 0x00000000#32),
    StableHlo.unary main_cst main_v11 (broadcastInDim S90000x64 ![] bcast_S_S90000x64 : (⟨S_, .f32⟩ : BufTy).Contents (Elt F) → (⟨S90000x64, .f32⟩ : BufTy).Contents (Elt F)),
    StableHlo.unary main_arg2 main_v12 (broadcastInDim S2000000x1 ![0] bcast_S2000000_S2000000x1_0 : (⟨S2000000, .i32⟩ : BufTy).Contents (Elt F) → (⟨S2000000x1, .i32⟩ : BufTy).Contents (Elt F)),
    StableHlo.ternary main_v11 main_v12 main_v10 main_v13 ((fun x i u => Host.scatterAdd scatter_S90000x64_S2000000x1_S2000000x64_1_0_0_1 x i u) : (⟨S90000x64, .f32⟩ : BufTy).Contents (Elt F) → (⟨S2000000x1, .i32⟩ : BufTy).Contents (Elt F) → (⟨S2000000x64, .f32⟩ : BufTy).Contents (Elt F) → (⟨S90000x64, .f32⟩ : BufTy).Contents (Elt F)) ]

/-- Layer 1: side · W + b, then the leaky rectifier. -/
abbrev opsG1 : List (HloOp τ sig (Elt F)) :=
  [ StableHlo.unary main_arg5 main_v14 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v14 main_v15 rfl shapeCasts_S1x64x64_S64x64,
    StableHlo.binary main_v13 main_v15 main_v16 ((fun l r => Host.dotGeneral dot_S90000x64_S64x64_S90000x64_1_0_0_1_n_n none l r) : (⟨S90000x64, .f32⟩ : BufTy).Contents (Elt F) → (⟨S64x64, .f32⟩ : BufTy).Contents (Elt F) → (⟨S90000x64, .f32⟩ : BufTy).Contents (Elt F)),
    StableHlo.unary main_arg6 main_v17 ((extractStridedSlice S1x1x64 ![0, 0, 0] · slices_S3x1x64_S1x1x64_0_0_0) : (⟨S3x1x64, .f32⟩ : BufTy).Contents (Elt F) → (⟨S1x1x64, .f32⟩ : BufTy).Contents (Elt F)),
    StableHlo.reshape main_v17 main_v18 rfl shapeCasts_S1x1x64_S1x64,
    StableHlo.unary main_v18 main_v19 (broadcastInDim S90000x64 ![0, 1] bcast_S1x64_S90000x64_0_1 : (⟨S1x64, .f32⟩ : BufTy).Contents (Elt F) → (⟨S90000x64, .f32⟩ : BufTy).Contents (Elt F)),
    StableHlo.binary main_v16 main_v19 main_v20 (addf : (⟨S90000x64, .f32⟩ : BufTy).Contents (Elt F) → (⟨S90000x64, .f32⟩ : BufTy).Contents (Elt F) → (⟨S90000x64, .f32⟩ : BufTy).Contents (Elt F)),
    StableHlo.nullary main_cst_1 (constant S_ .f32 0x3E4CCCCD#32),
    StableHlo.TRef.nullary main_call0.cst (constant S_ .f32 0x00000000#32),
    StableHlo.TRef.unary main_call0.cst main_call0.v0 (broadcastInDim S90000x64 ![] bcast_S_S90000x64),
    StableHlo.TRef.binary (.of main_v20) main_call0.v0 main_call0.v1 (cmpf .oge),
    StableHlo.TRef.unary (.of main_cst_1) main_call0.v2 id,
    StableHlo.TRef.unary main_call0.v2 main_call0.v3 (broadcastInDim S90000x64 ![] bcast_S_S90000x64),
    StableHlo.TRef.binary main_call0.v3 (.of main_v20) main_call0.v4 mulf,
    StableHlo.TRef.ternary main_call0.v1 (.of main_v20) main_call0.v4 main_call0.call0.v0 select ]

/-- Layer 1: (ego ⊙ side) · W' + b', then the leaky rectifier. -/
abbrev opsB1 : List (HloOp τ sig (Elt F)) :=
  [ StableHlo.binary main_v0 main_v13 main_v22 (mulf : (⟨S90000x64, .f32⟩ : BufTy).Contents (Elt F) → (⟨S90000x64, .f32⟩ : BufTy).Contents (Elt F) → (⟨S90000x64, .f32⟩ : BufTy).Contents (Elt F)),
    StableHlo.unary main_arg7 main_v23 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v23 main_v24 rfl shapeCasts_S1x64x64_S64x64,
    StableHlo.binary main_v22 main_v24 main_v25 ((fun l r => Host.dotGeneral dot_S90000x64_S64x64_S90000x64_1_0_0_1_n_n none l r) : (⟨S90000x64, .f32⟩ : BufTy).Contents (Elt F) → (⟨S64x64, .f32⟩ : BufTy).Contents (Elt F) → (⟨S90000x64, .f32⟩ : BufTy).Contents (Elt F)),
    StableHlo.unary main_arg8 main_v26 ((extractStridedSlice S1x1x64 ![0, 0, 0] · slices_S3x1x64_S1x1x64_0_0_0) : (⟨S3x1x64, .f32⟩ : BufTy).Contents (Elt F) → (⟨S1x1x64, .f32⟩ : BufTy).Contents (Elt F)),
    StableHlo.reshape main_v26 main_v27 rfl shapeCasts_S1x1x64_S1x64,
    StableHlo.unary main_v27 main_v28 (broadcastInDim S90000x64 ![0, 1] bcast_S1x64_S90000x64_0_1 : (⟨S1x64, .f32⟩ : BufTy).Contents (Elt F) → (⟨S90000x64, .f32⟩ : BufTy).Contents (Elt F)),
    StableHlo.binary main_v25 main_v28 main_v29 (addf : (⟨S90000x64, .f32⟩ : BufTy).Contents (Elt F) → (⟨S90000x64, .f32⟩ : BufTy).Contents (Elt F) → (⟨S90000x64, .f32⟩ : BufTy).Contents (Elt F)),
    StableHlo.nullary main_cst_2 (constant S_ .f32 0x3E4CCCCD#32),
    StableHlo.TRef.nullary main_call1.cst (constant S_ .f32 0x00000000#32),
    StableHlo.TRef.unary main_call1.cst main_call1.v0 (broadcastInDim S90000x64 ![] bcast_S_S90000x64),
    StableHlo.TRef.binary (.of main_v29) main_call1.v0 main_call1.v1 (cmpf .oge),
    StableHlo.TRef.unary (.of main_cst_2) main_call1.v2 id,
    StableHlo.TRef.unary main_call1.v2 main_call1.v3 (broadcastInDim S90000x64 ![] bcast_S_S90000x64),
    StableHlo.TRef.binary main_call1.v3 (.of main_v29) main_call1.v4 mulf,
    StableHlo.TRef.ternary main_call1.v1 (.of main_v29) main_call1.v4 main_call1.call0.v0 select ]

/-- Layer 1: the sum of the two branches and its row normalisation. -/
abbrev opsN1 : List (HloOp τ sig (Elt F)) :=
  [ StableHlo.binary main_v21 main_v30 main_v31 (addf : (⟨S90000x64, .f32⟩ : BufTy).Contents (Elt F) → (⟨S90000x64, .f32⟩ : BufTy).Contents (Elt F) → (⟨S90000x64, .f32⟩ : BufTy).Contents (Elt F)),
    StableHlo.binary main_v31 main_v31 main_v32 (mulf : (⟨S90000x64, .f32⟩ : BufTy).Contents (Elt F) → (⟨S90000x64, .f32⟩ : BufTy).Contents (Elt F) → (⟨S90000x64, .f32⟩ : BufTy).Contents (Elt F)),
    StableHlo.nullary main_cst_3 (constant S_ .f32 0x00000000#32),
    StableHlo.binary main_v32 main_cst_3 main_v33 ((fun x v => Host.reduceAdd x v reducesTo_S90000x64_S90000_d1 h_S_) : (⟨S90000x64, .f32⟩ : BufTy).Contents (Elt F) → (⟨S_, .f32⟩ : BufTy).Contents (Elt F) → (⟨S90000, .f32⟩ : BufTy).Contents (Elt F)),
    StableHlo.unary main_v33 main_v34 (broadcastInDim S90000x1 ![0] bcast_S90000_S90000x1_0 : (⟨S90000, .f32⟩ : BufTy).Contents (Elt F) → (⟨S90000x1, .f32⟩ : BufTy).Contents (Elt F)),
    StableHlo.unary main_v34 main_v35 (Host.sqrt : (⟨S90000x1, .f32⟩ : BufTy).Contents (Elt F) → (⟨S90000x1, .f32⟩ : BufTy).Contents (Elt F)),
    StableHlo.nullary main_cst_4 (constant S_ .f32 0x2B8CBCCC#32),
    StableHlo.unary main_cst_4 main_v36 (broadcastInDim S90000x1 ![] bcast_S_S90000x1 : (⟨S_, .f32⟩ : BufTy).Contents (Elt F) → (⟨S90000x1, .f32⟩ : BufTy).Contents (Elt F)),
    StableHlo.binary main_v35 main_v36 main_v37 (maximumf : (⟨S90000x1, .f32⟩ : BufTy).Contents (Elt F) → (⟨S90000x1, .f32⟩ : BufTy).Contents (Elt F) → (⟨S90000x1, .f32⟩ : BufTy).Contents (Elt F)),
    StableHlo.unary main_v37 main_v38 (broadcastInDim S90000x64 ![0, 1] bcast_S90000x1_S90000x64_0_1 : (⟨S90000x1, .f32⟩ : BufTy).Contents (Elt F) → (⟨S90000x64, .f32⟩ : BufTy).Contents (Elt F)),
    StableHlo.binary main_v31 main_v38 main_v39 (Host.divf : (⟨S90000x64, .f32⟩ : BufTy).Contents (Elt F) → (⟨S90000x64, .f32⟩ : BufTy).Contents (Elt F) → (⟨S90000x64, .f32⟩ : BufTy).Contents (Elt F)) ]

/-- Layer 2: the side array (wrapped columns, gather, scale, scatter-add from zero). -/
abbrev opsS2 : List (HloOp τ sig (Elt F)) :=
  [ StableHlo.nullary main_c_5 (constantI S_ 32 0#32),
    StableHlo.unary main_c_5 main_v40 (broadcastInDim S2000000 ![] bcast_S_S2000000 : (⟨S_, .i32⟩ : BufTy).Contents (Elt F) → (⟨S2000000, .i32⟩ : BufTy).Contents (Elt F)),
    StableHlo.binary main_arg3 main_v40 main_v41 (cmpi .slt : (⟨S2000000, .i32⟩ : BufTy).Contents (Elt F) → (⟨S2000000, .i32⟩ : BufTy).Contents (Elt F) → (⟨S2000000, .i1⟩ : BufTy).Contents (Elt F)),
    StableHlo.nullary main_c_6 (constantI S_ 32 90000#32),
    StableHlo.unary main_c_6 main_v42 (broadcastInDim S2000000 ![] bcast_S_S2000000 : (⟨S_, .i32⟩ : BufTy).Contents (Elt F) → (⟨S2000000, .i32⟩ : BufTy).Contents (Elt F)),
    StableHlo.binary main_arg3 main_v42 main_v43 (addi : (⟨S2000000, .i32⟩ : BufTy).Contents (Elt F) → (⟨S2000000, .i32⟩ : BufTy).Contents (Elt F) → (⟨S2000000, .i32⟩ : BufTy).Contents (Elt F)),
    StableHlo.ternary main_v41 main_v43 main_arg3 main_v44 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v44 main_v45 (broadcastInDim S2000000x1 ![0] bcast_S2000000_S2000000x1_0 : (⟨S2000000, .i32⟩ : BufTy).Contents (Elt F) → (⟨S2000000x1, .i32⟩ : BufTy).Contents (Elt F)),
    StableHlo.binary main_v31 main_v45 main_v46 ((fun x i => Host.gather gather_S90000x64_S2000000x1_S2000000x64_1_0_n_n_0_1_164 x i) : (⟨S90000x64, .f32⟩ : BufTy).Contents (Elt F) → (⟨S2000000x1, .i32⟩ : BufTy).Contents (Elt F) → (⟨S2000000x64, .f32⟩ : BufTy).Contents (Elt F)),
    StableHlo.unary main_arg4 main_v47 (broadcastInDim S2000000x1 ![0] bcast_S2000000_S2000000x1_0 : (⟨S2000000, .f32⟩ : BufTy).Contents (Elt F) → (⟨S2000000x1, .f32⟩ : BufTy).Contents (Elt F)),
    StableHlo.unary main_v47 main_v48 (broadcastInDim S2000000x64 ![0, 1] bcast_S2000000x1_S2000000x64_0_1 : (⟨S2000000x1, .f32⟩ : BufTy).Contents (Elt F) → (⟨S2000000x64, .f32⟩ : BufTy).Contents (Elt F)),
    StableHlo.binary main_v46 main_v48 main_v49 (mulf : (⟨S2000000x64, .f32⟩ : BufTy).Contents (Elt F) → (⟨S2000000x64, .f32⟩ : BufTy).Contents (Elt F) → (⟨S2000000x64, .f32⟩ : BufTy).Contents (Elt F)),
    StableHlo.nullary main_cst_7 (constant S_ .f32 0x00000000#32),
    StableHlo.unary main_cst_7 main_v50 (broadcastInDim S90000x64 ![] bcast_S_S90000x64 : (⟨S_, .f32⟩ : BufTy).Contents (Elt F) → (⟨S90000x64, .f32⟩ : BufTy).Contents (Elt F)),
    StableHlo.unary main_arg2 main_v51 (broadcastInDim S2000000x1 ![0] bcast_S2000000_S2000000x1_0 : (⟨S2000000, .i32⟩ : BufTy).Contents (Elt F) → (⟨S2000000x1, .i32⟩ : BufTy).Contents (Elt F)),
    StableHlo.ternary main_v50 main_v51 main_v49 main_v52 ((fun x i u => Host.scatterAdd scatter_S90000x64_S2000000x1_S2000000x64_1_0_0_1 x i u) : (⟨S90000x64, .f32⟩ : BufTy).Contents (Elt F) → (⟨S2000000x1, .i32⟩ : BufTy).Contents (Elt F) → (⟨S2000000x64, .f32⟩ : BufTy).Contents (Elt F) → (⟨S90000x64, .f32⟩ : BufTy).Contents (Elt F)) ]

/-- Layer 2: side · W + b, then the leaky rectifier. -/
abbrev opsG2 : List (HloOp τ sig (Elt F)) :=
  [ StableHlo.unary main_arg5 main_v53 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v53 main_v54 rfl shapeCasts_S1x64x64_S64x64,
    StableHlo.binary main_v52 main_v54 main_v55 ((fun l r => Host.dotGeneral dot_S90000x64_S64x64_S90000x64_1_0_0_1_n_n none l r) : (⟨S90000x64, .f32⟩ : BufTy).Contents (Elt F) → (⟨S64x64, .f32⟩ : BufTy).Contents (Elt F) → (⟨S90000x64, .f32⟩ : BufTy).Contents (Elt F)),
    StableHlo.unary main_arg6 main_v56 ((extractStridedSlice S1x1x64 ![1, 0, 0] · slices_S3x1x64_S1x1x64_1_0_0) : (⟨S3x1x64, .f32⟩ : BufTy).Contents (Elt F) → (⟨S1x1x64, .f32⟩ : BufTy).Contents (Elt F)),
    StableHlo.reshape main_v56 main_v57 rfl shapeCasts_S1x1x64_S1x64,
    StableHlo.unary main_v57 main_v58 (broadcastInDim S90000x64 ![0, 1] bcast_S1x64_S90000x64_0_1 : (⟨S1x64, .f32⟩ : BufTy).Contents (Elt F) → (⟨S90000x64, .f32⟩ : BufTy).Contents (Elt F)),
    StableHlo.binary main_v55 main_v58 main_v59 (addf : (⟨S90000x64, .f32⟩ : BufTy).Contents (Elt F) → (⟨S90000x64, .f32⟩ : BufTy).Contents (Elt F) → (⟨S90000x64, .f32⟩ : BufTy).Contents (Elt F)),
    StableHlo.nullary main_cst_8 (constant S_ .f32 0x3E4CCCCD#32),
    StableHlo.TRef.nullary main_call2.cst (constant S_ .f32 0x00000000#32),
    StableHlo.TRef.unary main_call2.cst main_call2.v0 (broadcastInDim S90000x64 ![] bcast_S_S90000x64),
    StableHlo.TRef.binary (.of main_v59) main_call2.v0 main_call2.v1 (cmpf .oge),
    StableHlo.TRef.unary (.of main_cst_8) main_call2.v2 id,
    StableHlo.TRef.unary main_call2.v2 main_call2.v3 (broadcastInDim S90000x64 ![] bcast_S_S90000x64),
    StableHlo.TRef.binary main_call2.v3 (.of main_v59) main_call2.v4 mulf,
    StableHlo.TRef.ternary main_call2.v1 (.of main_v59) main_call2.v4 main_call2.call0.v0 select ]

/-- Layer 2: (ego ⊙ side) · W' + b', then the leaky rectifier. -/
abbrev opsB2 : List (HloOp τ sig (Elt F)) :=
  [ StableHlo.binary main_v31 main_v52 main_v61 (mulf : (⟨S90000x64, .f32⟩ : BufTy).Contents (Elt F) → (⟨S90000x64, .f32⟩ : BufTy).Contents (Elt F) → (⟨S90000x64, .f32⟩ : BufTy).Contents (Elt F)),
    StableHlo.unary main_arg7 main_v62 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v62 main_v63 rfl shapeCasts_S1x64x64_S64x64,
    StableHlo.binary main_v61 main_v63 main_v64 ((fun l r => Host.dotGeneral dot_S90000x64_S64x64_S90000x64_1_0_0_1_n_n none l r) : (⟨S90000x64, .f32⟩ : BufTy).Contents (Elt F) → (⟨S64x64, .f32⟩ : BufTy).Contents (Elt F) → (⟨S90000x64, .f32⟩ : BufTy).Contents (Elt F)),
    StableHlo.unary main_arg8 main_v65 ((extractStridedSlice S1x1x64 ![1, 0, 0] · slices_S3x1x64_S1x1x64_1_0_0) : (⟨S3x1x64, .f32⟩ : BufTy).Contents (Elt F) → (⟨S1x1x64, .f32⟩ : BufTy).Contents (Elt F)),
    StableHlo.reshape main_v65 main_v66 rfl shapeCasts_S1x1x64_S1x64,
    StableHlo.unary main_v66 main_v67 (broadcastInDim S90000x64 ![0, 1] bcast_S1x64_S90000x64_0_1 : (⟨S1x64, .f32⟩ : BufTy).Contents (Elt F) → (⟨S90000x64, .f32⟩ : BufTy).Contents (Elt F)),
    StableHlo.binary main_v64 main_v67 main_v68 (addf : (⟨S90000x64, .f32⟩ : BufTy).Contents (Elt F) → (⟨S90000x64, .f32⟩ : BufTy).Contents (Elt F) → (⟨S90000x64, .f32⟩ : BufTy).Contents (Elt F)),
    StableHlo.nullary main_cst_9 (constant S_ .f32 0x3E4CCCCD#32),
    StableHlo.TRef.nullary main_call3.cst (constant S_ .f32 0x00000000#32),
    StableHlo.TRef.unary main_call3.cst main_call3.v0 (broadcastInDim S90000x64 ![] bcast_S_S90000x64),
    StableHlo.TRef.binary (.of main_v68) main_call3.v0 main_call3.v1 (cmpf .oge),
    StableHlo.TRef.unary (.of main_cst_9) main_call3.v2 id,
    StableHlo.TRef.unary main_call3.v2 main_call3.v3 (broadcastInDim S90000x64 ![] bcast_S_S90000x64),
    StableHlo.TRef.binary main_call3.v3 (.of main_v68) main_call3.v4 mulf,
    StableHlo.TRef.ternary main_call3.v1 (.of main_v68) main_call3.v4 main_call3.call0.v0 select ]

/-- Layer 2: the sum of the two branches and its row normalisation. -/
abbrev opsN2 : List (HloOp τ sig (Elt F)) :=
  [ StableHlo.binary main_v60 main_v69 main_v70 (addf : (⟨S90000x64, .f32⟩ : BufTy).Contents (Elt F) → (⟨S90000x64, .f32⟩ : BufTy).Contents (Elt F) → (⟨S90000x64, .f32⟩ : BufTy).Contents (Elt F)),
    StableHlo.binary main_v70 main_v70 main_v71 (mulf : (⟨S90000x64, .f32⟩ : BufTy).Contents (Elt F) → (⟨S90000x64, .f32⟩ : BufTy).Contents (Elt F) → (⟨S90000x64, .f32⟩ : BufTy).Contents (Elt F)),
    StableHlo.nullary main_cst_10 (constant S_ .f32 0x00000000#32),
    StableHlo.binary main_v71 main_cst_10 main_v72 ((fun x v => Host.reduceAdd x v reducesTo_S90000x64_S90000_d1 h_S_) : (⟨S90000x64, .f32⟩ : BufTy).Contents (Elt F) → (⟨S_, .f32⟩ : BufTy).Contents (Elt F) → (⟨S90000, .f32⟩ : BufTy).Contents (Elt F)),
    StableHlo.unary main_v72 main_v73 (broadcastInDim S90000x1 ![0] bcast_S90000_S90000x1_0 : (⟨S90000, .f32⟩ : BufTy).Contents (Elt F) → (⟨S90000x1, .f32⟩ : BufTy).Contents (Elt F)),
    StableHlo.unary main_v73 main_v74 (Host.sqrt : (⟨S90000x1, .f32⟩ : BufTy).Contents (Elt F) → (⟨S90000x1, .f32⟩ : BufTy).Contents (Elt F)),
    StableHlo.nullary main_cst_11 (constant S_ .f32 0x2B8CBCCC#32),
    StableHlo.unary main_cst_11 main_v75 (broadcastInDim S90000x1 ![] bcast_S_S90000x1 : (⟨S_, .f32⟩ : BufTy).Contents (Elt F) → (⟨S90000x1, .f32⟩ : BufTy).Contents (Elt F)),
    StableHlo.binary main_v74 main_v75 main_v76 (maximumf : (⟨S90000x1, .f32⟩ : BufTy).Contents (Elt F) → (⟨S90000x1, .f32⟩ : BufTy).Contents (Elt F) → (⟨S90000x1, .f32⟩ : BufTy).Contents (Elt F)),
    StableHlo.unary main_v76 main_v77 (broadcastInDim S90000x64 ![0, 1] bcast_S90000x1_S90000x64_0_1 : (⟨S90000x1, .f32⟩ : BufTy).Contents (Elt F) → (⟨S90000x64, .f32⟩ : BufTy).Contents (Elt F)),
    StableHlo.binary main_v70 main_v77 main_v78 (Host.divf : (⟨S90000x64, .f32⟩ : BufTy).Contents (Elt F) → (⟨S90000x64, .f32⟩ : BufTy).Contents (Elt F) → (⟨S90000x64, .f32⟩ : BufTy).Contents (Elt F)) ]

/-- Layer 3: the side array (wrapped columns, gather, scale, scatter-add from zero). -/
abbrev opsS3 : List (HloOp τ sig (Elt F)) :=
  [ StableHlo.nullary main_c_12 (constantI S_ 32 0#32),
    StableHlo.unary main_c_12 main_v79 (broadcastInDim S2000000 ![] bcast_S_S2000000 : (⟨S_, .i32⟩ : BufTy).Contents (Elt F) → (⟨S2000000, .i32⟩ : BufTy).Contents (Elt F)),
    StableHlo.binary main_arg3 main_v79 main_v80 (cmpi .slt : (⟨S2000000, .i32⟩ : BufTy).Contents (Elt F) → (⟨S2000000, .i32⟩ : BufTy).Contents (Elt F) → (⟨S2000000, .i1⟩ : BufTy).Contents (Elt F)),
    StableHlo.nullary main_c_13 (constantI S_ 32 90000#32),
    StableHlo.unary main_c_13 main_v81 (broadcastInDim S2000000 ![] bcast_S_S2000000 : (⟨S_, .i32⟩ : BufTy).Contents (Elt F) → (⟨S2000000, .i32⟩ : BufTy).Contents (Elt F)),
    StableHlo.binary main_arg3 main_v81 main_v82 (addi : (⟨S2000000, .i32⟩ : BufTy).Contents (Elt F) → (⟨S2000000, .i32⟩ : BufTy).Contents (Elt F) → (⟨S2000000, .i32⟩ : BufTy).Contents (Elt F)),
    StableHlo.ternary main_v80 main_v82 main_arg3 main_v83 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v83 main_v84 (broadcastInDim S2000000x1 ![0] bcast_S2000000_S2000000x1_0 : (⟨S2000000, .i32⟩ : BufTy).Contents (Elt F) → (⟨S2000000x1, .i32⟩ : BufTy).Contents (Elt F)),
    StableHlo.binary main_v70 main_v84 main_v85 ((fun x i => Host.gather gather_S90000x64_S2000000x1_S2000000x64_1_0_n_n_0_1_164 x i) : (⟨S90000x64, .f32⟩ : BufTy).Contents (Elt F) → (⟨S2000000x1, .i32⟩ : BufTy).Contents (Elt F) → (⟨S2000000x64, .f32⟩ : BufTy).Contents (Elt F)),
    StableHlo.unary main_arg4 main_v86 (broadcastInDim S2000000x1 ![0] bcast_S2000000_S2000000x1_0 : (⟨S2000000, .f32⟩ : BufTy).Contents (Elt F) → (⟨S2000000x1, .f32⟩ : BufTy).Contents (Elt F)),
    StableHlo.unary main_v86 main_v87 (broadcastInDim S2000000x64 ![0, 1] bcast_S2000000x1_S2000000x64_0_1 : (⟨S2000000x1, .f32⟩ : BufTy).Contents (Elt F) → (⟨S2000000x64, .f32⟩ : BufTy).Contents (Elt F)),
    StableHlo.binary main_v85 main_v87 main_v88 (mulf : (⟨S2000000x64, .f32⟩ : BufTy).Contents (Elt F) → (⟨S2000000x64, .f32⟩ : BufTy).Contents (Elt F) → (⟨S2000000x64, .f32⟩ : BufTy).Contents (Elt F)),
    StableHlo.nullary main_cst_14 (constant S_ .f32 0x00000000#32),
    StableHlo.unary main_cst_14 main_v89 (broadcastInDim S90000x64 ![] bcast_S_S90000x64 : (⟨S_, .f32⟩ : BufTy).Contents (Elt F) → (⟨S90000x64, .f32⟩ : BufTy).Contents (Elt F)),
    StableHlo.unary main_arg2 main_v90 (broadcastInDim S2000000x1 ![0] bcast_S2000000_S2000000x1_0 : (⟨S2000000, .i32⟩ : BufTy).Contents (Elt F) → (⟨S2000000x1, .i32⟩ : BufTy).Contents (Elt F)),
    StableHlo.ternary main_v89 main_v90 main_v88 main_v91 ((fun x i u => Host.scatterAdd scatter_S90000x64_S2000000x1_S2000000x64_1_0_0_1 x i u) : (⟨S90000x64, .f32⟩ : BufTy).Contents (Elt F) → (⟨S2000000x1, .i32⟩ : BufTy).Contents (Elt F) → (⟨S2000000x64, .f32⟩ : BufTy).Contents (Elt F) → (⟨S90000x64, .f32⟩ : BufTy).Contents (Elt F)) ]

/-- Layer 3: side · W + b, then the leaky rectifier. -/
abbrev opsG3 : List (HloOp τ sig (Elt F)) :=
  [ StableHlo.unary main_arg5 main_v92 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v92 main_v93 rfl shapeCasts_S1x64x64_S64x64,
    StableHlo.binary main_v91 main_v93 main_v94 ((fun l r => Host.dotGeneral dot_S90000x64_S64x64_S90000x64_1_0_0_1_n_n none l r) : (⟨S90000x64, .f32⟩ : BufTy).Contents (Elt F) → (⟨S64x64, .f32⟩ : BufTy).Contents (Elt F) → (⟨S90000x64, .f32⟩ : BufTy).Contents (Elt F)),
    StableHlo.unary main_arg6 main_v95 ((extractStridedSlice S1x1x64 ![2, 0, 0] · slices_S3x1x64_S1x1x64_2_0_0) : (⟨S3x1x64, .f32⟩ : BufTy).Contents (Elt F) → (⟨S1x1x64, .f32⟩ : BufTy).Contents (Elt F)),
    StableHlo.reshape main_v95 main_v96 rfl shapeCasts_S1x1x64_S1x64,
    StableHlo.unary main_v96 main_v97 (broadcastInDim S90000x64 ![0, 1] bcast_S1x64_S90000x64_0_1 : (⟨S1x64, .f32⟩ : BufTy).Contents (Elt F) → (⟨S90000x64, .f32⟩ : BufTy).Contents (Elt F)),
    StableHlo.binary main_v94 main_v97 main_v98 (addf : (⟨S90000x64, .f32⟩ : BufTy).Contents (Elt F) → (⟨S90000x64, .f32⟩ : BufTy).Contents (Elt F) → (⟨S90000x64, .f32⟩ : BufTy).Contents (Elt F)),
    StableHlo.nullary main_cst_15 (constant S_ .f32 0x3E4CCCCD#32),
    StableHlo.TRef.nullary main_call4.cst (constant S_ .f32 0x00000000#32),
    StableHlo.TRef.unary main_call4.cst main_call4.v0 (broadcastInDim S90000x64 ![] bcast_S_S90000x64),
    StableHlo.TRef.binary (.of main_v98) main_call4.v0 main_call4.v1 (cmpf .oge),
    StableHlo.TRef.unary (.of main_cst_15) main_call4.v2 id,
    StableHlo.TRef.unary main_call4.v2 main_call4.v3 (broadcastInDim S90000x64 ![] bcast_S_S90000x64),
    StableHlo.TRef.binary main_call4.v3 (.of main_v98) main_call4.v4 mulf,
    StableHlo.TRef.ternary main_call4.v1 (.of main_v98) main_call4.v4 main_call4.call0.v0 select ]

/-- Layer 3: (ego ⊙ side) · W' + b', then the leaky rectifier. -/
abbrev opsB3 : List (HloOp τ sig (Elt F)) :=
  [ StableHlo.binary main_v70 main_v91 main_v100 (mulf : (⟨S90000x64, .f32⟩ : BufTy).Contents (Elt F) → (⟨S90000x64, .f32⟩ : BufTy).Contents (Elt F) → (⟨S90000x64, .f32⟩ : BufTy).Contents (Elt F)),
    StableHlo.unary main_arg7 main_v101 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v101 main_v102 rfl shapeCasts_S1x64x64_S64x64,
    StableHlo.binary main_v100 main_v102 main_v103 ((fun l r => Host.dotGeneral dot_S90000x64_S64x64_S90000x64_1_0_0_1_n_n none l r) : (⟨S90000x64, .f32⟩ : BufTy).Contents (Elt F) → (⟨S64x64, .f32⟩ : BufTy).Contents (Elt F) → (⟨S90000x64, .f32⟩ : BufTy).Contents (Elt F)),
    StableHlo.unary main_arg8 main_v104 ((extractStridedSlice S1x1x64 ![2, 0, 0] · slices_S3x1x64_S1x1x64_2_0_0) : (⟨S3x1x64, .f32⟩ : BufTy).Contents (Elt F) → (⟨S1x1x64, .f32⟩ : BufTy).Contents (Elt F)),
    StableHlo.reshape main_v104 main_v105 rfl shapeCasts_S1x1x64_S1x64,
    StableHlo.unary main_v105 main_v106 (broadcastInDim S90000x64 ![0, 1] bcast_S1x64_S90000x64_0_1 : (⟨S1x64, .f32⟩ : BufTy).Contents (Elt F) → (⟨S90000x64, .f32⟩ : BufTy).Contents (Elt F)),
    StableHlo.binary main_v103 main_v106 main_v107 (addf : (⟨S90000x64, .f32⟩ : BufTy).Contents (Elt F) → (⟨S90000x64, .f32⟩ : BufTy).Contents (Elt F) → (⟨S90000x64, .f32⟩ : BufTy).Contents (Elt F)),
    StableHlo.nullary main_cst_16 (constant S_ .f32 0x3E4CCCCD#32),
    StableHlo.TRef.nullary main_call5.cst (constant S_ .f32 0x00000000#32),
    StableHlo.TRef.unary main_call5.cst main_call5.v0 (broadcastInDim S90000x64 ![] bcast_S_S90000x64),
    StableHlo.TRef.binary (.of main_v107) main_call5.v0 main_call5.v1 (cmpf .oge),
    StableHlo.TRef.unary (.of main_cst_16) main_call5.v2 id,
    StableHlo.TRef.unary main_call5.v2 main_call5.v3 (broadcastInDim S90000x64 ![] bcast_S_S90000x64),
    StableHlo.TRef.binary main_call5.v3 (.of main_v107) main_call5.v4 mulf,
    StableHlo.TRef.ternary main_call5.v1 (.of main_v107) main_call5.v4 main_call5.call0.v0 select ]

/-- Layer 3: the sum of the two branches and its row normalisation. -/
abbrev opsN3 : List (HloOp τ sig (Elt F)) :=
  [ StableHlo.binary main_v99 main_v108 main_v109 (addf : (⟨S90000x64, .f32⟩ : BufTy).Contents (Elt F) → (⟨S90000x64, .f32⟩ : BufTy).Contents (Elt F) → (⟨S90000x64, .f32⟩ : BufTy).Contents (Elt F)),
    StableHlo.binary main_v109 main_v109 main_v110 (mulf : (⟨S90000x64, .f32⟩ : BufTy).Contents (Elt F) → (⟨S90000x64, .f32⟩ : BufTy).Contents (Elt F) → (⟨S90000x64, .f32⟩ : BufTy).Contents (Elt F)),
    StableHlo.nullary main_cst_17 (constant S_ .f32 0x00000000#32),
    StableHlo.binary main_v110 main_cst_17 main_v111 ((fun x v => Host.reduceAdd x v reducesTo_S90000x64_S90000_d1 h_S_) : (⟨S90000x64, .f32⟩ : BufTy).Contents (Elt F) → (⟨S_, .f32⟩ : BufTy).Contents (Elt F) → (⟨S90000, .f32⟩ : BufTy).Contents (Elt F)),
    StableHlo.unary main_v111 main_v112 (broadcastInDim S90000x1 ![0] bcast_S90000_S90000x1_0 : (⟨S90000, .f32⟩ : BufTy).Contents (Elt F) → (⟨S90000x1, .f32⟩ : BufTy).Contents (Elt F)),
    StableHlo.unary main_v112 main_v113 (Host.sqrt : (⟨S90000x1, .f32⟩ : BufTy).Contents (Elt F) → (⟨S90000x1, .f32⟩ : BufTy).Contents (Elt F)),
    StableHlo.nullary main_cst_18 (constant S_ .f32 0x2B8CBCCC#32),
    StableHlo.unary main_cst_18 main_v114 (broadcastInDim S90000x1 ![] bcast_S_S90000x1 : (⟨S_, .f32⟩ : BufTy).Contents (Elt F) → (⟨S90000x1, .f32⟩ : BufTy).Contents (Elt F)),
    StableHlo.binary main_v113 main_v114 main_v115 (maximumf : (⟨S90000x1, .f32⟩ : BufTy).Contents (Elt F) → (⟨S90000x1, .f32⟩ : BufTy).Contents (Elt F) → (⟨S90000x1, .f32⟩ : BufTy).Contents (Elt F)),
    StableHlo.unary main_v115 main_v116 (broadcastInDim S90000x64 ![0, 1] bcast_S90000x1_S90000x64_0_1 : (⟨S90000x1, .f32⟩ : BufTy).Contents (Elt F) → (⟨S90000x64, .f32⟩ : BufTy).Contents (Elt F)),
    StableHlo.binary main_v109 main_v116 main_v117 (Host.divf : (⟨S90000x64, .f32⟩ : BufTy).Contents (Elt F) → (⟨S90000x64, .f32⟩ : BufTy).Contents (Elt F) → (⟨S90000x64, .f32⟩ : BufTy).Contents (Elt F)) ]

/-- %118 … %120: the column-concatenation and its two row slices. -/
abbrev opsZ : List (HloOp τ sig (Elt F)) :=
  [ StableHlo.nary ![main_v0, main_v39, main_v78, main_v117] main_v118 (fun u => concatenate S90000x256 1 [⟨S90000x64, u 0⟩, ⟨S90000x64, u 1⟩, ⟨S90000x64, u 2⟩, ⟨S90000x64, u 3⟩] concatenates_S90000x64_S90000x64_S90000x64_S90000x64_S90000x256_d1),
    StableHlo.unary main_v118 main_v119 ((extractStridedSlice S30000x256 ![0, 0] · slices_S90000x256_S30000x256_0_0) : (⟨S90000x256, .f32⟩ : BufTy).Contents (Elt F) → (⟨S30000x256, .f32⟩ : BufTy).Contents (Elt F)),
    StableHlo.unary main_v118 main_v120 ((extractStridedSlice S60000x256 ![30000, 0] · slices_S90000x256_S60000x256_30000_0) : (⟨S90000x256, .f32⟩ : BufTy).Contents (Elt F) → (⟨S60000x256, .f32⟩ : BufTy).Contents (Elt F)) ]

/-- @main's operations, in order. -/
abbrev ops : List (HloOp τ sig (Elt F)) :=
  opsA ++ opsS1 ++ opsG1 ++ opsB1 ++ opsN1 ++ opsS2 ++ opsG2 ++ opsB2 ++ opsN2 ++ opsS3 ++ opsG3 ++ opsB3 ++ opsN3 ++ opsZ

/-! The same operations cut where the printed program cuts @main into its three windows. -/

/-- The operations of @main's window 0. -/
abbrev win0 : List (HloOp τ sig (Elt F)) :=
  [ StableHlo.binary main_arg0 main_arg1 main_v0 ((fun a b => concatenate S90000x64 0 [⟨S30000x64, a⟩, ⟨S60000x64, b⟩] concatenates_S30000x64_S60000x64_S90000x64_d0) : (⟨S30000x64, .f32⟩ : BufTy).Contents (Elt F) → (⟨S60000x64, .f32⟩ : BufTy).Contents (Elt F) → (⟨S90000x64, .f32⟩ : BufTy).Contents (Elt F)),
    StableHlo.nullary main_c (constantI S_ 32 0#32),
    StableHlo.unary main_c main_v1 (broadcastInDim S2000000 ![] bcast_S_S2000000 : (⟨S_, .i32⟩ : BufTy).Contents (Elt F) → (⟨S2000000, .i32⟩ : BufTy).Contents (Elt F)),
    StableHlo.binary main_arg3 main_v1 main_v2 (cmpi .slt : (⟨S2000000, .i32⟩ : BufTy).Contents (Elt F) → (⟨S2000000, .i32⟩ : BufTy).Contents (Elt F) → (⟨S2000000, .i1⟩ : BufTy).Contents (Elt F)),
    StableHlo.nullary main_c_0 (constantI S_ 32 90000#32),
    StableHlo.unary main_c_0 main_v3 (broadcastInDim S2000000 ![] bcast_S_S2000000 : (⟨S_, .i32⟩ : BufTy).Contents (Elt F) → (⟨S2000000, .i32⟩ : BufTy).Contents (Elt F)),
    StableHlo.binary main_arg3 main_v3 main_v4 (addi : (⟨S2000000, .i32⟩ : BufTy).Contents (Elt F) → (⟨S2000000, .i32⟩ : BufTy).Contents (Elt F) → (⟨S2000000, .i32⟩ : BufTy).Contents (Elt F)),
    StableHlo.ternary main_v2 main_v4 main_arg3 main_v5 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v5 main_v6 (broadcastInDim S2000000x1 ![0] bcast_S2000000_S2000000x1_0 : (⟨S2000000, .i32⟩ : BufTy).Contents (Elt F) → (⟨S2000000x1, .i32⟩ : BufTy).Contents (Elt F)),
    StableHlo.binary main_v0 main_v6 main_v7 ((fun x i => Host.gather gather_S90000x64_S2000000x1_S2000000x64_1_0_n_n_0_1_164 x i) : (⟨S90000x64, .f32⟩ : BufTy).Contents (Elt F) → (⟨S2000000x1, .i32⟩ : BufTy).Contents (Elt F) → (⟨S2000000x64, .f32⟩ : BufTy).Contents (Elt F)),
    StableHlo.unary main_arg4 main_v8 (broadcastInDim S2000000x1 ![0] bcast_S2000000_S2000000x1_0 : (⟨S2000000, .f32⟩ : BufTy).Contents (Elt F) → (⟨S2000000x1, .f32⟩ : BufTy).Contents (Elt F)),
    StableHlo.unary main_v8 main_v9 (broadcastInDim S2000000x64 ![0, 1] bcast_S2000000x1_S2000000x64_0_1 : (⟨S2000000x1, .f32⟩ : BufTy).Contents (Elt F) → (⟨S2000000x64, .f32⟩ : BufTy).Contents (Elt F)),
    StableHlo.binary main_v7 main_v9 main_v10 (mulf : (⟨S2000000x64, .f32⟩ : BufTy).Contents (Elt F) → (⟨S2000000x64, .f32⟩ : BufTy).Contents (Elt F) → (⟨S2000000x64, .f32⟩ : BufTy).Contents (Elt F)),
    StableHlo.nullary main_cst (constant S_ .f32 0x00000000#32),
    StableHlo.unary main_cst main_v11 (broadcastInDim S90000x64 ![] bcast_S_S90000x64 : (⟨S_, .f32⟩ : BufTy).Contents (Elt F) → (⟨S90000x64, .f32⟩ : BufTy).Contents (Elt F)),
    StableHlo.unary main_arg2 main_v12 (broadcastInDim S2000000x1 ![0] bcast_S2000000_S2000000x1_0 : (⟨S2000000, .i32⟩ : BufTy).Contents (Elt F) → (⟨S2000000x1, .i32⟩ : BufTy).Contents (Elt F)),
    StableHlo.ternary main_v11 main_v12 main_v10 main_v13 ((fun x i u => Host.scatterAdd scatter_S90000x64_S2000000x1_S2000000x64_1_0_0_1 x i u) : (⟨S90000x64, .f32⟩ : BufTy).Contents (Elt F) → (⟨S2000000x1, .i32⟩ : BufTy).Contents (Elt F) → (⟨S2000000x64, .f32⟩ : BufTy).Contents (Elt F) → (⟨S90000x64, .f32⟩ : BufTy).Contents (Elt F)),
    StableHlo.unary main_arg5 main_v14 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v14 main_v15 rfl shapeCasts_S1x64x64_S64x64,
    StableHlo.binary main_v13 main_v15 main_v16 ((fun l r => Host.dotGeneral dot_S90000x64_S64x64_S90000x64_1_0_0_1_n_n none l r) : (⟨S90000x64, .f32⟩ : BufTy).Contents (Elt F) → (⟨S64x64, .f32⟩ : BufTy).Contents (Elt F) → (⟨S90000x64, .f32⟩ : BufTy).Contents (Elt F)),
    StableHlo.unary main_arg6 main_v17 ((extractStridedSlice S1x1x64 ![0, 0, 0] · slices_S3x1x64_S1x1x64_0_0_0) : (⟨S3x1x64, .f32⟩ : BufTy).Contents (Elt F) → (⟨S1x1x64, .f32⟩ : BufTy).Contents (Elt F)),
    StableHlo.reshape main_v17 main_v18 rfl shapeCasts_S1x1x64_S1x64,
    StableHlo.unary main_v18 main_v19 (broadcastInDim S90000x64 ![0, 1] bcast_S1x64_S90000x64_0_1 : (⟨S1x64, .f32⟩ : BufTy).Contents (Elt F) → (⟨S90000x64, .f32⟩ : BufTy).Contents (Elt F)),
    StableHlo.binary main_v16 main_v19 main_v20 (addf : (⟨S90000x64, .f32⟩ : BufTy).Contents (Elt F) → (⟨S90000x64, .f32⟩ : BufTy).Contents (Elt F) → (⟨S90000x64, .f32⟩ : BufTy).Contents (Elt F)),
    StableHlo.nullary main_cst_1 (constant S_ .f32 0x3E4CCCCD#32),
    StableHlo.TRef.nullary main_call0.cst (constant S_ .f32 0x00000000#32),
    StableHlo.TRef.unary main_call0.cst main_call0.v0 (broadcastInDim S90000x64 ![] bcast_S_S90000x64),
    StableHlo.TRef.binary (.of main_v20) main_call0.v0 main_call0.v1 (cmpf .oge),
    StableHlo.TRef.unary (.of main_cst_1) main_call0.v2 id,
    StableHlo.TRef.unary main_call0.v2 main_call0.v3 (broadcastInDim S90000x64 ![] bcast_S_S90000x64),
    StableHlo.TRef.binary main_call0.v3 (.of main_v20) main_call0.v4 mulf,
    StableHlo.TRef.ternary main_call0.v1 (.of main_v20) main_call0.v4 main_call0.call0.v0 select,
    StableHlo.binary main_v0 main_v13 main_v22 (mulf : (⟨S90000x64, .f32⟩ : BufTy).Contents (Elt F) → (⟨S90000x64, .f32⟩ : BufTy).Contents (Elt F) → (⟨S90000x64, .f32⟩ : BufTy).Contents (Elt F)),
    StableHlo.unary main_arg7 main_v23 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v23 main_v24 rfl shapeCasts_S1x64x64_S64x64,
    StableHlo.binary main_v22 main_v24 main_v25 ((fun l r => Host.dotGeneral dot_S90000x64_S64x64_S90000x64_1_0_0_1_n_n none l r) : (⟨S90000x64, .f32⟩ : BufTy).Contents (Elt F) → (⟨S64x64, .f32⟩ : BufTy).Contents (Elt F) → (⟨S90000x64, .f32⟩ : BufTy).Contents (Elt F)),
    StableHlo.unary main_arg8 main_v26 ((extractStridedSlice S1x1x64 ![0, 0, 0] · slices_S3x1x64_S1x1x64_0_0_0) : (⟨S3x1x64, .f32⟩ : BufTy).Contents (Elt F) → (⟨S1x1x64, .f32⟩ : BufTy).Contents (Elt F)),
    StableHlo.reshape main_v26 main_v27 rfl shapeCasts_S1x1x64_S1x64,
    StableHlo.unary main_v27 main_v28 (broadcastInDim S90000x64 ![0, 1] bcast_S1x64_S90000x64_0_1 : (⟨S1x64, .f32⟩ : BufTy).Contents (Elt F) → (⟨S90000x64, .f32⟩ : BufTy).Contents (Elt F)),
    StableHlo.binary main_v25 main_v28 main_v29 (addf : (⟨S90000x64, .f32⟩ : BufTy).Contents (Elt F) → (⟨S90000x64, .f32⟩ : BufTy).Contents (Elt F) → (⟨S90000x64, .f32⟩ : BufTy).Contents (Elt F)),
    StableHlo.nullary main_cst_2 (constant S_ .f32 0x3E4CCCCD#32),
    StableHlo.TRef.nullary main_call1.cst (constant S_ .f32 0x00000000#32),
    StableHlo.TRef.unary main_call1.cst main_call1.v0 (broadcastInDim S90000x64 ![] bcast_S_S90000x64),
    StableHlo.TRef.binary (.of main_v29) main_call1.v0 main_call1.v1 (cmpf .oge),
    StableHlo.TRef.unary (.of main_cst_2) main_call1.v2 id,
    StableHlo.TRef.unary main_call1.v2 main_call1.v3 (broadcastInDim S90000x64 ![] bcast_S_S90000x64),
    StableHlo.TRef.binary main_call1.v3 (.of main_v29) main_call1.v4 mulf,
    StableHlo.TRef.ternary main_call1.v1 (.of main_v29) main_call1.v4 main_call1.call0.v0 select,
    StableHlo.binary main_v21 main_v30 main_v31 (addf : (⟨S90000x64, .f32⟩ : BufTy).Contents (Elt F) → (⟨S90000x64, .f32⟩ : BufTy).Contents (Elt F) → (⟨S90000x64, .f32⟩ : BufTy).Contents (Elt F)),
    StableHlo.binary main_v31 main_v31 main_v32 (mulf : (⟨S90000x64, .f32⟩ : BufTy).Contents (Elt F) → (⟨S90000x64, .f32⟩ : BufTy).Contents (Elt F) → (⟨S90000x64, .f32⟩ : BufTy).Contents (Elt F)),
    StableHlo.nullary main_cst_3 (constant S_ .f32 0x00000000#32),
    StableHlo.binary main_v32 main_cst_3 main_v33 ((fun x v => Host.reduceAdd x v reducesTo_S90000x64_S90000_d1 h_S_) : (⟨S90000x64, .f32⟩ : BufTy).Contents (Elt F) → (⟨S_, .f32⟩ : BufTy).Contents (Elt F) → (⟨S90000, .f32⟩ : BufTy).Contents (Elt F)),
    StableHlo.unary main_v33 main_v34 (broadcastInDim S90000x1 ![0] bcast_S90000_S90000x1_0 : (⟨S90000, .f32⟩ : BufTy).Contents (Elt F) → (⟨S90000x1, .f32⟩ : BufTy).Contents (Elt F)),
    StableHlo.unary main_v34 main_v35 (Host.sqrt : (⟨S90000x1, .f32⟩ : BufTy).Contents (Elt F) → (⟨S90000x1, .f32⟩ : BufTy).Contents (Elt F)),
    StableHlo.nullary main_cst_4 (constant S_ .f32 0x2B8CBCCC#32),
    StableHlo.unary main_cst_4 main_v36 (broadcastInDim S90000x1 ![] bcast_S_S90000x1 : (⟨S_, .f32⟩ : BufTy).Contents (Elt F) → (⟨S90000x1, .f32⟩ : BufTy).Contents (Elt F)),
    StableHlo.binary main_v35 main_v36 main_v37 (maximumf : (⟨S90000x1, .f32⟩ : BufTy).Contents (Elt F) → (⟨S90000x1, .f32⟩ : BufTy).Contents (Elt F) → (⟨S90000x1, .f32⟩ : BufTy).Contents (Elt F)),
    StableHlo.unary main_v37 main_v38 (broadcastInDim S90000x64 ![0, 1] bcast_S90000x1_S90000x64_0_1 : (⟨S90000x1, .f32⟩ : BufTy).Contents (Elt F) → (⟨S90000x64, .f32⟩ : BufTy).Contents (Elt F)),
    StableHlo.binary main_v31 main_v38 main_v39 (Host.divf : (⟨S90000x64, .f32⟩ : BufTy).Contents (Elt F) → (⟨S90000x64, .f32⟩ : BufTy).Contents (Elt F) → (⟨S90000x64, .f32⟩ : BufTy).Contents (Elt F)),
    StableHlo.nullary main_c_5 (constantI S_ 32 0#32),
    StableHlo.unary main_c_5 main_v40 (broadcastInDim S2000000 ![] bcast_S_S2000000 : (⟨S_, .i32⟩ : BufTy).Contents (Elt F) → (⟨S2000000, .i32⟩ : BufTy).Contents (Elt F)),
    StableHlo.binary main_arg3 main_v40 main_v41 (cmpi .slt : (⟨S2000000, .i32⟩ : BufTy).Contents (Elt F) → (⟨S2000000, .i32⟩ : BufTy).Contents (Elt F) → (⟨S2000000, .i1⟩ : BufTy).Contents (Elt F)),
    StableHlo.nullary main_c_6 (constantI S_ 32 90000#32),
    StableHlo.unary main_c_6 main_v42 (broadcastInDim S2000000 ![] bcast_S_S2000000 : (⟨S_, .i32⟩ : BufTy).Contents (Elt F) → (⟨S2000000, .i32⟩ : BufTy).Contents (Elt F)),
    StableHlo.binary main_arg3 main_v42 main_v43 (addi : (⟨S2000000, .i32⟩ : BufTy).Contents (Elt F) → (⟨S2000000, .i32⟩ : BufTy).Contents (Elt F) → (⟨S2000000, .i32⟩ : BufTy).Contents (Elt F)),
    StableHlo.ternary main_v41 main_v43 main_arg3 main_v44 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v44 main_v45 (broadcastInDim S2000000x1 ![0] bcast_S2000000_S2000000x1_0 : (⟨S2000000, .i32⟩ : BufTy).Contents (Elt F) → (⟨S2000000x1, .i32⟩ : BufTy).Contents (Elt F)),
    StableHlo.binary main_v31 main_v45 main_v46 ((fun x i => Host.gather gather_S90000x64_S2000000x1_S2000000x64_1_0_n_n_0_1_164 x i) : (⟨S90000x64, .f32⟩ : BufTy).Contents (Elt F) → (⟨S2000000x1, .i32⟩ : BufTy).Contents (Elt F) → (⟨S2000000x64, .f32⟩ : BufTy).Contents (Elt F)),
    StableHlo.unary main_arg4 main_v47 (broadcastInDim S2000000x1 ![0] bcast_S2000000_S2000000x1_0 : (⟨S2000000, .f32⟩ : BufTy).Contents (Elt F) → (⟨S2000000x1, .f32⟩ : BufTy).Contents (Elt F)),
    StableHlo.unary main_v47 main_v48 (broadcastInDim S2000000x64 ![0, 1] bcast_S2000000x1_S2000000x64_0_1 : (⟨S2000000x1, .f32⟩ : BufTy).Contents (Elt F) → (⟨S2000000x64, .f32⟩ : BufTy).Contents (Elt F)),
    StableHlo.binary main_v46 main_v48 main_v49 (mulf : (⟨S2000000x64, .f32⟩ : BufTy).Contents (Elt F) → (⟨S2000000x64, .f32⟩ : BufTy).Contents (Elt F) → (⟨S2000000x64, .f32⟩ : BufTy).Contents (Elt F)),
    StableHlo.nullary main_cst_7 (constant S_ .f32 0x00000000#32) ]

/-- The operations of @main's window 1. -/
abbrev win1 : List (HloOp τ sig (Elt F)) :=
  [ StableHlo.unary main_cst_7 main_v50 (broadcastInDim S90000x64 ![] bcast_S_S90000x64 : (⟨S_, .f32⟩ : BufTy).Contents (Elt F) → (⟨S90000x64, .f32⟩ : BufTy).Contents (Elt F)),
    StableHlo.unary main_arg2 main_v51 (broadcastInDim S2000000x1 ![0] bcast_S2000000_S2000000x1_0 : (⟨S2000000, .i32⟩ : BufTy).Contents (Elt F) → (⟨S2000000x1, .i32⟩ : BufTy).Contents (Elt F)),
    StableHlo.ternary main_v50 main_v51 main_v49 main_v52 ((fun x i u => Host.scatterAdd scatter_S90000x64_S2000000x1_S2000000x64_1_0_0_1 x i u) : (⟨S90000x64, .f32⟩ : BufTy).Contents (Elt F) → (⟨S2000000x1, .i32⟩ : BufTy).Contents (Elt F) → (⟨S2000000x64, .f32⟩ : BufTy).Contents (Elt F) → (⟨S90000x64, .f32⟩ : BufTy).Contents (Elt F)),
    StableHlo.unary main_arg5 main_v53 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v53 main_v54 rfl shapeCasts_S1x64x64_S64x64,
    StableHlo.binary main_v52 main_v54 main_v55 ((fun l r => Host.dotGeneral dot_S90000x64_S64x64_S90000x64_1_0_0_1_n_n none l r) : (⟨S90000x64, .f32⟩ : BufTy).Contents (Elt F) → (⟨S64x64, .f32⟩ : BufTy).Contents (Elt F) → (⟨S90000x64, .f32⟩ : BufTy).Contents (Elt F)),
    StableHlo.unary main_arg6 main_v56 ((extractStridedSlice S1x1x64 ![1, 0, 0] · slices_S3x1x64_S1x1x64_1_0_0) : (⟨S3x1x64, .f32⟩ : BufTy).Contents (Elt F) → (⟨S1x1x64, .f32⟩ : BufTy).Contents (Elt F)),
    StableHlo.reshape main_v56 main_v57 rfl shapeCasts_S1x1x64_S1x64,
    StableHlo.unary main_v57 main_v58 (broadcastInDim S90000x64 ![0, 1] bcast_S1x64_S90000x64_0_1 : (⟨S1x64, .f32⟩ : BufTy).Contents (Elt F) → (⟨S90000x64, .f32⟩ : BufTy).Contents (Elt F)),
    StableHlo.binary main_v55 main_v58 main_v59 (addf : (⟨S90000x64, .f32⟩ : BufTy).Contents (Elt F) → (⟨S90000x64, .f32⟩ : BufTy).Contents (Elt F) → (⟨S90000x64, .f32⟩ : BufTy).Contents (Elt F)),
    StableHlo.nullary main_cst_8 (constant S_ .f32 0x3E4CCCCD#32),
    StableHlo.TRef.nullary main_call2.cst (constant S_ .f32 0x00000000#32),
    StableHlo.TRef.unary main_call2.cst main_call2.v0 (broadcastInDim S90000x64 ![] bcast_S_S90000x64),
    StableHlo.TRef.binary (.of main_v59) main_call2.v0 main_call2.v1 (cmpf .oge),
    StableHlo.TRef.unary (.of main_cst_8) main_call2.v2 id,
    StableHlo.TRef.unary main_call2.v2 main_call2.v3 (broadcastInDim S90000x64 ![] bcast_S_S90000x64),
    StableHlo.TRef.binary main_call2.v3 (.of main_v59) main_call2.v4 mulf,
    StableHlo.TRef.ternary main_call2.v1 (.of main_v59) main_call2.v4 main_call2.call0.v0 select,
    StableHlo.binary main_v31 main_v52 main_v61 (mulf : (⟨S90000x64, .f32⟩ : BufTy).Contents (Elt F) → (⟨S90000x64, .f32⟩ : BufTy).Contents (Elt F) → (⟨S90000x64, .f32⟩ : BufTy).Contents (Elt F)),
    StableHlo.unary main_arg7 main_v62 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v62 main_v63 rfl shapeCasts_S1x64x64_S64x64,
    StableHlo.binary main_v61 main_v63 main_v64 ((fun l r => Host.dotGeneral dot_S90000x64_S64x64_S90000x64_1_0_0_1_n_n none l r) : (⟨S90000x64, .f32⟩ : BufTy).Contents (Elt F) → (⟨S64x64, .f32⟩ : BufTy).Contents (Elt F) → (⟨S90000x64, .f32⟩ : BufTy).Contents (Elt F)),
    StableHlo.unary main_arg8 main_v65 ((extractStridedSlice S1x1x64 ![1, 0, 0] · slices_S3x1x64_S1x1x64_1_0_0) : (⟨S3x1x64, .f32⟩ : BufTy).Contents (Elt F) → (⟨S1x1x64, .f32⟩ : BufTy).Contents (Elt F)),
    StableHlo.reshape main_v65 main_v66 rfl shapeCasts_S1x1x64_S1x64,
    StableHlo.unary main_v66 main_v67 (broadcastInDim S90000x64 ![0, 1] bcast_S1x64_S90000x64_0_1 : (⟨S1x64, .f32⟩ : BufTy).Contents (Elt F) → (⟨S90000x64, .f32⟩ : BufTy).Contents (Elt F)),
    StableHlo.binary main_v64 main_v67 main_v68 (addf : (⟨S90000x64, .f32⟩ : BufTy).Contents (Elt F) → (⟨S90000x64, .f32⟩ : BufTy).Contents (Elt F) → (⟨S90000x64, .f32⟩ : BufTy).Contents (Elt F)),
    StableHlo.nullary main_cst_9 (constant S_ .f32 0x3E4CCCCD#32),
    StableHlo.TRef.nullary main_call3.cst (constant S_ .f32 0x00000000#32),
    StableHlo.TRef.unary main_call3.cst main_call3.v0 (broadcastInDim S90000x64 ![] bcast_S_S90000x64),
    StableHlo.TRef.binary (.of main_v68) main_call3.v0 main_call3.v1 (cmpf .oge),
    StableHlo.TRef.unary (.of main_cst_9) main_call3.v2 id,
    StableHlo.TRef.unary main_call3.v2 main_call3.v3 (broadcastInDim S90000x64 ![] bcast_S_S90000x64),
    StableHlo.TRef.binary main_call3.v3 (.of main_v68) main_call3.v4 mulf,
    StableHlo.TRef.ternary main_call3.v1 (.of main_v68) main_call3.v4 main_call3.call0.v0 select,
    StableHlo.binary main_v60 main_v69 main_v70 (addf : (⟨S90000x64, .f32⟩ : BufTy).Contents (Elt F) → (⟨S90000x64, .f32⟩ : BufTy).Contents (Elt F) → (⟨S90000x64, .f32⟩ : BufTy).Contents (Elt F)),
    StableHlo.binary main_v70 main_v70 main_v71 (mulf : (⟨S90000x64, .f32⟩ : BufTy).Contents (Elt F) → (⟨S90000x64, .f32⟩ : BufTy).Contents (Elt F) → (⟨S90000x64, .f32⟩ : BufTy).Contents (Elt F)),
    StableHlo.nullary main_cst_10 (constant S_ .f32 0x00000000#32),
    StableHlo.binary main_v71 main_cst_10 main_v72 ((fun x v => Host.reduceAdd x v reducesTo_S90000x64_S90000_d1 h_S_) : (⟨S90000x64, .f32⟩ : BufTy).Contents (Elt F) → (⟨S_, .f32⟩ : BufTy).Contents (Elt F) → (⟨S90000, .f32⟩ : BufTy).Contents (Elt F)),
    StableHlo.unary main_v72 main_v73 (broadcastInDim S90000x1 ![0] bcast_S90000_S90000x1_0 : (⟨S90000, .f32⟩ : BufTy).Contents (Elt F) → (⟨S90000x1, .f32⟩ : BufTy).Contents (Elt F)),
    StableHlo.unary main_v73 main_v74 (Host.sqrt : (⟨S90000x1, .f32⟩ : BufTy).Contents (Elt F) → (⟨S90000x1, .f32⟩ : BufTy).Contents (Elt F)),
    StableHlo.nullary main_cst_11 (constant S_ .f32 0x2B8CBCCC#32),
    StableHlo.unary main_cst_11 main_v75 (broadcastInDim S90000x1 ![] bcast_S_S90000x1 : (⟨S_, .f32⟩ : BufTy).Contents (Elt F) → (⟨S90000x1, .f32⟩ : BufTy).Contents (Elt F)),
    StableHlo.binary main_v74 main_v75 main_v76 (maximumf : (⟨S90000x1, .f32⟩ : BufTy).Contents (Elt F) → (⟨S90000x1, .f32⟩ : BufTy).Contents (Elt F) → (⟨S90000x1, .f32⟩ : BufTy).Contents (Elt F)),
    StableHlo.unary main_v76 main_v77 (broadcastInDim S90000x64 ![0, 1] bcast_S90000x1_S90000x64_0_1 : (⟨S90000x1, .f32⟩ : BufTy).Contents (Elt F) → (⟨S90000x64, .f32⟩ : BufTy).Contents (Elt F)),
    StableHlo.binary main_v70 main_v77 main_v78 (Host.divf : (⟨S90000x64, .f32⟩ : BufTy).Contents (Elt F) → (⟨S90000x64, .f32⟩ : BufTy).Contents (Elt F) → (⟨S90000x64, .f32⟩ : BufTy).Contents (Elt F)),
    StableHlo.nullary main_c_12 (constantI S_ 32 0#32),
    StableHlo.unary main_c_12 main_v79 (broadcastInDim S2000000 ![] bcast_S_S2000000 : (⟨S_, .i32⟩ : BufTy).Contents (Elt F) → (⟨S2000000, .i32⟩ : BufTy).Contents (Elt F)),
    StableHlo.binary main_arg3 main_v79 main_v80 (cmpi .slt : (⟨S2000000, .i32⟩ : BufTy).Contents (Elt F) → (⟨S2000000, .i32⟩ : BufTy).Contents (Elt F) → (⟨S2000000, .i1⟩ : BufTy).Contents (Elt F)),
    StableHlo.nullary main_c_13 (constantI S_ 32 90000#32),
    StableHlo.unary main_c_13 main_v81 (broadcastInDim S2000000 ![] bcast_S_S2000000 : (⟨S_, .i32⟩ : BufTy).Contents (Elt F) → (⟨S2000000, .i32⟩ : BufTy).Contents (Elt F)),
    StableHlo.binary main_arg3 main_v81 main_v82 (addi : (⟨S2000000, .i32⟩ : BufTy).Contents (Elt F) → (⟨S2000000, .i32⟩ : BufTy).Contents (Elt F) → (⟨S2000000, .i32⟩ : BufTy).Contents (Elt F)),
    StableHlo.ternary main_v80 main_v82 main_arg3 main_v83 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v83 main_v84 (broadcastInDim S2000000x1 ![0] bcast_S2000000_S2000000x1_0 : (⟨S2000000, .i32⟩ : BufTy).Contents (Elt F) → (⟨S2000000x1, .i32⟩ : BufTy).Contents (Elt F)),
    StableHlo.binary main_v70 main_v84 main_v85 ((fun x i => Host.gather gather_S90000x64_S2000000x1_S2000000x64_1_0_n_n_0_1_164 x i) : (⟨S90000x64, .f32⟩ : BufTy).Contents (Elt F) → (⟨S2000000x1, .i32⟩ : BufTy).Contents (Elt F) → (⟨S2000000x64, .f32⟩ : BufTy).Contents (Elt F)),
    StableHlo.unary main_arg4 main_v86 (broadcastInDim S2000000x1 ![0] bcast_S2000000_S2000000x1_0 : (⟨S2000000, .f32⟩ : BufTy).Contents (Elt F) → (⟨S2000000x1, .f32⟩ : BufTy).Contents (Elt F)),
    StableHlo.unary main_v86 main_v87 (broadcastInDim S2000000x64 ![0, 1] bcast_S2000000x1_S2000000x64_0_1 : (⟨S2000000x1, .f32⟩ : BufTy).Contents (Elt F) → (⟨S2000000x64, .f32⟩ : BufTy).Contents (Elt F)),
    StableHlo.binary main_v85 main_v87 main_v88 (mulf : (⟨S2000000x64, .f32⟩ : BufTy).Contents (Elt F) → (⟨S2000000x64, .f32⟩ : BufTy).Contents (Elt F) → (⟨S2000000x64, .f32⟩ : BufTy).Contents (Elt F)),
    StableHlo.nullary main_cst_14 (constant S_ .f32 0x00000000#32),
    StableHlo.unary main_cst_14 main_v89 (broadcastInDim S90000x64 ![] bcast_S_S90000x64 : (⟨S_, .f32⟩ : BufTy).Contents (Elt F) → (⟨S90000x64, .f32⟩ : BufTy).Contents (Elt F)),
    StableHlo.unary main_arg2 main_v90 (broadcastInDim S2000000x1 ![0] bcast_S2000000_S2000000x1_0 : (⟨S2000000, .i32⟩ : BufTy).Contents (Elt F) → (⟨S2000000x1, .i32⟩ : BufTy).Contents (Elt F)),
    StableHlo.ternary main_v89 main_v90 main_v88 main_v91 ((fun x i u => Host.scatterAdd scatter_S90000x64_S2000000x1_S2000000x64_1_0_0_1 x i u) : (⟨S90000x64, .f32⟩ : BufTy).Contents (Elt F) → (⟨S2000000x1, .i32⟩ : BufTy).Contents (Elt F) → (⟨S2000000x64, .f32⟩ : BufTy).Contents (Elt F) → (⟨S90000x64, .f32⟩ : BufTy).Contents (Elt F)),
    StableHlo.unary main_arg5 main_v92 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v92 main_v93 rfl shapeCasts_S1x64x64_S64x64,
    StableHlo.binary main_v91 main_v93 main_v94 ((fun l r => Host.dotGeneral dot_S90000x64_S64x64_S90000x64_1_0_0_1_n_n none l r) : (⟨S90000x64, .f32⟩ : BufTy).Contents (Elt F) → (⟨S64x64, .f32⟩ : BufTy).Contents (Elt F) → (⟨S90000x64, .f32⟩ : BufTy).Contents (Elt F)),
    StableHlo.unary main_arg6 main_v95 ((extractStridedSlice S1x1x64 ![2, 0, 0] · slices_S3x1x64_S1x1x64_2_0_0) : (⟨S3x1x64, .f32⟩ : BufTy).Contents (Elt F) → (⟨S1x1x64, .f32⟩ : BufTy).Contents (Elt F)),
    StableHlo.reshape main_v95 main_v96 rfl shapeCasts_S1x1x64_S1x64,
    StableHlo.unary main_v96 main_v97 (broadcastInDim S90000x64 ![0, 1] bcast_S1x64_S90000x64_0_1 : (⟨S1x64, .f32⟩ : BufTy).Contents (Elt F) → (⟨S90000x64, .f32⟩ : BufTy).Contents (Elt F)),
    StableHlo.binary main_v94 main_v97 main_v98 (addf : (⟨S90000x64, .f32⟩ : BufTy).Contents (Elt F) → (⟨S90000x64, .f32⟩ : BufTy).Contents (Elt F) → (⟨S90000x64, .f32⟩ : BufTy).Contents (Elt F)),
    StableHlo.nullary main_cst_15 (constant S_ .f32 0x3E4CCCCD#32),
    StableHlo.TRef.nullary main_call4.cst (constant S_ .f32 0x00000000#32),
    StableHlo.TRef.unary main_call4.cst main_call4.v0 (broadcastInDim S90000x64 ![] bcast_S_S90000x64),
    StableHlo.TRef.binary (.of main_v98) main_call4.v0 main_call4.v1 (cmpf .oge),
    StableHlo.TRef.unary (.of main_cst_15) main_call4.v2 id,
    StableHlo.TRef.unary main_call4.v2 main_call4.v3 (broadcastInDim S90000x64 ![] bcast_S_S90000x64),
    StableHlo.TRef.binary main_call4.v3 (.of main_v98) main_call4.v4 mulf,
    StableHlo.TRef.ternary main_call4.v1 (.of main_v98) main_call4.v4 main_call4.call0.v0 select,
    StableHlo.binary main_v70 main_v91 main_v100 (mulf : (⟨S90000x64, .f32⟩ : BufTy).Contents (Elt F) → (⟨S90000x64, .f32⟩ : BufTy).Contents (Elt F) → (⟨S90000x64, .f32⟩ : BufTy).Contents (Elt F)),
    StableHlo.unary main_arg7 main_v101 ((extractStridedSlice S1x64x64 ![2, 0, 0] · slices_S3x64x64_S1x64x64_2_0_0) : (⟨S3x64x64, .f32⟩ : BufTy).Contents (Elt F) → (⟨S1x64x64, .f32⟩ : BufTy).Contents (Elt F)) ]

/-- The operations of @main's window 2. -/
abbrev win2 : List (HloOp τ sig (Elt F)) :=
  [ StableHlo.reshape main_v101 main_v102 rfl shapeCasts_S1x64x64_S64x64,
    StableHlo.binary main_v100 main_v102 main_v103 ((fun l r => Host.dotGeneral dot_S90000x64_S64x64_S90000x64_1_0_0_1_n_n none l r) : (⟨S90000x64, .f32⟩ : BufTy).Contents (Elt F) → (⟨S64x64, .f32⟩ : BufTy).Contents (Elt F) → (⟨S90000x64, .f32⟩ : BufTy).Contents (Elt F)),
    StableHlo.unary main_arg8 main_v104 ((extractStridedSlice S1x1x64 ![2, 0, 0] · slices_S3x1x64_S1x1x64_2_0_0) : (⟨S3x1x64, .f32⟩ : BufTy).Contents (Elt F) → (⟨S1x1x64, .f32⟩ : BufTy).Contents (Elt F)),
    StableHlo.reshape main_v104 main_v105 rfl shapeCasts_S1x1x64_S1x64,
    StableHlo.unary main_v105 main_v106 (broadcastInDim S90000x64 ![0, 1] bcast_S1x64_S90000x64_0_1 : (⟨S1x64, .f32⟩ : BufTy).Contents (Elt F) → (⟨S90000x64, .f32⟩ : BufTy).Contents (Elt F)),
    StableHlo.binary main_v103 main_v106 main_v107 (addf : (⟨S90000x64, .f32⟩ : BufTy).Contents (Elt F) → (⟨S90000x64, .f32⟩ : BufTy).Contents (Elt F) → (⟨S90000x64, .f32⟩ : BufTy).Contents (Elt F)),
    StableHlo.nullary main_cst_16 (constant S_ .f32 0x3E4CCCCD#32),
    StableHlo.TRef.nullary main_call5.cst (constant S_ .f32 0x00000000#32),
    StableHlo.TRef.unary main_call5.cst main_call5.v0 (broadcastInDim S90000x64 ![] bcast_S_S90000x64),
    StableHlo.TRef.binary (.of main_v107) main_call5.v0 main_call5.v1 (cmpf .oge),
    StableHlo.TRef.unary (.of main_cst_16) main_call5.v2 id,
    StableHlo.TRef.unary main_call5.v2 main_call5.v3 (broadcastInDim S90000x64 ![] bcast_S_S90000x64),
    StableHlo.TRef.binary main_call5.v3 (.of main_v107) main_call5.v4 mulf,
    StableHlo.TRef.ternary main_call5.v1 (.of main_v107) main_call5.v4 main_call5.call0.v0 select,
    StableHlo.binary main_v99 main_v108 main_v109 (addf : (⟨S90000x64, .f32⟩ : BufTy).Contents (Elt F) → (⟨S90000x64, .f32⟩ : BufTy).Contents (Elt F) → (⟨S90000x64, .f32⟩ : BufTy).Contents (Elt F)),
    StableHlo.binary main_v109 main_v109 main_v110 (mulf : (⟨S90000x64, .f32⟩ : BufTy).Contents (Elt F) → (⟨S90000x64, .f32⟩ : BufTy).Contents (Elt F) → (⟨S90000x64, .f32⟩ : BufTy).Contents (Elt F)),
    StableHlo.nullary main_cst_17 (constant S_ .f32 0x00000000#32),
    StableHlo.binary main_v110 main_cst_17 main_v111 ((fun x v => Host.reduceAdd x v reducesTo_S90000x64_S90000_d1 h_S_) : (⟨S90000x64, .f32⟩ : BufTy).Contents (Elt F) → (⟨S_, .f32⟩ : BufTy).Contents (Elt F) → (⟨S90000, .f32⟩ : BufTy).Contents (Elt F)),
    StableHlo.unary main_v111 main_v112 (broadcastInDim S90000x1 ![0] bcast_S90000_S90000x1_0 : (⟨S90000, .f32⟩ : BufTy).Contents (Elt F) → (⟨S90000x1, .f32⟩ : BufTy).Contents (Elt F)),
    StableHlo.unary main_v112 main_v113 (Host.sqrt : (⟨S90000x1, .f32⟩ : BufTy).Contents (Elt F) → (⟨S90000x1, .f32⟩ : BufTy).Contents (Elt F)),
    StableHlo.nullary main_cst_18 (constant S_ .f32 0x2B8CBCCC#32),
    StableHlo.unary main_cst_18 main_v114 (broadcastInDim S90000x1 ![] bcast_S_S90000x1 : (⟨S_, .f32⟩ : BufTy).Contents (Elt F) → (⟨S90000x1, .f32⟩ : BufTy).Contents (Elt F)),
    StableHlo.binary main_v113 main_v114 main_v115 (maximumf : (⟨S90000x1, .f32⟩ : BufTy).Contents (Elt F) → (⟨S90000x1, .f32⟩ : BufTy).Contents (Elt F) → (⟨S90000x1, .f32⟩ : BufTy).Contents (Elt F)),
    StableHlo.unary main_v115 main_v116 (broadcastInDim S90000x64 ![0, 1] bcast_S90000x1_S90000x64_0_1 : (⟨S90000x1, .f32⟩ : BufTy).Contents (Elt F) → (⟨S90000x64, .f32⟩ : BufTy).Contents (Elt F)),
    StableHlo.binary main_v109 main_v116 main_v117 (Host.divf : (⟨S90000x64, .f32⟩ : BufTy).Contents (Elt F) → (⟨S90000x64, .f32⟩ : BufTy).Contents (Elt F) → (⟨S90000x64, .f32⟩ : BufTy).Contents (Elt F)),
    StableHlo.nary ![main_v0, main_v39, main_v78, main_v117] main_v118 (fun u => concatenate S90000x256 1 [⟨S90000x64, u 0⟩, ⟨S90000x64, u 1⟩, ⟨S90000x64, u 2⟩, ⟨S90000x64, u 3⟩] concatenates_S90000x64_S90000x64_S90000x64_S90000x64_S90000x256_d1),
    StableHlo.unary main_v118 main_v119 ((extractStridedSlice S30000x256 ![0, 0] · slices_S90000x256_S30000x256_0_0) : (⟨S90000x256, .f32⟩ : BufTy).Contents (Elt F) → (⟨S30000x256, .f32⟩ : BufTy).Contents (Elt F)),
    StableHlo.unary main_v118 main_v120 ((extractStridedSlice S60000x256 ![30000, 0] · slices_S90000x256_S60000x256_30000_0) : (⟨S90000x256, .f32⟩ : BufTy).Contents (Elt F) → (⟨S60000x256, .f32⟩ : BufTy).Contents (Elt F)) ]

theorem ops_eq : (ops : List (HloOp τ sig (Elt F))) = win0 ++ (win1 ++ win2) := rfl

set_option maxHeartbeats 8000000 in
theorem win0_eq (c : Dev nD) : main_part0 (F := F) c = seq win0 := rfl

set_option maxHeartbeats 8000000 in
theorem win1_eq (c : Dev nD) : main_part1 (F := F) c = seq win1 := rfl

set_option maxHeartbeats 8000000 in
theorem win2_eq (c : Dev nD) : main_part2 (F := F) c = seq win2 := rfl

/-- @main is the sequencing of its operations: window by window, then the windows' lists appended. -/
theorem main_eq (c : Dev nD) : main (F := F) c = seq ops := by
  rw [ops_eq, seq_append, seq_append, ← win0_eq c, ← win1_eq c, ← win2_eq c]
  rfl

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  binary_bufs_sub ..
theorem opsS1_sub : (opsS1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩
theorem opsG1_sub : (opsG1 : List (HloOp τ sig (Elt F))).Forall fun op => op.bufs ⊆ tcRefs τ sig :=
  ⟨unary_bufs_sub .., reshape_bufs_sub .., binary_bufs_sub .., unary_bufs_sub .., reshape_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩
theorem opsB1_sub : (opsB1 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩
theorem opsN1_sub : (opsN1 : List (HloOp τ sig (Elt F))).Forall fun op => op.bufs ⊆ tcRefs τ sig :=
  ⟨binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩
theorem opsS2_sub : (opsS2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩
theorem opsG2_sub : (opsG2 : List (HloOp τ sig (Elt F))).Forall fun op => op.bufs ⊆ tcRefs τ sig :=
  ⟨unary_bufs_sub .., reshape_bufs_sub .., binary_bufs_sub .., unary_bufs_sub .., reshape_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩
theorem opsB2_sub : (opsB2 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩
theorem opsN2_sub : (opsN2 : List (HloOp τ sig (Elt F))).Forall fun op => op.bufs ⊆ tcRefs τ sig :=
  ⟨binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩
theorem opsS3_sub : (opsS3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩
theorem opsG3_sub : (opsG3 : List (HloOp τ sig (Elt F))).Forall fun op => op.bufs ⊆ tcRefs τ sig :=
  ⟨unary_bufs_sub .., reshape_bufs_sub .., binary_bufs_sub .., unary_bufs_sub .., reshape_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩
theorem opsB3_sub : (opsB3 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩
theorem opsN3_sub : (opsN3 : List (HloOp τ sig (Elt F))).Forall fun op => op.bufs ⊆ tcRefs τ sig :=
  ⟨binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩
theorem opsZ_sub : (opsZ : List (HloOp τ sig (Elt F))).Forall fun op => op.bufs ⊆ tcRefs τ sig :=
  ⟨nary_bufs_sub .., unary_bufs_sub .., unary_bufs_sub ..⟩

theorem ops_sub : (ops : List (HloOp τ sig (Elt F))).Forall fun op => op.bufs ⊆ tcRefs τ sig :=
  List.forall_append.mpr ⟨List.forall_append.mpr ⟨List.forall_append.mpr ⟨List.forall_append.mpr ⟨List.forall_append.mpr ⟨List.forall_append.mpr ⟨List.forall_append.mpr ⟨List.forall_append.mpr ⟨List.forall_append.mpr ⟨List.forall_append.mpr ⟨List.forall_append.mpr ⟨List.forall_append.mpr ⟨List.forall_append.mpr ⟨opsA_sub, opsS1_sub⟩, opsG1_sub⟩, opsB1_sub⟩, opsN1_sub⟩, opsS2_sub⟩, opsG2_sub⟩, opsB2_sub⟩, opsN2_sub⟩, opsS3_sub⟩, opsG3_sub⟩, opsB3_sub⟩, opsN3_sub⟩, opsZ_sub⟩

theorem opsA_fresh : (opsA : List (HloOp τ sig (Elt F))).Forall fun op => op.fresh = ∅ :=
  rfl
theorem opsS1_fresh : (opsS1 : List (HloOp τ sig (Elt F))).Forall fun op => op.fresh = ∅ :=
  ⟨rfl, rfl, rfl, rfl, rfl, rfl, rfl, rfl, rfl, rfl, rfl, rfl, rfl, rfl, rfl, rfl⟩
theorem opsG1_fresh : (opsG1 : List (HloOp τ sig (Elt F))).Forall fun op => op.fresh = ∅ :=
  ⟨rfl, rfl, rfl, rfl, rfl, rfl, rfl, rfl, rfl, rfl, rfl, rfl, rfl, rfl, rfl⟩
theorem opsB1_fresh : (opsB1 : List (HloOp τ sig (Elt F))).Forall fun op => op.fresh = ∅ :=
  ⟨rfl, rfl, rfl, rfl, rfl, rfl, rfl, rfl, rfl, rfl, rfl, rfl, rfl, rfl, rfl, rfl⟩
theorem opsN1_fresh : (opsN1 : List (HloOp τ sig (Elt F))).Forall fun op => op.fresh = ∅ :=
  ⟨rfl, rfl, rfl, rfl, rfl, rfl, rfl, rfl, rfl, rfl, rfl⟩
theorem opsS2_fresh : (opsS2 : List (HloOp τ sig (Elt F))).Forall fun op => op.fresh = ∅ :=
  ⟨rfl, rfl, rfl, rfl, rfl, rfl, rfl, rfl, rfl, rfl, rfl, rfl, rfl, rfl, rfl, rfl⟩
theorem opsG2_fresh : (opsG2 : List (HloOp τ sig (Elt F))).Forall fun op => op.fresh = ∅ :=
  ⟨rfl, rfl, rfl, rfl, rfl, rfl, rfl, rfl, rfl, rfl, rfl, rfl, rfl, rfl, rfl⟩
theorem opsB2_fresh : (opsB2 : List (HloOp τ sig (Elt F))).Forall fun op => op.fresh = ∅ :=
  ⟨rfl, rfl, rfl, rfl, rfl, rfl, rfl, rfl, rfl, rfl, rfl, rfl, rfl, rfl, rfl, rfl⟩
theorem opsN2_fresh : (opsN2 : List (HloOp τ sig (Elt F))).Forall fun op => op.fresh = ∅ :=
  ⟨rfl, rfl, rfl, rfl, rfl, rfl, rfl, rfl, rfl, rfl, rfl⟩
theorem opsS3_fresh : (opsS3 : List (HloOp τ sig (Elt F))).Forall fun op => op.fresh = ∅ :=
  ⟨rfl, rfl, rfl, rfl, rfl, rfl, rfl, rfl, rfl, rfl, rfl, rfl, rfl, rfl, rfl, rfl⟩
theorem opsG3_fresh : (opsG3 : List (HloOp τ sig (Elt F))).Forall fun op => op.fresh = ∅ :=
  ⟨rfl, rfl, rfl, rfl, rfl, rfl, rfl, rfl, rfl, rfl, rfl, rfl, rfl, rfl, rfl⟩
theorem opsB3_fresh : (opsB3 : List (HloOp τ sig (Elt F))).Forall fun op => op.fresh = ∅ :=
  ⟨rfl, rfl, rfl, rfl, rfl, rfl, rfl, rfl, rfl, rfl, rfl, rfl, rfl, rfl, rfl, rfl⟩
theorem opsN3_fresh : (opsN3 : List (HloOp τ sig (Elt F))).Forall fun op => op.fresh = ∅ :=
  ⟨rfl, rfl, rfl, rfl, rfl, rfl, rfl, rfl, rfl, rfl, rfl⟩
theorem opsZ_fresh : (opsZ : List (HloOp τ sig (Elt F))).Forall fun op => op.fresh = ∅ :=
  ⟨rfl, rfl, rfl⟩

theorem ops_fresh : ∀ op ∈ (ops : List (HloOp τ sig (Elt F))), op.fresh = ∅ :=
  List.forall_iff_forall_mem.1 (List.forall_append.mpr ⟨List.forall_append.mpr ⟨List.forall_append.mpr ⟨List.forall_append.mpr ⟨List.forall_append.mpr ⟨List.forall_append.mpr ⟨List.forall_append.mpr ⟨List.forall_append.mpr ⟨List.forall_append.mpr ⟨List.forall_append.mpr ⟨List.forall_append.mpr ⟨List.forall_append.mpr ⟨List.forall_append.mpr ⟨opsA_fresh, opsS1_fresh⟩, opsG1_fresh⟩, opsB1_fresh⟩, opsN1_fresh⟩, opsS2_fresh⟩, opsG2_fresh⟩, opsB2_fresh⟩, opsN2_fresh⟩, opsS3_fresh⟩, opsG3_fresh⟩, opsB3_fresh⟩, opsN3_fresh⟩, opsZ_fresh⟩)

/-- From any memory with zero counters every weakly fair execution of @main terminates, and every
    final state has each device buffer at the fold of the operations over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.RefRun

end
-- ==== Proof.RefValue.lean ====
import proofs.«171972_j54984171323492_1_alg».proof.Proof.Spec
import proofs.«171972_j54984171323492_1_alg».proof.Proof.RefRun
import Idealize.ShloMosaic.Lib.Pipeline.Frame

/-!
# What the reference computes

The run of the reference leaves every buffer at the fold of its operations over the launch
contents.  Here that fold is read at the two results.  The operations come in fourteen consecutive
pieces; for each piece, and for ARBITRARY contents before it, the buffer(s) the later pieces read
are computed as a whole-array term of the contents the piece itself reads, and every buffer the
piece does not write is unchanged.  Chaining the pieces — the contents after piece j being the
fold of piece j over the contents after piece j-1 — gives each live buffer, piece by piece, as a
term of the nine arguments: the row-concatenated table, each layer's side array, its two
rectified affine branches, their sum e₁, e₂, e₃ and the row-normalised sums; at the end the two
results are the row slices of the column-concatenation [e₀, normed e₁, normed e₂, normed e₃], and
the nine arguments are what they were.
-/

noncomputable section

namespace Cert.ReferenceIdeal.RefValue

open Cert.ReferenceIdeal Cert.ReferenceIdeal.RefRun Idealize.ShloMosaic Idealize.ShloMosaic.TcCoe Idealize.SL.Sem Idealize.ShloMosaic.StableHlo

variable {F : FTy → Type} [FloatOps F] [Facts]
open Facts₀ Facts

/-! ## Each piece from arbitrary contents: the buffers later pieces read -/

attribute [local irreducible] Host.scatterAdd Host.gather Host.reduceAdd in
theorem valA (V : Valuation τ sig (Elt F)) :
    after opsA V (main_v0 : DevRef τ sig) = Spec.ego0 (V (main_arg0 : DevRef τ sig)) (V (main_arg1 : DevRef τ sig)) := by
  after_results_simp
  rfl

attribute [local irreducible] Host.scatterAdd Host.gather Host.reduceAdd in
theorem valS1 (V : Valuation τ sig (Elt F)) :
    after opsS1 V (main_v13 : DevRef τ sig) = Spec.side (V (main_v0 : DevRef τ sig)) (V (main_arg2 : DevRef τ sig)) (V (main_arg3 : DevRef τ sig)) (V (main_arg4 : DevRef τ sig)) := by
  after_results_simp
  rfl

attribute [local irreducible] Host.scatterAdd Host.gather Host.reduceAdd in
theorem valG1 (V : Valuation τ sig (Elt F)) :
    after opsG1 V (main_v21 : DevRef τ sig) = Spec.lrelu (constant S_ .f32 0x3E4CCCCD#32) (Spec.affine (V (main_v13 : DevRef τ sig)) (Spec.wAt0 (V (main_arg5 : DevRef τ sig))) (Spec.bAt0 (V (main_arg6 : DevRef τ sig)))) := by
  after_results_simp
  rfl

attribute [local irreducible] Host.scatterAdd Host.gather Host.reduceAdd in
theorem valB1 (V : Valuation τ sig (Elt F)) :
    after opsB1 V (main_v30 : DevRef τ sig) = Spec.lrelu (constant S_ .f32 0x3E4CCCCD#32) (Spec.affine (mulf (V (main_v0 : DevRef τ sig)) (V (main_v13 : DevRef τ sig))) (Spec.wAt0 (V (main_arg7 : DevRef τ sig))) (Spec.bAt0 (V (main_arg8 : DevRef τ sig)))) := by
  after_results_simp
  rfl

attribute [local irreducible] Host.scatterAdd Host.gather Host.reduceAdd in
theorem valN1e (V : Valuation τ sig (Elt F)) :
    after opsN1 V (main_v31 : DevRef τ sig) = addf (V (main_v21 : DevRef τ sig)) (V (main_v30 : DevRef τ sig)) := by
  after_results_simp

attribute [local irreducible] Host.scatterAdd Host.gather Host.reduceAdd in
theorem valN1n (V : Valuation τ sig (Elt F)) :
    after opsN1 V (main_v39 : DevRef τ sig) = Spec.normed (addf (V (main_v21 : DevRef τ sig)) (V (main_v30 : DevRef τ sig))) := by
  after_results_simp
  rfl

attribute [local irreducible] Host.scatterAdd Host.gather Host.reduceAdd in
theorem valS2 (V : Valuation τ sig (Elt F)) :
    after opsS2 V (main_v52 : DevRef τ sig) = Spec.side (V (main_v31 : DevRef τ sig)) (V (main_arg2 : DevRef τ sig)) (V (main_arg3 : DevRef τ sig)) (V (main_arg4 : DevRef τ sig)) := by
  after_results_simp
  rfl

attribute [local irreducible] Host.scatterAdd Host.gather Host.reduceAdd in
theorem valG2 (V : Valuation τ sig (Elt F)) :
    after opsG2 V (main_v60 : DevRef τ sig) = Spec.lrelu (constant S_ .f32 0x3E4CCCCD#32) (Spec.affine (V (main_v52 : DevRef τ sig)) (Spec.wAt1 (V (main_arg5 : DevRef τ sig))) (Spec.bAt1 (V (main_arg6 : DevRef τ sig)))) := by
  after_results_simp
  rfl

attribute [local irreducible] Host.scatterAdd Host.gather Host.reduceAdd in
theorem valB2 (V : Valuation τ sig (Elt F)) :
    after opsB2 V (main_v69 : DevRef τ sig) = Spec.lrelu (constant S_ .f32 0x3E4CCCCD#32) (Spec.affine (mulf (V (main_v31 : DevRef τ sig)) (V (main_v52 : DevRef τ sig))) (Spec.wAt1 (V (main_arg7 : DevRef τ sig))) (Spec.bAt1 (V (main_arg8 : DevRef τ sig)))) := by
  after_results_simp
  rfl

attribute [local irreducible] Host.scatterAdd Host.gather Host.reduceAdd in
theorem valN2e (V : Valuation τ sig (Elt F)) :
    after opsN2 V (main_v70 : DevRef τ sig) = addf (V (main_v60 : DevRef τ sig)) (V (main_v69 : DevRef τ sig)) := by
  after_results_simp

attribute [local irreducible] Host.scatterAdd Host.gather Host.reduceAdd in
theorem valN2n (V : Valuation τ sig (Elt F)) :
    after opsN2 V (main_v78 : DevRef τ sig) = Spec.normed (addf (V (main_v60 : DevRef τ sig)) (V (main_v69 : DevRef τ sig))) := by
  after_results_simp
  rfl

attribute [local irreducible] Host.scatterAdd Host.gather Host.reduceAdd in
theorem valS3 (V : Valuation τ sig (Elt F)) :
    after opsS3 V (main_v91 : DevRef τ sig) = Spec.side (V (main_v70 : DevRef τ sig)) (V (main_arg2 : DevRef τ sig)) (V (main_arg3 : DevRef τ sig)) (V (main_arg4 : DevRef τ sig)) := by
  after_results_simp
  rfl

attribute [local irreducible] Host.scatterAdd Host.gather Host.reduceAdd in
theorem valG3 (V : Valuation τ sig (Elt F)) :
    after opsG3 V (main_v99 : DevRef τ sig) = Spec.lrelu (constant S_ .f32 0x3E4CCCCD#32) (Spec.affine (V (main_v91 : DevRef τ sig)) (Spec.wAt2 (V (main_arg5 : DevRef τ sig))) (Spec.bAt2 (V (main_arg6 : DevRef τ sig)))) := by
  after_results_simp
  rfl

attribute [local irreducible] Host.scatterAdd Host.gather Host.reduceAdd in
theorem valB3 (V : Valuation τ sig (Elt F)) :
    after opsB3 V (main_v108 : DevRef τ sig) = Spec.lrelu (constant S_ .f32 0x3E4CCCCD#32) (Spec.affine (mulf (V (main_v70 : DevRef τ sig)) (V (main_v91 : DevRef τ sig))) (Spec.wAt2 (V (main_arg7 : DevRef τ sig))) (Spec.bAt2 (V (main_arg8 : DevRef τ sig)))) := by
  after_results_simp
  rfl

attribute [local irreducible] Host.scatterAdd Host.gather Host.reduceAdd in
theorem valN3e (V : Valuation τ sig (Elt F)) :
    after opsN3 V (main_v109 : DevRef τ sig) = addf (V (main_v99 : DevRef τ sig)) (V (main_v108 : DevRef τ sig)) := by
  after_results_simp

attribute [local irreducible] Host.scatterAdd Host.gather Host.reduceAdd in
theorem valN3n (V : Valuation τ sig (Elt F)) :
    after opsN3 V (main_v117 : DevRef τ sig) = Spec.normed (addf (V (main_v99 : DevRef τ sig)) (V (main_v108 : DevRef τ sig))) := by
  after_results_simp
  rfl

attribute [local irreducible] Host.scatterAdd Host.gather Host.reduceAdd in
theorem valZu (V : Valuation τ sig (Elt F)) :
    after opsZ V (main_v119 : DevRef τ sig) = Spec.users (Spec.allEmb (V (main_v0 : DevRef τ sig)) (V (main_v39 : DevRef τ sig)) (V (main_v78 : DevRef τ sig)) (V (main_v117 : DevRef τ sig))) := by
  after_results_simp
  rfl

attribute [local irreducible] Host.scatterAdd Host.gather Host.reduceAdd in
theorem valZi (V : Valuation τ sig (Elt F)) :
    after opsZ V (main_v120 : DevRef τ sig) = Spec.items (Spec.allEmb (V (main_v0 : DevRef τ sig)) (V (main_v39 : DevRef τ sig)) (V (main_v78 : DevRef τ sig)) (V (main_v117 : DevRef τ sig))) := by
  after_results_simp
  rfl

/-! ## Each piece from arbitrary contents: what it does not write it leaves -/

/-- An operation whose one written buffer is in a list writes within that list. -/
theorem writes_sub_of_mem {op : HloOp τ sig (Elt F)} (y : Ref sig .tc) {W : List (Ref sig .tc)}
    (hw : op.writes = {Proc.devRef .tc y}) (hy : y ∈ W) :
    op.writes ⊆ (W.map (Proc.devRef (τ := τ) .tc)).toFinset := by
  rw [hw, Finset.singleton_subset_iff, List.mem_toFinset]
  exact List.mem_map.mpr ⟨y, hy, rfl⟩

/-- The buffers piece A writes. -/
abbrev WA : List (Ref sig .tc) := [main_v0]
theorem opsA_writes : (opsA : List (HloOp τ sig (Elt F))).Forall fun op => op.writes ⊆ (WA.map (Proc.devRef (τ := τ) .tc)).toFinset :=
  writes_sub_of_mem main_v0 rfl (by decide)
theorem frameA (V : Valuation τ sig (Elt F)) {r : Ref sig .tc} (hr : r ∉ WA) :
    after opsA V (r : DevRef τ sig) = V (r : DevRef τ sig) :=
  after_of_writes_sub opsA V opsA_writes hr

/-- The buffers piece S1 writes. -/
abbrev WS1 : List (Ref sig .tc) := [main_c, main_v1, main_v2, main_c_0, main_v3, main_v4, main_v5, main_v6, main_v7, main_v8, main_v9, main_v10, main_cst, main_v11, main_v12, main_v13]
theorem opsS1_writes : (opsS1 : List (HloOp τ sig (Elt F))).Forall fun op => op.writes ⊆ (WS1.map (Proc.devRef (τ := τ) .tc)).toFinset :=
  ⟨writes_sub_of_mem main_c rfl (by decide),
   writes_sub_of_mem main_v1 rfl (by decide),
   writes_sub_of_mem main_v2 rfl (by decide),
   writes_sub_of_mem main_c_0 rfl (by decide),
   writes_sub_of_mem main_v3 rfl (by decide),
   writes_sub_of_mem main_v4 rfl (by decide),
   writes_sub_of_mem main_v5 rfl (by decide),
   writes_sub_of_mem main_v6 rfl (by decide),
   writes_sub_of_mem main_v7 rfl (by decide),
   writes_sub_of_mem main_v8 rfl (by decide),
   writes_sub_of_mem main_v9 rfl (by decide),
   writes_sub_of_mem main_v10 rfl (by decide),
   writes_sub_of_mem main_cst rfl (by decide),
   writes_sub_of_mem main_v11 rfl (by decide),
   writes_sub_of_mem main_v12 rfl (by decide),
   writes_sub_of_mem main_v13 rfl (by decide)⟩
theorem frameS1 (V : Valuation τ sig (Elt F)) {r : Ref sig .tc} (hr : r ∉ WS1) :
    after opsS1 V (r : DevRef τ sig) = V (r : DevRef τ sig) :=
  after_of_writes_sub opsS1 V opsS1_writes hr

/-- The buffers piece G1 writes. -/
abbrev WG1 : List (Ref sig .tc) := [main_v14, main_v15, main_v16, main_v17, main_v18, main_v19, main_v20, main_cst_1, main_call0_cst, main_call0_v0, main_call0_v1, main_call0_v2, main_call0_v3, main_call0_v4, main_v21]
theorem opsG1_writes : (opsG1 : List (HloOp τ sig (Elt F))).Forall fun op => op.writes ⊆ (WG1.map (Proc.devRef (τ := τ) .tc)).toFinset :=
  ⟨writes_sub_of_mem main_v14 rfl (by decide),
   writes_sub_of_mem main_v15 rfl (by decide),
   writes_sub_of_mem main_v16 rfl (by decide),
   writes_sub_of_mem main_v17 rfl (by decide),
   writes_sub_of_mem main_v18 rfl (by decide),
   writes_sub_of_mem main_v19 rfl (by decide),
   writes_sub_of_mem main_v20 rfl (by decide),
   writes_sub_of_mem main_cst_1 rfl (by decide),
   writes_sub_of_mem main_call0_cst rfl (by decide),
   writes_sub_of_mem main_call0_v0 rfl (by decide),
   writes_sub_of_mem main_call0_v1 rfl (by decide),
   writes_sub_of_mem main_call0_v2 rfl (by decide),
   writes_sub_of_mem main_call0_v3 rfl (by decide),
   writes_sub_of_mem main_call0_v4 rfl (by decide),
   writes_sub_of_mem main_v21 rfl (by decide)⟩
theorem frameG1 (V : Valuation τ sig (Elt F)) {r : Ref sig .tc} (hr : r ∉ WG1) :
    after opsG1 V (r : DevRef τ sig) = V (r : DevRef τ sig) :=
  after_of_writes_sub opsG1 V opsG1_writes hr

/-- The buffers piece B1 writes. -/
abbrev WB1 : List (Ref sig .tc) := [main_v22, main_v23, main_v24, main_v25, main_v26, main_v27, main_v28, main_v29, main_cst_2, main_call1_cst, main_call1_v0, main_call1_v1, main_call1_v2, main_call1_v3, main_call1_v4, main_v30]
theorem opsB1_writes : (opsB1 : List (HloOp τ sig (Elt F))).Forall fun op => op.writes ⊆ (WB1.map (Proc.devRef (τ := τ) .tc)).toFinset :=
  ⟨writes_sub_of_mem main_v22 rfl (by decide),
   writes_sub_of_mem main_v23 rfl (by decide),
   writes_sub_of_mem main_v24 rfl (by decide),
   writes_sub_of_mem main_v25 rfl (by decide),
   writes_sub_of_mem main_v26 rfl (by decide),
   writes_sub_of_mem main_v27 rfl (by decide),
   writes_sub_of_mem main_v28 rfl (by decide),
   writes_sub_of_mem main_v29 rfl (by decide),
   writes_sub_of_mem main_cst_2 rfl (by decide),
   writes_sub_of_mem main_call1_cst rfl (by decide),
   writes_sub_of_mem main_call1_v0 rfl (by decide),
   writes_sub_of_mem main_call1_v1 rfl (by decide),
   writes_sub_of_mem main_call1_v2 rfl (by decide),
   writes_sub_of_mem main_call1_v3 rfl (by decide),
   writes_sub_of_mem main_call1_v4 rfl (by decide),
   writes_sub_of_mem main_v30 rfl (by decide)⟩
theorem frameB1 (V : Valuation τ sig (Elt F)) {r : Ref sig .tc} (hr : r ∉ WB1) :
    after opsB1 V (r : DevRef τ sig) = V (r : DevRef τ sig) :=
  after_of_writes_sub opsB1 V opsB1_writes hr

/-- The buffers piece N1 writes. -/
abbrev WN1 : List (Ref sig .tc) := [main_v31, main_v32, main_cst_3, main_v33, main_v34, main_v35, main_cst_4, main_v36, main_v37, main_v38, main_v39]
theorem opsN1_writes : (opsN1 : List (HloOp τ sig (Elt F))).Forall fun op => op.writes ⊆ (WN1.map (Proc.devRef (τ := τ) .tc)).toFinset :=
  ⟨writes_sub_of_mem main_v31 rfl (by decide),
   writes_sub_of_mem main_v32 rfl (by decide),
   writes_sub_of_mem main_cst_3 rfl (by decide),
   writes_sub_of_mem main_v33 rfl (by decide),
   writes_sub_of_mem main_v34 rfl (by decide),
   writes_sub_of_mem main_v35 rfl (by decide),
   writes_sub_of_mem main_cst_4 rfl (by decide),
   writes_sub_of_mem main_v36 rfl (by decide),
   writes_sub_of_mem main_v37 rfl (by decide),
   writes_sub_of_mem main_v38 rfl (by decide),
   writes_sub_of_mem main_v39 rfl (by decide)⟩
theorem frameN1 (V : Valuation τ sig (Elt F)) {r : Ref sig .tc} (hr : r ∉ WN1) :
    after opsN1 V (r : DevRef τ sig) = V (r : DevRef τ sig) :=
  after_of_writes_sub opsN1 V opsN1_writes hr

/-- The buffers piece S2 writes. -/
abbrev WS2 : List (Ref sig .tc) := [main_c_5, main_v40, main_v41, main_c_6, main_v42, main_v43, main_v44, main_v45, main_v46, main_v47, main_v48, main_v49, main_cst_7, main_v50, main_v51, main_v52]
theorem opsS2_writes : (opsS2 : List (HloOp τ sig (Elt F))).Forall fun op => op.writes ⊆ (WS2.map (Proc.devRef (τ := τ) .tc)).toFinset :=
  ⟨writes_sub_of_mem main_c_5 rfl (by decide),
   writes_sub_of_mem main_v40 rfl (by decide),
   writes_sub_of_mem main_v41 rfl (by decide),
   writes_sub_of_mem main_c_6 rfl (by decide),
   writes_sub_of_mem main_v42 rfl (by decide),
   writes_sub_of_mem main_v43 rfl (by decide),
   writes_sub_of_mem main_v44 rfl (by decide),
   writes_sub_of_mem main_v45 rfl (by decide),
   writes_sub_of_mem main_v46 rfl (by decide),
   writes_sub_of_mem main_v47 rfl (by decide),
   writes_sub_of_mem main_v48 rfl (by decide),
   writes_sub_of_mem main_v49 rfl (by decide),
   writes_sub_of_mem main_cst_7 rfl (by decide),
   writes_sub_of_mem main_v50 rfl (by decide),
   writes_sub_of_mem main_v51 rfl (by decide),
   writes_sub_of_mem main_v52 rfl (by decide)⟩
theorem frameS2 (V : Valuation τ sig (Elt F)) {r : Ref sig .tc} (hr : r ∉ WS2) :
    after opsS2 V (r : DevRef τ sig) = V (r : DevRef τ sig) :=
  after_of_writes_sub opsS2 V opsS2_writes hr

/-- The buffers piece G2 writes. -/
abbrev WG2 : List (Ref sig .tc) := [main_v53, main_v54, main_v55, main_v56, main_v57, main_v58, main_v59, main_cst_8, main_call2_cst, main_call2_v0, main_call2_v1, main_call2_v2, main_call2_v3, main_call2_v4, main_v60]
theorem opsG2_writes : (opsG2 : List (HloOp τ sig (Elt F))).Forall fun op => op.writes ⊆ (WG2.map (Proc.devRef (τ := τ) .tc)).toFinset :=
  ⟨writes_sub_of_mem main_v53 rfl (by decide),
   writes_sub_of_mem main_v54 rfl (by decide),
   writes_sub_of_mem main_v55 rfl (by decide),
   writes_sub_of_mem main_v56 rfl (by decide),
   writes_sub_of_mem main_v57 rfl (by decide),
   writes_sub_of_mem main_v58 rfl (by decide),
   writes_sub_of_mem main_v59 rfl (by decide),
   writes_sub_of_mem main_cst_8 rfl (by decide),
   writes_sub_of_mem main_call2_cst rfl (by decide),
   writes_sub_of_mem main_call2_v0 rfl (by decide),
   writes_sub_of_mem main_call2_v1 rfl (by decide),
   writes_sub_of_mem main_call2_v2 rfl (by decide),
   writes_sub_of_mem main_call2_v3 rfl (by decide),
   writes_sub_of_mem main_call2_v4 rfl (by decide),
   writes_sub_of_mem main_v60 rfl (by decide)⟩
theorem frameG2 (V : Valuation τ sig (Elt F)) {r : Ref sig .tc} (hr : r ∉ WG2) :
    after opsG2 V (r : DevRef τ sig) = V (r : DevRef τ sig) :=
  after_of_writes_sub opsG2 V opsG2_writes hr

/-- The buffers piece B2 writes. -/
abbrev WB2 : List (Ref sig .tc) := [main_v61, main_v62, main_v63, main_v64, main_v65, main_v66, main_v67, main_v68, main_cst_9, main_call3_cst, main_call3_v0, main_call3_v1, main_call3_v2, main_call3_v3, main_call3_v4, main_v69]
theorem opsB2_writes : (opsB2 : List (HloOp τ sig (Elt F))).Forall fun op => op.writes ⊆ (WB2.map (Proc.devRef (τ := τ) .tc)).toFinset :=
  ⟨writes_sub_of_mem main_v61 rfl (by decide),
   writes_sub_of_mem main_v62 rfl (by decide),
   writes_sub_of_mem main_v63 rfl (by decide),
   writes_sub_of_mem main_v64 rfl (by decide),
   writes_sub_of_mem main_v65 rfl (by decide),
   writes_sub_of_mem main_v66 rfl (by decide),
   writes_sub_of_mem main_v67 rfl (by decide),
   writes_sub_of_mem main_v68 rfl (by decide),
   writes_sub_of_mem main_cst_9 rfl (by decide),
   writes_sub_of_mem main_call3_cst rfl (by decide),
   writes_sub_of_mem main_call3_v0 rfl (by decide),
   writes_sub_of_mem main_call3_v1 rfl (by decide),
   writes_sub_of_mem main_call3_v2 rfl (by decide),
   writes_sub_of_mem main_call3_v3 rfl (by decide),
   writes_sub_of_mem main_call3_v4 rfl (by decide),
   writes_sub_of_mem main_v69 rfl (by decide)⟩
theorem frameB2 (V : Valuation τ sig (Elt F)) {r : Ref sig .tc} (hr : r ∉ WB2) :
    after opsB2 V (r : DevRef τ sig) = V (r : DevRef τ sig) :=
  after_of_writes_sub opsB2 V opsB2_writes hr

/-- The buffers piece N2 writes. -/
abbrev WN2 : List (Ref sig .tc) := [main_v70, main_v71, main_cst_10, main_v72, main_v73, main_v74, main_cst_11, main_v75, main_v76, main_v77, main_v78]
theorem opsN2_writes : (opsN2 : List (HloOp τ sig (Elt F))).Forall fun op => op.writes ⊆ (WN2.map (Proc.devRef (τ := τ) .tc)).toFinset :=
  ⟨writes_sub_of_mem main_v70 rfl (by decide),
   writes_sub_of_mem main_v71 rfl (by decide),
   writes_sub_of_mem main_cst_10 rfl (by decide),
   writes_sub_of_mem main_v72 rfl (by decide),
   writes_sub_of_mem main_v73 rfl (by decide),
   writes_sub_of_mem main_v74 rfl (by decide),
   writes_sub_of_mem main_cst_11 rfl (by decide),
   writes_sub_of_mem main_v75 rfl (by decide),
   writes_sub_of_mem main_v76 rfl (by decide),
   writes_sub_of_mem main_v77 rfl (by decide),
   writes_sub_of_mem main_v78 rfl (by decide)⟩
theorem frameN2 (V : Valuation τ sig (Elt F)) {r : Ref sig .tc} (hr : r ∉ WN2) :
    after opsN2 V (r : DevRef τ sig) = V (r : DevRef τ sig) :=
  after_of_writes_sub opsN2 V opsN2_writes hr

/-- The buffers piece S3 writes. -/
abbrev WS3 : List (Ref sig .tc) := [main_c_12, main_v79, main_v80, main_c_13, main_v81, main_v82, main_v83, main_v84, main_v85, main_v86, main_v87, main_v88, main_cst_14, main_v89, main_v90, main_v91]
theorem opsS3_writes : (opsS3 : List (HloOp τ sig (Elt F))).Forall fun op => op.writes ⊆ (WS3.map (Proc.devRef (τ := τ) .tc)).toFinset :=
  ⟨writes_sub_of_mem main_c_12 rfl (by decide),
   writes_sub_of_mem main_v79 rfl (by decide),
   writes_sub_of_mem main_v80 rfl (by decide),
   writes_sub_of_mem main_c_13 rfl (by decide),
   writes_sub_of_mem main_v81 rfl (by decide),
   writes_sub_of_mem main_v82 rfl (by decide),
   writes_sub_of_mem main_v83 rfl (by decide),
   writes_sub_of_mem main_v84 rfl (by decide),
   writes_sub_of_mem main_v85 rfl (by decide),
   writes_sub_of_mem main_v86 rfl (by decide),
   writes_sub_of_mem main_v87 rfl (by decide),
   writes_sub_of_mem main_v88 rfl (by decide),
   writes_sub_of_mem main_cst_14 rfl (by decide),
   writes_sub_of_mem main_v89 rfl (by decide),
   writes_sub_of_mem main_v90 rfl (by decide),
   writes_sub_of_mem main_v91 rfl (by decide)⟩
theorem frameS3 (V : Valuation τ sig (Elt F)) {r : Ref sig .tc} (hr : r ∉ WS3) :
    after opsS3 V (r : DevRef τ sig) = V (r : DevRef τ sig) :=
  after_of_writes_sub opsS3 V opsS3_writes hr

/-- The buffers piece G3 writes. -/
abbrev WG3 : List (Ref sig .tc) := [main_v92, main_v93, main_v94, main_v95, main_v96, main_v97, main_v98, main_cst_15, main_call4_cst, main_call4_v0, main_call4_v1, main_call4_v2, main_call4_v3, main_call4_v4, main_v99]
theorem opsG3_writes : (opsG3 : List (HloOp τ sig (Elt F))).Forall fun op => op.writes ⊆ (WG3.map (Proc.devRef (τ := τ) .tc)).toFinset :=
  ⟨writes_sub_of_mem main_v92 rfl (by decide),
   writes_sub_of_mem main_v93 rfl (by decide),
   writes_sub_of_mem main_v94 rfl (by decide),
   writes_sub_of_mem main_v95 rfl (by decide),
   writes_sub_of_mem main_v96 rfl (by decide),
   writes_sub_of_mem main_v97 rfl (by decide),
   writes_sub_of_mem main_v98 rfl (by decide),
   writes_sub_of_mem main_cst_15 rfl (by decide),
   writes_sub_of_mem main_call4_cst rfl (by decide),
   writes_sub_of_mem main_call4_v0 rfl (by decide),
   writes_sub_of_mem main_call4_v1 rfl (by decide),
   writes_sub_of_mem main_call4_v2 rfl (by decide),
   writes_sub_of_mem main_call4_v3 rfl (by decide),
   writes_sub_of_mem main_call4_v4 rfl (by decide),
   writes_sub_of_mem main_v99 rfl (by decide)⟩
theorem frameG3 (V : Valuation τ sig (Elt F)) {r : Ref sig .tc} (hr : r ∉ WG3) :
    after opsG3 V (r : DevRef τ sig) = V (r : DevRef τ sig) :=
  after_of_writes_sub opsG3 V opsG3_writes hr

/-- The buffers piece B3 writes. -/
abbrev WB3 : List (Ref sig .tc) := [main_v100, main_v101, main_v102, main_v103, main_v104, main_v105, main_v106, main_v107, main_cst_16, main_call5_cst, main_call5_v0, main_call5_v1, main_call5_v2, main_call5_v3, main_call5_v4, main_v108]
theorem opsB3_writes : (opsB3 : List (HloOp τ sig (Elt F))).Forall fun op => op.writes ⊆ (WB3.map (Proc.devRef (τ := τ) .tc)).toFinset :=
  ⟨writes_sub_of_mem main_v100 rfl (by decide),
   writes_sub_of_mem main_v101 rfl (by decide),
   writes_sub_of_mem main_v102 rfl (by decide),
   writes_sub_of_mem main_v103 rfl (by decide),
   writes_sub_of_mem main_v104 rfl (by decide),
   writes_sub_of_mem main_v105 rfl (by decide),
   writes_sub_of_mem main_v106 rfl (by decide),
   writes_sub_of_mem main_v107 rfl (by decide),
   writes_sub_of_mem main_cst_16 rfl (by decide),
   writes_sub_of_mem main_call5_cst rfl (by decide),
   writes_sub_of_mem main_call5_v0 rfl (by decide),
   writes_sub_of_mem main_call5_v1 rfl (by decide),
   writes_sub_of_mem main_call5_v2 rfl (by decide),
   writes_sub_of_mem main_call5_v3 rfl (by decide),
   writes_sub_of_mem main_call5_v4 rfl (by decide),
   writes_sub_of_mem main_v108 rfl (by decide)⟩
theorem frameB3 (V : Valuation τ sig (Elt F)) {r : Ref sig .tc} (hr : r ∉ WB3) :
    after opsB3 V (r : DevRef τ sig) = V (r : DevRef τ sig) :=
  after_of_writes_sub opsB3 V opsB3_writes hr

/-- The buffers piece N3 writes. -/
abbrev WN3 : List (Ref sig .tc) := [main_v109, main_v110, main_cst_17, main_v111, main_v112, main_v113, main_cst_18, main_v114, main_v115, main_v116, main_v117]
theorem opsN3_writes : (opsN3 : List (HloOp τ sig (Elt F))).Forall fun op => op.writes ⊆ (WN3.map (Proc.devRef (τ := τ) .tc)).toFinset :=
  ⟨writes_sub_of_mem main_v109 rfl (by decide),
   writes_sub_of_mem main_v110 rfl (by decide),
   writes_sub_of_mem main_cst_17 rfl (by decide),
   writes_sub_of_mem main_v111 rfl (by decide),
   writes_sub_of_mem main_v112 rfl (by decide),
   writes_sub_of_mem main_v113 rfl (by decide),
   writes_sub_of_mem main_cst_18 rfl (by decide),
   writes_sub_of_mem main_v114 rfl (by decide),
   writes_sub_of_mem main_v115 rfl (by decide),
   writes_sub_of_mem main_v116 rfl (by decide),
   writes_sub_of_mem main_v117 rfl (by decide)⟩
theorem frameN3 (V : Valuation τ sig (Elt F)) {r : Ref sig .tc} (hr : r ∉ WN3) :
    after opsN3 V (r : DevRef τ sig) = V (r : DevRef τ sig) :=
  after_of_writes_sub opsN3 V opsN3_writes hr

/-- The buffers piece Z writes. -/
abbrev WZ : List (Ref sig .tc) := [main_v118, main_v119, main_v120]
theorem opsZ_writes : (opsZ : List (HloOp τ sig (Elt F))).Forall fun op => op.writes ⊆ (WZ.map (Proc.devRef (τ := τ) .tc)).toFinset :=
  ⟨writes_sub_of_mem main_v118 rfl (by decide),
   writes_sub_of_mem main_v119 rfl (by decide),
   writes_sub_of_mem main_v120 rfl (by decide)⟩
theorem frameZ (V : Valuation τ sig (Elt F)) {r : Ref sig .tc} (hr : r ∉ WZ) :
    after opsZ V (r : DevRef τ sig) = V (r : DevRef τ sig) :=
  after_of_writes_sub opsZ V opsZ_writes hr

/-! ## The pieces chained -/

section Chain

variable (V : Valuation τ sig (Elt F))

local notation "a0" => V (main_arg0 : DevRef τ sig)
local notation "a1" => V (main_arg1 : DevRef τ sig)
local notation "a2" => V (main_arg2 : DevRef τ sig)
local notation "a3" => V (main_arg3 : DevRef τ sig)
local notation "a4" => V (main_arg4 : DevRef τ sig)
local notation "a5" => V (main_arg5 : DevRef τ sig)
local notation "a6" => V (main_arg6 : DevRef τ sig)
local notation "a7" => V (main_arg7 : DevRef τ sig)
local notation "a8" => V (main_arg8 : DevRef τ sig)

/-- The contents after the first 1 piece. -/
def st1 : Valuation τ sig (Elt F) := after opsA V
/-- The contents after the first 2 pieces. -/
def st2 : Valuation τ sig (Elt F) := after opsS1 (st1 V)
/-- The contents after the first 3 pieces. -/
def st3 : Valuation τ sig (Elt F) := after opsG1 (st2 V)
/-- The contents after the first 4 pieces. -/
def st4 : Valuation τ sig (Elt F) := after opsB1 (st3 V)
/-- The contents after the first 5 pieces. -/
def st5 : Valuation τ sig (Elt F) := after opsN1 (st4 V)
/-- The contents after the first 6 pieces. -/
def st6 : Valuation τ sig (Elt F) := after opsS2 (st5 V)
/-- The contents after the first 7 pieces. -/
def st7 : Valuation τ sig (Elt F) := after opsG2 (st6 V)
/-- The contents after the first 8 pieces. -/
def st8 : Valuation τ sig (Elt F) := after opsB2 (st7 V)
/-- The contents after the first 9 pieces. -/
def st9 : Valuation τ sig (Elt F) := after opsN2 (st8 V)
/-- The contents after the first 10 pieces. -/
def st10 : Valuation τ sig (Elt F) := after opsS3 (st9 V)
/-- The contents after the first 11 pieces. -/
def st11 : Valuation τ sig (Elt F) := after opsG3 (st10 V)
/-- The contents after the first 12 pieces. -/
def st12 : Valuation τ sig (Elt F) := after opsB3 (st11 V)
/-- The contents after the first 13 pieces. -/
def st13 : Valuation τ sig (Elt F) := after opsN3 (st12 V)
/-- The contents after the first 14 pieces. -/
def st14 : Valuation τ sig (Elt F) := after opsZ (st13 V)

theorem after_ops_eq : after ops V = st14 V := by
  simp only [ops, StableHlo.after_append]
  rfl

/-! After piece A. -/
theorem st1_arg0 : st1 V (main_arg0 : DevRef τ sig) = a0 :=
  frameA V (by decide)
theorem st1_arg1 : st1 V (main_arg1 : DevRef τ sig) = a1 :=
  frameA V (by decide)
theorem st1_arg2 : st1 V (main_arg2 : DevRef τ sig) = a2 :=
  frameA V (by decide)
theorem st1_arg3 : st1 V (main_arg3 : DevRef τ sig) = a3 :=
  frameA V (by decide)
theorem st1_arg4 : st1 V (main_arg4 : DevRef τ sig) = a4 :=
  frameA V (by decide)
theorem st1_arg5 : st1 V (main_arg5 : DevRef τ sig) = a5 :=
  frameA V (by decide)
theorem st1_arg6 : st1 V (main_arg6 : DevRef τ sig) = a6 :=
  frameA V (by decide)
theorem st1_arg7 : st1 V (main_arg7 : DevRef τ sig) = a7 :=
  frameA V (by decide)
theorem st1_arg8 : st1 V (main_arg8 : DevRef τ sig) = a8 :=
  frameA V (by decide)
theorem st1_v0 : st1 V (main_v0 : DevRef τ sig) = Spec.ego0 a0 a1 :=
  valA V

/-! After piece S1. -/
theorem st2_arg0 : st2 V (main_arg0 : DevRef τ sig) = a0 :=
  (frameS1 (st1 V) (by decide)).trans (st1_arg0 V)
theorem st2_arg1 : st2 V (main_arg1 : DevRef τ sig) = a1 :=
  (frameS1 (st1 V) (by decide)).trans (st1_arg1 V)
theorem st2_arg2 : st2 V (main_arg2 : DevRef τ sig) = a2 :=
  (frameS1 (st1 V) (by decide)).trans (st1_arg2 V)
theorem st2_arg3 : st2 V (main_arg3 : DevRef τ sig) = a3 :=
  (frameS1 (st1 V) (by decide)).trans (st1_arg3 V)
theorem st2_arg4 : st2 V (main_arg4 : DevRef τ sig) = a4 :=
  (frameS1 (st1 V) (by decide)).trans (st1_arg4 V)
theorem st2_arg5 : st2 V (main_arg5 : DevRef τ sig) = a5 :=
  (frameS1 (st1 V) (by decide)).trans (st1_arg5 V)
theorem st2_arg6 : st2 V (main_arg6 : DevRef τ sig) = a6 :=
  (frameS1 (st1 V) (by decide)).trans (st1_arg6 V)
theorem st2_arg7 : st2 V (main_arg7 : DevRef τ sig) = a7 :=
  (frameS1 (st1 V) (by decide)).trans (st1_arg7 V)
theorem st2_arg8 : st2 V (main_arg8 : DevRef τ sig) = a8 :=
  (frameS1 (st1 V) (by decide)).trans (st1_arg8 V)
theorem st2_v0 : st2 V (main_v0 : DevRef τ sig) = Spec.ego0 a0 a1 :=
  (frameS1 (st1 V) (by decide)).trans (st1_v0 V)
theorem st2_v13 : st2 V (main_v13 : DevRef τ sig) = Spec.side (Spec.ego0 a0 a1) a2 a3 a4 :=
  (valS1 (st1 V)).trans (by rw [st1_v0 V, st1_arg2 V, st1_arg3 V, st1_arg4 V] <;> rfl)

/-! After piece G1. -/
theorem st3_arg0 : st3 V (main_arg0 : DevRef τ sig) = a0 :=
  (frameG1 (st2 V) (by decide)).trans (st2_arg0 V)
theorem st3_arg1 : st3 V (main_arg1 : DevRef τ sig) = a1 :=
  (frameG1 (st2 V) (by decide)).trans (st2_arg1 V)
theorem st3_arg2 : st3 V (main_arg2 : DevRef τ sig) = a2 :=
  (frameG1 (st2 V) (by decide)).trans (st2_arg2 V)
theorem st3_arg3 : st3 V (main_arg3 : DevRef τ sig) = a3 :=
  (frameG1 (st2 V) (by decide)).trans (st2_arg3 V)
theorem st3_arg4 : st3 V (main_arg4 : DevRef τ sig) = a4 :=
  (frameG1 (st2 V) (by decide)).trans (st2_arg4 V)
theorem st3_arg5 : st3 V (main_arg5 : DevRef τ sig) = a5 :=
  (frameG1 (st2 V) (by decide)).trans (st2_arg5 V)
theorem st3_arg6 : st3 V (main_arg6 : DevRef τ sig) = a6 :=
  (frameG1 (st2 V) (by decide)).trans (st2_arg6 V)
theorem st3_arg7 : st3 V (main_arg7 : DevRef τ sig) = a7 :=
  (frameG1 (st2 V) (by decide)).trans (st2_arg7 V)
theorem st3_arg8 : st3 V (main_arg8 : DevRef τ sig) = a8 :=
  (frameG1 (st2 V) (by decide)).trans (st2_arg8 V)
theorem st3_v0 : st3 V (main_v0 : DevRef τ sig) = Spec.ego0 a0 a1 :=
  (frameG1 (st2 V) (by decide)).trans (st2_v0 V)
theorem st3_v13 : st3 V (main_v13 : DevRef τ sig) = Spec.side (Spec.ego0 a0 a1) a2 a3 a4 :=
  (frameG1 (st2 V) (by decide)).trans (st2_v13 V)
theorem st3_v21 : st3 V (main_v21 : DevRef τ sig) = Spec.lrelu (constant S_ .f32 0x3E4CCCCD#32) (Spec.affine (Spec.side (Spec.ego0 a0 a1) a2 a3 a4) (Spec.wAt0 a5) (Spec.bAt0 a6)) :=
  (valG1 (st2 V)).trans (by rw [st2_v13 V, st2_arg5 V, st2_arg6 V] <;> rfl)

/-! After piece B1. -/
theorem st4_arg0 : st4 V (main_arg0 : DevRef τ sig) = a0 :=
  (frameB1 (st3 V) (by decide)).trans (st3_arg0 V)
theorem st4_arg1 : st4 V (main_arg1 : DevRef τ sig) = a1 :=
  (frameB1 (st3 V) (by decide)).trans (st3_arg1 V)
theorem st4_arg2 : st4 V (main_arg2 : DevRef τ sig) = a2 :=
  (frameB1 (st3 V) (by decide)).trans (st3_arg2 V)
theorem st4_arg3 : st4 V (main_arg3 : DevRef τ sig) = a3 :=
  (frameB1 (st3 V) (by decide)).trans (st3_arg3 V)
theorem st4_arg4 : st4 V (main_arg4 : DevRef τ sig) = a4 :=
  (frameB1 (st3 V) (by decide)).trans (st3_arg4 V)
theorem st4_arg5 : st4 V (main_arg5 : DevRef τ sig) = a5 :=
  (frameB1 (st3 V) (by decide)).trans (st3_arg5 V)
theorem st4_arg6 : st4 V (main_arg6 : DevRef τ sig) = a6 :=
  (frameB1 (st3 V) (by decide)).trans (st3_arg6 V)
theorem st4_arg7 : st4 V (main_arg7 : DevRef τ sig) = a7 :=
  (frameB1 (st3 V) (by decide)).trans (st3_arg7 V)
theorem st4_arg8 : st4 V (main_arg8 : DevRef τ sig) = a8 :=
  (frameB1 (st3 V) (by decide)).trans (st3_arg8 V)
theorem st4_v0 : st4 V (main_v0 : DevRef τ sig) = Spec.ego0 a0 a1 :=
  (frameB1 (st3 V) (by decide)).trans (st3_v0 V)
theorem st4_v21 : st4 V (main_v21 : DevRef τ sig) = Spec.lrelu (constant S_ .f32 0x3E4CCCCD#32) (Spec.affine (Spec.side (Spec.ego0 a0 a1) a2 a3 a4) (Spec.wAt0 a5) (Spec.bAt0 a6)) :=
  (frameB1 (st3 V) (by decide)).trans (st3_v21 V)
theorem st4_v30 : st4 V (main_v30 : DevRef τ sig) = Spec.lrelu (constant S_ .f32 0x3E4CCCCD#32) (Spec.affine (mulf (Spec.ego0 a0 a1) (Spec.side (Spec.ego0 a0 a1) a2 a3 a4)) (Spec.wAt0 a7) (Spec.bAt0 a8)) :=
  (valB1 (st3 V)).trans (by rw [st3_v0 V, st3_v13 V, st3_arg7 V, st3_arg8 V] <;> rfl)

/-! After piece N1. -/
theorem st5_arg0 : st5 V (main_arg0 : DevRef τ sig) = a0 :=
  (frameN1 (st4 V) (by decide)).trans (st4_arg0 V)
theorem st5_arg1 : st5 V (main_arg1 : DevRef τ sig) = a1 :=
  (frameN1 (st4 V) (by decide)).trans (st4_arg1 V)
theorem st5_arg2 : st5 V (main_arg2 : DevRef τ sig) = a2 :=
  (frameN1 (st4 V) (by decide)).trans (st4_arg2 V)
theorem st5_arg3 : st5 V (main_arg3 : DevRef τ sig) = a3 :=
  (frameN1 (st4 V) (by decide)).trans (st4_arg3 V)
theorem st5_arg4 : st5 V (main_arg4 : DevRef τ sig) = a4 :=
  (frameN1 (st4 V) (by decide)).trans (st4_arg4 V)
theorem st5_arg5 : st5 V (main_arg5 : DevRef τ sig) = a5 :=
  (frameN1 (st4 V) (by decide)).trans (st4_arg5 V)
theorem st5_arg6 : st5 V (main_arg6 : DevRef τ sig) = a6 :=
  (frameN1 (st4 V) (by decide)).trans (st4_arg6 V)
theorem st5_arg7 : st5 V (main_arg7 : DevRef τ sig) = a7 :=
  (frameN1 (st4 V) (by decide)).trans (st4_arg7 V)
theorem st5_arg8 : st5 V (main_arg8 : DevRef τ sig) = a8 :=
  (frameN1 (st4 V) (by decide)).trans (st4_arg8 V)
theorem st5_v0 : st5 V (main_v0 : DevRef τ sig) = Spec.ego0 a0 a1 :=
  (frameN1 (st4 V) (by decide)).trans (st4_v0 V)
theorem st5_v31 : st5 V (main_v31 : DevRef τ sig) = Spec.e1 a0 a1 a2 a3 a4 a5 a6 a7 a8 :=
  (valN1e (st4 V)).trans (by rw [st4_v21 V, st4_v30 V] <;> rfl)
theorem st5_v39 : st5 V (main_v39 : DevRef τ sig) = Spec.normed (Spec.e1 a0 a1 a2 a3 a4 a5 a6 a7 a8) :=
  (valN1n (st4 V)).trans (by rw [st4_v21 V, st4_v30 V] <;> rfl)

/-! After piece S2. -/
theorem st6_arg0 : st6 V (main_arg0 : DevRef τ sig) = a0 :=
  (frameS2 (st5 V) (by decide)).trans (st5_arg0 V)
theorem st6_arg1 : st6 V (main_arg1 : DevRef τ sig) = a1 :=
  (frameS2 (st5 V) (by decide)).trans (st5_arg1 V)
theorem st6_arg2 : st6 V (main_arg2 : DevRef τ sig) = a2 :=
  (frameS2 (st5 V) (by decide)).trans (st5_arg2 V)
theorem st6_arg3 : st6 V (main_arg3 : DevRef τ sig) = a3 :=
  (frameS2 (st5 V) (by decide)).trans (st5_arg3 V)
theorem st6_arg4 : st6 V (main_arg4 : DevRef τ sig) = a4 :=
  (frameS2 (st5 V) (by decide)).trans (st5_arg4 V)
theorem st6_arg5 : st6 V (main_arg5 : DevRef τ sig) = a5 :=
  (frameS2 (st5 V) (by decide)).trans (st5_arg5 V)
theorem st6_arg6 : st6 V (main_arg6 : DevRef τ sig) = a6 :=
  (frameS2 (st5 V) (by decide)).trans (st5_arg6 V)
theorem st6_arg7 : st6 V (main_arg7 : DevRef τ sig) = a7 :=
  (frameS2 (st5 V) (by decide)).trans (st5_arg7 V)
theorem st6_arg8 : st6 V (main_arg8 : DevRef τ sig) = a8 :=
  (frameS2 (st5 V) (by decide)).trans (st5_arg8 V)
theorem st6_v0 : st6 V (main_v0 : DevRef τ sig) = Spec.ego0 a0 a1 :=
  (frameS2 (st5 V) (by decide)).trans (st5_v0 V)
theorem st6_v31 : st6 V (main_v31 : DevRef τ sig) = Spec.e1 a0 a1 a2 a3 a4 a5 a6 a7 a8 :=
  (frameS2 (st5 V) (by decide)).trans (st5_v31 V)
theorem st6_v39 : st6 V (main_v39 : DevRef τ sig) = Spec.normed (Spec.e1 a0 a1 a2 a3 a4 a5 a6 a7 a8) :=
  (frameS2 (st5 V) (by decide)).trans (st5_v39 V)
theorem st6_v52 : st6 V (main_v52 : DevRef τ sig) = Spec.side (Spec.e1 a0 a1 a2 a3 a4 a5 a6 a7 a8) a2 a3 a4 :=
  (valS2 (st5 V)).trans (by rw [st5_v31 V, st5_arg2 V, st5_arg3 V, st5_arg4 V] <;> rfl)

/-! After piece G2. -/
theorem st7_arg0 : st7 V (main_arg0 : DevRef τ sig) = a0 :=
  (frameG2 (st6 V) (by decide)).trans (st6_arg0 V)
theorem st7_arg1 : st7 V (main_arg1 : DevRef τ sig) = a1 :=
  (frameG2 (st6 V) (by decide)).trans (st6_arg1 V)
theorem st7_arg2 : st7 V (main_arg2 : DevRef τ sig) = a2 :=
  (frameG2 (st6 V) (by decide)).trans (st6_arg2 V)
theorem st7_arg3 : st7 V (main_arg3 : DevRef τ sig) = a3 :=
  (frameG2 (st6 V) (by decide)).trans (st6_arg3 V)
theorem st7_arg4 : st7 V (main_arg4 : DevRef τ sig) = a4 :=
  (frameG2 (st6 V) (by decide)).trans (st6_arg4 V)
theorem st7_arg5 : st7 V (main_arg5 : DevRef τ sig) = a5 :=
  (frameG2 (st6 V) (by decide)).trans (st6_arg5 V)
theorem st7_arg6 : st7 V (main_arg6 : DevRef τ sig) = a6 :=
  (frameG2 (st6 V) (by decide)).trans (st6_arg6 V)
theorem st7_arg7 : st7 V (main_arg7 : DevRef τ sig) = a7 :=
  (frameG2 (st6 V) (by decide)).trans (st6_arg7 V)
theorem st7_arg8 : st7 V (main_arg8 : DevRef τ sig) = a8 :=
  (frameG2 (st6 V) (by decide)).trans (st6_arg8 V)
theorem st7_v0 : st7 V (main_v0 : DevRef τ sig) = Spec.ego0 a0 a1 :=
  (frameG2 (st6 V) (by decide)).trans (st6_v0 V)
theorem st7_v31 : st7 V (main_v31 : DevRef τ sig) = Spec.e1 a0 a1 a2 a3 a4 a5 a6 a7 a8 :=
  (frameG2 (st6 V) (by decide)).trans (st6_v31 V)
theorem st7_v39 : st7 V (main_v39 : DevRef τ sig) = Spec.normed (Spec.e1 a0 a1 a2 a3 a4 a5 a6 a7 a8) :=
  (frameG2 (st6 V) (by decide)).trans (st6_v39 V)
theorem st7_v52 : st7 V (main_v52 : DevRef τ sig) = Spec.side (Spec.e1 a0 a1 a2 a3 a4 a5 a6 a7 a8) a2 a3 a4 :=
  (frameG2 (st6 V) (by decide)).trans (st6_v52 V)
theorem st7_v60 : st7 V (main_v60 : DevRef τ sig) = Spec.lrelu (constant S_ .f32 0x3E4CCCCD#32) (Spec.affine (Spec.side (Spec.e1 a0 a1 a2 a3 a4 a5 a6 a7 a8) a2 a3 a4) (Spec.wAt1 a5) (Spec.bAt1 a6)) :=
  (valG2 (st6 V)).trans (by rw [st6_v52 V, st6_arg5 V, st6_arg6 V] <;> rfl)

/-! After piece B2. -/
theorem st8_arg0 : st8 V (main_arg0 : DevRef τ sig) = a0 :=
  (frameB2 (st7 V) (by decide)).trans (st7_arg0 V)
theorem st8_arg1 : st8 V (main_arg1 : DevRef τ sig) = a1 :=
  (frameB2 (st7 V) (by decide)).trans (st7_arg1 V)
theorem st8_arg2 : st8 V (main_arg2 : DevRef τ sig) = a2 :=
  (frameB2 (st7 V) (by decide)).trans (st7_arg2 V)
theorem st8_arg3 : st8 V (main_arg3 : DevRef τ sig) = a3 :=
  (frameB2 (st7 V) (by decide)).trans (st7_arg3 V)
theorem st8_arg4 : st8 V (main_arg4 : DevRef τ sig) = a4 :=
  (frameB2 (st7 V) (by decide)).trans (st7_arg4 V)
theorem st8_arg5 : st8 V (main_arg5 : DevRef τ sig) = a5 :=
  (frameB2 (st7 V) (by decide)).trans (st7_arg5 V)
theorem st8_arg6 : st8 V (main_arg6 : DevRef τ sig) = a6 :=
  (frameB2 (st7 V) (by decide)).trans (st7_arg6 V)
theorem st8_arg7 : st8 V (main_arg7 : DevRef τ sig) = a7 :=
  (frameB2 (st7 V) (by decide)).trans (st7_arg7 V)
theorem st8_arg8 : st8 V (main_arg8 : DevRef τ sig) = a8 :=
  (frameB2 (st7 V) (by decide)).trans (st7_arg8 V)
theorem st8_v0 : st8 V (main_v0 : DevRef τ sig) = Spec.ego0 a0 a1 :=
  (frameB2 (st7 V) (by decide)).trans (st7_v0 V)
theorem st8_v39 : st8 V (main_v39 : DevRef τ sig) = Spec.normed (Spec.e1 a0 a1 a2 a3 a4 a5 a6 a7 a8) :=
  (frameB2 (st7 V) (by decide)).trans (st7_v39 V)
theorem st8_v60 : st8 V (main_v60 : DevRef τ sig) = Spec.lrelu (constant S_ .f32 0x3E4CCCCD#32) (Spec.affine (Spec.side (Spec.e1 a0 a1 a2 a3 a4 a5 a6 a7 a8) a2 a3 a4) (Spec.wAt1 a5) (Spec.bAt1 a6)) :=
  (frameB2 (st7 V) (by decide)).trans (st7_v60 V)
theorem st8_v69 : st8 V (main_v69 : DevRef τ sig) = Spec.lrelu (constant S_ .f32 0x3E4CCCCD#32) (Spec.affine (mulf (Spec.e1 a0 a1 a2 a3 a4 a5 a6 a7 a8) (Spec.side (Spec.e1 a0 a1 a2 a3 a4 a5 a6 a7 a8) a2 a3 a4)) (Spec.wAt1 a7) (Spec.bAt1 a8)) :=
  (valB2 (st7 V)).trans (by rw [st7_v31 V, st7_v52 V, st7_arg7 V, st7_arg8 V] <;> rfl)

/-! After piece N2. -/
theorem st9_arg0 : st9 V (main_arg0 : DevRef τ sig) = a0 :=
  (frameN2 (st8 V) (by decide)).trans (st8_arg0 V)
theorem st9_arg1 : st9 V (main_arg1 : DevRef τ sig) = a1 :=
  (frameN2 (st8 V) (by decide)).trans (st8_arg1 V)
theorem st9_arg2 : st9 V (main_arg2 : DevRef τ sig) = a2 :=
  (frameN2 (st8 V) (by decide)).trans (st8_arg2 V)
theorem st9_arg3 : st9 V (main_arg3 : DevRef τ sig) = a3 :=
  (frameN2 (st8 V) (by decide)).trans (st8_arg3 V)
theorem st9_arg4 : st9 V (main_arg4 : DevRef τ sig) = a4 :=
  (frameN2 (st8 V) (by decide)).trans (st8_arg4 V)
theorem st9_arg5 : st9 V (main_arg5 : DevRef τ sig) = a5 :=
  (frameN2 (st8 V) (by decide)).trans (st8_arg5 V)
theorem st9_arg6 : st9 V (main_arg6 : DevRef τ sig) = a6 :=
  (frameN2 (st8 V) (by decide)).trans (st8_arg6 V)
theorem st9_arg7 : st9 V (main_arg7 : DevRef τ sig) = a7 :=
  (frameN2 (st8 V) (by decide)).trans (st8_arg7 V)
theorem st9_arg8 : st9 V (main_arg8 : DevRef τ sig) = a8 :=
  (frameN2 (st8 V) (by decide)).trans (st8_arg8 V)
theorem st9_v0 : st9 V (main_v0 : DevRef τ sig) = Spec.ego0 a0 a1 :=
  (frameN2 (st8 V) (by decide)).trans (st8_v0 V)
theorem st9_v39 : st9 V (main_v39 : DevRef τ sig) = Spec.normed (Spec.e1 a0 a1 a2 a3 a4 a5 a6 a7 a8) :=
  (frameN2 (st8 V) (by decide)).trans (st8_v39 V)
theorem st9_v70 : st9 V (main_v70 : DevRef τ sig) = Spec.e2 a0 a1 a2 a3 a4 a5 a6 a7 a8 :=
  (valN2e (st8 V)).trans (by rw [st8_v60 V, st8_v69 V] <;> rfl)
theorem st9_v78 : st9 V (main_v78 : DevRef τ sig) = Spec.normed (Spec.e2 a0 a1 a2 a3 a4 a5 a6 a7 a8) :=
  (valN2n (st8 V)).trans (by rw [st8_v60 V, st8_v69 V] <;> rfl)

/-! After piece S3. -/
theorem st10_arg0 : st10 V (main_arg0 : DevRef τ sig) = a0 :=
  (frameS3 (st9 V) (by decide)).trans (st9_arg0 V)
theorem st10_arg1 : st10 V (main_arg1 : DevRef τ sig) = a1 :=
  (frameS3 (st9 V) (by decide)).trans (st9_arg1 V)
theorem st10_arg2 : st10 V (main_arg2 : DevRef τ sig) = a2 :=
  (frameS3 (st9 V) (by decide)).trans (st9_arg2 V)
theorem st10_arg3 : st10 V (main_arg3 : DevRef τ sig) = a3 :=
  (frameS3 (st9 V) (by decide)).trans (st9_arg3 V)
theorem st10_arg4 : st10 V (main_arg4 : DevRef τ sig) = a4 :=
  (frameS3 (st9 V) (by decide)).trans (st9_arg4 V)
theorem st10_arg5 : st10 V (main_arg5 : DevRef τ sig) = a5 :=
  (frameS3 (st9 V) (by decide)).trans (st9_arg5 V)
theorem st10_arg6 : st10 V (main_arg6 : DevRef τ sig) = a6 :=
  (frameS3 (st9 V) (by decide)).trans (st9_arg6 V)
theorem st10_arg7 : st10 V (main_arg7 : DevRef τ sig) = a7 :=
  (frameS3 (st9 V) (by decide)).trans (st9_arg7 V)
theorem st10_arg8 : st10 V (main_arg8 : DevRef τ sig) = a8 :=
  (frameS3 (st9 V) (by decide)).trans (st9_arg8 V)
theorem st10_v0 : st10 V (main_v0 : DevRef τ sig) = Spec.ego0 a0 a1 :=
  (frameS3 (st9 V) (by decide)).trans (st9_v0 V)
theorem st10_v39 : st10 V (main_v39 : DevRef τ sig) = Spec.normed (Spec.e1 a0 a1 a2 a3 a4 a5 a6 a7 a8) :=
  (frameS3 (st9 V) (by decide)).trans (st9_v39 V)
theorem st10_v70 : st10 V (main_v70 : DevRef τ sig) = Spec.e2 a0 a1 a2 a3 a4 a5 a6 a7 a8 :=
  (frameS3 (st9 V) (by decide)).trans (st9_v70 V)
theorem st10_v78 : st10 V (main_v78 : DevRef τ sig) = Spec.normed (Spec.e2 a0 a1 a2 a3 a4 a5 a6 a7 a8) :=
  (frameS3 (st9 V) (by decide)).trans (st9_v78 V)
theorem st10_v91 : st10 V (main_v91 : DevRef τ sig) = Spec.side (Spec.e2 a0 a1 a2 a3 a4 a5 a6 a7 a8) a2 a3 a4 :=
  (valS3 (st9 V)).trans (by rw [st9_v70 V, st9_arg2 V, st9_arg3 V, st9_arg4 V] <;> rfl)

/-! After piece G3. -/
theorem st11_arg0 : st11 V (main_arg0 : DevRef τ sig) = a0 :=
  (frameG3 (st10 V) (by decide)).trans (st10_arg0 V)
theorem st11_arg1 : st11 V (main_arg1 : DevRef τ sig) = a1 :=
  (frameG3 (st10 V) (by decide)).trans (st10_arg1 V)
theorem st11_arg2 : st11 V (main_arg2 : DevRef τ sig) = a2 :=
  (frameG3 (st10 V) (by decide)).trans (st10_arg2 V)
theorem st11_arg3 : st11 V (main_arg3 : DevRef τ sig) = a3 :=
  (frameG3 (st10 V) (by decide)).trans (st10_arg3 V)
theorem st11_arg4 : st11 V (main_arg4 : DevRef τ sig) = a4 :=
  (frameG3 (st10 V) (by decide)).trans (st10_arg4 V)
theorem st11_arg5 : st11 V (main_arg5 : DevRef τ sig) = a5 :=
  (frameG3 (st10 V) (by decide)).trans (st10_arg5 V)
theorem st11_arg6 : st11 V (main_arg6 : DevRef τ sig) = a6 :=
  (frameG3 (st10 V) (by decide)).trans (st10_arg6 V)
theorem st11_arg7 : st11 V (main_arg7 : DevRef τ sig) = a7 :=
  (frameG3 (st10 V) (by decide)).trans (st10_arg7 V)
theorem st11_arg8 : st11 V (main_arg8 : DevRef τ sig) = a8 :=
  (frameG3 (st10 V) (by decide)).trans (st10_arg8 V)
theorem st11_v0 : st11 V (main_v0 : DevRef τ sig) = Spec.ego0 a0 a1 :=
  (frameG3 (st10 V) (by decide)).trans (st10_v0 V)
theorem st11_v39 : st11 V (main_v39 : DevRef τ sig) = Spec.normed (Spec.e1 a0 a1 a2 a3 a4 a5 a6 a7 a8) :=
  (frameG3 (st10 V) (by decide)).trans (st10_v39 V)
theorem st11_v70 : st11 V (main_v70 : DevRef τ sig) = Spec.e2 a0 a1 a2 a3 a4 a5 a6 a7 a8 :=
  (frameG3 (st10 V) (by decide)).trans (st10_v70 V)
theorem st11_v78 : st11 V (main_v78 : DevRef τ sig) = Spec.normed (Spec.e2 a0 a1 a2 a3 a4 a5 a6 a7 a8) :=
  (frameG3 (st10 V) (by decide)).trans (st10_v78 V)
theorem st11_v91 : st11 V (main_v91 : DevRef τ sig) = Spec.side (Spec.e2 a0 a1 a2 a3 a4 a5 a6 a7 a8) a2 a3 a4 :=
  (frameG3 (st10 V) (by decide)).trans (st10_v91 V)
theorem st11_v99 : st11 V (main_v99 : DevRef τ sig) = Spec.lrelu (constant S_ .f32 0x3E4CCCCD#32) (Spec.affine (Spec.side (Spec.e2 a0 a1 a2 a3 a4 a5 a6 a7 a8) a2 a3 a4) (Spec.wAt2 a5) (Spec.bAt2 a6)) :=
  (valG3 (st10 V)).trans (by rw [st10_v91 V, st10_arg5 V, st10_arg6 V] <;> rfl)

/-! After piece B3. -/
theorem st12_arg0 : st12 V (main_arg0 : DevRef τ sig) = a0 :=
  (frameB3 (st11 V) (by decide)).trans (st11_arg0 V)
theorem st12_arg1 : st12 V (main_arg1 : DevRef τ sig) = a1 :=
  (frameB3 (st11 V) (by decide)).trans (st11_arg1 V)
theorem st12_arg2 : st12 V (main_arg2 : DevRef τ sig) = a2 :=
  (frameB3 (st11 V) (by decide)).trans (st11_arg2 V)
theorem st12_arg3 : st12 V (main_arg3 : DevRef τ sig) = a3 :=
  (frameB3 (st11 V) (by decide)).trans (st11_arg3 V)
theorem st12_arg4 : st12 V (main_arg4 : DevRef τ sig) = a4 :=
  (frameB3 (st11 V) (by decide)).trans (st11_arg4 V)
theorem st12_arg5 : st12 V (main_arg5 : DevRef τ sig) = a5 :=
  (frameB3 (st11 V) (by decide)).trans (st11_arg5 V)
theorem st12_arg6 : st12 V (main_arg6 : DevRef τ sig) = a6 :=
  (frameB3 (st11 V) (by decide)).trans (st11_arg6 V)
theorem st12_arg7 : st12 V (main_arg7 : DevRef τ sig) = a7 :=
  (frameB3 (st11 V) (by decide)).trans (st11_arg7 V)
theorem st12_arg8 : st12 V (main_arg8 : DevRef τ sig) = a8 :=
  (frameB3 (st11 V) (by decide)).trans (st11_arg8 V)
theorem st12_v0 : st12 V (main_v0 : DevRef τ sig) = Spec.ego0 a0 a1 :=
  (frameB3 (st11 V) (by decide)).trans (st11_v0 V)
theorem st12_v39 : st12 V (main_v39 : DevRef τ sig) = Spec.normed (Spec.e1 a0 a1 a2 a3 a4 a5 a6 a7 a8) :=
  (frameB3 (st11 V) (by decide)).trans (st11_v39 V)
theorem st12_v78 : st12 V (main_v78 : DevRef τ sig) = Spec.normed (Spec.e2 a0 a1 a2 a3 a4 a5 a6 a7 a8) :=
  (frameB3 (st11 V) (by decide)).trans (st11_v78 V)
theorem st12_v99 : st12 V (main_v99 : DevRef τ sig) = Spec.lrelu (constant S_ .f32 0x3E4CCCCD#32) (Spec.affine (Spec.side (Spec.e2 a0 a1 a2 a3 a4 a5 a6 a7 a8) a2 a3 a4) (Spec.wAt2 a5) (Spec.bAt2 a6)) :=
  (frameB3 (st11 V) (by decide)).trans (st11_v99 V)
theorem st12_v108 : st12 V (main_v108 : DevRef τ sig) = Spec.lrelu (constant S_ .f32 0x3E4CCCCD#32) (Spec.affine (mulf (Spec.e2 a0 a1 a2 a3 a4 a5 a6 a7 a8) (Spec.side (Spec.e2 a0 a1 a2 a3 a4 a5 a6 a7 a8) a2 a3 a4)) (Spec.wAt2 a7) (Spec.bAt2 a8)) :=
  (valB3 (st11 V)).trans (by rw [st11_v70 V, st11_v91 V, st11_arg7 V, st11_arg8 V] <;> rfl)

/-! After piece N3. -/
theorem st13_arg0 : st13 V (main_arg0 : DevRef τ sig) = a0 :=
  (frameN3 (st12 V) (by decide)).trans (st12_arg0 V)
theorem st13_arg1 : st13 V (main_arg1 : DevRef τ sig) = a1 :=
  (frameN3 (st12 V) (by decide)).trans (st12_arg1 V)
theorem st13_arg2 : st13 V (main_arg2 : DevRef τ sig) = a2 :=
  (frameN3 (st12 V) (by decide)).trans (st12_arg2 V)
theorem st13_arg3 : st13 V (main_arg3 : DevRef τ sig) = a3 :=
  (frameN3 (st12 V) (by decide)).trans (st12_arg3 V)
theorem st13_arg4 : st13 V (main_arg4 : DevRef τ sig) = a4 :=
  (frameN3 (st12 V) (by decide)).trans (st12_arg4 V)
theorem st13_arg5 : st13 V (main_arg5 : DevRef τ sig) = a5 :=
  (frameN3 (st12 V) (by decide)).trans (st12_arg5 V)
theorem st13_arg6 : st13 V (main_arg6 : DevRef τ sig) = a6 :=
  (frameN3 (st12 V) (by decide)).trans (st12_arg6 V)
theorem st13_arg7 : st13 V (main_arg7 : DevRef τ sig) = a7 :=
  (frameN3 (st12 V) (by decide)).trans (st12_arg7 V)
theorem st13_arg8 : st13 V (main_arg8 : DevRef τ sig) = a8 :=
  (frameN3 (st12 V) (by decide)).trans (st12_arg8 V)
theorem st13_v0 : st13 V (main_v0 : DevRef τ sig) = Spec.ego0 a0 a1 :=
  (frameN3 (st12 V) (by decide)).trans (st12_v0 V)
theorem st13_v39 : st13 V (main_v39 : DevRef τ sig) = Spec.normed (Spec.e1 a0 a1 a2 a3 a4 a5 a6 a7 a8) :=
  (frameN3 (st12 V) (by decide)).trans (st12_v39 V)
theorem st13_v78 : st13 V (main_v78 : DevRef τ sig) = Spec.normed (Spec.e2 a0 a1 a2 a3 a4 a5 a6 a7 a8) :=
  (frameN3 (st12 V) (by decide)).trans (st12_v78 V)
theorem st13_v117 : st13 V (main_v117 : DevRef τ sig) = Spec.normed (Spec.e3 a0 a1 a2 a3 a4 a5 a6 a7 a8) :=
  (valN3n (st12 V)).trans (by rw [st12_v99 V, st12_v108 V] <;> rfl)

/-! After piece Z. -/
theorem st14_arg0 : st14 V (main_arg0 : DevRef τ sig) = a0 :=
  (frameZ (st13 V) (by decide)).trans (st13_arg0 V)
theorem st14_arg1 : st14 V (main_arg1 : DevRef τ sig) = a1 :=
  (frameZ (st13 V) (by decide)).trans (st13_arg1 V)
theorem st14_arg2 : st14 V (main_arg2 : DevRef τ sig) = a2 :=
  (frameZ (st13 V) (by decide)).trans (st13_arg2 V)
theorem st14_arg3 : st14 V (main_arg3 : DevRef τ sig) = a3 :=
  (frameZ (st13 V) (by decide)).trans (st13_arg3 V)
theorem st14_arg4 : st14 V (main_arg4 : DevRef τ sig) = a4 :=
  (frameZ (st13 V) (by decide)).trans (st13_arg4 V)
theorem st14_arg5 : st14 V (main_arg5 : DevRef τ sig) = a5 :=
  (frameZ (st13 V) (by decide)).trans (st13_arg5 V)
theorem st14_arg6 : st14 V (main_arg6 : DevRef τ sig) = a6 :=
  (frameZ (st13 V) (by decide)).trans (st13_arg6 V)
theorem st14_arg7 : st14 V (main_arg7 : DevRef τ sig) = a7 :=
  (frameZ (st13 V) (by decide)).trans (st13_arg7 V)
theorem st14_arg8 : st14 V (main_arg8 : DevRef τ sig) = a8 :=
  (frameZ (st13 V) (by decide)).trans (st13_arg8 V)
theorem st14_v119 : st14 V (main_v119 : DevRef τ sig) = Spec.users (Spec.out a0 a1 a2 a3 a4 a5 a6 a7 a8) :=
  (valZu (st13 V)).trans (by rw [st13_v0 V, st13_v39 V, st13_v78 V, st13_v117 V] <;> rfl)
theorem st14_v120 : st14 V (main_v120 : DevRef τ sig) = Spec.items (Spec.out a0 a1 a2 a3 a4 a5 a6 a7 a8) :=
  (valZi (st13 V)).trans (by rw [st13_v0 V, st13_v39 V, st13_v78 V, st13_v117 V] <;> rfl)

end Chain

/-! ## The results and the arguments after the whole program -/

/-- The first result: rows 0 … 29999 of [e₀, normed e₁, normed e₂, normed e₃]. -/
theorem ref_users (V : Valuation τ sig (Elt F)) :
    after ops V (main_v119 : DevRef τ sig) = Spec.users (Spec.out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig))) := by
  rw [after_ops_eq]; exact st14_v119 V

/-- The second result: rows 30000 … 89999 of the same. -/
theorem ref_items (V : Valuation τ sig (Elt F)) :
    after ops V (main_v120 : DevRef τ sig) = Spec.items (Spec.out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig))) := by
  rw [after_ops_eq]; exact st14_v120 V

theorem ref_arg0 (V : Valuation τ sig (Elt F)) : after ops V (main_arg0 : DevRef τ sig) = V (main_arg0 : DevRef τ sig) := by
  rw [after_ops_eq]; exact st14_arg0 V
theorem ref_arg1 (V : Valuation τ sig (Elt F)) : after ops V (main_arg1 : DevRef τ sig) = V (main_arg1 : DevRef τ sig) := by
  rw [after_ops_eq]; exact st14_arg1 V
theorem ref_arg2 (V : Valuation τ sig (Elt F)) : after ops V (main_arg2 : DevRef τ sig) = V (main_arg2 : DevRef τ sig) := by
  rw [after_ops_eq]; exact st14_arg2 V
theorem ref_arg3 (V : Valuation τ sig (Elt F)) : after ops V (main_arg3 : DevRef τ sig) = V (main_arg3 : DevRef τ sig) := by
  rw [after_ops_eq]; exact st14_arg3 V
theorem ref_arg4 (V : Valuation τ sig (Elt F)) : after ops V (main_arg4 : DevRef τ sig) = V (main_arg4 : DevRef τ sig) := by
  rw [after_ops_eq]; exact st14_arg4 V
theorem ref_arg5 (V : Valuation τ sig (Elt F)) : after ops V (main_arg5 : DevRef τ sig) = V (main_arg5 : DevRef τ sig) := by
  rw [after_ops_eq]; exact st14_arg5 V
theorem ref_arg6 (V : Valuation τ sig (Elt F)) : after ops V (main_arg6 : DevRef τ sig) = V (main_arg6 : DevRef τ sig) := by
  rw [after_ops_eq]; exact st14_arg6 V
theorem ref_arg7 (V : Valuation τ sig (Elt F)) : after ops V (main_arg7 : DevRef τ sig) = V (main_arg7 : DevRef τ sig) := by
  rw [after_ops_eq]; exact st14_arg7 V
theorem ref_arg8 (V : Valuation τ sig (Elt F)) : after ops V (main_arg8 : DevRef τ sig) = V (main_arg8 : DevRef τ sig) := by
  rw [after_ops_eq]; exact st14_arg8 V

/-- From any memory with zero counters every weakly fair execution of the reference terminates with the two
    results at the row slices of the whole-array term of the arguments' launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v119) = Spec.users (Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))
      ∧ r.2.mem ((c.tc : Thread nD τ).loc main_v120) = Spec.items (Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v119).trans (ref_users _), (h c main_v120).trans (ref_items _),
      (h c main_arg0).trans (ref_arg0 _), (h c main_arg1).trans (ref_arg1 _), (h c main_arg2).trans (ref_arg2 _), (h c main_arg3).trans (ref_arg3 _), (h c main_arg4).trans (ref_arg4 _), (h c main_arg5).trans (ref_arg5 _), (h c main_arg6).trans (ref_arg6 _), (h c main_arg7).trans (ref_arg7 _), (h c main_arg8).trans (ref_arg8 _)⟩)
    (run_all m ρ)

/-- The same run, keeping only that the nine arguments end as they began. -/
theorem run_frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => (h c).2.2) (run m ρ)

end Cert.ReferenceIdeal.RefValue

end
-- ==== Proof.lean ====
/-
  The certificate of the three-layer graph convolution: the blocked kernel program against the whole-array reference, at the
  extended reals. Both programs stack the users' and items' embeddings and apply the same layer three times: neighbourhood
  sums by a gather along the edges' source nodes, a scaling by the edges' values and a scatter-add at the target nodes
  (the same host operations on both sides); then, row by row, a leaky rectifier of an affine image of the sums plus a leaky
  rectifier of an affine image of the entrywise product of embeddings and sums; and the rows divided by their norms. The
  kernel computes the row-wise part in blocks of 3000 rows on the matrix unit, the reference with one matrix product over
  all 90000 rows; a row of either is the same function of that row of the inputs, so the two results agree entry by entry.
  No finiteness of the inputs is used: no sum is re-associated and no factor is moved across a sum.
  The frames: each kernel program's run ends with every unscoped buffer at a fold of the launch memory through its seven
  items, and no item writes an argument; the reference's run is the fold of its host operations.
-/
import proofs.«171972_j54984171323492_1_alg».proof.Defs
import proofs.«171972_j54984171323492_1_alg».proof.Proof.Gen.Kernel
import proofs.«171972_j54984171323492_1_alg».proof.Proof.Gen.KernelIdeal
import proofs.«171972_j54984171323492_1_alg».proof.Proof.Gen.ReferenceIdeal
import proofs.«171972_j54984171323492_1_alg».proof.Proof.Gen.Pre_finite_inputs
import proofs.«171972_j54984171323492_1_alg».proof.Proof.BitsFrame
import proofs.«171972_j54984171323492_1_alg».proof.Proof.IdealFrame
import proofs.«171972_j54984171323492_1_alg».proof.Proof.IdealResult
import proofs.«171972_j54984171323492_1_alg».proof.Proof.RefValue

noncomputable section

namespace Cert.Proof

open Idealize.ShloMosaic Idealize.ShloMosaic.TcCoe Idealize.SL.Sem

theorem frame_kernel : Cert.frame_Kernel := fun m ρ _ => Cert.Kernel.Layers.frame (F := Bits) m ρ

theorem frame_kernel_ideal : Cert.frame_KernelIdeal := fun m ρ _ => Cert.KernelIdeal.Layers.frame (F := Ideal) m ρ

theorem frame_reference : Cert.frame_ReferenceIdeal := fun m ρ _ =>
  (θ_run Cert.ReferenceIdeal.defs _ _).mono (fun _ h c => (h c).2.2) (Cert.ReferenceIdeal.RefValue.run (F := Ideal) m ρ)

/-- The ideal pass rewrote nothing: the idealized kernel is the kernel's own text read at the extended reals. -/
theorem preserves : Cert.preserves_Kernel_KernelIdeal := trivial

/-- Both idealized programs end with the users' and items' rows of the same array of column blocks: the kernel's from the fold of
    its run read through the row-wise layer, the reference's from its operations' term, which is that row-wise form. -/
theorem algebraic : Cert.algebraic_KernelIdeal_ReferenceIdeal := by
  intro m ρ m' ρ' _ hagree
  refine ⟨fun c => Cert.ReferenceIdeal.Spec.users (Cert.Layered.allRows (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))),
    fun c => Cert.ReferenceIdeal.Spec.items (Cert.Layered.allRows (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))), ?_, ?_⟩
  · refine (θ_run Cert.KernelIdeal.defs _ _).mono (fun r h c => ?_) (Cert.KernelIdeal.Layers.run_all (F := Ideal) m ρ)
    exact ⟨(h c _ (Cert.KernelIdeal.Layers.mem_uc Cert.KernelIdeal.main_v68 (by decide))).trans (Cert.KernelIdeal.Result.users_at_end m c),
      (h c _ (Cert.KernelIdeal.Layers.mem_uc Cert.KernelIdeal.main_v69 (by decide))).trans (Cert.KernelIdeal.Result.items_at_end m c),
      (h c _ (Cert.KernelIdeal.Layers.mem_uc Cert.KernelIdeal.main_arg0 (by decide))).trans (Cert.KernelIdeal.Layers.arg_kept m c Cert.KernelIdeal.main_arg0 (by decide) (by decide) (by decide) (by decide) (by decide) (by decide) (by decide)),
      (h c _ (Cert.KernelIdeal.Layers.mem_uc Cert.KernelIdeal.main_arg1 (by decide))).trans (Cert.KernelIdeal.Layers.arg_kept m c Cert.KernelIdeal.main_arg1 (by decide) (by decide) (by decide) (by decide) (by decide) (by decide) (by decide)),
      (h c _ (Cert.KernelIdeal.Layers.mem_uc Cert.KernelIdeal.main_arg2 (by decide))).trans (Cert.KernelIdeal.Layers.arg_kept m c Cert.KernelIdeal.main_arg2 (by decide) (by decide) (by decide) (by decide) (by decide) (by decide) (by decide)),
      (h c _ (Cert.KernelIdeal.Layers.mem_uc Cert.KernelIdeal.main_arg3 (by decide))).trans (Cert.KernelIdeal.Layers.arg_kept m c Cert.KernelIdeal.main_arg3 (by decide) (by decide) (by decide) (by decide) (by decide) (by decide) (by decide)),
      (h c _ (Cert.KernelIdeal.Layers.mem_uc Cert.KernelIdeal.main_arg4 (by decide))).trans (Cert.KernelIdeal.Layers.arg_kept m c Cert.KernelIdeal.main_arg4 (by decide) (by decide) (by decide) (by decide) (by decide) (by decide) (by decide)),
      (h c _ (Cert.KernelIdeal.Layers.mem_uc Cert.KernelIdeal.main_arg5 (by decide))).trans (Cert.KernelIdeal.Layers.arg_kept m c Cert.KernelIdeal.main_arg5 (by decide) (by decide) (by decide) (by decide) (by decide) (by decide) (by decide)),
      (h c _ (Cert.KernelIdeal.Layers.mem_uc Cert.KernelIdeal.main_arg6 (by decide))).trans (Cert.KernelIdeal.Layers.arg_kept m c Cert.KernelIdeal.main_arg6 (by decide) (by decide) (by decide) (by decide) (by decide) (by decide) (by decide)),
      (h c _ (Cert.KernelIdeal.Layers.mem_uc Cert.KernelIdeal.main_arg7 (by decide))).trans (Cert.KernelIdeal.Layers.arg_kept m c Cert.KernelIdeal.main_arg7 (by decide) (by decide) (by decide) (by decide) (by decide) (by decide) (by decide)),
      (h c _ (Cert.KernelIdeal.Layers.mem_uc Cert.KernelIdeal.main_arg8 (by decide))).trans (Cert.KernelIdeal.Layers.arg_kept m c Cert.KernelIdeal.main_arg8 (by decide) (by decide) (by decide) (by decide) (by decide) (by decide) (by decide))⟩
  · refine (θ_run Cert.ReferenceIdeal.defs _ _).mono (fun r h c => ?_) (Cert.ReferenceIdeal.RefValue.run (F := Ideal) m' ρ')
    obtain ⟨e0, e1, e2, e3, e4, e5, e6, e7, e8⟩ := hagree c
    refine ⟨(h c).1.trans ?_, (h c).2.1.trans ?_, (h c).2.2⟩
    · rw [Cert.Layered.out_eq, e0, e1, e2, e3, e4, e5, e6, e7, e8]
    · rw [Cert.Layered.out_eq, e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
